-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)) (v3 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_v65) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v133) = v2 c
          ∧ r.2.mem ((c.tc : Thread Cert.ReferenceIdeal.nD Cert.ReferenceIdeal.τ).loc Cert.ReferenceIdeal.main_v132) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x192 : Shape := ⟨2, ![8192, 192]⟩
abbrev S8192x2 : Shape := ⟨2, ![8192, 2]⟩
abbrev S262144x64 : Shape := ⟨2, ![262144, 64]⟩
abbrev S262144x1 : Shape := ⟨2, ![262144, 1]⟩
abbrev S8192 : Shape := ⟨1, ![8192]⟩
abbrev S65x128 : Shape := ⟨2, ![65, 128]⟩
abbrev S128 : Shape := ⟨1, ![128]⟩
abbrev S194x128 : Shape := ⟨2, ![194, 128]⟩
abbrev S128x1 : Shape := ⟨2, ![128, 1]⟩
abbrev S1 : Shape := ⟨1, ![1]⟩
abbrev S128x10 : Shape := ⟨2, ![128, 10]⟩
abbrev S10 : Shape := ⟨1, ![10]⟩
abbrev S128x2 : Shape := ⟨2, ![128, 2]⟩
abbrev S2 : Shape := ⟨1, ![2]⟩
abbrev S256x1 : Shape := ⟨2, ![256, 1]⟩
abbrev S_ : Shape := ⟨0, ![]⟩

class Facts : Prop where
  bcast_S_S8192x192 : S_.BroadcastsInDim S8192x192 (![] : Fin 0 → Fin S8192x192.rank)
  reducesTo_S8192x192_S_d0_1 : S8192x192.ReducesTo [0, 1] S_
  h_S_ : 0 < S_.numel
  bcast_S_S8192x2 : S_.BroadcastsInDim S8192x2 (![] : Fin 0 → Fin S8192x2.rank)
  reducesTo_S8192x2_S_d0_1 : S8192x2.ReducesTo [0, 1] S_
  bcast_S_S262144x64 : S_.BroadcastsInDim S262144x64 (![] : Fin 0 → Fin S262144x64.rank)
  reducesTo_S262144x64_S_d0_1 : S262144x64.ReducesTo [0, 1] S_
  bcast_S_S262144x1 : S_.BroadcastsInDim S262144x1 (![] : Fin 0 → Fin S262144x1.rank)
  reducesTo_S262144x1_S_d0_1 : S262144x1.ReducesTo [0, 1] S_
  bcast_S_S65x128 : S_.BroadcastsInDim S65x128 (![] : Fin 0 → Fin S65x128.rank)
  reducesTo_S65x128_S_d0_1 : S65x128.ReducesTo [0, 1] S_
  bcast_S_S128 : S_.BroadcastsInDim S128 (![] : Fin 0 → Fin S128.rank)
  reducesTo_S128_S_d0 : S128.ReducesTo [0] S_
  bcast_S_S194x128 : S_.BroadcastsInDim S194x128 (![] : Fin 0 → Fin S194x128.rank)
  reducesTo_S194x128_S_d0_1 : S194x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S256x1 : S_.BroadcastsInDim S256x1 (![] : Fin 0 → Fin S256x1.rank)
  reducesTo_S256x1_S_d0_1 : S256x1.ReducesTo [0, 1] S_

variable [Facts]

def fn_part6 {F : FTy → Type} [FloatOps F] (main_arg22 : FVec F S1 .f32) (main_v98 : IVec S_ 1) (main_v101 : IVec S256x1 1) (main_c_39 : IVec S_ 1) : IVec S_ 1 :=
  let main_v102 : IVec S_ 1 := (fun x v => Host.reduce IntOp.andi x v reducesTo_S256x1_S_d0_1 h_S_) main_v101 main_c_39
  let main_v103 : IVec S_ 1 := andi main_v98 main_v102
  let main_v104 : FVec F S1 .f32 := Host.absf main_arg22
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg19 : FVec F S128x2 .f32) (main_arg20 : FVec F S2 .f32) (main_arg21 : FVec F S256x1 .f32) (main_arg22 : FVec F S1 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S128x2 .f32 := Host.absf main_arg19
  let main_cst_34 : FVec F S_ .f32 := constant S_ .f32 0x7F800000#32
  let main_v90 : FVec F S128x2 .f32 := broadcastInDim S128x2 ![] bcast_S_S128x2 main_cst_34
  let main_v91 : IVec S128x2 1 := cmpf .olt main_v89 main_v90
  let main_c_35 : IVec S_ 1 := constantI S_ 1 1#1
  let main_v92 : IVec S_ 1 := (fun x v => Host.reduce IntOp.andi x v reducesTo_S128x2_S_d0_1 h_S_) main_v91 main_c_35
  let main_v93 : IVec S_ 1 := andi main_v88 main_v92
  let main_v94 : FVec F S2 .f32 := Host.absf main_arg20
  let main_cst_36 : FVec F S_ .f32 := constant S_ .f32 0x7F800000#32
  let main_v95 : FVec F S2 .f32 := broadcastInDim S2 ![] bcast_S_S2 main_cst_36
  let main_v96 : IVec S2 1 := cmpf .olt main_v94 main_v95
  let main_c_37 : IVec S_ 1 := constantI S_ 1 1#1
  let main_v97 : IVec S_ 1 := (fun x v => Host.reduce IntOp.andi x v reducesTo_S2_S_d0 h_S_) main_v96 main_c_37
  let main_v98 : IVec S_ 1 := andi main_v93 main_v97
  let main_v99 : FVec F S256x1 .f32 := Host.absf main_arg21
  let main_cst_38 : FVec F S_ .f32 := constant S_ .f32 0x7F800000#32
  let main_v100 : FVec F S256x1 .f32 := broadcastInDim S256x1 ![] bcast_S_S256x1 main_cst_38
  let main_v101 : IVec S256x1 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S128x10 .f32) (main_arg16 : FVec F S10 .f32) (main_arg17 : FVec F S128x1 .f32) (main_arg18 : FVec F S1 .f32) (main_arg19 : FVec F S128x2 .f32) (main_arg20 : FVec F S2 .f32) (main_arg21 : FVec F S256x1 .f32) (main_arg22 : FVec F S1 .f32) (main_v63 : IVec S_ 1) (main_v67 : IVec S_ 1) : IVec S_ 1 :=
  let main_v68 : IVec S_ 1 := andi main_v63 main_v67
  let main_v69 : FVec F S128x10 .f32 := Host.absf main_arg15
  let main_cst_26 : FVec F S_ .f32 := constant S_ .f32 0x7F800000#32
  let main_v70 : FVec F S128x10 .f32 := broadcastInDim S128x10 ![] bcast_S_S128x10 main_cst_26
  let main_v71 : IVec S128x10 1 := cmpf .olt main_v69 main_v70
  let main_c_27 : IVec S_ 1 := constantI S_ 1 1#1
  let main_v72 : IVec S_ 1 := (fun x v => Host.reduce IntOp.andi x v reducesTo_S128x10_S_d0_1 h_S_) main_v71 main_c_27
  let main_v73 : IVec S_ 1 := andi main_v68 main_v72
  let main_v74 : FVec F S10 .f32 := Host.absf main_arg16
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  let main_v79 : FVec F S128x1 .f32 := Host.absf main_arg17
  let main_cst_30 : FVec F S_ .f32 := constant S_ .f32 0x7F800000#32
  let main_v80 : FVec F S128x1 .f32 := broadcastInDim S128x1 ![] bcast_S_S128x1 main_cst_30
  let main_v81 : IVec S128x1 1 := cmpf .olt main_v79 main_v80
  let main_c_31 : IVec S_ 1 := constantI S_ 1 1#1
  let main_v82 : IVec S_ 1 := (fun x v => Host.reduce IntOp.andi x v reducesTo_S128x1_S_d0_1 h_S_) main_v81 main_c_31
  let main_v83 : IVec S_ 1 := andi main_v78 main_v82
  let main_v84 : FVec F S1 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S128 .f32) (main_arg13 : FVec F S128x1 .f32) (main_arg14 : FVec F S1 .f32) (main_arg15 : FVec F S128x10 .f32) (main_arg16 : FVec F S10 .f32) (main_arg17 : FVec F S128x1 .f32) (main_arg18 : FVec F S1 .f32) (main_arg19 : FVec F S128x2 .f32) (main_arg20 : FVec F S2 .f32) (main_arg21 : FVec F S256x1 .f32) (main_arg22 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg13
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S128 .f32) (main_arg9 : FVec F S194x128 .f32) (main_arg10 : FVec F S128 .f32) (main_arg11 : FVec F S128 .f32) (main_arg12 : FVec F S128 .f32) (main_arg13 : FVec F S128x1 .f32) (main_arg14 : FVec F S1 .f32) (main_arg15 : FVec F S128x10 .f32) (main_arg16 : FVec F S10 .f32) (main_arg17 : FVec F S128x1 .f32) (main_arg18 : FVec F S1 .f32) (main_arg19 : FVec F S128x2 .f32) (main_arg20 : FVec F S2 .f32) (main_arg21 : FVec F S256x1 .f32) (main_arg22 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S194x128 .f32 := Host.absf main_arg9
  let main_cst_14 : FVec F S_ .f32 := constant S_ .f32 0x7F800000#32
  let main_v40 : FVec F S194x128 .f32 := broadcastInDim S194x128 ![] bcast_S_S194x128 main_cst_14
  let main_v41 : IVec S194x128 1 := cmpf .olt main_v39 main_v40
  let main_c_15 : IVec S_ 1 := constantI S_ 1 1#1
  let main_v42 : IVec S_ 1 := (fun x v => Host.reduce IntOp.andi x v reducesTo_S194x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S65x128 .f32) (main_arg6 : FVec F S128 .f32) (main_arg7 : FVec F S128 .f32) (main_arg8 : FVec F S128 .f32) (main_arg9 : FVec F S194x128 .f32) (main_arg10 : FVec F S128 .f32) (main_arg11 : FVec F S128 .f32) (main_arg12 : FVec F S128 .f32) (main_arg13 : FVec F S128x1 .f32) (main_arg14 : FVec F S1 .f32) (main_arg15 : FVec F S128x10 .f32) (main_arg16 : FVec F S10 .f32) (main_arg17 : FVec F S128x1 .f32) (main_arg18 : FVec F S1 .f32) (main_arg19 : FVec F S128x2 .f32) (main_arg20 : FVec F S2 .f32) (main_arg21 : FVec F S256x1 .f32) (main_arg22 : FVec F S1 .f32) (main_v13 : IVec S_ 1) (main_v16 : IVec S262144x1 1) : IVec S_ 1 :=
  let main_c_5 : IVec S_ 1 := constantI S_ 1 1#1
  let main_v17 : IVec S_ 1 := (fun x v => Host.reduce IntOp.andi x v reducesTo_S262144x1_S_d0_1 h_S_) main_v16 main_c_5
  let main_v18 : IVec S_ 1 := andi main_v13 main_v17
  let main_v19 : FVec F S65x128 .f32 := Host.absf main_arg5
  let main_cst_6 : FVec F S_ .f32 := constant S_ .f32 0x7F800000#32
  let main_v20 : FVec F S65x128 .f32 := broadcastInDim S65x128 ![] bcast_S_S65x128 main_cst_6
  let main_v21 : IVec S65x128 1 := cmpf .olt main_v19 main_v20
  let main_c_7 : IVec S_ 1 := constantI S_ 1 1#1
  let main_v22 : IVec S_ 1 := (fun x v => Host.reduce IntOp.andi x v reducesTo_S65x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S8192x192 .f32) (main_arg1 : FVec F S8192x2 .f32) (main_arg2 : FVec F S262144x64 .f32) (main_arg3 : FVec F S262144x1 .f32) (main_arg4 : IVec S8192 32) (main_arg5 : FVec F S65x128 .f32) (main_arg6 : FVec F S128 .f32) (main_arg7 : FVec F S128 .f32) (main_arg8 : FVec F S128 .f32) (main_arg9 : FVec F S194x128 .f32) (main_arg10 : FVec F S128 .f32) (main_arg11 : FVec F S128 .f32) (main_arg12 : FVec F S128 .f32) (main_arg13 : FVec F S128x1 .f32) (main_arg14 : FVec F S1 .f32) (main_arg15 : FVec F S128x10 .f32) (main_arg16 : FVec F S10 .f32) (main_arg17 : FVec F S128x1 .f32) (main_arg18 : FVec F S1 .f32) (main_arg19 : FVec F S128x2 .f32) (main_arg20 : FVec F S2 .f32) (main_arg21 : FVec F S256x1 .f32) (main_arg22 : FVec F S1 .f32) : IVec S_ 1 :=
  let main_v0 : FVec F S8192x192 .f32 := Host.absf main_arg0
  let main_cst : FVec F S_ .f32 := constant S_ .f32 0x7F800000#32
  let main_v1 : FVec F S8192x192 .f32 := broadcastInDim S8192x192 ![] bcast_S_S8192x192 main_cst
  let main_v2 : IVec S8192x192 1 := cmpf .olt main_v0 main_v1
  let main_c : IVec S_ 1 := constantI S_ 1 1#1
  let main_v3 : IVec S_ 1 := (fun x v => Host.reduce IntOp.andi x v reducesTo_S8192x192_S_d0_1 h_S_) main_v2 main_c
  let main_v4 : FVec F S8192x2 .f32 := Host.absf main_arg1
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  let main_v9 : FVec F S262144x64 .f32 := Host.absf main_arg2
  let main_cst_2 : FVec F S_ .f32 := constant S_ .f32 0x7F800000#32
  let main_v10 : FVec F S262144x64 .f32 := broadcastInDim S262144x64 ![] bcast_S_S262144x64 main_cst_2
  let main_v11 : IVec S262144x64 1 := cmpf .olt main_v9 main_v10
  let main_c_3 : IVec S_ 1 := constantI S_ 1 1#1
  let main_v12 : IVec S_ 1 := (fun x v => Host.reduce IntOp.andi x v reducesTo_S262144x64_S_d0_1 h_S_) main_v11 main_c_3
  let main_v13 : IVec S_ 1 := andi main_v8 main_v12
  let main_v14 : FVec F S262144x1 .f32 := Host.absf main_arg3
  let main_cst_4 : FVec F S_ .f32 := constant S_ .f32 0x7F800000#32
  let main_v15 : FVec F S262144x1 .f32 := broadcastInDim S262144x1 ![] bcast_S_S262144x1 main_cst_4
  let main_v16 : IVec S262144x1 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S8192x192 : Shape := ⟨2, ![8192, 192]⟩
abbrev S8192x2 : Shape := ⟨2, ![8192, 2]⟩
abbrev S262144x64 : Shape := ⟨2, ![262144, 64]⟩
abbrev S262144x1 : Shape := ⟨2, ![262144, 1]⟩
abbrev S8192 : Shape := ⟨1, ![8192]⟩
abbrev S65x128 : Shape := ⟨2, ![65, 128]⟩
abbrev S128 : Shape := ⟨1, ![128]⟩
abbrev S194x128 : Shape := ⟨2, ![194, 128]⟩
abbrev S128x1 : Shape := ⟨2, ![128, 1]⟩
abbrev S1 : Shape := ⟨1, ![1]⟩
abbrev S128x10 : Shape := ⟨2, ![128, 10]⟩
abbrev S10 : Shape := ⟨1, ![10]⟩
abbrev S128x2 : Shape := ⟨2, ![128, 2]⟩
abbrev S2 : Shape := ⟨1, ![2]⟩
abbrev S256x1 : Shape := ⟨2, ![256, 1]⟩
abbrev S64x128 : Shape := ⟨2, ![64, 128]⟩
abbrev S1x128 : Shape := ⟨2, ![1, 128]⟩
abbrev S128x128 : Shape := ⟨2, ![128, 128]⟩
abbrev S2x128 : Shape := ⟨2, ![2, 128]⟩
abbrev S1x1 : Shape := ⟨2, ![1, 1]⟩
abbrev S1x10 : Shape := ⟨2, ![1, 10]⟩
abbrev S1x2 : Shape := ⟨2, ![1, 2]⟩
abbrev S262144x128 : Shape := ⟨2, ![262144, 128]⟩
abbrev S8192x64 : Shape := ⟨2, ![8192, 64]⟩
abbrev S8192x1 : Shape := ⟨2, ![8192, 1]⟩
abbrev S8192x128 : Shape := ⟨2, ![8192, 128]⟩
abbrev S8191 : Shape := ⟨1, ![8191]⟩
abbrev S_ : Shape := ⟨0, ![]⟩
abbrev S262144 : Shape := ⟨1, ![262144]⟩
abbrev S8192x10 : Shape := ⟨2, ![8192, 10]⟩
abbrev S8192x3 : Shape := ⟨2, ![8192, 3]⟩
abbrev S1024x64 : Shape := ⟨2, ![1024, 64]⟩
abbrev S1024x128 : Shape := ⟨2, ![1024, 128]⟩
abbrev S1024x2 : Shape := ⟨2, ![1024, 2]⟩
abbrev S1024x1 : Shape := ⟨2, ![1024, 1]⟩
abbrev S1024x10 : Shape := ⟨2, ![1024, 10]⟩
abbrev S1024x3 : Shape := ⟨2, ![1024, 3]⟩
abbrev S1024 : Shape := ⟨1, ![1024]⟩

abbrev nBuf : Space → Nat
  | .hbm => 163
  | .vmem => 50
  | .smem => 0
  | _ => 0

abbrev hbmTy0_0 (i : Nat) : BufTy := match i % 128 with
  | 0 => ⟨S8192x192, .f32⟩
  | 1 => ⟨S8192x2, .f32⟩
  | 2 => ⟨S262144x64, .f32⟩
  | 3 => ⟨S262144x1, .f32⟩
  | 4 => ⟨S8192, .i32⟩
  | 5 => ⟨S65x128, .f32⟩
  | 6 => ⟨S128, .f32⟩
  | 7 => ⟨S128, .f32⟩
  | 8 => ⟨S128, .f32⟩
  | 9 => ⟨S194x128, .f32⟩
  | 10 => ⟨S128, .f32⟩
  | 11 => ⟨S128, .f32⟩
  | 12 => ⟨S128, .f32⟩
  | 13 => ⟨S128x1, .f32⟩
  | 14 => ⟨S1, .f32⟩
  | 15 => ⟨S128x10, .f32⟩
  | 16 => ⟨S10, .f32⟩
  | 17 => ⟨S128x1, .f32⟩
  | 18 => ⟨S1, .f32⟩
  | 19 => ⟨S128x2, .f32⟩
  | 20 => ⟨S2, .f32⟩
  | 21 => ⟨S256x1, .f32⟩
  | 22 => ⟨S1, .f32⟩
  | 23 => ⟨S64x128, .f32⟩
  | 24 => ⟨S1x128, .f32⟩
  | 25 => ⟨S64x128, .f32⟩
  | 26 => ⟨S128x128, .f32⟩
  | 27 => ⟨S2x128, .f32⟩
  | 28 => ⟨S128x1, .f32⟩
  | 29 => ⟨S128x1, .f32⟩
  | 30 => ⟨S1x128, .f32⟩
  | 31 => ⟨S1x128, .f32⟩
  | 32 => ⟨S1x128, .f32⟩
  | 33 => ⟨S1x128, .f32⟩
  | 34 => ⟨S1x128, .f32⟩
  | 35 => ⟨S1x128, .f32⟩
  | 36 => ⟨S1x1, .f32⟩
  | 37 => ⟨S1x10, .f32⟩
  | 38 => ⟨S1x1, .f32⟩
  | 39 => ⟨S1x2, .f32⟩
  | 40 => ⟨S1x1, .f32⟩
  | 41 => ⟨S262144x128, .f32⟩
  | 42 => ⟨S8192, .i32⟩
  | 43 => ⟨S1, .i32⟩
  | 44 => ⟨S8191, .i32⟩
  | 45 => ⟨S8192, .i32⟩
  | 46 => ⟨S_, .i32⟩
  | 47 => ⟨S1, .i32⟩
  | 48 => ⟨S_, .i32⟩
  | 49 => ⟨S8192, .i32⟩
  | 50 => ⟨S_, .i32⟩
  | 51 => ⟨S_, .i32⟩
  | 52 => ⟨S8192, .i32⟩
  | 53 => ⟨S_, .i32⟩
  | 54 => ⟨S262144, .i32⟩
  | 55 => ⟨S_, .i32⟩
  | 56 => ⟨S8192, .i32⟩
  | 57 => ⟨S8192, .i1⟩
  | 58 => ⟨S_, .i32⟩
  | 59 => ⟨S8192, .i32⟩
  | 60 => ⟨S8192, .i32⟩
  | 61 => ⟨S8192, .i32⟩
  | 62 => ⟨S8192x1, .i32⟩
  | 63 => ⟨S_, .i32⟩
  | 64 => ⟨S8192, .i32⟩
  | 65 => ⟨S262144, .i32⟩
  | 66 => ⟨S_, .i32⟩
  | 67 => ⟨S_, .i32⟩
  | 68 => ⟨S262144, .i32⟩
  | 69 => ⟨S_, .i32⟩
  | 70 => ⟨S262144, .i32⟩
  | 71 => ⟨S262144, .i32⟩
  | 72 => ⟨S_, .i32⟩
  | 73 => ⟨S262144, .i32⟩
  | 74 => ⟨S262144, .i1⟩
  | 75 => ⟨S_, .i32⟩
  | 76 => ⟨S262144, .i32⟩
  | 77 => ⟨S262144, .i32⟩
  | 78 => ⟨S262144, .i32⟩
  | 79 => ⟨S262144x1, .i32⟩
  | 80 => ⟨S1, .i32⟩
  | 81 => ⟨S_, .i32⟩
  | 82 => ⟨S262144x1, .i32⟩
  | 83 => ⟨S262144x1, .i1⟩
  | 84 => ⟨S1x1, .i32⟩
  | 85 => ⟨S262144x1, .i32⟩
  | 86 => ⟨S262144x1, .i1⟩
  | 87 => ⟨S262144x1, .i1⟩
  | 88 => ⟨S_, .i1⟩
  | 89 => ⟨S262144, .i1⟩
  | 90 => ⟨S262144, .i32⟩
  | 91 => ⟨S_, .i32⟩
  | 92 => ⟨S262144, .i32⟩
  | 93 => ⟨S262144, .i32⟩
  | 94 => ⟨S_, .f32⟩
  | 95 => ⟨S8192x128, .f32⟩
  | 96 => ⟨S262144x1, .i32⟩
  | 97 => ⟨S8192x128, .f32⟩
  | 98 => ⟨S_, .i32⟩
  | 99 => ⟨S8192, .i32⟩
  | 100 => ⟨S8192, .i32⟩
  | 101 => ⟨S8192, .f32⟩
  | 102 => ⟨S8192x1, .f32⟩
  | 103 => ⟨S8192x128, .f32⟩
  | 104 => ⟨S8192x128, .f32⟩
  | 105 => ⟨S8192x64, .f32⟩
  | 106 => ⟨S8192x1, .f32⟩
  | 107 => ⟨S8192x10, .f32⟩
  | 108 => ⟨S8192x3, .f32⟩
  | 109 => ⟨S8192x128, .f32⟩
  | 110 => ⟨S1, .i32⟩
  | 111 => ⟨S8191, .i32⟩
  | 112 => ⟨S8192, .i32⟩
  | 113 => ⟨S_, .i32⟩
  | 114 => ⟨S1, .i32⟩
  | 115 => ⟨S_, .i32⟩
  | 116 => ⟨S8192, .i32⟩
  | 117 => ⟨S_, .i32⟩
  | 118 => ⟨S_, .i32⟩
  | 119 => ⟨S8192, .i32⟩
  | 120 => ⟨S_, .i32⟩
  | 121 => ⟨S262144, .i32⟩
  | 122 => ⟨S_, .i32⟩
  | 123 => ⟨S8192, .i32⟩
  | 124 => ⟨S8192, .i1⟩
  | 125 => ⟨S_, .i32⟩
  | 126 => ⟨S8192, .i32⟩
  | 127 => ⟨S8192, .i32⟩
  | _ => ⟨S8192x192, .f32⟩

abbrev hbmTy0_1 (i : Nat) : BufTy := match i % 128 with
  | 0 => ⟨S8192, .i32⟩
  | 1 => ⟨S8192x1, .i32⟩
  | 2 => ⟨S_, .i32⟩
  | 3 => ⟨S8192, .i32⟩
  | 4 => ⟨S262144, .i32⟩
  | 5 => ⟨S_, .i32⟩
  | 6 => ⟨S_, .i32⟩
  | 7 => ⟨S262144, .i32⟩
  | 8 => ⟨S_, .i32⟩
  | 9 => ⟨S262144, .i32⟩
  | 10 => ⟨S262144, .i32⟩
  | 11 => ⟨S_, .i32⟩
  | 12 => ⟨S262144, .i32⟩
  | 13 => ⟨S262144, .i1⟩
  | 14 => ⟨S_, .i32⟩
  | 15 => ⟨S262144, .i32⟩
  | 16 => ⟨S262144, .i32⟩
  | 17 => ⟨S262144, .i32⟩
  | 18 => ⟨S262144x1, .i32⟩
  | 19 => ⟨S1, .i32⟩
  | 20 => ⟨S_, .i32⟩
  | 21 => ⟨S262144x1, .i32⟩
  | 22 => ⟨S262144x1, .i1⟩
  | 23 => ⟨S1x1, .i32⟩
  | 24 => ⟨S262144x1, .i32⟩
  | 25 => ⟨S262144x1, .i1⟩
  | 26 => ⟨S262144x1, .i1⟩
  | 27 => ⟨S_, .i1⟩
  | 28 => ⟨S262144, .i1⟩
  | 29 => ⟨S262144x128, .f32⟩
  | 30 => ⟨S262144x128, .i1⟩
  | 31 => ⟨S_, .f32⟩
  | 32 => ⟨S262144x128, .f32⟩
  | 33 => ⟨S262144x128, .f32⟩
  | 34 => ⟨S262144x1, .f32⟩
  | _ => ⟨S8192x192, .f32⟩

abbrev hbmTy (i : Nat) : BufTy := match i / 128 with
  | 0 => hbmTy0_0 i
  | 1 => hbmTy0_1 i
  | _ => ⟨S8192x192, .f32⟩

abbrev bufTy : (tb : Table) → Fin (tcTables nBuf tb) → BufTy
  | .hbm, ⟨i, _⟩ => hbmTy i
  | .local _ .vmem, ⟨0, _⟩ => ⟨S8192x64, .f32⟩
  | .local _ .vmem, ⟨1, _⟩ => ⟨S8192x64, .f32⟩
  | .local _ .vmem, ⟨2, _⟩ => ⟨S8192x1, .f32⟩
  | .local _ .vmem, ⟨3, _⟩ => ⟨S8192x1, .f32⟩
  | .local _ .vmem, ⟨4, _⟩ => ⟨S64x128, .f32⟩
  | .local _ .vmem, ⟨5, _⟩ => ⟨S1x128, .f32⟩
  | .local _ .vmem, ⟨6, _⟩ => ⟨S1x128, .f32⟩
  | .local _ .vmem, ⟨7, _⟩ => ⟨S8192x128, .f32⟩
  | .local _ .vmem, ⟨8, _⟩ => ⟨S8192x128, .f32⟩
  | .local _ .vmem, ⟨9, _⟩ => ⟨S1024x64, .f32⟩
  | .local _ .vmem, ⟨10, _⟩ => ⟨S1024x64, .f32⟩
  | .local _ .vmem, ⟨11, _⟩ => ⟨S1024x128, .f32⟩
  | .local _ .vmem, ⟨12, _⟩ => ⟨S1024x128, .f32⟩
  | .local _ .vmem, ⟨13, _⟩ => ⟨S1024x2, .f32⟩
  | .local _ .vmem, ⟨14, _⟩ => ⟨S1024x2, .f32⟩
  | .local _ .vmem, ⟨15, _⟩ => ⟨S64x128, .f32⟩
  | .local _ .vmem, ⟨16, _⟩ => ⟨S128x128, .f32⟩
  | .local _ .vmem, ⟨17, _⟩ => ⟨S2x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S128x1, .f32⟩
  | .local _ .vmem, ⟨24, _⟩ => ⟨S1x1, .f32⟩
  | .local _ .vmem, ⟨25, _⟩ => ⟨S128x10, .f32⟩
  | .local _ .vmem, ⟨26, _⟩ => ⟨S1x10, .f32⟩
  | .local _ .vmem, ⟨27, _⟩ => ⟨S128x1, .f32⟩
  | .local _ .vmem, ⟨28, _⟩ => ⟨S1x1, .f32⟩
  | .local _ .vmem, ⟨29, _⟩ => ⟨S128x2, .f32⟩
  | .local _ .vmem, ⟨30, _⟩ => ⟨S1x2, .f32⟩
  | .local _ .vmem, ⟨31, _⟩ => ⟨S1024x1, .f32⟩
  | .local _ .vmem, ⟨32, _⟩ => ⟨S1024x1, .f32⟩
  | .local _ .vmem, ⟨33, _⟩ => ⟨S1024x10, .f32⟩
  | .local _ .vmem, ⟨34, _⟩ => ⟨S1024x10, .f32⟩
  | .local _ .vmem, ⟨35, _⟩ => ⟨S1024x3, .f32⟩
  | .local _ .vmem, ⟨36, _⟩ => ⟨S1024x3, .f32⟩
  | .local _ .vmem, ⟨37, _⟩ => ⟨S1024x128, .f32⟩
  | .local _ .vmem, ⟨38, _⟩ => ⟨S1024x128, .f32⟩
  | .local _ .vmem, ⟨39, _⟩ => ⟨S8192x128, .f32⟩
  | .local _ .vmem, ⟨40, _⟩ => ⟨S8192x128, .f32⟩
  | .local _ .vmem, ⟨41, _⟩ => ⟨S8192x128, .f32⟩
  | .local _ .vmem, ⟨42, _⟩ => ⟨S8192x128, .f32⟩
  | .local _ .vmem, ⟨43, _⟩ => ⟨S8192x1, .f32⟩
  | .local _ .vmem, ⟨44, _⟩ => ⟨S8192x1, .f32⟩
  | .local _ .vmem, ⟨45, _⟩ => ⟨S128x1, .f32⟩
  | .local _ .vmem, ⟨46, _⟩ => ⟨S128x1, .f32⟩
  | .local _ .vmem, ⟨47, _⟩ => ⟨S1x1, .f32⟩
  | .local _ .vmem, ⟨48, _⟩ => ⟨S8192x1, .f32⟩
  | .local _ .vmem, ⟨49, _⟩ => ⟨S8192x1, .f32⟩
  | _, _ => ⟨S8192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_call0_v0 : Ref sig .tc := ⟨.hbm, 43, rfl⟩
abbrev main_call0_v1 : Ref sig .tc := ⟨.hbm, 44, rfl⟩
abbrev main_v20 : Ref sig .tc := ⟨.hbm, 45, rfl⟩
abbrev main_c : Ref sig .tc := ⟨.hbm, 46, rfl⟩
abbrev main_v21 : Ref sig .tc := ⟨.hbm, 47, rfl⟩
abbrev main_c_0 : Ref sig .tc := ⟨.hbm, 48, rfl⟩
abbrev main_v22 : Ref sig .tc := ⟨.hbm, 49, rfl⟩
abbrev main_call1_call0_c : Ref sig .tc := ⟨.hbm, 50, rfl⟩
abbrev main_call1_call0_v0 : Ref sig .tc := ⟨.hbm, 51, rfl⟩
abbrev main_v23 : Ref sig .tc := ⟨.hbm, 52, rfl⟩
abbrev main_c_1 : Ref sig .tc := ⟨.hbm, 53, rfl⟩
abbrev main_v24 : Ref sig .tc := ⟨.hbm, 54, rfl⟩
abbrev main_c_2 : Ref sig .tc := ⟨.hbm, 55, rfl⟩
abbrev main_v25 : Ref sig .tc := ⟨.hbm, 56, rfl⟩
abbrev main_v26 : Ref sig .tc := ⟨.hbm, 57, rfl⟩
abbrev main_c_3 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_4 : Ref sig .tc := ⟨.hbm, 63, rfl⟩
abbrev main_v31 : Ref sig .tc := ⟨.hbm, 64, rfl⟩
abbrev main_v32 : Ref sig .tc := ⟨.hbm, 65, rfl⟩
abbrev main_call2_call0_c : Ref sig .tc := ⟨.hbm, 66, rfl⟩
abbrev main_call2_call0_v0 : Ref sig .tc := ⟨.hbm, 67, rfl⟩
abbrev main_v33 : Ref sig .tc := ⟨.hbm, 68, rfl⟩
abbrev main_c_5 : Ref sig .tc := ⟨.hbm, 69, rfl⟩
abbrev main_v34 : Ref sig .tc := ⟨.hbm, 70, rfl⟩
abbrev main_v35 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_c_1 : Ref sig .tc := ⟨.hbm, 80, rfl⟩
abbrev main_call3_c_2 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_3 : Ref sig .tc := ⟨.hbm, 88, rfl⟩
abbrev main_call3_v12 : Ref sig .tc := ⟨.hbm, 89, rfl⟩
abbrev main_call3_v13 : Ref sig .tc := ⟨.hbm, 90, rfl⟩
abbrev main_call3_c_4 : Ref sig .tc := ⟨.hbm, 91, rfl⟩
abbrev main_call3_v14 : Ref sig .tc := ⟨.hbm, 92, rfl⟩
abbrev main_v36 : Ref sig .tc := ⟨.hbm, 93, rfl⟩
abbrev main_cst : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_c_6 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47_0 : Ref sig .tc := ⟨.hbm, 106, rfl⟩
abbrev main_v47_1 : Ref sig .tc := ⟨.hbm, 107, rfl⟩
abbrev main_v47_2 : Ref sig .tc := ⟨.hbm, 108, rfl⟩
abbrev main_v47_3 : Ref sig .tc := ⟨.hbm, 109, rfl⟩
abbrev main_call4_v0 : Ref sig .tc := ⟨.hbm, 110, rfl⟩
abbrev main_call4_v1 : Ref sig .tc := ⟨.hbm, 111, rfl⟩
abbrev main_v48 : Ref sig .tc := ⟨.hbm, 112, rfl⟩
abbrev main_c_7 : Ref sig .tc := ⟨.hbm, 113, rfl⟩
abbrev main_v49 : Ref sig .tc := ⟨.hbm, 114, rfl⟩
abbrev main_c_8 : Ref sig .tc := ⟨.hbm, 115, rfl⟩
abbrev main_v50 : Ref sig .tc := ⟨.hbm, 116, rfl⟩
abbrev main_call5_call0_c : Ref sig .tc := ⟨.hbm, 117, rfl⟩
abbrev main_call5_call0_v0 : Ref sig .tc := ⟨.hbm, 118, rfl⟩
abbrev main_v51 : Ref sig .tc := ⟨.hbm, 119, rfl⟩
abbrev main_c_9 : Ref sig .tc := ⟨.hbm, 120, rfl⟩
abbrev main_v52 : Ref sig .tc := ⟨.hbm, 121, rfl⟩
abbrev main_c_10 : Ref sig .tc := ⟨.hbm, 122, rfl⟩
abbrev main_v53 : Ref sig .tc := ⟨.hbm, 123, rfl⟩
abbrev main_v54 : Ref sig .tc := ⟨.hbm, 124, rfl⟩
abbrev main_c_11 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_c_12 : Ref sig .tc := ⟨.hbm, 130, rfl⟩
abbrev main_v59 : Ref sig .tc := ⟨.hbm, 131, rfl⟩
abbrev main_v60 : Ref sig .tc := ⟨.hbm, 132, rfl⟩
abbrev main_call6_call0_c : Ref sig .tc := ⟨.hbm, 133, rfl⟩
abbrev main_call6_call0_v0 : Ref sig .tc := ⟨.hbm, 134, rfl⟩
abbrev main_v61 : Ref sig .tc := ⟨.hbm, 135, rfl⟩
abbrev main_c_13 : Ref sig .tc := ⟨.hbm, 136, rfl⟩
abbrev main_v62 : Ref sig .tc := ⟨.hbm, 137, rfl⟩
abbrev main_v63 : Ref sig .tc := ⟨.hbm, 138, rfl⟩
abbrev main_call7_c : Ref sig .tc := ⟨.hbm, 139, rfl⟩
abbrev main_call7_v0 : Ref sig .tc := ⟨.hbm, 140, rfl⟩
abbrev main_call7_v1 : Ref sig .tc := ⟨.hbm, 141, rfl⟩
abbrev main_call7_c_0 : Ref sig .tc := ⟨.hbm, 142, rfl⟩
abbrev main_call7_v2 : Ref sig .tc := ⟨.hbm, 143, rfl⟩
abbrev main_call7_v3 : Ref sig .tc := ⟨.hbm, 144, rfl⟩
abbrev main_call7_v4 : Ref sig .tc := ⟨.hbm, 145, rfl⟩
abbrev main_call7_v5 : Ref sig .tc := ⟨.hbm, 146, rfl⟩
abbrev main_call7_c_1 : Ref sig .tc := ⟨.hbm, 147, rfl⟩
abbrev main_call7_c_2 : Ref sig .tc := ⟨.hbm, 148, rfl⟩
abbrev main_call7_v6 : Ref sig .tc := ⟨.hbm, 149, rfl⟩
abbrev main_call7_v7 : Ref sig .tc := ⟨.hbm, 150, rfl⟩
abbrev main_call7_v8 : Ref sig .tc := ⟨.hbm, 151, rfl⟩
abbrev main_call7_v9 : Ref sig .tc := ⟨.hbm, 152, rfl⟩
abbrev main_call7_v10 : Ref sig .tc := ⟨.hbm, 153, rfl⟩
abbrev main_call7_v11 : Ref sig .tc := ⟨.hbm, 154, rfl⟩
abbrev main_call7_c_3 : Ref sig .tc := ⟨.hbm, 155, rfl⟩
abbrev main_call7_v12 : Ref sig .tc := ⟨.hbm, 156, rfl⟩
abbrev main_call7_v13 : Ref sig .tc := ⟨.hbm, 157, rfl⟩
abbrev main_call7_v14 : Ref sig .tc := ⟨.hbm, 158, rfl⟩
abbrev main_call7_cst : Ref sig .tc := ⟨.hbm, 159, rfl⟩
abbrev main_call7_v15 : Ref sig .tc := ⟨.hbm, 160, rfl⟩
abbrev main_v64 : Ref sig .tc := ⟨.hbm, 161, rfl⟩
abbrev main_v65 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg13_0 : Ref sig .tc := ⟨.vmem, 25, rfl⟩
abbrev cc1_stg14_0 : Ref sig .tc := ⟨.vmem, 26, rfl⟩
abbrev cc1_stg15_0 : Ref sig .tc := ⟨.vmem, 27, rfl⟩
abbrev cc1_stg16_0 : Ref sig .tc := ⟨.vmem, 28, rfl⟩
abbrev cc1_stg17_0 : Ref sig .tc := ⟨.vmem, 29, rfl⟩
abbrev cc1_stg18_0 : Ref sig .tc := ⟨.vmem, 30, rfl⟩
abbrev cc1_stg19_0 : Ref sig .tc := ⟨.vmem, 31, rfl⟩
abbrev cc1_stg19_1 : Ref sig .tc := ⟨.vmem, 32, rfl⟩
abbrev cc1_stg20_0 : Ref sig .tc := ⟨.vmem, 33, rfl⟩
abbrev cc1_stg20_1 : Ref sig .tc := ⟨.vmem, 34, rfl⟩
abbrev cc1_stg21_0 : Ref sig .tc := ⟨.vmem, 35, rfl⟩
abbrev cc1_stg21_1 : Ref sig .tc := ⟨.vmem, 36, rfl⟩
abbrev cc1_stg22_0 : Ref sig .tc := ⟨.vmem, 37, rfl⟩
abbrev cc1_stg22_1 : Ref sig .tc := ⟨.vmem, 38, rfl⟩
abbrev cc2_stg0_0 : Ref sig .tc := ⟨.vmem, 39, rfl⟩
abbrev cc2_stg0_1 : Ref sig .tc := ⟨.vmem, 40, rfl⟩
abbrev cc2_stg1_0 : Ref sig .tc := ⟨.vmem, 41, rfl⟩
abbrev cc2_stg1_1 : Ref sig .tc := ⟨.vmem, 42, rfl⟩
abbrev cc2_stg2_0 : Ref sig .tc := ⟨.vmem, 43, rfl⟩
abbrev cc2_stg2_1 : Ref sig .tc := ⟨.vmem, 44, rfl⟩
abbrev cc2_stg3_0 : Ref sig .tc := ⟨.vmem, 45, rfl⟩
abbrev cc2_stg4_0 : Ref sig .tc := ⟨.vmem, 46, rfl⟩
abbrev cc2_stg5_0 : Ref sig .tc := ⟨.vmem, 47, rfl⟩
abbrev cc2_stg6_0 : Ref sig .tc := ⟨.vmem, 48, rfl⟩
abbrev cc2_stg6_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem14_0 : DmaSem sig := 26
abbrev cc1_sem15_0 : DmaSem sig := 27
abbrev cc1_sem16_0 : DmaSem sig := 28
abbrev cc1_sem17_0 : DmaSem sig := 29
abbrev cc1_sem18_0 : DmaSem sig := 30
abbrev cc1_sem19_0 : DmaSem sig := 31
abbrev cc1_sem19_1 : DmaSem sig := 32
abbrev cc1_sem20_0 : DmaSem sig := 33
abbrev cc1_sem20_1 : DmaSem sig := 34
abbrev cc1_sem21_0 : DmaSem sig := 35
abbrev cc1_sem21_1 : DmaSem sig := 36
abbrev cc1_sem22_0 : DmaSem sig := 37
abbrev cc1_sem22_1 : DmaSem sig := 38
abbrev cc2_sem0_0 : DmaSem sig := 39
abbrev cc2_sem0_1 : DmaSem sig := 40
abbrev cc2_sem1_0 : DmaSem sig := 41
abbrev cc2_sem1_1 : DmaSem sig := 42
abbrev cc2_sem2_0 : DmaSem sig := 43
abbrev cc2_sem2_1 : DmaSem sig := 44
abbrev cc2_sem3_0 : DmaSem sig := 45
abbrev cc2_sem4_0 : DmaSem sig := 46
abbrev cc2_sem5_0 : DmaSem sig := 47
abbrev cc2_sem6_0 : DmaSem sig := 48
abbrev cc2_sem6_1 : DmaSem sig := 49

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_20 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_21 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_22 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128x10 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x10 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S128x1 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x1 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S128x2 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x2 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 2 → Memref sig .tc .vmem S1024x1 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev stage1_20 : Fin 2 → Memref sig .tc .vmem S1024x10 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]

abbrev stage1_21 : Fin 2 → Memref sig .tc .vmem S1024x3 .f32 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true]

abbrev stage1_22 : Fin 2 → Memref sig .tc .vmem S1024x128 .f32 := fun | 0 => Memref.whole cc1_stg22_0 | 1 => Memref.whole cc1_stg22_1 | ⟨_ + 2, h⟩ => absurd h (Nat.not_lt.2 (Nat.le_add_left _ _))
abbrev sem1_22 : Fin 2 → DmaSem sig := fun | 0 => cc1_sem22_0 | 1 => cc1_sem22_1 | ⟨_ + 2, h⟩ => absurd h (Nat.not_lt.2 (Nat.le_add_left _ _))
abbrev reads1_22 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S8192x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S65x128_S64x128_0_0 : S65x128.Slices ![0, 0] S64x128
  slices_S65x128_S1x128_64_0 : S65x128.Slices ![64, 0] S1x128
  slices_S194x128_S64x128_0_0 : S194x128.Slices ![0, 0] S64x128
  slices_S194x128_S128x128_64_0 : S194x128.Slices ![64, 0] S128x128
  slices_S194x128_S2x128_192_0 : S194x128.Slices ![192, 0] S2x128
  slices_S256x1_S128x1_0_0 : S256x1.Slices ![0, 0] S128x1
  slices_S256x1_S128x1_128_0 : S256x1.Slices ![128, 0] S128x1
  shapeCasts_S128_S1x128 : S128.ShapeCasts S1x128
  shapeCasts_S1_S1x1 : S1.ShapeCasts S1x1
  shapeCasts_S10_S1x10 : S10.ShapeCasts S1x10
  shapeCasts_S2_S1x2 : S2.ShapeCasts S1x2
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S8192x1_S8192x1_0_0 : ∀ a, (![0, 0] : Fin 2 → Nat) a + S8192x1.size a ≤ S8192x1.size a
  h_S8192x1 : 0 < S8192x1.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S8192x1_S8192x128 : S8192x1.Broadcasts S8192x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  slices_S8192_S1_8191 : S8192.Slices ![8191] S1
  slices_S8192_S8191_0 : S8192.Slices ![0] S8191
  concatenates_S1_S8191_S8192_d0 : Shape.Concatenates [S1, S8191] S8192 0
  bcast_S_S1 : S_.BroadcastsInDim S1 (![] : Fin 0 → Fin S1.rank)
  bcast_S_S_ : S_.BroadcastsInDim S_ (![] : Fin 0 → Fin S_.rank)
  reduceWindows_S8192_S8192_w8192s1p8191_0 : S8192.ReduceWindows (![8192] : Fin 1 → Nat) ![1] ![8191] ![0] S8192
  h_S_ : 0 < S_.numel
  bcast_S_S262144 : S_.BroadcastsInDim S262144 (![] : Fin 0 → Fin S262144.rank)
  bcast_S_S8192 : S_.BroadcastsInDim S8192 (![] : Fin 0 → Fin S8192.rank)
  bcast_S8192_S8192x1_0 : S8192.BroadcastsInDim S8192x1 (![0] : Fin 1 → Fin S8192x1.rank)
  reduceWindows_S262144_S262144_w262144s1p262143_0 : S262144.ReduceWindows (![262144] : Fin 1 → Nat) ![1] ![262143] ![0] S262144
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  bcast_S_S8192x128 : S_.BroadcastsInDim S8192x128 (![] : Fin 0 → Fin S8192x128.rank)
  bcast_S8192x1_S8192x128_0_1 : S8192x1.BroadcastsInDim S8192x128 (![0, 1] : Fin 2 → Fin S8192x128.rank)
  slices_S8192x192_S8192x64_0_0 : S8192x192.Slices ![0, 0] S8192x64
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x128_S1024 : S1024x128.Reduces [1] S1024
  shapeCasts_S1024_S1024x1 : S1024.ShapeCasts S1024x1
  broadcasts_S1024x1_S1024x128 : S1024x1.Broadcasts S1024x128
  broadcasts_S1x128_S1024x128 : S1x128.Broadcasts S1024x128
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1024x2_S1024x2_0_0 : ∀ a, (![0, 0] : Fin 2 → Nat) a + S1024x2.size a ≤ S1024x2.size a
  h_S1024x2 : 0 < S1024x2.numel
  inb_S2x128_S2x128_0_0 : ∀ a, (![0, 0] : Fin 2 → Nat) a + S2x128.size a ≤ S2x128.size a
  h_S2x128 : 0 < S2x128.numel
  shapeCasts_S2x128_S2x128 : S2x128.ShapeCasts S2x128
  slices_S1024x2_o0_0_S1024x1 : S1024x2.Slices ![0, 0] S1024x1
  slices_S1024x2_o0_1_S1024x1 : S1024x2.Slices ![0, 1] S1024x1
  slices_S2x128_o0_0_S1x128 : S2x128.Slices ![0, 0] S1x128
  slices_S2x128_o1_0_S1x128 : S2x128.Slices ![1, 0] S1x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x1_S1024x1_0_0 : ∀ a, (![0, 0] : Fin 2 → Nat) a + S1024x1.size a ≤ S1024x1.size a
  h_S1024x1 : 0 < S1024x1.numel
  inb_S1024x10_S1024x10_0_0 : ∀ a, (![0, 0] : Fin 2 → Nat) a + S1024x10.size a ≤ S1024x10.size a
  h_S1024x10 : 0 < S1024x10.numel
  concatenates_S1024x1_S1024x2_S1024x3_d1 : Shape.Concatenates [S1024x1, S1024x2] S1024x3 1
  inb_S1024x3_S1024x3_0_0 : ∀ a, (![0, 0] : Fin 2 → Nat) a + S1024x3.size a ≤ S1024x3.size a
  h_S1024x3 : 0 < S1024x3.numel
  bcast_S262144_S262144x128_0 : S262144.BroadcastsInDim S262144x128 (![0] : Fin 1 → Fin S262144x128.rank)
  bcast_S_S262144x128 : S_.BroadcastsInDim S262144x128 (![] : Fin 0 → Fin S262144x128.rank)
  shapeCasts_S8192x128_S8192x128 : S8192x128.ShapeCasts S8192x128
  shapeCasts_S128x1_S128x1 : S128x1.ShapeCasts S128x1
  broadcasts_S1x1_S8192x1 : S1x1.Broadcasts S8192x1
  dot_S8192x64_S64x128_S8192x128_1_0_0_1_n_n_wf : DotDims.WF S8192x64 S64x128 S8192x128 [1] [0] [0] [1] [] []
  scatter_S8192_S1_S__n_0_0_0_wf : ScatterDims.WF S8192 S1 S_ [] [0] [0] 0
  scatter_S262144_S8192x1_S8192_n_0_0_1_wf : ScatterDims.WF S262144 S8192x1 S8192 [] [0] [0] 1
  gather_S8192_S262144x1_S262144_n_0_n_n_0_1_1_wf : GatherDims.WF S8192 S262144x1 S262144 [] [0] [] [0] [] 1 ![1]
  scatter_S8192x128_S262144x1_S262144x128_1_0_0_1_wf : ScatterDims.WF S8192x128 S262144x1 S262144x128 [1] [0] [0] 1
  dot_S1024x64_S64x128_S1024x128_1_0_0_1_n_n_wf : DotDims.WF S1024x64 S64x128 S1024x128 [1] [0] [0] [1] [] []
  dot_S1024x128_S128x128_S1024x128_1_0_0_1_n_n_wf : DotDims.WF S1024x128 S128x128 S1024x128 [1] [0] [0] [1] [] []
  dot_S1024x128_S128x1_S1024x1_1_0_0_1_n_n_wf : DotDims.WF S1024x128 S128x1 S1024x1 [1] [0] [0] [1] [] []
  dot_S1024x128_S128x10_S1024x10_1_0_0_1_n_n_wf : DotDims.WF S1024x128 S128x10 S1024x10 [1] [0] [0] [1] [] []
  dot_S1024x128_S128x2_S1024x2_1_0_0_1_n_n_wf : DotDims.WF S1024x128 S128x2 S1024x2 [1] [0] [0] [1] [] []
  gather_S8192x128_S262144x1_S262144x128_1_0_n_n_0_1_1128_wf : GatherDims.WF S8192x128 S262144x1 S262144x128 [1] [0] [] [0] [] 1 ![1, 128]
  dot_S8192x128_S128x1_S8192x1_1_0_0_1_n_n_wf : DotDims.WF S8192x128 S128x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S262144x64.size a
  hwx0_0 : ∀ i : grid0.Coords, EltTy.bits .f32 = 32 ∨ (Rect.block (s := S262144x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S262144x1.size a
  hwx0_1 : ∀ i : grid0.Coords, EltTy.bits .f32 = 32 ∨ (Rect.block (s := S262144x1) S8192x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x128.size a ≤ S262144x128.size a
  hwx0_5 : ∀ i : grid0.Coords, EltTy.bits .f32 = 32 ∨ (Rect.block (s := S262144x128) S8192x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S8192x64.size a
  hwx1_0 : ∀ i : grid1.Coords, EltTy.bits .f32 = 32 ∨ (Rect.block (s := S8192x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2.size a ≤ S8192x2.size a
  hwx1_2 : ∀ i : grid1.Coords, EltTy.bits .f32 = 32 ∨ (Rect.block (s := S8192x2) S1024x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2x128.size a ≤ S2x128.size a
  hwx1_5 : ∀ i : grid1.Coords, EltTy.bits .f32 = 32 ∨ (Rect.block (s := S2x128) S2x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x1.size a ≤ S128x1.size a
  hwx1_11 : ∀ i : grid1.Coords, EltTy.bits .f32 = 32 ∨ (Rect.block (s := S128x1) S128x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x1.size a ≤ S1x1.size a
  hwx1_12 : ∀ i : grid1.Coords, EltTy.bits .f32 = 32 ∨ (Rect.block (s := S1x1) S1x1.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S128x10.size a ≤ S128x10.size a
  hwx1_13 : ∀ i : grid1.Coords, EltTy.bits .f32 = 32 ∨ (Rect.block (s := S128x10) S128x10.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x10.size a ≤ S1x10.size a
  hwx1_14 : ∀ i : grid1.Coords, EltTy.bits .f32 = 32 ∨ (Rect.block (s := S1x10) S1x10.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S128x1.size a ≤ S128x1.size a
  hwx1_15 : ∀ i : grid1.Coords, EltTy.bits .f32 = 32 ∨ (Rect.block (s := S128x1) S128x1.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x1.size a ≤ S1x1.size a
  hwx1_16 : ∀ i : grid1.Coords, EltTy.bits .f32 = 32 ∨ (Rect.block (s := S1x1) S1x1.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S128x2.size a ≤ S128x2.size a
  hwx1_17 : ∀ i : grid1.Coords, EltTy.bits .f32 = 32 ∨ (Rect.block (s := S128x2) S128x2.size (cc1_transform_17 i) (hinb1_17 i)).WholeWords (EltTy.packing .f32)
  hstage1_18 : ∀ j, (stage1_18 j).IsWhole
  nbuf1_18 : grid1.bufCount reads1_18 true = 1
  hreads1_18 : ∀ i i' : grid1.Coords, (∀ a, reads1_18 a = true → i a = i' a) → cc1_transform_18 i = cc1_transform_18 i'
  hinb1_18 : ∀ (i : grid1.Coords) a, (cc1_transform_18 i a + 1) * S1x2.size a ≤ S1x2.size a
  hwx1_18 : ∀ i : grid1.Coords, EltTy.bits .f32 = 32 ∨ (Rect.block (s := S1x2) S1x2.size (cc1_transform_18 i) (hinb1_18 i)).WholeWords (EltTy.packing .f32)
  hstage1_19 : ∀ j, (stage1_19 j).IsWhole
  nbuf1_19 : grid1.bufCount reads1_19 false = 2
  hreads1_19 : ∀ i i' : grid1.Coords, (∀ a, reads1_19 a = true → i a = i' a) → cc1_transform_19 i = cc1_transform_19 i'
  hinb1_19 : ∀ (i : grid1.Coords) a, (cc1_transform_19 i a + 1) * S1024x1.size a ≤ S8192x1.size a
  hwx1_19 : ∀ i : grid1.Coords, EltTy.bits .f32 = 32 ∨ (Rect.block (s := S8192x1) S1024x1.size (cc1_transform_19 i) (hinb1_19 i)).WholeWords (EltTy.packing .f32)
  hstage1_20 : ∀ j, (stage1_20 j).IsWhole
  nbuf1_20 : grid1.bufCount reads1_20 false = 2
  hreads1_20 : ∀ i i' : grid1.Coords, (∀ a, reads1_20 a = true → i a = i' a) → cc1_transform_20 i = cc1_transform_20 i'
  hinb1_20 : ∀ (i : grid1.Coords) a, (cc1_transform_20 i a + 1) * S1024x10.size a ≤ S8192x10.size a
  hwx1_20 : ∀ i : grid1.Coords, EltTy.bits .f32 = 32 ∨ (Rect.block (s := S8192x10) S1024x10.size (cc1_transform_20 i) (hinb1_20 i)).WholeWords (EltTy.packing .f32)
  hstage1_21 : ∀ j, (stage1_21 j).IsWhole
  nbuf1_21 : grid1.bufCount reads1_21 false = 2
  hreads1_21 : ∀ i i' : grid1.Coords, (∀ a, reads1_21 a = true → i a = i' a) → cc1_transform_21 i = cc1_transform_21 i'
  hinb1_21 : ∀ (i : grid1.Coords) a, (cc1_transform_21 i a + 1) * S1024x3.size a ≤ S8192x3.size a
  hwx1_21 : ∀ i : grid1.Coords, EltTy.bits .f32 = 32 ∨ (Rect.block (s := S8192x3) S1024x3.size (cc1_transform_21 i) (hinb1_21 i)).WholeWords (EltTy.packing .f32)
  hstage1_22 : ∀ j, (stage1_22 j).IsWhole
  nbuf1_22 : grid1.bufCount reads1_22 false = 2
  hreads1_22 : ∀ i i' : grid1.Coords, (∀ a, reads1_22 a = true → i a = i' a) → cc1_transform_22 i = cc1_transform_22 i'
  hinb1_22 : ∀ (i : grid1.Coords) a, (cc1_transform_22 i a + 1) * S1024x128.size a ≤ S8192x128.size a
  hwx1_22 : ∀ i : grid1.Coords, EltTy.bits .f32 = 32 ∨ (Rect.block (s := S8192x128) S1024x128.size (cc1_transform_22 i) (hinb1_22 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S262144x128.size a
  hwx2_0 : ∀ i : grid2.Coords, EltTy.bits .f32 = 32 ∨ (Rect.block (s := S262144x128) S8192x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S262144x128.size a
  hwx2_1 : ∀ i : grid2.Coords, EltTy.bits .f32 = 32 ∨ (Rect.block (s := S262144x128) S8192x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x1.size a ≤ S262144x1.size a
  hwx2_2 : ∀ i : grid2.Coords, EltTy.bits .f32 = 32 ∨ (Rect.block (s := S262144x1) S8192x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S128x1.size a
  hwx2_4 : ∀ i : grid2.Coords, EltTy.bits .f32 = 32 ∨ (Rect.block (s := S128x1) S128x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8192x1.size a ≤ S262144x1.size a
  hwx2_6 : ∀ i : grid2.Coords, EltTy.bits .f32 = 32 ∨ (Rect.block (s := S262144x1) S8192x1.size (cc2_transform_6 i) (hinb2_6 i)).WholeWords (EltTy.packing .f32)

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def scatter_S8192_S1_S__n_0_0_0 : ScatterDims S8192 S1 S_ where
  updateWindowDims := []
  insertedWindowDims := [0]
  scatterDimsToOperandDims := [0]
  indexVectorDim := 0
  wf := scatter_S8192_S1_S__n_0_0_0_wf
def scatter_S262144_S8192x1_S8192_n_0_0_1 : ScatterDims S262144 S8192x1 S8192 where
  updateWindowDims := []
  insertedWindowDims := [0]
  scatterDimsToOperandDims := [0]
  indexVectorDim := 1
  wf := scatter_S262144_S8192x1_S8192_n_0_0_1_wf
def gather_S8192_S262144x1_S262144_n_0_n_n_0_1_1 : GatherDims S8192 S262144x1 S262144 where
  offsetDims := []
  collapsedSliceDims := [0]
  operandBatchingDims := []
  startIndicesBatchingDims := []
  startIndexMap := [0]
  indexVectorDim := 1
  sliceSizes := ![1]
  wf := gather_S8192_S262144x1_S262144_n_0_n_n_0_1_1_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf
def dot_S1024x128_S128x10_S1024x10_1_0_0_1_n_n : DotDims S1024x128 S128x10 S1024x10 where
  lhsContracting := [1]
  rhsContracting := [0]
  lhsNonContracting := [0]
  rhsNonContracting := [1]
  lhsBatch := []
  rhsBatch := []
  wf := dot_S1024x128_S128x10_S1024x10_1_0_0_1_n_n_wf
def dot_S1024x128_S128x2_S1024x2_1_0_0_1_n_n : DotDims S1024x128 S128x2 S1024x2 where
  lhsContracting := [1]
  rhsContracting := [0]
  lhsNonContracting := [0]
  rhsNonContracting := [1]
  lhsBatch := []
  rhsBatch := []
  wf := dot_S1024x128_S128x2_S1024x2_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

abbrev win0_0 : Pipeline.Window sig grid0 :=
  Pipeline.Window.ofSpec (Memref.whole main_arg2) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S8192x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v46) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1024x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S2x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v9) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v11) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v12) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg13) S128x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v13) S1x1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg15) S128x10.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v14) S1x10.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_arg17) S128x1.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v15) S1x1.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_arg19) S128x2.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v16) S1x2.size cc1_transform_18 reads1_18 false true 1 stage1_18 sem1_18
    hrank1 hreads1_18 hinb1_18 nbuf1_18 (Memref.isWhole_whole _) hwx1_18 hstage1_18

abbrev win1_19 : Pipeline.Window sig grid1 :=
  Pipeline.Window.ofSpec (Memref.whole main_v47_0) S1024x1.size cc1_transform_19 reads1_19 true false 2 stage1_19 sem1_19
    hrank1 hreads1_19 hinb1_19 nbuf1_19 (Memref.isWhole_whole _) hwx1_19 hstage1_19

abbrev win1_20 : Pipeline.Window sig grid1 :=
  Pipeline.Window.ofSpec (Memref.whole main_v47_1) S1024x10.size cc1_transform_20 reads1_20 true false 2 stage1_20 sem1_20
    hrank1 hreads1_20 hinb1_20 nbuf1_20 (Memref.isWhole_whole _) hwx1_20 hstage1_20

abbrev win1_21 : Pipeline.Window sig grid1 :=
  Pipeline.Window.ofSpec (Memref.whole main_v47_2) S1024x3.size cc1_transform_21 reads1_21 true false 2 stage1_21 sem1_21
    hrank1 hreads1_21 hinb1_21 nbuf1_21 (Memref.isWhole_whole _) hwx1_21 hstage1_21

abbrev win1_22 : Pipeline.Window sig grid1 :=
  Pipeline.Window.ofSpec (Memref.whole main_v47_3) S1024x128.size cc1_transform_22 reads1_22 true false 2 stage1_22 sem1_22
    hrank1 hreads1_22 hinb1_22 nbuf1_22 (Memref.isWhole_whole _) hwx1_22 hstage1_22

abbrev win1 : Fin 23 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | 21 => win1_21 | 22 => win1_22 | ⟨_ + 23, h⟩ => absurd h (Nat.not_lt.2 (Nat.le_add_left _ _))
abbrev spec1 : Fin 23 → Pipeline.WinSpec sig grid1.rank := fun w => (win1 w).toWinSpec

abbrev win2_0 : Pipeline.Window sig grid2 :=
  Pipeline.Window.ofSpec (Memref.whole main_v64) S8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S8192x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S8192x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S128x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v17) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v65) S8192x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S8192x192 : Shape := ⟨2, ![8192, 192]⟩
abbrev S8192x2 : Shape := ⟨2, ![8192, 2]⟩
abbrev S262144x64 : Shape := ⟨2, ![262144, 64]⟩
abbrev S262144x1 : Shape := ⟨2, ![262144, 1]⟩
abbrev S8192 : Shape := ⟨1, ![8192]⟩
abbrev S65x128 : Shape := ⟨2, ![65, 128]⟩
abbrev S128 : Shape := ⟨1, ![128]⟩
abbrev S194x128 : Shape := ⟨2, ![194, 128]⟩
abbrev S128x1 : Shape := ⟨2, ![128, 1]⟩
abbrev S1 : Shape := ⟨1, ![1]⟩
abbrev S128x10 : Shape := ⟨2, ![128, 10]⟩
abbrev S10 : Shape := ⟨1, ![10]⟩
abbrev S128x2 : Shape := ⟨2, ![128, 2]⟩
abbrev S2 : Shape := ⟨1, ![2]⟩
abbrev S256x1 : Shape := ⟨2, ![256, 1]⟩
abbrev S262144x65 : Shape := ⟨2, ![262144, 65]⟩
abbrev S262144x128 : Shape := ⟨2, ![262144, 128]⟩
abbrev S1x128 : Shape := ⟨2, ![1, 128]⟩
abbrev S_ : Shape := ⟨0, ![]⟩
abbrev S8191 : Shape := ⟨1, ![8191]⟩
abbrev S262144 : Shape := ⟨1, ![262144]⟩
abbrev S8192x1 : Shape := ⟨2, ![8192, 1]⟩
abbrev S1x1 : Shape := ⟨2, ![1, 1]⟩
abbrev S8192x128 : Shape := ⟨2, ![8192, 128]⟩
abbrev S8192x194 : Shape := ⟨2, ![8192, 194]⟩
abbrev S8192x10 : Shape := ⟨2, ![8192, 10]⟩
abbrev S1x10 : Shape := ⟨2, ![1, 10]⟩
abbrev S1x2 : Shape := ⟨2, ![1, 2]⟩
abbrev S262144x256 : Shape := ⟨2, ![262144, 256]⟩
abbrev S8192x3 : Shape := ⟨2, ![8192, 3]⟩

abbrev nBuf : Space → Nat
  | .hbm => 261
  | .vmem => 0
  | .smem => 0
  | _ => 0

abbrev hbmTy0_0 (i : Nat) : BufTy := match i % 128 with
  | 0 => ⟨S8192x192, .f32⟩
  | 1 => ⟨S8192x2, .f32⟩
  | 2 => ⟨S262144x64, .f32⟩
  | 3 => ⟨S262144x1, .f32⟩
  | 4 => ⟨S8192, .i32⟩
  | 5 => ⟨S65x128, .f32⟩
  | 6 => ⟨S128, .f32⟩
  | 7 => ⟨S128, .f32⟩
  | 8 => ⟨S128, .f32⟩
  | 9 => ⟨S194x128, .f32⟩
  | 10 => ⟨S128, .f32⟩
  | 11 => ⟨S128, .f32⟩
  | 12 => ⟨S128, .f32⟩
  | 13 => ⟨S128x1, .f32⟩
  | 14 => ⟨S1, .f32⟩
  | 15 => ⟨S128x10, .f32⟩
  | 16 => ⟨S10, .f32⟩
  | 17 => ⟨S128x1, .f32⟩
  | 18 => ⟨S1, .f32⟩
  | 19 => ⟨S128x2, .f32⟩
  | 20 => ⟨S2, .f32⟩
  | 21 => ⟨S256x1, .f32⟩
  | 22 => ⟨S1, .f32⟩
  | 23 => ⟨S262144x65, .f32⟩
  | 24 => ⟨S262144x128, .f32⟩
  | 25 => ⟨S1x128, .f32⟩
  | 26 => ⟨S262144x128, .f32⟩
  | 27 => ⟨S262144x128, .f32⟩
  | 28 => ⟨S_, .f32⟩
  | 29 => ⟨S_, .f32⟩
  | 30 => ⟨S262144x128, .f32⟩
  | 31 => ⟨S262144x128, .i1⟩
  | 32 => ⟨S_, .f32⟩
  | 33 => ⟨S262144x128, .f32⟩
  | 34 => ⟨S262144x128, .f32⟩
  | 35 => ⟨S262144x128, .f32⟩
  | 36 => ⟨S8192, .i32⟩
  | 37 => ⟨S1, .i32⟩
  | 38 => ⟨S8191, .i32⟩
  | 39 => ⟨S8192, .i32⟩
  | 40 => ⟨S_, .i32⟩
  | 41 => ⟨S1, .i32⟩
  | 42 => ⟨S_, .i32⟩
  | 43 => ⟨S8192, .i32⟩
  | 44 => ⟨S_, .i32⟩
  | 45 => ⟨S_, .i32⟩
  | 46 => ⟨S8192, .i32⟩
  | 47 => ⟨S_, .i32⟩
  | 48 => ⟨S262144, .i32⟩
  | 49 => ⟨S_, .i32⟩
  | 50 => ⟨S8192, .i32⟩
  | 51 => ⟨S8192, .i1⟩
  | 52 => ⟨S_, .i32⟩
  | 53 => ⟨S8192, .i32⟩
  | 54 => ⟨S8192, .i32⟩
  | 55 => ⟨S8192, .i32⟩
  | 56 => ⟨S8192x1, .i32⟩
  | 57 => ⟨S_, .i32⟩
  | 58 => ⟨S8192, .i32⟩
  | 59 => ⟨S262144, .i32⟩
  | 60 => ⟨S_, .i32⟩
  | 61 => ⟨S_, .i32⟩
  | 62 => ⟨S262144, .i32⟩
  | 63 => ⟨S_, .i32⟩
  | 64 => ⟨S262144, .i32⟩
  | 65 => ⟨S262144, .i32⟩
  | 66 => ⟨S_, .i32⟩
  | 67 => ⟨S262144, .i32⟩
  | 68 => ⟨S262144, .i1⟩
  | 69 => ⟨S_, .i32⟩
  | 70 => ⟨S262144, .i32⟩
  | 71 => ⟨S262144, .i32⟩
  | 72 => ⟨S262144, .i32⟩
  | 73 => ⟨S262144x1, .i32⟩
  | 74 => ⟨S1, .i32⟩
  | 75 => ⟨S_, .i32⟩
  | 76 => ⟨S262144x1, .i32⟩
  | 77 => ⟨S262144x1, .i1⟩
  | 78 => ⟨S1x1, .i32⟩
  | 79 => ⟨S262144x1, .i32⟩
  | 80 => ⟨S262144x1, .i1⟩
  | 81 => ⟨S262144x1, .i1⟩
  | 82 => ⟨S_, .i1⟩
  | 83 => ⟨S262144, .i1⟩
  | 84 => ⟨S262144, .i32⟩
  | 85 => ⟨S_, .i32⟩
  | 86 => ⟨S262144, .i32⟩
  | 87 => ⟨S262144, .i32⟩
  | 88 => ⟨S_, .f32⟩
  | 89 => ⟨S8192x128, .f32⟩
  | 90 => ⟨S262144x1, .i32⟩
  | 91 => ⟨S8192x128, .f32⟩
  | 92 => ⟨S_, .i32⟩
  | 93 => ⟨S8192, .i32⟩
  | 94 => ⟨S8192, .i32⟩
  | 95 => ⟨S8192x1, .i32⟩
  | 96 => ⟨S8192x1, .f32⟩
  | 97 => ⟨S8192x128, .f32⟩
  | 98 => ⟨S8192x128, .f32⟩
  | 99 => ⟨S_, .f32⟩
  | 100 => ⟨S8192, .f32⟩
  | 101 => ⟨S8192x1, .f32⟩
  | 102 => ⟨S_, .f32⟩
  | 103 => ⟨S8192x1, .f32⟩
  | 104 => ⟨S8192x1, .f32⟩
  | 105 => ⟨S8192x128, .f32⟩
  | 106 => ⟨S8192x128, .f32⟩
  | 107 => ⟨S8192x128, .f32⟩
  | 108 => ⟨S_, .f32⟩
  | 109 => ⟨S8192, .f32⟩
  | 110 => ⟨S8192x1, .f32⟩
  | 111 => ⟨S_, .f32⟩
  | 112 => ⟨S8192x1, .f32⟩
  | 113 => ⟨S8192x1, .f32⟩
  | 114 => ⟨S8192x128, .f32⟩
  | 115 => ⟨S8192x128, .f32⟩
  | 116 => ⟨S_, .f32⟩
  | 117 => ⟨S8192x1, .f32⟩
  | 118 => ⟨S8192x1, .f32⟩
  | 119 => ⟨S8192x1, .f32⟩
  | 120 => ⟨S8192x128, .f32⟩
  | 121 => ⟨S8192x128, .f32⟩
  | 122 => ⟨S1x128, .f32⟩
  | 123 => ⟨S8192x128, .f32⟩
  | 124 => ⟨S8192x128, .f32⟩
  | 125 => ⟨S1x128, .f32⟩
  | 126 => ⟨S8192x128, .f32⟩
  | 127 => ⟨S8192x128, .f32⟩
  | _ => ⟨S8192x192, .f32⟩

abbrev hbmTy0_1 (i : Nat) : BufTy := match i % 128 with
  | 0 => ⟨S_, .i32⟩
  | 1 => ⟨S1, .i32⟩
  | 2 => ⟨S8192x192, .f32⟩
  | 3 => ⟨S8192x194, .f32⟩
  | 4 => ⟨S8192x128, .f32⟩
  | 5 => ⟨S1x128, .f32⟩
  | 6 => ⟨S8192x128, .f32⟩
  | 7 => ⟨S8192x128, .f32⟩
  | 8 => ⟨S_, .f32⟩
  | 9 => ⟨S_, .f32⟩
  | 10 => ⟨S8192x128, .f32⟩
  | 11 => ⟨S8192x128, .i1⟩
  | 12 => ⟨S_, .f32⟩
  | 13 => ⟨S8192x128, .f32⟩
  | 14 => ⟨S8192x128, .f32⟩
  | 15 => ⟨S8192x128, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S8192x128, .f32⟩
  | 23 => ⟨S8192x128, .f32⟩
  | 24 => ⟨S8192x128, .f32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S8192x128, .f32⟩
  | 32 => ⟨S8192x128, .f32⟩
  | 33 => ⟨S_, .f32⟩
  | 34 => ⟨S8192x1, .f32⟩
  | 35 => ⟨S8192x1, .f32⟩
  | 36 => ⟨S8192x1, .f32⟩
  | 37 => ⟨S8192x128, .f32⟩
  | 38 => ⟨S8192x128, .f32⟩
  | 39 => ⟨S1x128, .f32⟩
  | 40 => ⟨S8192x128, .f32⟩
  | 41 => ⟨S8192x128, .f32⟩
  | 42 => ⟨S1x128, .f32⟩
  | 43 => ⟨S8192x128, .f32⟩
  | 44 => ⟨S8192x128, .f32⟩
  | 45 => ⟨S8192x1, .f32⟩
  | 46 => ⟨S1x1, .f32⟩
  | 47 => ⟨S8192x1, .f32⟩
  | 48 => ⟨S8192x1, .f32⟩
  | 49 => ⟨S8192x10, .f32⟩
  | 50 => ⟨S1x10, .f32⟩
  | 51 => ⟨S8192x10, .f32⟩
  | 52 => ⟨S8192x10, .f32⟩
  | 53 => ⟨S8192x1, .f32⟩
  | 54 => ⟨S1x1, .f32⟩
  | 55 => ⟨S8192x1, .f32⟩
  | 56 => ⟨S8192x1, .f32⟩
  | 57 => ⟨S8192x2, .f32⟩
  | 58 => ⟨S1x2, .f32⟩
  | 59 => ⟨S8192x2, .f32⟩
  | 60 => ⟨S8192x2, .f32⟩
  | 61 => ⟨S_, .f32⟩
  | 62 => ⟨S8192x2, .f32⟩
  | 63 => ⟨S8192x2, .i1⟩
  | 64 => ⟨S_, .f32⟩
  | 65 => ⟨S_, .f32⟩
  | 66 => ⟨S8192x2, .f32⟩
  | 67 => ⟨S8192x2, .f32⟩
  | 68 => ⟨S1, .i32⟩
  | 69 => ⟨S8191, .i32⟩
  | 70 => ⟨S8192, .i32⟩
  | 71 => ⟨S_, .i32⟩
  | 72 => ⟨S1, .i32⟩
  | 73 => ⟨S_, .i32⟩
  | 74 => ⟨S8192, .i32⟩
  | 75 => ⟨S_, .i32⟩
  | 76 => ⟨S_, .i32⟩
  | 77 => ⟨S8192, .i32⟩
  | 78 => ⟨S_, .i32⟩
  | 79 => ⟨S262144, .i32⟩
  | 80 => ⟨S_, .i32⟩
  | 81 => ⟨S8192, .i32⟩
  | 82 => ⟨S8192, .i1⟩
  | 83 => ⟨S_, .i32⟩
  | 84 => ⟨S8192, .i32⟩
  | 85 => ⟨S8192, .i32⟩
  | 86 => ⟨S8192, .i32⟩
  | 87 => ⟨S8192x1, .i32⟩
  | 88 => ⟨S_, .i32⟩
  | 89 => ⟨S8192, .i32⟩
  | 90 => ⟨S262144, .i32⟩
  | 91 => ⟨S_, .i32⟩
  | 92 => ⟨S_, .i32⟩
  | 93 => ⟨S262144, .i32⟩
  | 94 => ⟨S_, .i32⟩
  | 95 => ⟨S262144, .i32⟩
  | 96 => ⟨S262144, .i32⟩
  | 97 => ⟨S_, .i32⟩
  | 98 => ⟨S262144, .i32⟩
  | 99 => ⟨S262144, .i1⟩
  | 100 => ⟨S_, .i32⟩
  | 101 => ⟨S262144, .i32⟩
  | 102 => ⟨S262144, .i32⟩
  | 103 => ⟨S262144, .i32⟩
  | 104 => ⟨S262144x1, .i32⟩
  | 105 => ⟨S1, .i32⟩
  | 106 => ⟨S_, .i32⟩
  | 107 => ⟨S262144x1, .i32⟩
  | 108 => ⟨S262144x1, .i1⟩
  | 109 => ⟨S1x1, .i32⟩
  | 110 => ⟨S262144x1, .i32⟩
  | 111 => ⟨S262144x1, .i1⟩
  | 112 => ⟨S262144x1, .i1⟩
  | 113 => ⟨S_, .i1⟩
  | 114 => ⟨S262144, .i1⟩
  | 115 => ⟨S262144x128, .f32⟩
  | 116 => ⟨S262144x128, .i1⟩
  | 117 => ⟨S_, .f32⟩
  | 118 => ⟨S262144x128, .f32⟩
  | 119 => ⟨S262144x128, .f32⟩
  | 120 => ⟨S262144x256, .f32⟩
  | 121 => ⟨S262144x1, .f32⟩
  | 122 => ⟨S1x1, .f32⟩
  | 123 => ⟨S262144x1, .f32⟩
  | 124 => ⟨S262144x1, .f32⟩
  | 125 => ⟨S_, .f32⟩
  | 126 => ⟨S262144x1, .f32⟩
  | 127 => ⟨S262144x1, .i1⟩
  | _ => ⟨S8192x192, .f32⟩

abbrev hbmTy0_2 (i : Nat) : BufTy := match i % 128 with
  | 0 => ⟨S_, .f32⟩
  | 1 => ⟨S_, .f32⟩
  | 2 => ⟨S262144x1, .f32⟩
  | 3 => ⟨S262144x1, .f32⟩
  | 4 => ⟨S8192x3, .f32⟩
  | _ => ⟨S8192x192, .f32⟩

abbrev hbmTy (i : Nat) : BufTy := match i / 128 with
  | 0 => hbmTy0_0 i
  | 1 => hbmTy0_1 i
  | 2 => hbmTy0_2 i
  | _ => ⟨S8192x192, .f32⟩

abbrev bufTy : (tb : Table) → Fin (tcTables nBuf tb) → BufTy
  | .hbm, ⟨i, _⟩ => hbmTy i
  | _, _ => ⟨S8192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_cst : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v5 : Ref sig .tc := ⟨.hbm, 35, rfl⟩
abbrev main_v6 : Ref sig .tc := ⟨.hbm, 36, rfl⟩
abbrev main_call1_v0 : Ref sig .tc := ⟨.hbm, 37, rfl⟩
abbrev main_call1_v1 : Ref sig .tc := ⟨.hbm, 38, rfl⟩
abbrev main_v7 : Ref sig .tc := ⟨.hbm, 39, rfl⟩
abbrev main_c : Ref sig .tc := ⟨.hbm, 40, rfl⟩
abbrev main_v8 : Ref sig .tc := ⟨.hbm, 41, rfl⟩
abbrev main_c_0 : Ref sig .tc := ⟨.hbm, 42, rfl⟩
abbrev main_v9 : Ref sig .tc := ⟨.hbm, 43, rfl⟩
abbrev main_call2_call0_c : Ref sig .tc := ⟨.hbm, 44, rfl⟩
abbrev main_call2_call0_v0 : Ref sig .tc := ⟨.hbm, 45, rfl⟩
abbrev main_v10 : Ref sig .tc := ⟨.hbm, 46, rfl⟩
abbrev main_c_1 : Ref sig .tc := ⟨.hbm, 47, rfl⟩
abbrev main_v11 : Ref sig .tc := ⟨.hbm, 48, rfl⟩
abbrev main_c_2 : Ref sig .tc := ⟨.hbm, 49, rfl⟩
abbrev main_v12 : Ref sig .tc := ⟨.hbm, 50, rfl⟩
abbrev main_v13 : Ref sig .tc := ⟨.hbm, 51, rfl⟩
abbrev main_c_3 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_c_4 : Ref sig .tc := ⟨.hbm, 57, rfl⟩
abbrev main_v18 : Ref sig .tc := ⟨.hbm, 58, rfl⟩
abbrev main_v19 : Ref sig .tc := ⟨.hbm, 59, rfl⟩
abbrev main_call3_call0_c : Ref sig .tc := ⟨.hbm, 60, rfl⟩
abbrev main_call3_call0_v0 : Ref sig .tc := ⟨.hbm, 61, rfl⟩
abbrev main_v20 : Ref sig .tc := ⟨.hbm, 62, rfl⟩
abbrev main_c_5 : Ref sig .tc := ⟨.hbm, 63, rfl⟩
abbrev main_v21 : Ref sig .tc := ⟨.hbm, 64, rfl⟩
abbrev main_v22 : Ref sig .tc := ⟨.hbm, 65, rfl⟩
abbrev main_call4_c : Ref sig .tc := ⟨.hbm, 66, rfl⟩
abbrev main_call4_v0 : Ref sig .tc := ⟨.hbm, 67, rfl⟩
abbrev main_call4_v1 : Ref sig .tc := ⟨.hbm, 68, rfl⟩
abbrev main_call4_c_0 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_call4_v5 : Ref sig .tc := ⟨.hbm, 73, rfl⟩
abbrev main_call4_c_1 : Ref sig .tc := ⟨.hbm, 74, rfl⟩
abbrev main_call4_c_2 : Ref sig .tc := ⟨.hbm, 75, rfl⟩
abbrev main_call4_v6 : Ref sig .tc := ⟨.hbm, 76, rfl⟩
abbrev main_call4_v7 : Ref sig .tc := ⟨.hbm, 77, rfl⟩
abbrev main_call4_v8 : Ref sig .tc := ⟨.hbm, 78, rfl⟩
abbrev main_call4_v9 : Ref sig .tc := ⟨.hbm, 79, rfl⟩
abbrev main_call4_v10 : Ref sig .tc := ⟨.hbm, 80, rfl⟩
abbrev main_call4_v11 : Ref sig .tc := ⟨.hbm, 81, rfl⟩
abbrev main_call4_c_3 : Ref sig .tc := ⟨.hbm, 82, rfl⟩
abbrev main_call4_v12 : Ref sig .tc := ⟨.hbm, 83, rfl⟩
abbrev main_call4_v13 : Ref sig .tc := ⟨.hbm, 84, rfl⟩
abbrev main_call4_c_4 : Ref sig .tc := ⟨.hbm, 85, rfl⟩
abbrev main_call4_v14 : Ref sig .tc := ⟨.hbm, 86, rfl⟩
abbrev main_v23 : Ref sig .tc := ⟨.hbm, 87, rfl⟩
abbrev main_cst_6 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_c_7 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_cst_8 : Ref sig .tc := ⟨.hbm, 99, rfl⟩
abbrev main_v33 : Ref sig .tc := ⟨.hbm, 100, rfl⟩
abbrev main_v34 : Ref sig .tc := ⟨.hbm, 101, rfl⟩
abbrev main_cst_9 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_cst_10 : Ref sig .tc := ⟨.hbm, 108, rfl⟩
abbrev main_v40 : Ref sig .tc := ⟨.hbm, 109, rfl⟩
abbrev main_v41 : Ref sig .tc := ⟨.hbm, 110, rfl⟩
abbrev main_cst_11 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_cst_12 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_c_13 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_cst_14 : Ref sig .tc := ⟨.hbm, 136, rfl⟩
abbrev main_call5_cst : Ref sig .tc := ⟨.hbm, 137, rfl⟩
abbrev main_call5_v0 : Ref sig .tc := ⟨.hbm, 138, rfl⟩
abbrev main_call5_v1 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_v64 : Ref sig .tc := ⟨.hbm, 143, rfl⟩
abbrev main_cst_15 : Ref sig .tc := ⟨.hbm, 144, rfl⟩
abbrev main_v65 : Ref sig .tc := ⟨.hbm, 145, rfl⟩
abbrev main_v66 : Ref sig .tc := ⟨.hbm, 146, rfl⟩
abbrev main_cst_16 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_cst_17 : Ref sig .tc := ⟨.hbm, 153, rfl⟩
abbrev main_v72 : Ref sig .tc := ⟨.hbm, 154, rfl⟩
abbrev main_v73 : Ref sig .tc := ⟨.hbm, 155, rfl⟩
abbrev main_cst_18 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_cst_19 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_cst_20 : Ref sig .tc := ⟨.hbm, 189, rfl⟩
abbrev main_v105 : Ref sig .tc := ⟨.hbm, 190, rfl⟩
abbrev main_v106 : Ref sig .tc := ⟨.hbm, 191, rfl⟩
abbrev main_cst_21 : Ref sig .tc := ⟨.hbm, 192, rfl⟩
abbrev main_call6_v0 : Ref sig .tc := ⟨.hbm, 193, rfl⟩
abbrev main_call6_v1 : Ref sig .tc := ⟨.hbm, 194, rfl⟩
abbrev main_v107 : Ref sig .tc := ⟨.hbm, 195, rfl⟩
abbrev main_call7_v0 : Ref sig .tc := ⟨.hbm, 196, rfl⟩
abbrev main_call7_v1 : Ref sig .tc := ⟨.hbm, 197, rfl⟩
abbrev main_v108 : Ref sig .tc := ⟨.hbm, 198, rfl⟩
abbrev main_c_22 : Ref sig .tc := ⟨.hbm, 199, rfl⟩
abbrev main_v109 : Ref sig .tc := ⟨.hbm, 200, rfl⟩
abbrev main_c_23 : Ref sig .tc := ⟨.hbm, 201, rfl⟩
abbrev main_v110 : Ref sig .tc := ⟨.hbm, 202, rfl⟩
abbrev main_call8_call0_c : Ref sig .tc := ⟨.hbm, 203, rfl⟩
abbrev main_call8_call0_v0 : Ref sig .tc := ⟨.hbm, 204, rfl⟩
abbrev main_v111 : Ref sig .tc := ⟨.hbm, 205, rfl⟩
abbrev main_c_24 : Ref sig .tc := ⟨.hbm, 206, rfl⟩
abbrev main_v112 : Ref sig .tc := ⟨.hbm, 207, rfl⟩
abbrev main_c_25 : Ref sig .tc := ⟨.hbm, 208, rfl⟩
abbrev main_v113 : Ref sig .tc := ⟨.hbm, 209, rfl⟩
abbrev main_v114 : Ref sig .tc := ⟨.hbm, 210, rfl⟩
abbrev main_c_26 : Ref sig .tc := ⟨.hbm, 211, rfl⟩
abbrev main_v115 : Ref sig .tc := ⟨.hbm, 212, rfl⟩
abbrev main_v116 : Ref sig .tc := ⟨.hbm, 213, rfl⟩
abbrev main_v117 : Ref sig .tc := ⟨.hbm, 214, rfl⟩
abbrev main_v118 : Ref sig .tc := ⟨.hbm, 215, rfl⟩
abbrev main_c_27 : Ref sig .tc := ⟨.hbm, 216, rfl⟩
abbrev main_v119 : Ref sig .tc := ⟨.hbm, 217, rfl⟩
abbrev main_v120 : Ref sig .tc := ⟨.hbm, 218, rfl⟩
abbrev main_call9_call0_c : Ref sig .tc := ⟨.hbm, 219, rfl⟩
abbrev main_call9_call0_v0 : Ref sig .tc := ⟨.hbm, 220, rfl⟩
abbrev main_v121 : Ref sig .tc := ⟨.hbm, 221, rfl⟩
abbrev main_c_28 : Ref sig .tc := ⟨.hbm, 222, rfl⟩
abbrev main_v122 : Ref sig .tc := ⟨.hbm, 223, rfl⟩
abbrev main_v123 : Ref sig .tc := ⟨.hbm, 224, rfl⟩
abbrev main_call10_c : Ref sig .tc := ⟨.hbm, 225, rfl⟩
abbrev main_call10_v0 : Ref sig .tc := ⟨.hbm, 226, rfl⟩
abbrev main_call10_v1 : Ref sig .tc := ⟨.hbm, 227, rfl⟩
abbrev main_call10_c_0 : Ref sig .tc := ⟨.hbm, 228, rfl⟩
abbrev main_call10_v2 : Ref sig .tc := ⟨.hbm, 229, rfl⟩
abbrev main_call10_v3 : Ref sig .tc := ⟨.hbm, 230, rfl⟩
abbrev main_call10_v4 : Ref sig .tc := ⟨.hbm, 231, rfl⟩
abbrev main_call10_v5 : Ref sig .tc := ⟨.hbm, 232, rfl⟩
abbrev main_call10_c_1 : Ref sig .tc := ⟨.hbm, 233, rfl⟩
abbrev main_call10_c_2 : Ref sig .tc := ⟨.hbm, 234, rfl⟩
abbrev main_call10_v6 : Ref sig .tc := ⟨.hbm, 235, rfl⟩
abbrev main_call10_v7 : Ref sig .tc := ⟨.hbm, 236, rfl⟩
abbrev main_call10_v8 : Ref sig .tc := ⟨.hbm, 237, rfl⟩
abbrev main_call10_v9 : Ref sig .tc := ⟨.hbm, 238, rfl⟩
abbrev main_call10_v10 : Ref sig .tc := ⟨.hbm, 239, rfl⟩
abbrev main_call10_v11 : Ref sig .tc := ⟨.hbm, 240, rfl⟩
abbrev main_call10_c_3 : Ref sig .tc := ⟨.hbm, 241, rfl⟩
abbrev main_call10_v12 : Ref sig .tc := ⟨.hbm, 242, rfl⟩
abbrev main_call10_v13 : Ref sig .tc := ⟨.hbm, 243, rfl⟩
abbrev main_call10_v14 : Ref sig .tc := ⟨.hbm, 244, rfl⟩
abbrev main_call10_cst : Ref sig .tc := ⟨.hbm, 245, rfl⟩
abbrev main_call10_v15 : Ref sig .tc := ⟨.hbm, 246, rfl⟩
abbrev main_v124 : Ref sig .tc := ⟨.hbm, 247, rfl⟩
abbrev main_v125 : Ref sig .tc := ⟨.hbm, 248, rfl⟩
abbrev main_v126 : Ref sig .tc := ⟨.hbm, 249, rfl⟩
abbrev main_v127 : Ref sig .tc := ⟨.hbm, 250, rfl⟩
abbrev main_v128 : Ref sig .tc := ⟨.hbm, 251, rfl⟩
abbrev main_v129 : Ref sig .tc := ⟨.hbm, 252, rfl⟩
abbrev main_cst_29 : Ref sig .tc := ⟨.hbm, 253, rfl⟩
abbrev main_v130 : Ref sig .tc := ⟨.hbm, 254, rfl⟩
abbrev main_v131 : Ref sig .tc := ⟨.hbm, 255, rfl⟩
abbrev main_cst_30 : Ref sig .tc := ⟨.hbm, 256, rfl⟩
abbrev main_call11_v0 : Ref sig .tc := ⟨.hbm, 257, rfl⟩
abbrev main_call11_v1 : Ref sig .tc := ⟨.hbm, 258, rfl⟩
abbrev main_v132 : Ref sig .tc := ⟨.hbm, 259, rfl⟩
abbrev main_v133 : Ref sig .tc := ⟨.hbm, 260, rfl⟩

abbrev nD : Nat := 1
abbrev τ : Topo := Topo.v7x

variable {F : FTy → Type} [FloatOps F]

class Facts₀ : Prop where
  concatenates_S262144x64_S262144x1_S262144x65_d1 : Shape.Concatenates [S262144x64, S262144x1] S262144x65 1
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  slices_S8192_S1_8191 : S8192.Slices ![8191] S1
  slices_S8192_S8191_0 : S8192.Slices ![0] S8191
  concatenates_S1_S8191_S8192_d0 : Shape.Concatenates [S1, S8191] S8192 0
  bcast_S_S1 : S_.BroadcastsInDim S1 (![] : Fin 0 → Fin S1.rank)
  bcast_S_S_ : S_.BroadcastsInDim S_ (![] : Fin 0 → Fin S_.rank)
  reduceWindows_S8192_S8192_w8192s1p8191_0 : S8192.ReduceWindows (![8192] : Fin 1 → Nat) ![1] ![8191] ![0] S8192
  h_S_ : 0 < S_.numel
  bcast_S_S262144 : S_.BroadcastsInDim S262144 (![] : Fin 0 → Fin S262144.rank)
  bcast_S_S8192 : S_.BroadcastsInDim S8192 (![] : Fin 0 → Fin S8192.rank)
  bcast_S8192_S8192x1_0 : S8192.BroadcastsInDim S8192x1 (![0] : Fin 1 → Fin S8192x1.rank)
  reduceWindows_S262144_S262144_w262144s1p262143_0 : S262144.ReduceWindows (![262144] : Fin 1 → Nat) ![1] ![262143] ![0] S262144
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  bcast_S_S8192x128 : S_.BroadcastsInDim S8192x128 (![] : Fin 0 → Fin S8192x128.rank)
  bcast_S8192x1_S8192x128_0_1 : S8192x1.BroadcastsInDim S8192x128 (![0, 1] : Fin 2 → Fin S8192x128.rank)
  reducesTo_S8192x128_S8192_d1 : S8192x128.ReducesTo [1] S8192
  bcast_S_S8192x1 : S_.BroadcastsInDim S8192x1 (![] : Fin 0 → Fin S8192x1.rank)
  bcast_S1x128_S8192x128_0_1 : S1x128.BroadcastsInDim S8192x128 (![0, 1] : Fin 2 → Fin S8192x128.rank)
  concatenates_S8192x192_S8192x2_S8192x194_d1 : Shape.Concatenates [S8192x192, S8192x2] S8192x194 1
  bcast_S1x1_S8192x1_0_1 : S1x1.BroadcastsInDim S8192x1 (![0, 1] : Fin 2 → Fin S8192x1.rank)
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  bcast_S_S8192x2 : S_.BroadcastsInDim S8192x2 (![] : Fin 0 → Fin S8192x2.rank)
  bcast_S262144_S262144x128_0 : S262144.BroadcastsInDim S262144x128 (![0] : Fin 1 → Fin S262144x128.rank)
  concatenates_S262144x128_S262144x128_S262144x256_d1 : Shape.Concatenates [S262144x128, S262144x128] S262144x256 1
  concatenates_S8192x1_S8192x2_S8192x3_d1 : Shape.Concatenates [S8192x1, S8192x2] S8192x3 1
  dot_S262144x65_S65x128_S262144x128_1_0_0_1_n_n_wf : DotDims.WF S262144x65 S65x128 S262144x128 [1] [0] [0] [1] [] []
  scatter_S8192_S1_S__n_0_0_0_wf : ScatterDims.WF S8192 S1 S_ [] [0] [0] 0
  scatter_S262144_S8192x1_S8192_n_0_0_1_wf : ScatterDims.WF S262144 S8192x1 S8192 [] [0] [0] 1
  gather_S8192_S262144x1_S262144_n_0_n_n_0_1_1_wf : GatherDims.WF S8192 S262144x1 S262144 [] [0] [] [0] [] 1 ![1]
  scatter_S8192x128_S262144x1_S262144x128_1_0_0_1_wf : ScatterDims.WF S8192x128 S262144x1 S262144x128 [1] [0] [0] 1
  scatter_S8192x192_S1_S8192x128_01_n_1_0_wf : ScatterDims.WF S8192x192 S1 S8192x128 [0, 1] [] [1] 0
  dot_S8192x194_S194x128_S8192x128_1_0_0_1_n_n_wf : DotDims.WF S8192x194 S194x128 S8192x128 [1] [0] [0] [1] [] []
  dot_S8192x128_S128x1_S8192x1_1_0_0_1_n_n_wf : DotDims.WF S8192x128 S128x1 S8192x1 [1] [0] [0] [1] [] []
  dot_S8192x128_S128x10_S8192x10_1_0_0_1_n_n_wf : DotDims.WF S8192x128 S128x10 S8192x10 [1] [0] [0] [1] [] []
  dot_S8192x128_S128x2_S8192x2_1_0_0_1_n_n_wf : DotDims.WF S8192x128 S128x2 S8192x2 [1] [0] [0] [1] [] []
  gather_S8192x128_S262144x1_S262144x128_1_0_n_n_0_1_1128_wf : GatherDims.WF S8192x128 S262144x1 S262144x128 [1] [0] [] [0] [] 1 ![1, 128]
  dot_S262144x256_S256x1_S262144x1_1_0_0_1_n_n_wf : DotDims.WF S262144x256 S256x1 S262144x1 [1] [0] [0] [1] [] []

variable [Facts₀]

def dot_S262144x65_S65x128_S262144x128_1_0_0_1_n_n : DotDims S262144x65 S65x128 S262144x128 where
  lhsContracting := [1]
  rhsContracting := [0]
  lhsNonContracting := [0]
  rhsNonContracting := [1]
  lhsBatch := []
  rhsBatch := []
  wf := dot_S262144x65_S65x128_S262144x128_1_0_0_1_n_n_wf
def scatter_S8192_S1_S__n_0_0_0 : ScatterDims S8192 S1 S_ where
  updateWindowDims := []
  insertedWindowDims := [0]
  scatterDimsToOperandDims := [0]
  indexVectorDim := 0
  wf := scatter_S8192_S1_S__n_0_0_0_wf
def scatter_S262144_S8192x1_S8192_n_0_0_1 : ScatterDims S262144 S8192x1 S8192 where
  updateWindowDims := []
  insertedWindowDims := [0]
  scatterDimsToOperandDims := [0]
  indexVectorDim := 1
  wf := scatter_S262144_S8192x1_S8192_n_0_0_1_wf
def gather_S8192_S262144x1_S262144_n_0_n_n_0_1_1 : GatherDims S8192 S262144x1 S262144 where
  offsetDims := []
  collapsedSliceDims := [0]
  operandBatchingDims := []
  startIndicesBatchingDims := []
  startIndexMap := [0]
  indexVectorDim := 1
  sliceSizes := ![1]
  wf := gather_S8192_S262144x1_S262144_n_0_n_n_0_1_1_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def scatter_S8192x192_S1_S8192x128_01_n_1_0 : ScatterDims S8192x192 S1 S8192x128 where
  updateWindowDims := [0, 1]
  insertedWindowDims := []
  scatterDimsToOperandDims := [1]
  indexVectorDim := 0
  wf := scatter_S8192x192_S1_S8192x128_01_n_1_0_wf
def dot_S8192x194_S194x128_S8192x128_1_0_0_1_n_n : DotDims S8192x194 S194x128 S8192x128 where
  lhsContracting := [1]
  rhsContracting := [0]
  lhsNonContracting := [0]
  rhsNonContracting := [1]
  lhsBatch := []
  rhsBatch := []
  wf := dot_S8192x194_S194x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S8192x128_S128x10_S8192x10_1_0_0_1_n_n : DotDims S8192x128 S128x10 S8192x10 where
  lhsContracting := [1]
  rhsContracting := [0]
  lhsNonContracting := [0]
  rhsNonContracting := [1]
  lhsBatch := []
  rhsBatch := []
  wf := dot_S8192x128_S128x10_S8192x10_1_0_0_1_n_n_wf
def dot_S8192x128_S128x2_S8192x2_1_0_0_1_n_n : DotDims S8192x128 S128x2 S8192x2 where
  lhsContracting := [1]
  rhsContracting := [0]
  lhsNonContracting := [0]
  rhsNonContracting := [1]
  lhsBatch := []
  rhsBatch := []
  wf := dot_S8192x128_S128x2_S8192x2_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def dot_S262144x256_S256x1_S262144x1_1_0_0_1_n_n : DotDims S262144x256 S256x1 S262144x1 where
  lhsContracting := [1]
  rhsContracting := [0]
  lhsNonContracting := [0]
  rhsNonContracting := [1]
  lhsBatch := []
  rhsBatch := []
  wf := dot_S262144x256_S256x1_S262144x1_1_0_0_1_n_n_wf

class Facts : Prop extends Facts₀ where

variable [Facts]
-- ==== Proof.KRun.lean ====
/-
  The kernel program's run, with every buffer named.

  The program is three pipelined regions among stretches of host operations.  Its run is the launch of the
  segments in order; at each boundary the TensorCore's buffers hold a known fold of the launch memory
  (`Gen.W0` … `Gen.W20`).  Here the run is stated with the whole final memory read back: every unscoped
  buffer ends at `Gen.W20`, the fold's last stage.  The value lemmas read that fold at the four results.
-/
import proofs.«145994_j34600256537163_1_alg».proof.Proof.Gen.KernelIdeal.Frame

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, and every unscoped
    TensorCore buffer ends at the last stage of the fold of the segments over the launch memory. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W20 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c b hb => h c _ (mem_uc b hb))

end Cert.KernelIdeal.KRun

end
-- ==== Proof.KHost.lean ====
/-
  The kernel program's host side, read through the fold of the segments.

  Between the launch and the first region the host slices the weight matrices and reshapes the bias
  and scale vectors; between the regions it computes the segment ids, the segment means and the row
  gather.  Each lemma here reads ONE buffer at ONE boundary of the fold: either it is untouched by the
  stretch (and keeps the earlier contents), or it is the stretch's operations applied to earlier buffers.
-/
import proofs.«145994_j34600256537163_1_alg».proof.Proof.Gen.KernelIdeal.Frame

noncomputable section

namespace Cert.KernelIdeal.KHost

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The host operations between the first and the second region, as one line. -/
abbrev gap1 : List (HloOp τ sig (Elt F)) :=
  hostOps1 ++ hostOps1_1 ++ hostOps1_2 ++ hostOps1_3 ++ hostOps1_4 ++ hostOps1_5 ++ hostOps1_6 ++ hostOps1_7 ++ hostOps1_8

/-- The host operations between the second and the third region, as one line. -/
abbrev gap2 : List (HloOp τ sig (Elt F)) :=
  hostOps2 ++ hostOps2_1 ++ hostOps2_2 ++ hostOps2_3 ++ hostOps2_4 ++ hostOps2_5 ++ hostOps2_6

theorem W11_eq (c : Dev nD) : W11 m ρ c = after gap1 (W2 m ρ c) := by
  simp only [gap1, StableHlo.after_append]

theorem W19_eq (c : Dev nD) : W19 m ρ c = after gap2 (W12 m ρ c) := by
  simp only [gap2, StableHlo.after_append]

/-- Closes `∀ op ∈ line, b ∉ op.writes` for a literal line and a literal buffer. -/
macro "line_leaves" : tactic =>
  `(tactic| (refine List.forall_iff_forall_mem.mp ?_
             simp only [gap1, gap2, hostOps0, hostOps1, hostOps1_1, hostOps1_2, hostOps1_3, hostOps1_4, hostOps1_5, hostOps1_6,
               hostOps1_7, hostOps1_8, hostOps2, hostOps2_1, hostOps2_2, hostOps2_3, hostOps2_4, hostOps2_5, hostOps2_6,
               List.cons_append, List.nil_append, List.append_nil, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-! ## Before the first region -/

theorem W1_arg2 (c : Dev nD) : W1 m ρ c (Proc.devRef .tc main_arg2) = m ((c : Thread nD τ).loc main_arg2) :=
  after_of_forall_not_mem (b := Proc.devRef .tc main_arg2) _ _ (by line_leaves)

theorem W1_v0 (c : Dev nD) : W1 m ρ c (Proc.devRef .tc main_v0)
    = extractStridedSlice S64x128 ![0, 0] (m ((c : Thread nD τ).loc main_arg5)) slices_S65x128_S64x128_0_0 := by
  show after hostOps0 (W0 m ρ c) (Proc.devRef .tc main_v0) = _
  after_results
  try rfl
theorem W1_v1 (c : Dev nD) : W1 m ρ c (Proc.devRef .tc main_v1)
    = extractStridedSlice S1x128 ![64, 0] (m ((c : Thread nD τ).loc main_arg5)) slices_S65x128_S1x128_64_0 := by
  show after hostOps0 (W0 m ρ c) (Proc.devRef .tc main_v1) = _
  after_results
  try rfl
theorem W1_v2 (c : Dev nD) : W1 m ρ c (Proc.devRef .tc main_v2)
    = extractStridedSlice S64x128 ![0, 0] (m ((c : Thread nD τ).loc main_arg9)) slices_S194x128_S64x128_0_0 := by
  show after hostOps0 (W0 m ρ c) (Proc.devRef .tc main_v2) = _
  after_results
  try rfl
theorem W1_v3 (c : Dev nD) : W1 m ρ c (Proc.devRef .tc main_v3)
    = extractStridedSlice S128x128 ![64, 0] (m ((c : Thread nD τ).loc main_arg9)) slices_S194x128_S128x128_64_0 := by
  show after hostOps0 (W0 m ρ c) (Proc.devRef .tc main_v3) = _
  after_results
  try rfl
theorem W1_v4 (c : Dev nD) : W1 m ρ c (Proc.devRef .tc main_v4)
    = extractStridedSlice S2x128 ![192, 0] (m ((c : Thread nD τ).loc main_arg9)) slices_S194x128_S2x128_192_0 := by
  show after hostOps0 (W0 m ρ c) (Proc.devRef .tc main_v4) = _
  after_results
  try rfl
theorem W1_v5 (c : Dev nD) : W1 m ρ c (Proc.devRef .tc main_v5)
    = extractStridedSlice S128x1 ![0, 0] (m ((c : Thread nD τ).loc main_arg21)) slices_S256x1_S128x1_0_0 := by
  show after hostOps0 (W0 m ρ c) (Proc.devRef .tc main_v5) = _
  after_results
  try rfl
theorem W1_v6 (c : Dev nD) : W1 m ρ c (Proc.devRef .tc main_v6)
    = extractStridedSlice S128x1 ![128, 0] (m ((c : Thread nD τ).loc main_arg21)) slices_S256x1_S128x1_128_0 := by
  show after hostOps0 (W0 m ρ c) (Proc.devRef .tc main_v6) = _
  after_results
  try rfl
theorem W1_v7 (c : Dev nD) : W1 m ρ c (Proc.devRef .tc main_v7)
    = shapeCast S1x128 (m ((c : Thread nD τ).loc main_arg6)) shapeCasts_S128_S1x128 := by
  show after hostOps0 (W0 m ρ c) (Proc.devRef .tc main_v7) = _
  after_results
  try rfl
theorem W1_v8 (c : Dev nD) : W1 m ρ c (Proc.devRef .tc main_v8)
    = shapeCast S1x128 (m ((c : Thread nD τ).loc main_arg7)) shapeCasts_S128_S1x128 := by
  show after hostOps0 (W0 m ρ c) (Proc.devRef .tc main_v8) = _
  after_results
  try rfl
theorem W1_v9 (c : Dev nD) : W1 m ρ c (Proc.devRef .tc main_v9)
    = shapeCast S1x128 (m ((c : Thread nD τ).loc main_arg8)) shapeCasts_S128_S1x128 := by
  show after hostOps0 (W0 m ρ c) (Proc.devRef .tc main_v9) = _
  after_results
  try rfl
theorem W1_v10 (c : Dev nD) : W1 m ρ c (Proc.devRef .tc main_v10)
    = shapeCast S1x128 (m ((c : Thread nD τ).loc main_arg10)) shapeCasts_S128_S1x128 := by
  show after hostOps0 (W0 m ρ c) (Proc.devRef .tc main_v10) = _
  after_results
  try rfl
theorem W1_v11 (c : Dev nD) : W1 m ρ c (Proc.devRef .tc main_v11)
    = shapeCast S1x128 (m ((c : Thread nD τ).loc main_arg11)) shapeCasts_S128_S1x128 := by
  show after hostOps0 (W0 m ρ c) (Proc.devRef .tc main_v11) = _
  after_results
  try rfl
theorem W1_v12 (c : Dev nD) : W1 m ρ c (Proc.devRef .tc main_v12)
    = shapeCast S1x128 (m ((c : Thread nD τ).loc main_arg12)) shapeCasts_S128_S1x128 := by
  show after hostOps0 (W0 m ρ c) (Proc.devRef .tc main_v12) = _
  after_results
  try rfl
theorem W1_v13 (c : Dev nD) : W1 m ρ c (Proc.devRef .tc main_v13)
    = shapeCast S1x1 (m ((c : Thread nD τ).loc main_arg14)) shapeCasts_S1_S1x1 := by
  show after hostOps0 (W0 m ρ c) (Proc.devRef .tc main_v13) = _
  after_results
  try rfl
theorem W1_v14 (c : Dev nD) : W1 m ρ c (Proc.devRef .tc main_v14)
    = shapeCast S1x10 (m ((c : Thread nD τ).loc main_arg16)) shapeCasts_S10_S1x10 := by
  show after hostOps0 (W0 m ρ c) (Proc.devRef .tc main_v14) = _
  after_results
  try rfl
theorem W1_v15 (c : Dev nD) : W1 m ρ c (Proc.devRef .tc main_v15)
    = shapeCast S1x1 (m ((c : Thread nD τ).loc main_arg18)) shapeCasts_S1_S1x1 := by
  show after hostOps0 (W0 m ρ c) (Proc.devRef .tc main_v15) = _
  after_results
  try rfl
theorem W1_v16 (c : Dev nD) : W1 m ρ c (Proc.devRef .tc main_v16)
    = shapeCast S1x2 (m ((c : Thread nD τ).loc main_arg20)) shapeCasts_S2_S1x2 := by
  show after hostOps0 (W0 m ρ c) (Proc.devRef .tc main_v16) = _
  after_results
  try rfl
theorem W1_v17 (c : Dev nD) : W1 m ρ c (Proc.devRef .tc main_v17)
    = shapeCast S1x1 (m ((c : Thread nD τ).loc main_arg22)) shapeCasts_S1_S1x1 := by
  show after hostOps0 (W0 m ρ c) (Proc.devRef .tc main_v17) = _
  after_results
  try rfl

/-- An argument array is untouched by the host operations before the first region. -/
theorem W1_keeps (c : Dev nD) (b : Ref sig .tc)
    (h : ∀ op ∈ (hostOps0 : List (HloOp τ sig (Elt F))), (Proc.devRef .tc b : DevRef τ sig) ∉ op.writes) :
    W1 m ρ c (Proc.devRef .tc b) = m ((c : Thread nD τ).loc b) :=
  after_of_forall_not_mem (b := Proc.devRef .tc b) _ _ h

/-! ## Up to the second region -/

/-- A buffer that neither the first region nor the host line after it writes holds, at the second region's entry,
    what it held at the first region's entry. -/
theorem W11_keeps (c : Dev nD) (b : Ref sig .tc) (h0 : ∀ w, Pipeline.arrRef spec0 w ≠ b)
    (h1 : ∀ op ∈ (gap1 : List (HloOp τ sig (Elt F))), (Proc.devRef .tc b : DevRef τ sig) ∉ op.writes) :
    W11 m ρ c (Proc.devRef .tc b) = W1 m ρ c (Proc.devRef .tc b) := by
  rw [W11_eq, after_of_forall_not_mem (b := Proc.devRef .tc b) _ _ h1]
  exact W2_of_ne m ρ c b h0

/-- The first region's output array, at the second region's entry: what the first pipeline leaves. -/
theorem W11_v18 (c : Dev nD) : W11 m ρ c (Proc.devRef .tc main_v18) = (dat0 (V1 m ρ) c).arrAt 5 cfg0.N := by
  rw [W11_eq, after_of_forall_not_mem (b := Proc.devRef .tc main_v18) _ _ (by line_leaves)]
  exact W2_arr m ρ c 5

/-! ## Up to the third region -/

/-- A buffer that no region and no host line after the first region's entry writes holds, at the third region's
    entry, what it held at the first region's entry. -/
theorem W19_keeps (c : Dev nD) (b : Ref sig .tc) (h0 : ∀ w, Pipeline.arrRef spec0 w ≠ b)
    (h1 : ∀ op ∈ (gap1 : List (HloOp τ sig (Elt F))), (Proc.devRef .tc b : DevRef τ sig) ∉ op.writes)
    (h2 : ∀ w, Pipeline.arrRef spec1 w ≠ b)
    (h3 : ∀ op ∈ (gap2 : List (HloOp τ sig (Elt F))), (Proc.devRef .tc b : DevRef τ sig) ∉ op.writes) :
    W19 m ρ c (Proc.devRef .tc b) = W1 m ρ c (Proc.devRef .tc b) := by
  rw [W19_eq, after_of_forall_not_mem (b := Proc.devRef .tc b) _ _ h3, W12_of_ne m ρ c b h2]
  exact W11_keeps m ρ c b h0 h1

/-- The first region's output array, at the third region's entry. -/
theorem W19_v18 (c : Dev nD) : W19 m ρ c (Proc.devRef .tc main_v18) = (dat0 (V1 m ρ) c).arrAt 5 cfg0.N := by
  rw [W19_eq, after_of_forall_not_mem (b := Proc.devRef .tc main_v18) _ _ (by line_leaves),
    W12_of_ne m ρ c main_v18 (by decide)]
  exact W11_v18 m ρ c

/-- The second region's fourth output array (the normalized root rows), when the second region ends. -/
theorem W12_xroot (c : Dev nD) : W12 m ρ c (Proc.devRef .tc main_v47_3) = (dat1 (V11 m ρ) c).arrAt 22 cfg1.N :=
  W12_arr m ρ c 22

/-! ## The results, at the end -/

theorem W20_ov (c : Dev nD) : W20 m ρ c (Proc.devRef .tc main_v47_0) = (dat1 (V11 m ρ) c).arrAt 19 cfg1.N := by
  rw [W20_of_ne m ρ c main_v47_0 (by decide), W19_eq,
    after_of_forall_not_mem (b := Proc.devRef .tc main_v47_0) _ _ (by line_leaves)]
  exact W12_arr m ρ c 19

theorem W20_oclsp (c : Dev nD) : W20 m ρ c (Proc.devRef .tc main_v47_1) = (dat1 (V11 m ρ) c).arrAt 20 cfg1.N := by
  rw [W20_of_ne m ρ c main_v47_1 (by decide), W19_eq,
    after_of_forall_not_mem (b := Proc.devRef .tc main_v47_1) _ _ (by line_leaves)]
  exact W12_arr m ρ c 20

theorem W20_ofx (c : Dev nD) : W20 m ρ c (Proc.devRef .tc main_v47_2) = (dat1 (V11 m ρ) c).arrAt 21 cfg1.N := by
  rw [W20_of_ne m ρ c main_v47_2 (by decide), W19_eq,
    after_of_forall_not_mem (b := Proc.devRef .tc main_v47_2) _ _ (by line_leaves)]
  exact W12_arr m ρ c 21

theorem W20_subout (c : Dev nD) : W20 m ρ c (Proc.devRef .tc main_v65) = (dat2 (V19 m ρ) c).arrAt 6 cfg2.N :=
  W20_arr m ρ c 6

end Cert.KernelIdeal.KHost

end
-- ==== Proof.Chains.lean ====
/-
  The integer side of both programs: from the bag lengths to the segment of every item.

  `lens` holds the 8192 bag lengths.  Rolling it by one and zeroing the first entry gives the lengths
  shifted; their running sum `starts` is where each bag begins among the 262144 items.  Adding one at
  every start position and taking the running sum again, minus one, gives for every item the number of its
  bag (`bagOf`).  Reading a table at those positions — clamped reads, with a fill where the position is
  out of range — is a `take`: of the numbers 0 … 8191 for the segment ids, of the normalized root rows for
  the expanded rows.

  Both programs print this chain operation for operation; the stages are named here once and both runs are
  read against these names, so the chain itself is never opened.
-/
import proofs.«145994_j34600256537163_1_alg».proof.Proof.Gen.KernelIdeal

noncomputable section

namespace Cert.Chains

open Cert.KernelIdeal Cert.KernelIdeal.Facts₀
open Idealize.ShloMosaic Idealize.ShloMosaic.TcCoe Idealize.SL.Sem

variable {F : FTy → Type} [FloatOps F]

/-- The lengths rolled by one place: the last first. -/
def rolled (lens : (⟨S8192, .i32⟩ : BufTy).Contents (Elt F)) : (⟨S8192, .i32⟩ : BufTy).Contents (Elt F) :=
  concatenate S8192 0 [⟨S1, extractStridedSlice S1 ![8191] lens slices_S8192_S1_8191⟩,
    ⟨S8191, extractStridedSlice S8191 ![0] lens slices_S8192_S8191_0⟩] concatenates_S1_S8191_S8192_d0

/-- The rolled lengths with a zero written at the first place. -/
def zeroFirst (x : (⟨S8192, .i32⟩ : BufTy).Contents (Elt F)) : (⟨S8192, .i32⟩ : BufTy).Contents (Elt F) :=
  Host.scatter scatter_S8192_S1_S__n_0_0_0 (fun _ b => b) x
    (broadcastInDim S1 ![] bcast_S_S1 (constantI S_ 32 0#32 : (⟨S_, .i32⟩ : BufTy).Contents (Elt F)))
    (constantI S_ 32 0#32)

/-- The running sum over the 8192 bags: where each bag starts. -/
def starts (x : (⟨S8192, .i32⟩ : BufTy).Contents (Elt F)) : (⟨S8192, .i32⟩ : BufTy).Contents (Elt F) :=
  Host.reduceWindow IntOp.addi ![8192] ![1] ![8191] ![0] x
    (broadcastInDim S_ ![] bcast_S_S_ (constantI S_ 32 0#32 : (⟨S_, .i32⟩ : BufTy).Contents (Elt F)))
    reduceWindows_S8192_S8192_w8192s1p8191_0 h_S_

/-- One added at every start position among the 262144 items (a negative start wrapped by 262144). -/
def marks (st : (⟨S8192, .i32⟩ : BufTy).Contents (Elt F)) : (⟨S262144, .i32⟩ : BufTy).Contents (Elt F) :=
  Host.scatter scatter_S262144_S8192x1_S8192_n_0_0_1 IntOp.addi
    (broadcastInDim S262144 ![] bcast_S_S262144 (constantI S_ 32 0#32 : (⟨S_, .i32⟩ : BufTy).Contents (Elt F)))
    (broadcastInDim S8192x1 ![0] bcast_S8192_S8192x1_0
      (select (cmpi .slt st (broadcastInDim S8192 ![] bcast_S_S8192 (constantI S_ 32 0#32 : (⟨S_, .i32⟩ : BufTy).Contents (Elt F))))
        (addi st (broadcastInDim S8192 ![] bcast_S_S8192 (constantI S_ 32 262144#32 : (⟨S_, .i32⟩ : BufTy).Contents (Elt F))))
        st))
    (broadcastInDim S8192 ![] bcast_S_S8192 (constantI S_ 32 1#32 : (⟨S_, .i32⟩ : BufTy).Contents (Elt F)))

/-- The running sum over the 262144 items. -/
def runningSum (x : (⟨S262144, .i32⟩ : BufTy).Contents (Elt F)) : (⟨S262144, .i32⟩ : BufTy).Contents (Elt F) :=
  Host.reduceWindow IntOp.addi ![262144] ![1] ![262143] ![0] x
    (broadcastInDim S_ ![] bcast_S_S_ (constantI S_ 32 0#32 : (⟨S_, .i32⟩ : BufTy).Contents (Elt F)))
    reduceWindows_S262144_S262144_w262144s1p262143_0 h_S_

/-- The running count minus one: every item's bag. -/
def lessOne (x : (⟨S262144, .i32⟩ : BufTy).Contents (Elt F)) : (⟨S262144, .i32⟩ : BufTy).Contents (Elt F) :=
  subi x (broadcastInDim S262144 ![] bcast_S_S262144 (constantI S_ 32 1#32 : (⟨S_, .i32⟩ : BufTy).Contents (Elt F)))

/-- A position made non-negative (a negative one wrapped by 8192), as a column. -/
def wrapped (p : (⟨S262144, .i32⟩ : BufTy).Contents (Elt F)) : (⟨S262144x1, .i32⟩ : BufTy).Contents (Elt F) :=
  broadcastInDim S262144x1 ![0] bcast_S262144_S262144x1_0
    (select (cmpi .slt p (broadcastInDim S262144 ![] bcast_S_S262144 (constantI S_ 32 0#32 : (⟨S_, .i32⟩ : BufTy).Contents (Elt F))))
      (addi p (broadcastInDim S262144 ![] bcast_S_S262144 (constantI S_ 32 8192#32 : (⟨S_, .i32⟩ : BufTy).Contents (Elt F))))
      p)

/-- Whether a wrapped position lies in 0 … 8191. -/
def inRange (w : (⟨S262144x1, .i32⟩ : BufTy).Contents (Elt F)) : (⟨S262144, .i1⟩ : BufTy).Contents (Elt F) :=
  Host.reduce IntOp.andi
    (andi (cmpi .sge w (broadcastInDim S262144x1 ![] bcast_S_S262144x1 (constantI S_ 32 0#32 : (⟨S_, .i32⟩ : BufTy).Contents (Elt F))))
      (cmpi .sle w (broadcastInDim S262144x1 ![0, 1] bcast_S1x1_S262144x1_0_1
        (broadcastInDim S1x1 ![1] bcast_S1_S1x1_1 (constantI S1 32 8191#32 : (⟨S1, .i32⟩ : BufTy).Contents (Elt F))))))
    (constantI S_ 1 1#1 : (⟨S_, .i1⟩ : BufTy).Contents (Elt F)) reducesTo_S262144x1_S262144_d1 h_S_

/-- The table of numbers read at every item's position: the item's segment id (the smallest integer where out of range). -/
def takeIds (tbl : (⟨S8192, .i32⟩ : BufTy).Contents (Elt F)) (p : (⟨S262144, .i32⟩ : BufTy).Contents (Elt F)) :
    (⟨S262144, .i32⟩ : BufTy).Contents (Elt F) :=
  select (inRange (wrapped p)) (Host.gather gather_S8192_S262144x1_S262144_n_0_n_n_0_1_1 tbl (wrapped p))
    (broadcastInDim S262144 ![] bcast_S_S262144 (constantI S_ 32 2147483648#32 : (⟨S_, .i32⟩ : BufTy).Contents (Elt F)))

/-- The table of rows read at every item's position: the item's bag's row (the fill where out of range). -/
def takeRows (tbl : (⟨S8192x128, .f32⟩ : BufTy).Contents (Elt F)) (p : (⟨S262144, .i32⟩ : BufTy).Contents (Elt F)) :
    (⟨S262144x128, .f32⟩ : BufTy).Contents (Elt F) :=
  select (broadcastInDim S262144x128 ![0] bcast_S262144_S262144x128_0 (inRange (wrapped p)))
    (Host.gather gather_S8192x128_S262144x1_S262144x128_1_0_n_n_0_1_1128 tbl (wrapped p))
    (broadcastInDim S262144x128 ![] bcast_S_S262144x128 (constant S_ .f32 0x7FC00000#32 : (⟨S_, .f32⟩ : BufTy).Contents (Elt F)))

/-- Every item's bag, from the lengths. -/
def bagOf (lens : (⟨S8192, .i32⟩ : BufTy).Contents (Elt F)) : (⟨S262144, .i32⟩ : BufTy).Contents (Elt F) :=
  lessOne (runningSum (marks (starts (zeroFirst (rolled lens)))))

/-- Every item's segment id. -/
def segIds (lens : (⟨S8192, .i32⟩ : BufTy).Contents (Elt F)) : (⟨S262144, .i32⟩ : BufTy).Contents (Elt F) :=
  takeIds (iotaInDim S8192 32 0) (bagOf lens)

/-- The segment sums of a 262144-row array, bag by bag. -/
def segSum (xs : (⟨S262144x128, .f32⟩ : BufTy).Contents (Elt F)) (ids : (⟨S262144, .i32⟩ : BufTy).Contents (Elt F)) :
    (⟨S8192x128, .f32⟩ : BufTy).Contents (Elt F) :=
  Host.scatterAdd scatter_S8192x128_S262144x1_S262144x128_1_0_0_1
    (broadcastInDim S8192x128 ![] bcast_S_S8192x128 (constant S_ .f32 0x00000000#32 : (⟨S_, .f32⟩ : BufTy).Contents (Elt F)))
    (broadcastInDim S262144x1 ![0] bcast_S262144_S262144x1_0 ids) xs

/-- The lengths, at least one. -/
def atLeastOne (lens : (⟨S8192, .i32⟩ : BufTy).Contents (Elt F)) : (⟨S8192, .i32⟩ : BufTy).Contents (Elt F) :=
  maxsi lens (broadcastInDim S8192 ![] bcast_S_S8192 (constantI S_ 32 1#32 : (⟨S_, .i32⟩ : BufTy).Contents (Elt F)))

/-- The divisor of the segment mean as the kernel program prepares it: converted to a float, then laid along the rows. -/
def divisorK (lens : (⟨S8192, .i32⟩ : BufTy).Contents (Elt F)) : (⟨S8192x128, .f32⟩ : BufTy).Contents (Elt F) :=
  broadcastInDim S8192x128 ![0, 1] bcast_S8192x1_S8192x128_0_1
    (broadcastInDim S8192x1 ![0] bcast_S8192_S8192x1_0 (sitofp .f32 (atLeastOne lens)))

/-- The segment means as the kernel program computes them on the host. -/
def segMeanK (xs : (⟨S262144x128, .f32⟩ : BufTy).Contents (Elt F)) (lens : (⟨S8192, .i32⟩ : BufTy).Contents (Elt F)) :
    (⟨S8192x128, .f32⟩ : BufTy).Contents (Elt F) :=
  Host.divf (segSum xs (segIds lens)) (divisorK lens)

end Cert.Chains

end
-- ==== Proof.KChain.lean ====
/-
  The kernel program's host lines between the regions, read stage by stage against the named chain
  (`Cert.Chains`): the segment ids and the segment means before the second region, the expanded root rows
  before the third.
-/
import proofs.«145994_j34600256537163_1_alg».proof.Proof.KHost
import proofs.«145994_j34600256537163_1_alg».proof.Proof.Chains

noncomputable section

namespace Cert.KernelIdeal.KChain

open Cert.KernelIdeal Cert.KernelIdeal.Gen Cert.KernelIdeal.KHost Cert.Chains
open Idealize.ShloMosaic Idealize.ShloMosaic.TcCoe Idealize.SL.Sem Idealize.ShloMosaic.StableHlo

variable {F : FTy → Type} [FloatOps F]

/-- Reads one buffer after a short literal line: the fold unrolled, each operation's result at its own buffer, the
    typed references' casts removed; what is left is the named stage by definition. -/
macro "stage_read" : tactic =>
  `(tactic| (simp only [after_cons, after_nil]
             repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))
             try simp only [TRef.toBuf, TRef.ofBuf, cast_eq]
             try rfl))

/-- The same for a longer line whose intermediate values have several readers: the results by one simplifier pass. -/
macro "stage_read_shared" : tactic =>
  `(tactic| (after_results_simp
             try simp only [TRef.toBuf, TRef.ofBuf, cast_eq]
             try rfl))

/-! ## One stage per host stretch, at any contents -/

theorem st_iota (V : Valuation τ sig (Elt F)) :
    after hostOps1 V (Proc.devRef .tc main_v19) = (iotaInDim S8192 32 0 : (⟨S8192, .i32⟩ : BufTy).Contents (Elt F)) := by
  stage_read

theorem st_rolled (V : Valuation τ sig (Elt F)) :
    after hostOps1_1 V (Proc.devRef .tc main_v20) = rolled (V (Proc.devRef .tc main_arg4)) := by
  stage_read

theorem st_zeroFirst (V : Valuation τ sig (Elt F)) :
    after hostOps1_2 V (Proc.devRef .tc main_v22) = zeroFirst (V (Proc.devRef .tc main_v20)) := by
  stage_read

theorem st_starts (V : Valuation τ sig (Elt F)) :
    after hostOps1_3 V (Proc.devRef .tc main_v23) = starts (V (Proc.devRef .tc main_v22)) := by
  stage_read

theorem st_marks (V : Valuation τ sig (Elt F)) :
    after hostOps1_4 V (Proc.devRef .tc main_v32) = marks (V (Proc.devRef .tc main_v23)) := by
  stage_read_shared

theorem st_runningSum (V : Valuation τ sig (Elt F)) :
    after hostOps1_5 V (Proc.devRef .tc main_v33) = runningSum (V (Proc.devRef .tc main_v32)) := by
  stage_read

theorem st_lessOne (V : Valuation τ sig (Elt F)) :
    after hostOps1_6 V (Proc.devRef .tc main_v35) = lessOne (V (Proc.devRef .tc main_v33)) := by
  stage_read

theorem st_takeIds (V : Valuation τ sig (Elt F)) :
    after hostOps1_7 V (Proc.devRef .tc main_v36) = takeIds (V (Proc.devRef .tc main_v19)) (V (Proc.devRef .tc main_v35)) := by
  stage_read_shared

theorem st_segMean (V : Valuation τ sig (Elt F)) :
    after hostOps1_8 V (Proc.devRef .tc main_v45) = Host.divf (segSum (V (Proc.devRef .tc main_v18)) (V (Proc.devRef .tc main_v36))) (divisorK (V (Proc.devRef .tc main_arg4))) := by
  stage_read

theorem st_rootPre (V : Valuation τ sig (Elt F)) :
    after hostOps1_8 V (Proc.devRef .tc main_v46) = extractStridedSlice S8192x64 ![0, 0] (V (Proc.devRef .tc main_arg0)) slices_S8192x192_S8192x64_0_0 := by
  stage_read

/-! ## The second copy of the chain, before the third region -/

theorem st2_rolled (V : Valuation τ sig (Elt F)) :
    after hostOps2 V (Proc.devRef .tc main_v48) = rolled (V (Proc.devRef .tc main_arg4)) := by
  stage_read

theorem st2_zeroFirst (V : Valuation τ sig (Elt F)) :
    after hostOps2_1 V (Proc.devRef .tc main_v50) = zeroFirst (V (Proc.devRef .tc main_v48)) := by
  stage_read

theorem st2_starts (V : Valuation τ sig (Elt F)) :
    after hostOps2_2 V (Proc.devRef .tc main_v51) = starts (V (Proc.devRef .tc main_v50)) := by
  stage_read

theorem st2_marks (V : Valuation τ sig (Elt F)) :
    after hostOps2_3 V (Proc.devRef .tc main_v60) = marks (V (Proc.devRef .tc main_v51)) := by
  stage_read_shared

theorem st2_runningSum (V : Valuation τ sig (Elt F)) :
    after hostOps2_4 V (Proc.devRef .tc main_v61) = runningSum (V (Proc.devRef .tc main_v60)) := by
  stage_read

theorem st2_lessOne (V : Valuation τ sig (Elt F)) :
    after hostOps2_5 V (Proc.devRef .tc main_v63) = lessOne (V (Proc.devRef .tc main_v61)) := by
  stage_read

theorem st2_takeRows (V : Valuation τ sig (Elt F)) :
    after hostOps2_6 V (Proc.devRef .tc main_v64) = takeRows (V (Proc.devRef .tc main_v47_3)) (V (Proc.devRef .tc main_v63)) := by
  stage_read_shared

/-! ## The stages composed along the fold -/

variable (m : (ℓ : Loc nD τ sig) → Buf (Elt F) ℓ) (ρ : Dev nD → PrngReg)

/-- The bag lengths are untouched up to the second region's host line. -/
theorem W2_lens (c : Dev nD) : W2 m ρ c (Proc.devRef .tc main_arg4) = m ((c : Thread nD τ).loc main_arg4) :=
  (W2_of_ne m ρ c main_arg4 (by decide)).trans (W1_keeps m ρ c main_arg4 (by line_leaves))

/-- Every item's bag, as the first copy of the chain leaves it. -/
theorem W9_bagOf (c : Dev nD) : W9 m ρ c (Proc.devRef .tc main_v35) = bagOf (m ((c : Thread nD τ).loc main_arg4)) := by
  dsimp only [W9, W8, W7, W6, W5, W4, W3]
  rw [st_lessOne, st_runningSum, st_marks, st_starts, st_zeroFirst, st_rolled,
    after_of_forall_not_mem (b := Proc.devRef .tc main_arg4) hostOps1 _ (by line_leaves), W2_lens]
  rfl

/-- The numbers 0 … 8191, still in place when the ids are taken. -/
theorem W9_iota (c : Dev nD) : W9 m ρ c (Proc.devRef .tc main_v19) = iotaInDim S8192 32 0 := by
  have e : W9 m ρ c = after (hostOps1_1 ++ hostOps1_2 ++ hostOps1_3 ++ hostOps1_4 ++ hostOps1_5 ++ hostOps1_6) (W3 m ρ c) := by
    simp only [StableHlo.after_append]
  rw [e, after_of_forall_not_mem (b := Proc.devRef .tc main_v19) _ _ (by line_leaves)]
  exact st_iota _

/-- The segment ids at the last host stretch before the second region. -/
theorem W10_segIds (c : Dev nD) : W10 m ρ c (Proc.devRef .tc main_v36) = segIds (m ((c : Thread nD τ).loc main_arg4)) := by
  show after hostOps1_7 (W9 m ρ c) _ = _
  rw [st_takeIds, W9_iota, W9_bagOf]
  rfl

/-- The segment means the second region is entered with: the host's mean of the first region's output. -/
theorem W11_segMean (c : Dev nD) : W11 m ρ c (Proc.devRef .tc main_v45)
    = segMeanK ((dat0 (V1 m ρ) c).arrAt 5 cfg0.N) (m ((c : Thread nD τ).loc main_arg4)) := by
  have e : W10 m ρ c = after (hostOps1 ++ hostOps1_1 ++ hostOps1_2 ++ hostOps1_3 ++ hostOps1_4 ++ hostOps1_5 ++ hostOps1_6 ++ hostOps1_7) (W2 m ρ c) := by
    simp only [StableHlo.after_append]
  show after hostOps1_8 (W10 m ρ c) _ = _
  rw [st_segMean, W10_segIds]
  rw [e, after_of_forall_not_mem (b := Proc.devRef .tc main_v18) _ _ (by line_leaves),
    after_of_forall_not_mem (b := Proc.devRef .tc main_arg4) _ _ (by line_leaves), W2_lens]
  rw [show W2 m ρ c (Proc.devRef .tc main_v18) = (dat0 (V1 m ρ) c).arrAt 5 cfg0.N from W2_arr m ρ c 5]
  rfl

/-- The first 64 columns of the root features, as the second region is entered. -/
theorem W11_rootPre (c : Dev nD) : W11 m ρ c (Proc.devRef .tc main_v46)
    = extractStridedSlice S8192x64 ![0, 0] (m ((c : Thread nD τ).loc main_arg0)) slices_S8192x192_S8192x64_0_0 := by
  have e : W10 m ρ c = after (hostOps1 ++ hostOps1_1 ++ hostOps1_2 ++ hostOps1_3 ++ hostOps1_4 ++ hostOps1_5 ++ hostOps1_6 ++ hostOps1_7) (W2 m ρ c) := by
    simp only [StableHlo.after_append]
  show after hostOps1_8 (W10 m ρ c) _ = _
  rw [st_rootPre, e, after_of_forall_not_mem (b := Proc.devRef .tc main_arg0) _ _ (by line_leaves),
    W2_of_ne m ρ c main_arg0 (by decide), W1_keeps m ρ c main_arg0 (by line_leaves)]

/-- The bag lengths are untouched up to the third region's host line. -/
theorem W12_lens (c : Dev nD) : W12 m ρ c (Proc.devRef .tc main_arg4) = m ((c : Thread nD τ).loc main_arg4) := by
  rw [W12_of_ne m ρ c main_arg4 (by decide), W11_keeps m ρ c main_arg4 (by decide) (by line_leaves)]
  exact W1_keeps m ρ c main_arg4 (by line_leaves)

/-- Every item's bag, as the second copy of the chain leaves it. -/
theorem W18_bagOf (c : Dev nD) : W18 m ρ c (Proc.devRef .tc main_v63) = bagOf (m ((c : Thread nD τ).loc main_arg4)) := by
  dsimp only [W18, W17, W16, W15, W14, W13]
  rw [st2_lessOne, st2_runningSum, st2_marks, st2_starts, st2_zeroFirst, st2_rolled, W12_lens]
  rfl

/-- The expanded root rows the third region is entered with: the second region's normalized rows, each read at its
    item's bag. -/
theorem W19_expanded (c : Dev nD) : W19 m ρ c (Proc.devRef .tc main_v64)
    = takeRows ((dat1 (V11 m ρ) c).arrAt 22 cfg1.N) (bagOf (m ((c : Thread nD τ).loc main_arg4))) := by
  have e : W18 m ρ c = after (hostOps2 ++ hostOps2_1 ++ hostOps2_2 ++ hostOps2_3 ++ hostOps2_4 ++ hostOps2_5) (W12 m ρ c) := by
    simp only [StableHlo.after_append]
  show after hostOps2_6 (W18 m ρ c) _ = _
  rw [st2_takeRows, W18_bagOf, e, after_of_forall_not_mem (b := Proc.devRef .tc main_v47_3) _ _ (by line_leaves)]
  rw [show W12 m ρ c (Proc.devRef .tc main_v47_3) = (dat1 (V11 m ρ) c).arrAt 22 cfg1.N from W12_arr m ρ c 22]

end Cert.KernelIdeal.KChain

end
-- ==== Proof.SubRawSpec.lean ====
import proofs.«145994_j34600256537163_1_alg».proof.Proof.Gen.KernelIdeal
import proofs.«145994_j34600256537163_1_alg».proof.Proof.Gen.ReferenceIdeal
import Idealize.ShloMosaic.Lib.ValueIdx

/-!
# The raw sub-item features: the two descriptions of one array

Stage XS of the program computes, for every item `n` (262144 of them) and every feature column `j` (128),

  x[n, j] = leaky (∑ₖ concat(f, mk)[n, k] · W[k, j] + b[j]),        leaky y = y if y ≥ 0 else 0.01 · y,

where `f` is the [262144, 64] array of item features, `mk` the [262144, 1] mask column, `W` the [65, 128]
weight matrix and `b` the bias row.

* `refXS` is the host program's description: one concatenation to 65 columns, one `dot_general` over the
  65 columns, the bias broadcast in two steps and added, and the activation spelt with a comparison against a
  broadcast zero, a product with a broadcast slope (slope on the LEFT) and a select.
* `kerXS` is the description the tiled kernel computes, as ONE function of the whole arrays, index by index:
  the weight matrix arrives split into its first 64 rows `Wf` and its last row `Wm`, the bias as a [1, 128]
  row `b2`; entry (n, j) is `leaky ((∑ₖ f[n,k] · Wf[k,j] + mk[n,0] · Wm[0,j]) + b2[0,j])`, the slope on the RIGHT.
-/

noncomputable section

open Idealize.ShloMosaic Idealize.ShloMosaic.TcCoe Idealize.SL.Sem
open Idealize.ShloMosaic.ValueIdx

namespace Cert.SubRaw

/-! ## The host program's term -/

/-- The value before the activation, as the host program composes it: `concat(f, mk) · W + b`, the bias
    broadcast first to a [1, 128] row and then down the 262144 rows. -/
def refPre (f : FVec Ideal Cert.ReferenceIdeal.S262144x64 .f32) (mk : FVec Ideal Cert.ReferenceIdeal.S262144x1 .f32)
    (W : FVec Ideal Cert.ReferenceIdeal.S65x128 .f32) (b : FVec Ideal Cert.ReferenceIdeal.S128 .f32) :
    FVec Ideal Cert.ReferenceIdeal.S262144x128 .f32 :=
  addf
    (Host.dotGeneral (F := Ideal) Cert.ReferenceIdeal.dot_S262144x65_S65x128_S262144x128_1_0_0_1_n_n none
      (concatenate Cert.ReferenceIdeal.S262144x65 1 [⟨Cert.ReferenceIdeal.S262144x64, f⟩, ⟨Cert.ReferenceIdeal.S262144x1, mk⟩]
        Cert.ReferenceIdeal.Facts₀.concatenates_S262144x64_S262144x1_S262144x65_d1)
      W)
    (broadcastInDim Cert.ReferenceIdeal.S262144x128 ![0, 1] Cert.ReferenceIdeal.Facts₀.bcast_S1x128_S262144x128_0_1
      (broadcastInDim Cert.ReferenceIdeal.S1x128 ![1] Cert.ReferenceIdeal.Facts₀.bcast_S128_S1x128_1 b))

/-- The host program's composed term for the activated features: with `x = refPre f mk W b`,
    `select (x ≥ broadcast 0) x (broadcast slope · x)`; the slope constant passes through the identity
    conversion before it is broadcast, as printed. -/
def refXS (f : FVec Ideal Cert.ReferenceIdeal.S262144x64 .f32) (mk : FVec Ideal Cert.ReferenceIdeal.S262144x1 .f32)
    (W : FVec Ideal Cert.ReferenceIdeal.S65x128 .f32) (b : FVec Ideal Cert.ReferenceIdeal.S128 .f32) :
    FVec Ideal Cert.ReferenceIdeal.S262144x128 .f32 :=
  select
    (cmpf .oge (refPre f mk W b)
      (broadcastInDim Cert.ReferenceIdeal.S262144x128 ![] Cert.ReferenceIdeal.Facts₀.bcast_S_S262144x128
        (constant (F := Ideal) Cert.ReferenceIdeal.S_ .f32 0x00000000#32)))
    (refPre f mk W b)
    (mulf
      (broadcastInDim Cert.ReferenceIdeal.S262144x128 ![] Cert.ReferenceIdeal.Facts₀.bcast_S_S262144x128
        (id (constant (F := Ideal) Cert.ReferenceIdeal.S_ .f32 0x3C23D70A#32)))
      (refPre f mk W b))

/-! ## The kernel's array, index by index -/

/-- The activation on one extended real, as the kernel computes it: `y` itself when `y ≥ 0`, else `y` times
    the slope (the f32 word nearest 0.01), the slope on the right. -/
def leaky (y : Ideal .f32) : Ideal .f32 :=
  Scalar.select (FloatOps.cmpf .oge y (Ideal.ofBits .f32 0x00000000#32)) y (y * Ideal.ofBits .f32 0x3C23D70A#32)

/-- Entry (n, j) before the activation, in the kernel's association: the 64-term product sum, plus the mask
    term, plus the bias. -/
def kerPreAt (f : FVec Ideal Cert.KernelIdeal.S262144x64 .f32) (mk : FVec Ideal Cert.KernelIdeal.S262144x1 .f32)
    (Wf : FVec Ideal Cert.KernelIdeal.S64x128 .f32) (Wm : FVec Ideal Cert.KernelIdeal.S1x128 .f32)
    (b2 : FVec Ideal Cert.KernelIdeal.S1x128 .f32) (n : Fin 262144) (j : Fin 128) : Ideal .f32 :=
  ((∑ k : Fin 64, f (ix2 n k) * Wf (ix2 k j)) + mk (ix2 n (0 : Fin 1)) * Wm (ix2 (0 : Fin 1) j)) + b2 (ix2 (0 : Fin 1) j)

/-- The kernel's result as one whole-array function: entry (n, j) is `leaky` of `kerPreAt … n j`. -/
def kerXS (f : FVec Ideal Cert.KernelIdeal.S262144x64 .f32) (mk : FVec Ideal Cert.KernelIdeal.S262144x1 .f32)
    (Wf : FVec Ideal Cert.KernelIdeal.S64x128 .f32) (Wm : FVec Ideal Cert.KernelIdeal.S1x128 .f32)
    (b2 : FVec Ideal Cert.KernelIdeal.S1x128 .f32) : FVec Ideal Cert.KernelIdeal.S262144x128 .f32 :=
  fun i => leaky (kerPreAt f mk Wf Wm b2 (i 0) (i 1))

/-- `kerXS` at the index with coordinates `n`, `j`. -/
theorem kerXS_apply (f : FVec Ideal Cert.KernelIdeal.S262144x64 .f32) (mk : FVec Ideal Cert.KernelIdeal.S262144x1 .f32)
    (Wf : FVec Ideal Cert.KernelIdeal.S64x128 .f32) (Wm : FVec Ideal Cert.KernelIdeal.S1x128 .f32)
    (b2 : FVec Ideal Cert.KernelIdeal.S1x128 .f32) (n : Fin 262144) (j : Fin 128) :
    kerXS f mk Wf Wm b2 (ix2 n j) = leaky (kerPreAt f mk Wf Wm b2 n j) := rfl

end Cert.SubRaw

end
-- ==== Proof.SubRawPayload.lean ====
import proofs.«145994_j34600256537163_1_alg».proof.Proof.SubRawSpec
import proofs.«145994_j34600256537163_1_alg».proof.Proof.Gen.KernelIdeal.Skeleton
import Idealize.ShloMosaic.Lib.Pipeline.Value
import Idealize.ShloMosaic.PureOps.Ideal.Laws

/-!
# The kernel's stored value at an entry of its block

At one grid point the kernel body loads an [8192, 64] block of features `x0`, the [64, 128] weight rows `x2`,
an [8192, 1] block of the mask column `x6`, the weight's last row `x7` and the bias row `x13` (both [1, 128]),
and stores one [8192, 128] block. Entry (p, q) of what it stores is

  leaky ((∑ₖ x0[p,k] · x2[k,q] + x6[p,0] · x7[0,q]) + x13[0,q]):

the matrix product accumulates into a zero splat, so it is the bare 64-term sum; the narrowing of the product's
operands to bf16 is the identity on extended reals; the same-shape casts are identities; the column and the two rows
are broadcast across the block.
-/

noncomputable section

open Idealize.ShloMosaic Idealize.ShloMosaic.TcCoe Idealize.SL.Sem
open Idealize.ShloMosaic.ValueIdx

namespace Cert.SubRaw

open Cert.KernelIdeal

/-! ## The block's matrix product at an entry -/

/-- The left operand's row coordinate in the kernel's product is the output's row. -/
theorem kerDot_lhs_row (i : S8192x128.Idx) (r : dot_S8192x64_S64x128_S8192x128_1_0_0_1_n_n.contr.Idx) :
    (dot_S8192x64_S64x128_S8192x128_1_0_0_1_n_n.lhsIdx i r 0).val = (i 0).val := by
  unfold DotDims.lhsIdx
  rw [dif_neg (show ¬(0 : Fin S8192x64.rank) ∈ dot_S8192x64_S64x128_S8192x128_1_0_0_1_n_n.lhsBatch by decide),
    dif_pos (show (0 : Fin S8192x64.rank) ∈ dot_S8192x64_S64x128_S8192x128_1_0_0_1_n_n.lhsNonContracting by decide)]
  rfl

/-- The right operand's column coordinate is the output's column. -/
theorem kerDot_rhs_col (i : S8192x128.Idx) (r : dot_S8192x64_S64x128_S8192x128_1_0_0_1_n_n.contr.Idx) :
    (dot_S8192x64_S64x128_S8192x128_1_0_0_1_n_n.rhsIdx i r 1).val = (i 1).val := by
  unfold DotDims.rhsIdx
  rw [dif_neg (show ¬(1 : Fin S64x128.rank) ∈ dot_S8192x64_S64x128_S8192x128_1_0_0_1_n_n.rhsBatch by decide),
    dif_pos (show (1 : Fin S64x128.rank) ∈ dot_S8192x64_S64x128_S8192x128_1_0_0_1_n_n.rhsNonContracting by decide)]
  rfl

/-- The kernel's matrix product into the zero splat, at entry (p, q) of the block: row `p` against column `q`. -/
theorem kerDot_apply (l : FVec Ideal S8192x64 .bf16) (r : FVec Ideal S64x128 .bf16) (p : Fin 8192) (q : Fin 128) :
    matmul dot_S8192x64_S64x128_S8192x128_1_0_0_1_n_n none l r (constant (F := Ideal) S8192x128 .f32 0x00000000#32) (ix2 p q)
      = ∑ k : Fin 64, l (ix2 p k) * r (ix2 k q) := by
  show FloatOps.matmul dot_S8192x64_S64x128_S8192x128_1_0_0_1_n_n none l r (constant S8192x128 .f32 0x00000000#32) (ix2 p q) = _
  rw [Ideal.matmul_constant_zero_apply,
    ← Equiv.sum_comp (contrEquiv1 dot_S8192x64_S64x128_S8192x128_1_0_0_1_n_n 64 rfl rfl).symm]
  refine Finset.sum_congr rfl fun k _ => ?_
  have hk := contrEquiv1_symm_val dot_S8192x64_S64x128_S8192x128_1_0_0_1_n_n 64 rfl rfl k
  have el : dot_S8192x64_S64x128_S8192x128_1_0_0_1_n_n.lhsIdx (ix2 p q)
      ((contrEquiv1 dot_S8192x64_S64x128_S8192x128_1_0_0_1_n_n 64 rfl rfl).symm k) = ix2 p k :=
    funext fun a => Fin.ext (by
      match a with
      | ⟨0, _⟩ => exact kerDot_lhs_row _ _
      | ⟨1, _⟩ => exact (dot_S8192x64_S64x128_S8192x128_1_0_0_1_n_n.lhsIdx_val_of_single rfl _ _).trans hk)
  have er : dot_S8192x64_S64x128_S8192x128_1_0_0_1_n_n.rhsIdx (ix2 p q)
      ((contrEquiv1 dot_S8192x64_S64x128_S8192x128_1_0_0_1_n_n 64 rfl rfl).symm k) = ix2 k q :=
    funext fun a => Fin.ext (by
      match a with
      | ⟨0, _⟩ => exact (dot_S8192x64_S64x128_S8192x128_1_0_0_1_n_n.rhsIdx_val_of_single rfl _ _).trans hk
      | ⟨1, _⟩ => exact kerDot_rhs_col _ _)
  rw [el, er]

/-! ## The broadcasts at an entry -/

/-- The mask column broadcast across the 128 columns reads the column's entry of the row. -/
theorem bcastCol_apply (x : Vec Ideal S8192x1 .f32) (h : S8192x1.Broadcasts S8192x128) (p : Fin 8192) (q : Fin 128) :
    broadcastTo S8192x128 x h (ix2 p q) = x (ix2 p (0 : Fin 1)) :=
  broadcastTo_apply x h (ix2 p q) (ix2 p (0 : Fin 1)) fun a => by
    match a with
    | ⟨0, _⟩ => show p.val = if (8192 : ℕ) = 1 then 0 else p.val; exact (if_neg (by decide)).symm
    | ⟨1, _⟩ => show (0 : ℕ) = if (1 : ℕ) = 1 then 0 else q.val; exact (if_pos rfl).symm

/-- A one-row matrix, cast to its own shape and broadcast down the 8192 rows, reads the row's entry of the column. -/
theorem bcastRow_apply (x : Vec Ideal S1x128 .f32) (hs : S1x128.ShapeCasts S1x128) (h : S1x128.Broadcasts S8192x128)
    (p : Fin 8192) (q : Fin 128) :
    broadcastTo S8192x128 (shapeCast S1x128 x hs) h (ix2 p q) = x (ix2 (0 : Fin 1) q) := by
  rw [shapeCast_self]
  exact broadcastTo_apply x h (ix2 p q) (ix2 (0 : Fin 1) q) fun a => by
    match a with
    | ⟨0, _⟩ => show (0 : ℕ) = if (1 : ℕ) = 1 then 0 else p.val; exact (if_pos rfl).symm
    | ⟨1, _⟩ => show q.val = if (128 : ℕ) = 1 then 0 else q.val; exact (if_neg (by decide)).symm

/-! ## The stored value at an entry -/

/-- Entry (p, q) of the block the body stores, from the blocks it loads. -/
theorem pay_apply (x0 : Vec Ideal S8192x64 .f32) (x2 : Vec Ideal S64x128 .f32) (x6 : Vec Ideal S8192x1 .f32)
    (x7 x13 : Vec Ideal S1x128 .f32) (p : Fin 8192) (q : Fin 128) :
    Gen.k0_pay1 x0 x2 x6 x7 x13 (ix2 p q)
      = leaky (((∑ k : Fin 64, x0 (ix2 p k) * x2 (ix2 k q)) + x6 (ix2 p (0 : Fin 1)) * x7 (ix2 (0 : Fin 1) q))
          + x13 (ix2 (0 : Fin 1) q)) := by
  unfold Gen.k0_pay1
  show leaky
      ((matmul dot_S8192x64_S64x128_S8192x128_1_0_0_1_n_n none (truncf .bf16 x0 _) (truncf .bf16 (shapeCast S64x128 x2 _) _)
            (constant (F := Ideal) S8192x128 .f32 0x00000000#32) (ix2 p q)
          + broadcastTo S8192x128 x6 _ (ix2 p q) * broadcastTo S8192x128 (shapeCast S1x128 x7 _) _ (ix2 p q))
        + broadcastTo S8192x128 (shapeCast S1x128 x13 _) _ (ix2 p q)) = _
  refine congrArg leaky (congrArg₂ (· + ·) (congrArg₂ (· + ·) ?_ (congrArg₂ (· * ·) (bcastCol_apply x6 _ p q) (bcastRow_apply x7 _ _ p q)))
    (bcastRow_apply x13 _ _ p q))
  refine (kerDot_apply _ _ p q).trans (Finset.sum_congr rfl fun k _ => ?_)
  exact congrArg (x0 (ix2 p k) * ·) (congrFun (shapeCast_self x2 _) (ix2 k q))

end Cert.SubRaw

end
-- ==== Proof.SubRawBlock.lean ====
import proofs.«145994_j34600256537163_1_alg».proof.Proof.SubRawPayload
import proofs.«145994_j34600256537163_1_alg».proof.Proof.Gen.KernelIdeal.Frame
import Idealize.ShloMosaic.Lib.Pipeline.Value

/-!
# From the kernel's blocks to the whole array

The first kernel runs on a grid of 32 points. At point `t` it is handed rows `8192·t … 8192·t + 8191` of the
feature array and of the mask column and the three small arrays whole, and writes back rows
`8192·t … 8192·t + 8191` of the result. Since entry (p, q) of the block it stores depends only on row `p` of
its row blocks, what point `t` writes back is block `t` of ONE function of the whole arrays, `kerXS`; the 32
blocks tile the 262144 rows, so after the last point the result array is `kerXS` of the arrays the region found.
Everything is stated for arbitrary contents `V` of the buffers at the region's entry.
-/

noncomputable section

open Idealize.ShloMosaic Idealize.ShloMosaic.TcCoe Idealize.SL.Sem
open Idealize.ShloMosaic.ValueIdx
open Idealize.ShloMosaic.Pipeline (Dat)

namespace Cert.SubRaw

open Cert.KernelIdeal

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the grid: the row-blocked windows (features, mask column, result) sit at block
    row `t`, block column 0; the three small windows at block (0, 0). -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each input block as rows of its array -/

/-- The feature block at point `t` is rows `8192·t …` of the feature array. -/
theorem featBlock (c : Dev nD) (t : Fin cfg0.N) (y : S8192x64.Idx) (i : S262144x64.Idx)
    (h0 : (i 0).val = t.val * 8192 + (y 0).val) (h1 : (i 1).val = (y 1).val) :
    (Gen.iblk0 V c 0 t : Vec Ideal S8192x64 .f32) y = (V c main_arg2 : S262144x64.Idx → Ideal .f32) i := by
  obtain ⟨e0, e1, -⟩ := blockIndex t
  unfold Gen.iblk0
  rw [View.read_apply]
  show V c main_arg2 _ = V c main_arg2 _
  refine congrArg (V c main_arg2) (funext fun a => Fin.ext ?_)
  match a with
  | ⟨0, _⟩ => show win0_0.index t (0 : Fin 2) * 8192 + 1 * (y 0).val = (i 0).val; rw [e0, h0]; omega
  | ⟨1, _⟩ => show win0_0.index t (1 : Fin 2) * 64 + 1 * (y 1).val = (i 1).val; rw [e1, h1]; omega

/-- The mask block at point `t` is rows `8192·t …` of the mask column. -/
theorem maskBlock (c : Dev nD) (t : Fin cfg0.N) (y : S8192x1.Idx) (i : S262144x1.Idx)
    (h0 : (i 0).val = t.val * 8192 + (y 0).val) (h1 : (i 1).val = (y 1).val) :
    (Gen.iblk0 V c 1 t : Vec Ideal S8192x1 .f32) y = (V c main_arg3 : S262144x1.Idx → Ideal .f32) i := by
  obtain ⟨-, -, e0, e1, -⟩ := blockIndex t
  unfold Gen.iblk0
  rw [View.read_apply]
  show V c main_arg3 _ = V c main_arg3 _
  refine congrArg (V c main_arg3) (funext fun a => Fin.ext ?_)
  match a with
  | ⟨0, _⟩ => show win0_1.index t (0 : Fin 2) * 8192 + 1 * (y 0).val = (i 0).val; rw [e0, h0]; omega
  | ⟨1, _⟩ => show win0_1.index t (1 : Fin 2) * 1 + 1 * (y 1).val = (i 1).val; rw [e1, h1]; omega

/-- The block of the weight's first 64 rows is that array, whole, at every point. -/
theorem rowsBlock (c : Dev nD) (t : Fin cfg0.N) (y : S64x128.Idx) :
    (Gen.iblk0 V c 2 t : Vec Ideal S64x128 .f32) y = (V c main_v0 : S64x128.Idx → Ideal .f32) y := by
  obtain ⟨-, -, -, -, e0, e1, -⟩ := blockIndex t
  unfold Gen.iblk0
  rw [View.read_apply]
  show V c main_v0 _ = V c main_v0 _
  refine congrArg (V c main_v0) (funext fun a => Fin.ext ?_)
  match a with
  | ⟨0, _⟩ => show win0_2.index t (0 : Fin 2) * 64 + 1 * (y 0).val = (y 0).val; rw [e0]; omega
  | ⟨1, _⟩ => show win0_2.index t (1 : Fin 2) * 128 + 1 * (y 1).val = (y 1).val; rw [e1]; omega

/-- The block of the weight's last row is that array, whole, at every point. -/
theorem lastRowBlock (c : Dev nD) (t : Fin cfg0.N) (y : S1x128.Idx) :
    (Gen.iblk0 V c 3 t : Vec Ideal S1x128 .f32) y = (V c main_v1 : S1x128.Idx → Ideal .f32) y := by
  obtain ⟨-, -, -, -, -, -, e0, e1, -⟩ := blockIndex t
  unfold Gen.iblk0
  rw [View.read_apply]
  show V c main_v1 _ = V c main_v1 _
  refine congrArg (V c main_v1) (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The block of the bias row is that array, whole, at every point. -/
theorem biasBlock (c : Dev nD) (t : Fin cfg0.N) (y : S1x128.Idx) :
    (Gen.iblk0 V c 4 t : Vec Ideal S1x128 .f32) y = (V c main_v7 : S1x128.Idx → Ideal .f32) y := by
  obtain ⟨-, -, -, -, -, -, -, -, e0, e1, -⟩ := blockIndex t
  unfold Gen.iblk0
  rw [View.read_apply]
  show V c main_v7 _ = V c main_v7 _
  refine congrArg (V c main_v7) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-! ## What a point writes back -/

/-- Entry (p, q) of the result's block at point `t` sits at row `8192·t + p`, column `q` of the result array. -/
theorem resultEmb (t : Fin cfg0.N) (p : Fin 8192) (q : Fin 128) (n : Fin 262144) (hn : n.val = t.val * 8192 + p.val) :
    ((cfg0.win 5).blk t).view.emb (ix2 p q) = (ix2 n q : S262144x128.Idx) := by
  obtain ⟨-, -, -, -, -, -, -, -, -, -, e0, e1⟩ := blockIndex t
  refine funext fun a => Fin.ext ?_
  match a with
  | ⟨0, _⟩ => show win0_5.index t (0 : Fin 2) * 8192 + 1 * p.val = n.val; rw [e0, hn]; omega
  | ⟨1, _⟩ => show win0_5.index t (1 : Fin 2) * 128 + 1 * q.val = q.val; rw [e1]; omega

/-- WHAT POINT `t` WRITES BACK is block `t` of `kerXS` of the arrays as the region finds them. -/
theorem flushed_eq (c : Dev nD) (t : Fin cfg0.N) :
    (Gen.dat0 V c).flushed 5 t = ((cfg0.win 5).blk t).view.read (Elt Ideal)
      (kerXS (V c main_arg2) (V c main_arg3) (V c main_v0) (V c main_v1) (V c main_v7)) := by
  show (cfg0.win 5).cut (grid0.coords t) ((Gen.dat0 V c).after 5 t) = _
  rw [Gen.after0_5]
  unfold Gen.out0_5
  rw [View.canon_unit_zero zeroOffsets]
  simp only [View.ld_unit_zero (S := S8192x64) zeroOffsets, View.ld_unit_zero (S := S64x128) zeroOffsets,
    View.ld_unit_zero (S := S8192x1) zeroOffsets, View.ld_unit_zero (S := S1x128) zeroOffsets]
  funext y
  obtain ⟨p, q, rfl⟩ : ∃ (p : Fin 8192) (q : Fin 128), y = ix2 p q := ⟨y 0, y 1, eq_ix2 y⟩
  have ht : t.val < 32 := Nat.lt_of_lt_of_eq t.isLt (show cfg0.N = 32 from Gen.N_0)
  have hp : p.val < 8192 := p.isLt
  obtain ⟨n, hn⟩ : ∃ n : Fin 262144, n.val = t.val * 8192 + p.val := ⟨⟨t.val * 8192 + p.val, by omega⟩, rfl⟩
  show Gen.k0_pay1 (Gen.iblk0 V c 0 t) (Gen.iblk0 V c 2 t) (Gen.iblk0 V c 1 t) (Gen.iblk0 V c 3 t) (Gen.iblk0 V c 4 t) (ix2 p q)
    = kerXS (V c main_arg2) (V c main_arg3) (V c main_v0) (V c main_v1) (V c main_v7) (((cfg0.win 5).blk t).view.emb (ix2 p q))
  refine (pay_apply (Gen.iblk0 V c 0 t) (Gen.iblk0 V c 2 t) (Gen.iblk0 V c 1 t) (Gen.iblk0 V c 3 t) (Gen.iblk0 V c 4 t) p q).trans ?_
  refine Eq.trans ?_ (congrArg (kerXS (V c main_arg2) (V c main_arg3) (V c main_v0) (V c main_v1) (V c main_v7)) (resultEmb t p q n hn)).symm
  refine Eq.trans ?_ (kerXS_apply _ _ _ _ _ n q).symm
  unfold kerPreAt
  refine congrArg leaky (congrArg₂ (· + ·) (congrArg₂ (· + ·) (Finset.sum_congr rfl fun k _ => ?_) ?_) (biasBlock V c t _))
  · exact congrArg₂ (· * ·) (featBlock V c t (ix2 p k) (ix2 n k) hn rfl) (rowsBlock V c t _)
  · exact congrArg₂ (· * ·) (maskBlock V c t (ix2 p (0 : Fin 1)) (ix2 n (0 : Fin 1)) hn rfl) (lastRowBlock V c t _)

/-! ## The blocks tile the array -/

/-- An index of the result array is in point `t`'s block iff each coordinate is in the block's range on its axis. -/
theorem mem_resultBlock (t : Fin cfg0.N) (i : S262144x128.Idx) :
    i ∈ ((cfg0.win 5).blk t).view.set ↔ ∀ a : Fin 2, win0_5.index t a * S8192x128.size a ≤ (i a).val
      ∧ (i a).val < win0_5.index t a * S8192x128.size a + S8192x128.size a := by
  show i ∈ ((View.whole main_v18).slice (win0_5.rect t)).set ↔ _
  rw [View.set_slice_whole, Rect.mem_set_unit]
  exact Iff.rfl

/-- Row `r` of the result is written by point `r / 8192`: every index is in some point's block. -/
theorem covered (i : S262144x128.Idx) :
    ∃ t : Fin cfg0.N, (cfg0.win 5).flush t = true ∧ i ∈ ((cfg0.win 5).blk t).view.set := by
  have hi0 : (i 0).val < 262144 := (i 0).isLt
  have hi1 : (i 1).val < 128 := (i 1).isLt
  obtain ⟨t, ht⟩ : ∃ t : Fin cfg0.N, t.val = (i 0).val / 8192 :=
    ⟨⟨(i 0).val / 8192, by rw [show cfg0.N = 32 from Gen.N_0]; omega⟩, rfl⟩
  obtain ⟨-, -, -, -, -, -, -, -, -, -, e0, e1⟩ := blockIndex t
  refine ⟨t, Gen.flush0_5 t, ?_⟩
  rw [mem_resultBlock]
  intro a
  match a with
  | ⟨0, _⟩ =>
    show win0_5.index t (0 : Fin 2) * 8192 ≤ (i 0).val ∧ (i 0).val < win0_5.index t (0 : Fin 2) * 8192 + 8192
    rw [e0, ht]; omega
  | ⟨1, _⟩ =>
    show win0_5.index t (1 : Fin 2) * 128 ≤ (i 1).val ∧ (i 1).val < win0_5.index t (1 : Fin 2) * 128 + 128
    rw [e1]; omega

/-! ## The array after the region -/

/-- After the 32 points the result array is `kerXS` of the five input arrays as the region found them. -/
theorem xs_array (c : Dev nD) :
    (Gen.dat0 V c).arrAt 5 cfg0.N = kerXS (V c main_arg2) (V c main_arg3) (V c main_v0) (V c main_v1) (V c main_v7) :=
  (Gen.dat0 V c).arrAt_eq_of_cover 5 _ (fun t _ => flushed_eq V c t) covered

end Cert.SubRaw

end
-- ==== Proof.SubRawBridge.lean ====
import proofs.«145994_j34600256537163_1_alg».proof.Proof.SubRawSpec
import Idealize.ShloMosaic.Lib.Pipeline.Value
import Idealize.ShloMosaic.Lib.KernelVsHost
import Idealize.ShloMosaic.PureOps.Ideal.Laws

/-!
# The two descriptions of the raw sub-item features agree

`kerXS`, fed with the first 64 rows of the weight matrix, its last row and the bias as a one-row matrix,
is `refXS`. Entry by entry: the host's 65-term product sum over the concatenated row splits into its first 64
terms — where the concatenation reads the feature columns and the weight's first 64 rows — plus its last term,
the mask entry times the weight's last row; the bias is the same entry read through two layouts; and the two
spellings of the activation differ by the order of one product. Only commutativity of the product of extended
reals is used; no entry needs to be finite.
-/

noncomputable section

open Idealize.ShloMosaic Idealize.ShloMosaic.TcCoe Idealize.SL.Sem
open Idealize.ShloMosaic.ValueIdx

namespace Cert.SubRaw

/-! ## The host's product sum at an entry -/

/-- The left operand's row coordinate in the host's `dot_general` is the output's row. -/
theorem refDot_lhs_row (i : Cert.ReferenceIdeal.S262144x128.Idx)
    (q : Cert.ReferenceIdeal.dot_S262144x65_S65x128_S262144x128_1_0_0_1_n_n.contr.Idx) :
    (Cert.ReferenceIdeal.dot_S262144x65_S65x128_S262144x128_1_0_0_1_n_n.lhsIdx i q 0).val = (i 0).val := by
  unfold DotDims.lhsIdx
  rw [dif_neg (show ¬(0 : Fin Cert.ReferenceIdeal.S262144x65.rank) ∈ Cert.ReferenceIdeal.dot_S262144x65_S65x128_S262144x128_1_0_0_1_n_n.lhsBatch by decide),
    dif_pos (show (0 : Fin Cert.ReferenceIdeal.S262144x65.rank) ∈ Cert.ReferenceIdeal.dot_S262144x65_S65x128_S262144x128_1_0_0_1_n_n.lhsNonContracting by decide)]
  rfl

/-- The right operand's column coordinate is the output's column. -/
theorem refDot_rhs_col (i : Cert.ReferenceIdeal.S262144x128.Idx)
    (q : Cert.ReferenceIdeal.dot_S262144x65_S65x128_S262144x128_1_0_0_1_n_n.contr.Idx) :
    (Cert.ReferenceIdeal.dot_S262144x65_S65x128_S262144x128_1_0_0_1_n_n.rhsIdx i q 1).val = (i 1).val := by
  unfold DotDims.rhsIdx
  rw [dif_neg (show ¬(1 : Fin Cert.ReferenceIdeal.S65x128.rank) ∈ Cert.ReferenceIdeal.dot_S262144x65_S65x128_S262144x128_1_0_0_1_n_n.rhsBatch by decide),
    dif_pos (show (1 : Fin Cert.ReferenceIdeal.S65x128.rank) ∈ Cert.ReferenceIdeal.dot_S262144x65_S65x128_S262144x128_1_0_0_1_n_n.rhsNonContracting by decide)]
  rfl

/-- The host's `dot_general` of a [262144, 65] by a [65, 128] matrix at entry (n, j): the sum over the 65
    columns of row `n` against column `j`. -/
theorem refDot_apply (X : FVec Ideal Cert.ReferenceIdeal.S262144x65 .f32) (W : FVec Ideal Cert.ReferenceIdeal.S65x128 .f32)
    (n : Fin 262144) (j : Fin 128) :
    Host.dotGeneral (F := Ideal) Cert.ReferenceIdeal.dot_S262144x65_S65x128_S262144x128_1_0_0_1_n_n none X W (ix2 n j)
      = ∑ k : Fin 65, X (ix2 n k) * W (ix2 k j) := by
  show FloatOps.dotGeneral Cert.ReferenceIdeal.dot_S262144x65_S65x128_S262144x128_1_0_0_1_n_n none _ X W (ix2 n j) = _
  rw [Ideal.dotGeneral_apply,
    ← Equiv.sum_comp (contrEquiv1 Cert.ReferenceIdeal.dot_S262144x65_S65x128_S262144x128_1_0_0_1_n_n 65 rfl rfl).symm]
  refine Finset.sum_congr rfl fun k _ => ?_
  have hk := contrEquiv1_symm_val Cert.ReferenceIdeal.dot_S262144x65_S65x128_S262144x128_1_0_0_1_n_n 65 rfl rfl k
  have el : Cert.ReferenceIdeal.dot_S262144x65_S65x128_S262144x128_1_0_0_1_n_n.lhsIdx (ix2 n j)
      ((contrEquiv1 Cert.ReferenceIdeal.dot_S262144x65_S65x128_S262144x128_1_0_0_1_n_n 65 rfl rfl).symm k) = ix2 n k :=
    funext fun a => Fin.ext (by
      match a with
      | ⟨0, _⟩ => exact refDot_lhs_row _ _
      | ⟨1, _⟩ => exact (Cert.ReferenceIdeal.dot_S262144x65_S65x128_S262144x128_1_0_0_1_n_n.lhsIdx_val_of_single rfl _ _).trans hk)
  have er : Cert.ReferenceIdeal.dot_S262144x65_S65x128_S262144x128_1_0_0_1_n_n.rhsIdx (ix2 n j)
      ((contrEquiv1 Cert.ReferenceIdeal.dot_S262144x65_S65x128_S262144x128_1_0_0_1_n_n 65 rfl rfl).symm k) = ix2 k j :=
    funext fun a => Fin.ext (by
      match a with
      | ⟨0, _⟩ => exact (Cert.ReferenceIdeal.dot_S262144x65_S65x128_S262144x128_1_0_0_1_n_n.rhsIdx_val_of_single rfl _ _).trans hk
      | ⟨1, _⟩ => exact refDot_rhs_col _ _)
  rw [el, er]

/-! ## The layouts at an entry -/

/-- The concatenated row at one of its first 64 columns is the feature row there. -/
theorem cat_feature (f : FVec Ideal Cert.ReferenceIdeal.S262144x64 .f32) (mk : FVec Ideal Cert.ReferenceIdeal.S262144x1 .f32)
    (n : Fin 262144) (k : Fin 64) :
    concatenate Cert.ReferenceIdeal.S262144x65 1 [⟨Cert.ReferenceIdeal.S262144x64, f⟩, ⟨Cert.ReferenceIdeal.S262144x1, mk⟩]
      Cert.ReferenceIdeal.Facts₀.concatenates_S262144x64_S262144x1_S262144x65_d1 (ix2 n k.castSucc) = f (ix2 n k) :=
  concatenate_pair_apply_left (1 : Fin 2) f mk _ (ix2 n k.castSucc) rfl (ix2 n k) fun b => by
    match b with
    | ⟨0, _⟩ => rfl
    | ⟨1, _⟩ => rfl

/-- The concatenated row at its last column is the mask entry. -/
theorem cat_mask (f : FVec Ideal Cert.ReferenceIdeal.S262144x64 .f32) (mk : FVec Ideal Cert.ReferenceIdeal.S262144x1 .f32)
    (n : Fin 262144) :
    concatenate Cert.ReferenceIdeal.S262144x65 1 [⟨Cert.ReferenceIdeal.S262144x64, f⟩, ⟨Cert.ReferenceIdeal.S262144x1, mk⟩]
      Cert.ReferenceIdeal.Facts₀.concatenates_S262144x64_S262144x1_S262144x65_d1 (ix2 n (Fin.last 64)) = mk (ix2 n (0 : Fin 1)) :=
  concatenate_pair_apply_right (1 : Fin 2) f mk _ (ix2 n (Fin.last 64)) rfl rfl (ix2 n (0 : Fin 1))
    (fun b hb => by
      match b, hb with
      | ⟨0, _⟩, _ => rfl
      | ⟨1, _⟩, hb => exact absurd rfl hb)
    rfl

/-- Row `k` of the slice of the weight's first 64 rows is row `k` of the weight. -/
theorem sliceRows_apply (W : FVec Ideal Cert.KernelIdeal.S65x128 .f32) (h : Cert.KernelIdeal.S65x128.Slices ![0, 0] Cert.KernelIdeal.S64x128)
    (k : Fin 64) (j : Fin 128) :
    extractStridedSlice Cert.KernelIdeal.S64x128 ![0, 0] W h (ix2 k j) = W (ix2 k.castSucc j) :=
  extractStridedSlice_apply ![0, 0] W h (ix2 k j) (ix2 k.castSucc j) fun a => by
    match a with
    | ⟨0, _⟩ => show k.val = 0 + k.val; omega
    | ⟨1, _⟩ => show j.val = 0 + j.val; omega

/-- The one row of the slice of the weight's last row is row 64 of the weight. -/
theorem sliceLast_apply (W : FVec Ideal Cert.KernelIdeal.S65x128 .f32) (h : Cert.KernelIdeal.S65x128.Slices ![64, 0] Cert.KernelIdeal.S1x128)
    (j : Fin 128) :
    extractStridedSlice Cert.KernelIdeal.S1x128 ![64, 0] W h (ix2 (0 : Fin 1) j) = W (ix2 (Fin.last 64) j) :=
  extractStridedSlice_apply ![64, 0] W h (ix2 (0 : Fin 1) j) (ix2 (Fin.last 64) j) fun a => by
    match a with
    | ⟨0, _⟩ => show 64 = 64 + 0; rfl
    | ⟨1, _⟩ => show j.val = 0 + j.val; omega

/-- The bias reshaped to one row reads the bias. -/
theorem biasRow_apply (b : FVec Ideal Cert.KernelIdeal.S128 .f32) (h : Cert.KernelIdeal.S128.ShapeCasts Cert.KernelIdeal.S1x128) (j : Fin 128) :
    shapeCast Cert.KernelIdeal.S1x128 b h (ix2 (0 : Fin 1) j) = b (ix1 j) :=
  shapeCast_apply b h (ix2 (0 : Fin 1) j) (ix1 j) (by
    rw [Shape.rowMajor_val_one, Shape.rowMajor_val_two]; show j.val = 0 * 128 + j.val; omega)

/-- The bias broadcast to one row and then down the rows reads the bias. -/
theorem biasBcast_apply (b : FVec Ideal Cert.ReferenceIdeal.S128 .f32) (n : Fin 262144) (j : Fin 128) :
    broadcastInDim Cert.ReferenceIdeal.S262144x128 ![0, 1] Cert.ReferenceIdeal.Facts₀.bcast_S1x128_S262144x128_0_1
      (broadcastInDim Cert.ReferenceIdeal.S1x128 ![1] Cert.ReferenceIdeal.Facts₀.bcast_S128_S1x128_1 b) (ix2 n j) = b (ix1 j) :=
  (broadcastInDim_oneRow_apply _ _ n j).trans
    (broadcastInDim_apply ![1] _ b (ix2 (0 : Fin 1) j) (ix1 j) fun a => by
      match a with
      | ⟨0, _⟩ => show j.val = if (128 : ℕ) = 1 then 0 else j.val; exact (if_neg (by decide)).symm)

/-! ## The host's term at an entry -/

/-- Before the activation: the 65-term sum plus the bias. -/
theorem refPre_apply (f : FVec Ideal Cert.ReferenceIdeal.S262144x64 .f32) (mk : FVec Ideal Cert.ReferenceIdeal.S262144x1 .f32)
    (W : FVec Ideal Cert.ReferenceIdeal.S65x128 .f32) (b : FVec Ideal Cert.ReferenceIdeal.S128 .f32) (n : Fin 262144) (j : Fin 128) :
    refPre f mk W b (ix2 n j)
      = (∑ k : Fin 65, concatenate Cert.ReferenceIdeal.S262144x65 1 [⟨Cert.ReferenceIdeal.S262144x64, f⟩, ⟨Cert.ReferenceIdeal.S262144x1, mk⟩]
          Cert.ReferenceIdeal.Facts₀.concatenates_S262144x64_S262144x1_S262144x65_d1 (ix2 n k) * W (ix2 k j)) + b (ix1 j) :=
  congrArg₂ (· + ·) (refDot_apply _ W n j) (biasBcast_apply b n j)

/-- The host's activation at an entry is `leaky` of the value before it: the broadcast constants read their
    words, and the slope moves from the left of the product to the right. -/
theorem refXS_apply (f : FVec Ideal Cert.ReferenceIdeal.S262144x64 .f32) (mk : FVec Ideal Cert.ReferenceIdeal.S262144x1 .f32)
    (W : FVec Ideal Cert.ReferenceIdeal.S65x128 .f32) (b : FVec Ideal Cert.ReferenceIdeal.S128 .f32) (n : Fin 262144) (j : Fin 128) :
    refXS f mk W b (ix2 n j) = leaky (refPre f mk W b (ix2 n j)) := by
  show Scalar.select (FloatOps.cmpf .oge (refPre f mk W b (ix2 n j)) (Ideal.ofBits .f32 0x00000000#32)) (refPre f mk W b (ix2 n j))
      (Ideal.ofBits .f32 0x3C23D70A#32 * refPre f mk W b (ix2 n j))
    = Scalar.select (FloatOps.cmpf .oge (refPre f mk W b (ix2 n j)) (Ideal.ofBits .f32 0x00000000#32)) (refPre f mk W b (ix2 n j))
      (refPre f mk W b (ix2 n j) * Ideal.ofBits .f32 0x3C23D70A#32)
  rw [mul_comm]

/-! ## The bridge -/

/-- The kernel's whole-array function at the host's three preparations of the weights and the bias — the slice
    of rows 0..63, the slice of row 64, the reshape to one row — is the host program's term. -/
theorem xs_bridge (f : FVec Ideal Cert.KernelIdeal.S262144x64 .f32) (mk : FVec Ideal Cert.KernelIdeal.S262144x1 .f32)
    (W : FVec Ideal Cert.KernelIdeal.S65x128 .f32) (b : FVec Ideal Cert.KernelIdeal.S128 .f32) :
    kerXS f mk
        (extractStridedSlice Cert.KernelIdeal.S64x128 ![0, 0] W Cert.KernelIdeal.Facts₀.slices_S65x128_S64x128_0_0)
        (extractStridedSlice Cert.KernelIdeal.S1x128 ![64, 0] W Cert.KernelIdeal.Facts₀.slices_S65x128_S1x128_64_0)
        (shapeCast Cert.KernelIdeal.S1x128 b Cert.KernelIdeal.Facts₀.shapeCasts_S128_S1x128)
      = refXS f mk W b := by
  funext i
  obtain ⟨n, j, rfl⟩ : ∃ (n : Fin 262144) (j : Fin 128), i = ix2 n j := ⟨i 0, i 1, eq_ix2 i⟩
  refine (kerXS_apply _ _ _ _ _ n j).trans ((congrArg leaky ?_).trans (refXS_apply f mk W b n j).symm)
  refine Eq.trans ?_ (refPre_apply f mk W b n j).symm
  rw [Fin.sum_univ_castSucc]
  unfold kerPreAt
  refine congrArg₂ (· + ·) (congrArg₂ (· + ·) (Finset.sum_congr rfl fun k _ => ?_) ?_) (biasRow_apply b _ j)
  · exact congrArg₂ (· * ·) (cat_feature f mk n k).symm (sliceRows_apply W _ k j)
  · exact congrArg₂ (· * ·) (cat_mask f mk n).symm (sliceLast_apply W _ j)

end Cert.SubRaw

end
-- ==== Proof.SubRawEntry.lean ====
import proofs.«145994_j34600256537163_1_alg».proof.Proof.SubRawBlock
import proofs.«145994_j34600256537163_1_alg».proof.Proof.SubRawBridge
import proofs.«145994_j34600256537163_1_alg».proof.Proof.KHost

/-!
# The raw sub-item features after the first region, in terms of the launch memory

When the first region is entered, the feature array and the mask column still hold their launch contents, and the
three small arrays it reads are the host's preparations of the launch weight matrix and bias: the slice of rows
0..63, the slice of row 64, the bias reshaped to one row. So the array the region leaves is the host program's term
`refXS` of the four launch arrays.
-/

noncomputable section

open Idealize.ShloMosaic Idealize.ShloMosaic.TcCoe Idealize.SL.Sem

namespace Cert.SubRaw

open Cert.KernelIdeal

/-- The first region's result array, after its 32 points, is `refXS` of the launch contents of the feature
    array, the mask column, the weight matrix and the bias. -/
theorem xs_entry (m : (ℓ : Loc nD τ sig) → Buf (Elt Ideal) ℓ) (ρ : Dev nD → PrngReg) (c : Dev nD) :
    (Gen.dat0 (Gen.V1 m ρ) c).arrAt 5 cfg0.N
      = refXS (m ((c : Thread nD τ).loc main_arg2)) (m ((c : Thread nD τ).loc main_arg3))
          (m ((c : Thread nD τ).loc main_arg5)) (m ((c : Thread nD τ).loc main_arg6)) := by
  refine (xs_array (Gen.V1 m ρ) c).trans ?_
  have e2 : Gen.V1 m ρ c main_arg2 = m ((c : Thread nD τ).loc main_arg2) := KHost.W1_keeps m ρ c main_arg2 (by line_leaves)
  have e3 : Gen.V1 m ρ c main_arg3 = m ((c : Thread nD τ).loc main_arg3) := KHost.W1_keeps m ρ c main_arg3 (by line_leaves)
  have e0 : Gen.V1 m ρ c main_v0 = _ := KHost.W1_v0 m ρ c
  have e1 : Gen.V1 m ρ c main_v1 = _ := KHost.W1_v1 m ρ c
  have e7 : Gen.V1 m ρ c main_v7 = _ := KHost.W1_v7 m ρ c
  rw [e2, e3, e0, e1, e7]
  exact xs_bridge _ _ _ _

end Cert.SubRaw

end
-- ==== Proof.SubOutSpec.lean ====
/-
  The last stage of the computation, as two whole-array functions.

  The inputs are two arrays x0e and xs of 262144 rows by 128 columns, a column smask of 262144 entries,
  a column W of 256 weights and a bias b.  With concat(x0e, xs) the 262144 by 256 array whose row n is
  row n of x0e followed by row n of xs, the stage's result is the column

      out[n] = -inf                                              if smask[n] ≥ 1
      out[n] = Σ_{k<256} concat(x0e, xs)[n, k] * W[k] + b        otherwise.

  `refOut` is that stage as the reference program composes it: one contraction over the 256 columns of
  the concatenation.  `kerOut` is the stage as the kernel computes it on every row: the contraction cut
  at column 128 into two sums of 128 products, over the two halves Wa, Wb of the weights, added in the
  order (Σ x0e·Wa + Σ xs·Wb) + b.
-/
import proofs.«145994_j34600256537163_1_alg».proof.Proof.Gen.KernelIdeal
import proofs.«145994_j34600256537163_1_alg».proof.Proof.Gen.ReferenceIdeal
import Idealize.ShloMosaic.Lib.ValueIdx

noncomputable section

open scoped BigOperators

namespace Cert.SubOut

open Idealize.ShloMosaic Idealize.ShloMosaic.TcCoe Idealize.SL.Sem
open Idealize.ShloMosaic.ValueIdx

section Reference
open Cert.ReferenceIdeal Cert.ReferenceIdeal.Facts₀

/-- The reference's last stage, operation by operation: the two arrays concatenated along the columns,
    contracted with the weights, the bias broadcast to a 1×1 array and then down the rows and added, and
    the result replaced by -inf where smask compares at least 1.0. -/
def refOut (x0e xs : FVec Ideal S262144x128 .f32) (smask : FVec Ideal S262144x1 .f32)
    (W : FVec Ideal S256x1 .f32) (b : FVec Ideal S1 .f32) : FVec Ideal S262144x1 .f32 :=
  select
    (cmpf .oge smask (broadcastInDim S262144x1 ![] bcast_S_S262144x1 (constant (F := Ideal) S_ .f32 0x3F800000#32)))
    (broadcastInDim S262144x1 ![] bcast_S_S262144x1 (id (constant (F := Ideal) S_ .f32 0xFF800000#32)))
    (addf
      (Host.dotGeneral (F := Ideal) dot_S262144x256_S256x1_S262144x1_1_0_0_1_n_n none
        (concatenate S262144x256 1 [⟨S262144x128, x0e⟩, ⟨S262144x128, xs⟩] concatenates_S262144x128_S262144x128_S262144x256_d1)
        W)
      (broadcastInDim S262144x1 ![0, 1] bcast_S1x1_S262144x1_0_1 (broadcastInDim S1x1 ![1] bcast_S1_S1x1_1 b)))

end Reference

section Kernel
open Cert.KernelIdeal

/-- Row `n` of the kernel's result: the two sums of 128 products, added, plus the bias, and -inf in
    its place where smask[n, 0] is at least 1.0. -/
def kerOutRow (x0e xs : FVec Ideal S262144x128 .f32) (smask : FVec Ideal S262144x1 .f32)
    (Wa Wb : FVec Ideal S128x1 .f32) (b2 : FVec Ideal S1x1 .f32) (n : Fin 262144) : EReal :=
  Scalar.select (Ideal.cmp .oge (smask (ix2 n (0 : Fin 1))) (Ideal.ofBits .f32 0x3F800000#32))
    (Ideal.ofBits .f32 0xFF800000#32)
    ((∑ k : Fin 128, x0e (ix2 n k) * Wa (ix2 k (0 : Fin 1)) + ∑ k : Fin 128, xs (ix2 n k) * Wb (ix2 k (0 : Fin 1)))
      + b2 (ix2 (0 : Fin 1) (0 : Fin 1)))

/-- The kernel's result as one function of the whole arrays: entry (n, 0) is row `n`'s value. -/
def kerOut (x0e xs : FVec Ideal S262144x128 .f32) (smask : FVec Ideal S262144x1 .f32)
    (Wa Wb : FVec Ideal S128x1 .f32) (b2 : FVec Ideal S1x1 .f32) : FVec Ideal S262144x1 .f32 :=
  fun i => kerOutRow x0e xs smask Wa Wb b2 (i 0)

end Kernel

end Cert.SubOut

end
-- ==== Proof.SubOutPayload.lean ====
/-
  The kernel body's result on one block, read at an index.

  On a block of 8192 rows the body forms two products of an 8192 by 128 block with a 128 by 1 column, each
  accumulated from zero, adds them, adds the 1 by 1 bias broadcast down the rows, and replaces the sum
  by -inf in the rows whose mask entry compares at least 1.0.  A change of float format is the identity on
  extended reals and a cast to the same shape is the identity, so entry (r, 0) of the result is

      select (mask[r,0] ≥ 1.0) (-inf) ((Σ_{k<128} A[r,k] * wa[k,0] + Σ_{k<128} B[r,k] * wb[k,0]) + bias[0,0]).

  The one step that is not pointwise is the product: its sum runs over the contraction's index set, which
  has one axis of extent 128, and is carried to a sum over k < 128 along the bijection between the two.
-/
import proofs.«145994_j34600256537163_1_alg».proof.Proof.SubOutSpec
import proofs.«145994_j34600256537163_1_alg».proof.Proof.Gen.KernelIdeal.Skeleton
import Idealize.ShloMosaic.Lib.Pipeline.Value
import Idealize.ShloMosaic.PureOps.Ideal.Laws

noncomputable section

open scoped BigOperators

namespace Cert.SubOut

open Idealize.ShloMosaic Idealize.ShloMosaic.TcCoe Idealize.SL.Sem
open Idealize.ShloMosaic.ValueIdx
open Cert.KernelIdeal Cert.KernelIdeal.Facts₀

/-- The block product's left operand index at result (r, q) and contraction position k is (r, k). -/
theorem blockDot_lhsIdx (r : Fin 8192) (q : Fin 1) (k : Fin 128) :
    dot_S8192x128_S128x1_S8192x1_1_0_0_1_n_n.lhsIdx (ix2 r q)
      ((contrEquiv1 dot_S8192x128_S128x1_S8192x1_1_0_0_1_n_n 128 rfl rfl).symm k) = ix2 r k := by
  funext a; apply Fin.ext
  match a with
  | ⟨0, _⟩ => rfl
  | ⟨1, _⟩ =>
    exact (DotDims.lhsIdx_val_of_single dot_S8192x128_S128x1_S8192x1_1_0_0_1_n_n (cl := 1) rfl (ix2 r q) _).trans
      (contrEquiv1_symm_val dot_S8192x128_S128x1_S8192x1_1_0_0_1_n_n 128 rfl rfl k)

/-- The block product's right operand index at result (r, q) and contraction position k is (k, q). -/
theorem blockDot_rhsIdx (r : Fin 8192) (q : Fin 1) (k : Fin 128) :
    dot_S8192x128_S128x1_S8192x1_1_0_0_1_n_n.rhsIdx (ix2 r q)
      ((contrEquiv1 dot_S8192x128_S128x1_S8192x1_1_0_0_1_n_n 128 rfl rfl).symm k) = ix2 k q := by
  funext a; apply Fin.ext
  match a with
  | ⟨0, _⟩ =>
    exact (DotDims.rhsIdx_val_of_single dot_S8192x128_S128x1_S8192x1_1_0_0_1_n_n (cr := 0) rfl (ix2 r q) _).trans
      (contrEquiv1_symm_val dot_S8192x128_S128x1_S8192x1_1_0_0_1_n_n 128 rfl rfl k)
  | ⟨1, _⟩ => rfl

/-- A block product accumulated from zero, at (r, q): the sum over k < 128 of the operands' products. -/
theorem blockDot_apply {φ₁ φ₂ : FTy} (lhs : FVec Ideal S8192x128 φ₁) (rhs : FVec Ideal S128x1 φ₂) (r : Fin 8192) (q : Fin 1) :
    matmul (F := Ideal) dot_S8192x128_S128x1_S8192x1_1_0_0_1_n_n none lhs rhs (constant (F := Ideal) S8192x1 .f32 0x00000000#32) (ix2 r q)
      = ∑ k : Fin 128, lhs (ix2 r k) * rhs (ix2 k q) := by
  refine (Ideal.matmul_constant_zero_apply dot_S8192x128_S128x1_S8192x1_1_0_0_1_n_n none lhs rhs (ix2 r q)).trans ?_
  refine (Equiv.sum_comp (contrEquiv1 dot_S8192x128_S128x1_S8192x1_1_0_0_1_n_n 128 rfl rfl).symm _).symm.trans ?_
  refine Finset.sum_congr rfl fun k _ => ?_
  rw [blockDot_lhsIdx r q k, blockDot_rhsIdx r q k]

/-- The 1 by 1 bias broadcast down the 8192 rows reads its one entry everywhere. -/
theorem biasRows_apply (v : FVec Ideal S1x1 .f32) (r : Fin 8192) (q : Fin 1) :
    broadcastTo S8192x1 v broadcasts_S1x1_S8192x1 (ix2 r q) = v (ix2 (0 : Fin 1) (0 : Fin 1)) :=
  broadcastTo_apply v broadcasts_S1x1_S8192x1 (ix2 r q) (ix2 (0 : Fin 1) (0 : Fin 1)) fun a => by
    match a with
    | ⟨0, _⟩ => rfl
    | ⟨1, _⟩ => rfl

/-- THE BODY'S RESULT AT (r, q): the two sums of 128 products, added, plus the bias entry, and -inf in
    its place where the mask entry compares at least 1.0. -/
theorem pay_apply (v0 v3 : Vec Ideal S8192x128 .f32) (v6 v9 : Vec Ideal S128x1 .f32) (v15 : Vec Ideal S1x1 .f32)
    (v19 : Vec Ideal S8192x1 .f32) (r : Fin 8192) (q : Fin 1) :
    Gen.k2_pay1 (F := Ideal) v0 v3 v6 v9 v15 v19 (ix2 r q)
      = Scalar.select (Ideal.cmp .oge (v19 (ix2 r q)) (Ideal.ofBits .f32 0x3F800000#32)) (Ideal.ofBits .f32 0xFF800000#32)
          ((∑ k : Fin 128, v0 (ix2 r k) * v6 (ix2 k q) + ∑ k : Fin 128, v3 (ix2 r k) * v9 (ix2 k q))
            + v15 (ix2 (0 : Fin 1) (0 : Fin 1))) := by
  unfold Gen.k2_pay1
  simp only [shapeCast_self]
  refine congrArg (Scalar.select (Ideal.cmp .oge (v19 (ix2 r q)) (Ideal.ofBits .f32 0x3F800000#32)) (Ideal.ofBits .f32 0xFF800000#32)) ?_
  refine congrArg₂ (· + ·) (congrArg₂ (· + ·) ?_ ?_) (biasRows_apply v15 r q)
  · exact blockDot_apply _ _ r q
  · exact blockDot_apply _ _ r q

end Cert.SubOut

end
-- ==== Proof.SubOutArray.lean ====
/-
  From the blocks the body writes to the whole result array.

  The last region runs its body at 32 points.  At point t the body is handed rows 8192 t .. 8192 t + 8191
  of x0e, of xs and of the mask column, and the two weight columns and the 1 by 1 bias whole; what it
  leaves is written back as rows 8192 t .. 8192 t + 8191 of the result column.  Entry (r, 0) of what the
  body leaves depends on row r of the three row blocks only, which is row 8192 t + r of the arrays, so
  the block written back at t is block t of ONE function of the whole arrays, `kerOut`.  The 32 blocks of
  8192 rows tile the 262144 rows, so after the last point the result column is `kerOut` of the arrays as
  the region found them.  Everything here is stated for any contents `V` of the buffers at the region's
  entry.
-/
import proofs.«145994_j34600256537163_1_alg».proof.Proof.SubOutPayload
import proofs.«145994_j34600256537163_1_alg».proof.Proof.Gen.KernelIdeal.Frame
import Idealize.ShloMosaic.Lib.Pipeline.Value

noncomputable section

open scoped BigOperators

namespace Cert.SubOut

open Idealize.ShloMosaic Idealize.ShloMosaic.TcCoe Idealize.SL.Sem
open Idealize.ShloMosaic.ValueIdx
open Idealize.ShloMosaic.Pipeline (Dat)
open Cert.KernelIdeal Cert.KernelIdeal.Facts₀ Cert.KernelIdeal.Facts

/-- The body reads and writes its buffers whole: through the rectangle at offsets (0, 0). -/
theorem zeroOffsets : (![0, 0] : Fin 2 → Nat) = fun _ => 0 := funext fun a => by fin_cases a <;> rfl

/-! ## One block of the body's result is one block of `kerOut` -/

/-- If the three row blocks are rows T * 8192 .. of the arrays, the body's result at block index y is
    `kerOut` of the arrays at the array index i with the same column and row T * 8192 + (row of y). -/
theorem pay_eq_kerOut (x0e xs : FVec Ideal S262144x128 .f32) (smask : FVec Ideal S262144x1 .f32)
    (Wa Wb : FVec Ideal S128x1 .f32) (b2 : FVec Ideal S1x1 .f32)
    (v0 v3 : Vec Ideal S8192x128 .f32) (v19 : Vec Ideal S8192x1 .f32) (T : Nat)
    (h0 : ∀ (x : S8192x128.Idx) (k : S262144x128.Idx), (k 0).val = T * 8192 + (x 0).val → (k 1).val = (x 1).val → v0 x = x0e k)
    (h3 : ∀ (x : S8192x128.Idx) (k : S262144x128.Idx), (k 0).val = T * 8192 + (x 0).val → (k 1).val = (x 1).val → v3 x = xs k)
    (h19 : ∀ (x : S8192x1.Idx) (k : S262144x1.Idx), (k 0).val = T * 8192 + (x 0).val → (k 1).val = (x 1).val → v19 x = smask k)
    (y : S8192x1.Idx) (i : S262144x1.Idx) (hi : (i 0).val = T * 8192 + (y 0).val) :
    Gen.k2_pay1 (F := Ideal) v0 v3 Wa Wb b2 v19 y = kerOut x0e xs smask Wa Wb b2 i := by
  obtain ⟨r, q, rfl⟩ : ∃ (r : Fin 8192) (q : Fin 1), y = ix2 r q := ⟨y 0, y 1, eq_ix2 y⟩
  obtain rfl : q = 0 := Subsingleton.elim _ _
  obtain ⟨n, q', rfl⟩ : ∃ (n : Fin 262144) (q' : Fin 1), i = ix2 n q' := ⟨i 0, i 1, eq_ix2 i⟩
  obtain rfl : q' = 0 := Subsingleton.elim _ _
  have hn : n.val = T * 8192 + r.val := hi
  have e0 : ∀ k : Fin 128, v0 (ix2 r k) = x0e (ix2 n k) := fun k => h0 (ix2 r k) (ix2 n k) hn rfl
  have e3 : ∀ k : Fin 128, v3 (ix2 r k) = xs (ix2 n k) := fun k => h3 (ix2 r k) (ix2 n k) hn rfl
  have e19 : v19 (ix2 r (0 : Fin 1)) = smask (ix2 n (0 : Fin 1)) := h19 (ix2 r 0) (ix2 n 0) hn rfl
  refine (pay_apply v0 v3 Wa Wb b2 v19 r 0).trans ?_
  show _ = kerOutRow x0e xs smask Wa Wb b2 n
  unfold kerOutRow
  simp only [e0, e3, e19]

/-! ## The region's windows, point by point -/

section Region
variable (V : (c : Dev nD) → (b : Ref sig .tc) → Buf (Elt Ideal) ((c : Thread nD τ).loc b))

/-- The printed index maps, decided over the 32 points: the three row-blocked inputs and the output sit
    at block (t, 0), the three whole inputs at block (0, 0). -/
theorem out_idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Window 0's block at point t is rows 8192 t .. of x0e. -/
theorem x0e_block (c : Dev nD) (t : Fin cfg2.N) (x : S8192x128.Idx) (k : S262144x128.Idx)
    (hk0 : (k 0).val = t.val * 8192 + (x 0).val) (hk1 : (k 1).val = (x 1).val) :
    (Gen.iblk2 V c 0 t : Vec Ideal S8192x128 .f32) x = (V c main_v64 : S262144x128.Idx → EReal) k := by
  obtain ⟨e0, e1, -⟩ := out_idx_facts t
  unfold Gen.iblk2
  rw [View.read_apply]
  show (V c main_v64 : S262144x128.Idx → EReal) _ = V c main_v64 k
  refine congrArg (V c main_v64 : S262144x128.Idx → EReal) ?_
  funext a; apply Fin.ext
  match a with
  | ⟨0, _⟩ => show win2_0.index t (0 : Fin 2) * 8192 + 1 * (x 0).val = (k 0).val; omega
  | ⟨1, _⟩ => show win2_0.index t (1 : Fin 2) * 128 + 1 * (x 1).val = (k 1).val; have := (x 1).isLt; omega

/-- Window 1's block at point t is rows 8192 t .. of xs. -/
theorem xs_block (c : Dev nD) (t : Fin cfg2.N) (x : S8192x128.Idx) (k : S262144x128.Idx)
    (hk0 : (k 0).val = t.val * 8192 + (x 0).val) (hk1 : (k 1).val = (x 1).val) :
    (Gen.iblk2 V c 1 t : Vec Ideal S8192x128 .f32) x = (V c main_v18 : S262144x128.Idx → EReal) k := by
  obtain ⟨-, -, e0, e1, -⟩ := out_idx_facts t
  unfold Gen.iblk2
  rw [View.read_apply]
  show (V c main_v18 : S262144x128.Idx → EReal) _ = V c main_v18 k
  refine congrArg (V c main_v18 : S262144x128.Idx → EReal) ?_
  funext a; apply Fin.ext
  match a with
  | ⟨0, _⟩ => show win2_1.index t (0 : Fin 2) * 8192 + 1 * (x 0).val = (k 0).val; omega
  | ⟨1, _⟩ => show win2_1.index t (1 : Fin 2) * 128 + 1 * (x 1).val = (k 1).val; have := (x 1).isLt; omega

/-- Window 2's block at point t is rows 8192 t .. of the mask column. -/
theorem smask_block (c : Dev nD) (t : Fin cfg2.N) (x : S8192x1.Idx) (k : S262144x1.Idx)
    (hk0 : (k 0).val = t.val * 8192 + (x 0).val) (hk1 : (k 1).val = (x 1).val) :
    (Gen.iblk2 V c 2 t : Vec Ideal S8192x1 .f32) x = (V c main_arg3 : S262144x1.Idx → EReal) k := by
  obtain ⟨-, -, -, -, e0, e1, -⟩ := out_idx_facts t
  unfold Gen.iblk2
  rw [View.read_apply]
  show (V c main_arg3 : S262144x1.Idx → EReal) _ = V c main_arg3 k
  refine congrArg (V c main_arg3 : S262144x1.Idx → EReal) ?_
  funext a; apply Fin.ext
  match a with
  | ⟨0, _⟩ => show win2_2.index t (0 : Fin 2) * 8192 + 1 * (x 0).val = (k 0).val; omega
  | ⟨1, _⟩ => show win2_2.index t (1 : Fin 2) * 1 + 1 * (x 1).val = (k 1).val; have := (x 1).isLt; omega

/-- Window 3's block at every point is the first weight column, whole. -/
theorem wa_block (c : Dev nD) (t : Fin cfg2.N) :
    (Gen.iblk2 V c 3 t : Vec Ideal S128x1 .f32) = (V c main_v5 : S128x1.Idx → EReal) := by
  obtain ⟨-, -, -, -, -, -, e0, e1, -⟩ := out_idx_facts t
  funext x
  unfold Gen.iblk2
  rw [View.read_apply]
  show (V c main_v5 : S128x1.Idx → EReal) _ = V c main_v5 x
  refine congrArg (V c main_v5 : S128x1.Idx → EReal) ?_
  funext a; apply Fin.ext
  match a with
  | ⟨0, _⟩ => show win2_3.index t (0 : Fin 2) * 128 + 1 * (x 0).val = (x 0).val; omega
  | ⟨1, _⟩ => show win2_3.index t (1 : Fin 2) * 1 + 1 * (x 1).val = (x 1).val; omega

/-- Window 4's block at every point is the second weight column, whole. -/
theorem wb_block (c : Dev nD) (t : Fin cfg2.N) :
    (Gen.iblk2 V c 4 t : Vec Ideal S128x1 .f32) = (V c main_v6 : S128x1.Idx → EReal) := by
  obtain ⟨-, -, -, -, -, -, -, -, e0, e1, -⟩ := out_idx_facts t
  funext x
  unfold Gen.iblk2
  rw [View.read_apply]
  show (V c main_v6 : S128x1.Idx → EReal) _ = V c main_v6 x
  refine congrArg (V c main_v6 : S128x1.Idx → EReal) ?_
  funext a; apply Fin.ext
  match a with
  | ⟨0, _⟩ => show win2_4.index t (0 : Fin 2) * 128 + 1 * (x 0).val = (x 0).val; omega
  | ⟨1, _⟩ => show win2_4.index t (1 : Fin 2) * 1 + 1 * (x 1).val = (x 1).val; omega

/-- Window 5's block at every point is the 1 by 1 bias, whole. -/
theorem bias_block (c : Dev nD) (t : Fin cfg2.N) :
    (Gen.iblk2 V c 5 t : Vec Ideal S1x1 .f32) = (V c main_v17 : S1x1.Idx → EReal) := by
  obtain ⟨-, -, -, -, -, -, -, -, -, -, e0, e1, -⟩ := out_idx_facts t
  funext x
  unfold Gen.iblk2
  rw [View.read_apply]
  show (V c main_v17 : S1x1.Idx → EReal) _ = V c main_v17 x
  refine congrArg (V c main_v17 : S1x1.Idx → EReal) ?_
  funext a; apply Fin.ext
  match a with
  | ⟨0, _⟩ => show win2_5.index t (0 : Fin 2) * 1 + 1 * (x 0).val = (x 0).val; omega
  | ⟨1, _⟩ => show win2_5.index t (1 : Fin 2) * 1 + 1 * (x 1).val = (x 1).val; omega

/-! ## What a point writes back, and the array after the last point -/

/-- WHAT POINT t WRITES BACK is block t of `kerOut` of the arrays as the region finds them. -/
theorem out_flushed (c : Dev nD) (t : Fin cfg2.N) :
    (Gen.dat2 (F := Ideal) V c).flushed 6 t = ((cfg2.win 6).blk t).view.read (Elt Ideal)
      (kerOut (V c main_v64) (V c main_v18) (V c main_arg3) (V c main_v5) (V c main_v6) (V c main_v17)) := by
  show (cfg2.win 6).cut (grid2.coords t) ((Gen.dat2 (F := Ideal) V c).after 6 t) = _
  rw [Gen.after2_6]
  unfold Gen.out2_6
  rw [View.canon_unit_zero zeroOffsets]
  simp only [View.ld_unit_zero (S := S8192x128) zeroOffsets, View.ld_unit_zero (S := S128x1) zeroOffsets,
    View.ld_unit_zero (S := S1x1) zeroOffsets, View.ld_unit_zero (S := S8192x1) zeroOffsets]
  rw [wa_block V c t, wb_block V c t, bias_block V c t]
  obtain ⟨-, -, -, -, -, -, -, -, -, -, -, -, e0, e1⟩ := out_idx_facts t
  funext j
  rw [View.read_apply]
  refine pay_eq_kerOut (V c main_v64) (V c main_v18) (V c main_arg3) (V c main_v5) (V c main_v6) (V c main_v17)
    (Gen.iblk2 V c 0 t) (Gen.iblk2 V c 1 t) (Gen.iblk2 V c 2 t) t.val
    (fun x k h0 h1 => x0e_block V c t x k h0 h1) (fun x k h0 h1 => xs_block V c t x k h0 h1)
    (fun x k h0 h1 => smask_block V c t x k h0 h1) j (((cfg2.win 6).blk t).view.emb j) ?_
  show win2_6.index t (0 : Fin 2) * 8192 + 1 * (j 0).val = t.val * 8192 + (j 0).val
  omega

/-- An index of the result column is in point t's block iff each coordinate is in the block's range. -/
theorem out_mem_blk (t : Fin cfg2.N) (i : S262144x1.Idx) :
    i ∈ ((cfg2.win 6).blk t).view.set ↔ ∀ a : Fin 2, win2_6.index t a * S8192x1.size a ≤ (i a).val ∧ (i a).val < win2_6.index t a * S8192x1.size a + S8192x1.size a := by
  show i ∈ ((View.whole main_v65).slice (win2_6.rect t)).set ↔ _
  rw [View.set_slice_whole, Rect.mem_set_unit]
  exact Iff.rfl

/-- Every row of the result column is in the block of the point (row / 8192). -/
theorem out_cover (i : S262144x1.Idx) :
    ∃ t : Fin cfg2.N, (cfg2.win 6).flush t = true ∧ i ∈ ((cfg2.win 6).blk t).view.set := by
  have hi0 : (i 0).val < 262144 := (i 0).isLt
  have hi1 : (i 1).val < 1 := (i 1).isLt
  have hN : cfg2.N = 32 := Gen.N_2
  refine ⟨⟨(i 0).val / 8192, by rw [hN]; omega⟩, Gen.flush2_6 _, ?_⟩
  obtain ⟨-, -, -, -, -, -, -, -, -, -, -, -, e0, e1⟩ := out_idx_facts ⟨(i 0).val / 8192, by rw [hN]; omega⟩
  rw [out_mem_blk]
  intro a
  match a with
  | ⟨0, _⟩ =>
    show win2_6.index _ (0 : Fin 2) * 8192 ≤ (i 0).val ∧ (i 0).val < win2_6.index _ (0 : Fin 2) * 8192 + 8192
    rw [e0]; show (i 0).val / 8192 * 8192 ≤ (i 0).val ∧ (i 0).val < (i 0).val / 8192 * 8192 + 8192; omega
  | ⟨1, _⟩ =>
    show win2_6.index _ (1 : Fin 2) * 1 ≤ (i 1).val ∧ (i 1).val < win2_6.index _ (1 : Fin 2) * 1 + 1
    rw [e1]; omega

/-- THE RESULT ARRAY after the last point: `kerOut` of the arrays as the region finds them. -/
theorem out_array (c : Dev nD) :
    (Gen.dat2 (F := Ideal) V c).arrAt 6 cfg2.N
      = kerOut (V c main_v64) (V c main_v18) (V c main_arg3) (V c main_v5) (V c main_v6) (V c main_v17) :=
  (Gen.dat2 (F := Ideal) V c).arrAt_eq_of_cover 6 _ (fun t _ => out_flushed V c t) out_cover

end Region

end Cert.SubOut

end
-- ==== Proof.SubOutBridge.lean ====
/-
  The kernel's last stage and the reference's are the same function.

  The reference contracts the 256 columns of concat(x0e, xs) with the 256 weights W in one sum.  The
  kernel is handed the two halves of W, rows 0..127 and rows 128..255, and the bias recast as a 1 by 1
  array, and forms two sums of 128 products.  A sum over k < 256 is the sum over k < 128 plus the sum over
  128 ≤ k < 256; in the first range column k of the concatenation is column k of x0e and weight k is entry
  k of the first half, in the second it is column k - 128 of xs and entry k - 128 of the second half.
  The bias entry, the comparison of the mask with 1.0 and the -inf are the same on both sides.  The only
  law of arithmetic used is that splitting of a finite sum, so nothing is asked of the entries: they may
  be any extended reals.
-/
import proofs.«145994_j34600256537163_1_alg».proof.Proof.SubOutSpec
import Idealize.ShloMosaic.Lib.Pipeline.Value
import Idealize.ShloMosaic.Lib.IdealHost
import Idealize.ShloMosaic.PureOps.Ideal.Laws

noncomputable section

open scoped BigOperators

namespace Cert.SubOut

open Idealize.ShloMosaic Idealize.ShloMosaic.TcCoe Idealize.SL.Sem
open Idealize.ShloMosaic.ValueIdx

/-- Column k < 128 among the 256. -/
abbrev lo (k : Fin 128) : Fin 256 := ⟨k.val, by omega⟩
/-- Column 128 + k among the 256. -/
abbrev hi (k : Fin 128) : Fin 256 := ⟨128 + k.val, by omega⟩

/-- A sum over the 256 columns is the sum over the first 128 plus the sum over the last 128. -/
theorem sum_split256 {M : Type*} [AddCommMonoid M] (f : Fin 256 → M) :
    ∑ k, f k = ∑ k : Fin 128, f (lo k) + ∑ k : Fin 128, f (hi k) :=
  Fin.sum_univ_add (a := 128) (b := 128) f

section Reference
open Cert.ReferenceIdeal Cert.ReferenceIdeal.Facts₀

/-- The reference contraction's left operand index at result (n, q) and contraction position k is (n, k). -/
theorem refDot_lhsIdx (n : Fin 262144) (q : Fin 1) (k : Fin 256) :
    dot_S262144x256_S256x1_S262144x1_1_0_0_1_n_n.lhsIdx (ix2 n q)
      ((contrEquiv1 dot_S262144x256_S256x1_S262144x1_1_0_0_1_n_n 256 rfl rfl).symm k) = ix2 n k := by
  funext a; apply Fin.ext
  match a with
  | ⟨0, _⟩ => rfl
  | ⟨1, _⟩ =>
    exact (DotDims.lhsIdx_val_of_single dot_S262144x256_S256x1_S262144x1_1_0_0_1_n_n (cl := 1) rfl (ix2 n q) _).trans
      (contrEquiv1_symm_val dot_S262144x256_S256x1_S262144x1_1_0_0_1_n_n 256 rfl rfl k)

/-- Its right operand index there is (k, q). -/
theorem refDot_rhsIdx (n : Fin 262144) (q : Fin 1) (k : Fin 256) :
    dot_S262144x256_S256x1_S262144x1_1_0_0_1_n_n.rhsIdx (ix2 n q)
      ((contrEquiv1 dot_S262144x256_S256x1_S262144x1_1_0_0_1_n_n 256 rfl rfl).symm k) = ix2 k q := by
  funext a; apply Fin.ext
  match a with
  | ⟨0, _⟩ =>
    exact (DotDims.rhsIdx_val_of_single dot_S262144x256_S256x1_S262144x1_1_0_0_1_n_n (cr := 0) rfl (ix2 n q) _).trans
      (contrEquiv1_symm_val dot_S262144x256_S256x1_S262144x1_1_0_0_1_n_n 256 rfl rfl k)
  | ⟨1, _⟩ => rfl

/-- The reference's contraction at (n, q): the sum over k < 256 of the operands' products. -/
theorem refDot_apply (lhs : FVec Ideal S262144x256 .f32) (rhs : FVec Ideal S256x1 .f32) (n : Fin 262144) (q : Fin 1) :
    Host.dotGeneral (F := Ideal) dot_S262144x256_S256x1_S262144x1_1_0_0_1_n_n none lhs rhs (ix2 n q)
      = ∑ k : Fin 256, lhs (ix2 n k) * rhs (ix2 k q) := by
  refine (Ideal.dotGeneral_apply dot_S262144x256_S256x1_S262144x1_1_0_0_1_n_n none .single lhs rhs (ix2 n q)).trans ?_
  refine (Equiv.sum_comp (contrEquiv1 dot_S262144x256_S256x1_S262144x1_1_0_0_1_n_n 256 rfl rfl).symm _).symm.trans ?_
  refine Finset.sum_congr rfl fun k _ => ?_
  rw [refDot_lhsIdx n q k, refDot_rhsIdx n q k]

/-- In its first 128 columns the concatenation is x0e. -/
theorem concat_lo (x0e xs : FVec Ideal S262144x128 .f32) (n : Fin 262144) (k : Fin 128) :
    concatenate S262144x256 1 [⟨S262144x128, x0e⟩, ⟨S262144x128, xs⟩] concatenates_S262144x128_S262144x128_S262144x256_d1
      (ix2 n (lo k)) = x0e (ix2 n k) :=
  concatenate_pair_apply_left 1 x0e xs concatenates_S262144x128_S262144x128_S262144x256_d1 (ix2 n (lo k)) rfl (ix2 n k) fun b => by
    match b with
    | ⟨0, _⟩ => rfl
    | ⟨1, _⟩ => rfl

/-- In its last 128 columns it is xs, the column number 128 less. -/
theorem concat_hi (x0e xs : FVec Ideal S262144x128 .f32) (n : Fin 262144) (k : Fin 128) :
    concatenate S262144x256 1 [⟨S262144x128, x0e⟩, ⟨S262144x128, xs⟩] concatenates_S262144x128_S262144x128_S262144x256_d1
      (ix2 n (hi k)) = xs (ix2 n k) :=
  concatenate_pair_apply_right 1 x0e xs concatenates_S262144x128_S262144x128_S262144x256_d1 (ix2 n (hi k)) rfl rfl (ix2 n k)
    (fun b hb => by
      match b with
      | ⟨0, _⟩ => rfl
      | ⟨1, _⟩ => exact absurd rfl hb)
    (by show k.val + 128 = 128 + k.val; omega)

/-- The bias broadcast to a 1 by 1 array and then down the rows reads its one entry everywhere. -/
theorem refBias_apply (b : FVec Ideal S1 .f32) (n : Fin 262144) (q : Fin 1) :
    broadcastInDim S262144x1 ![0, 1] bcast_S1x1_S262144x1_0_1 (broadcastInDim S1x1 ![1] bcast_S1_S1x1_1 b) (ix2 n q)
      = b (ix1 (0 : Fin 1)) :=
  (broadcastInDim_apply ![0, 1] bcast_S1x1_S262144x1_0_1 (broadcastInDim S1x1 ![1] bcast_S1_S1x1_1 b) (ix2 n q)
      (ix2 (0 : Fin 1) (0 : Fin 1)) fun a => by
        match a with
        | ⟨0, _⟩ => rfl
        | ⟨1, _⟩ => rfl).trans
    (broadcastInDim_apply ![1] bcast_S1_S1x1_1 b (ix2 (0 : Fin 1) (0 : Fin 1)) (ix1 (0 : Fin 1)) fun a => by
      match a with
      | ⟨0, _⟩ => rfl)

/-- THE REFERENCE'S STAGE AT (n, 0), the contraction cut at column 128. -/
theorem refOut_apply (x0e xs : FVec Ideal S262144x128 .f32) (smask : FVec Ideal S262144x1 .f32)
    (W : FVec Ideal S256x1 .f32) (b : FVec Ideal S1 .f32) (n : Fin 262144) :
    refOut x0e xs smask W b (ix2 n (0 : Fin 1))
      = Scalar.select (Ideal.cmp .oge (smask (ix2 n (0 : Fin 1))) (Ideal.ofBits .f32 0x3F800000#32)) (Ideal.ofBits .f32 0xFF800000#32)
          ((∑ k : Fin 128, x0e (ix2 n k) * W (ix2 (lo k) (0 : Fin 1)) + ∑ k : Fin 128, xs (ix2 n k) * W (ix2 (hi k) (0 : Fin 1)))
            + b (ix1 (0 : Fin 1))) := by
  unfold refOut
  show Scalar.select (Ideal.cmp .oge (smask (ix2 n (0 : Fin 1)))
        (broadcastInDim S262144x1 ![] bcast_S_S262144x1 (constant (F := Ideal) S_ .f32 0x3F800000#32) (ix2 n (0 : Fin 1))))
      (broadcastInDim S262144x1 ![] bcast_S_S262144x1 (constant (F := Ideal) S_ .f32 0xFF800000#32) (ix2 n (0 : Fin 1)))
      (Host.dotGeneral (F := Ideal) dot_S262144x256_S256x1_S262144x1_1_0_0_1_n_n none
          (concatenate S262144x256 1 [⟨S262144x128, x0e⟩, ⟨S262144x128, xs⟩] concatenates_S262144x128_S262144x128_S262144x256_d1) W
          (ix2 n (0 : Fin 1))
        + broadcastInDim S262144x1 ![0, 1] bcast_S1x1_S262144x1_0_1 (broadcastInDim S1x1 ![1] bcast_S1_S1x1_1 b) (ix2 n (0 : Fin 1))) = _
  rw [broadcastInDim_scalar_apply, broadcastInDim_scalar_apply, refDot_apply, refBias_apply, sum_split256]
  simp only [concat_lo, concat_hi]
  rfl

end Reference

section Kernel
open Cert.KernelIdeal Cert.KernelIdeal.Facts₀

/-- Rows 0..127 of the weights: entry k is weight k. -/
theorem sliceLo_apply (W : FVec Ideal S256x1 .f32) (k : Fin 128) (q : Fin 1) :
    extractStridedSlice S128x1 ![0, 0] W slices_S256x1_S128x1_0_0 (ix2 k q) = W (ix2 (lo k) q) :=
  extractStridedSlice_apply ![0, 0] W slices_S256x1_S128x1_0_0 (ix2 k q) (ix2 (lo k) q) fun a => by
    match a with
    | ⟨0, _⟩ => show k.val = 0 + k.val; omega
    | ⟨1, _⟩ => show q.val = 0 + q.val; omega

/-- Rows 128..255 of the weights: entry k is weight 128 + k. -/
theorem sliceHi_apply (W : FVec Ideal S256x1 .f32) (k : Fin 128) (q : Fin 1) :
    extractStridedSlice S128x1 ![128, 0] W slices_S256x1_S128x1_128_0 (ix2 k q) = W (ix2 (hi k) q) :=
  extractStridedSlice_apply ![128, 0] W slices_S256x1_S128x1_128_0 (ix2 k q) (ix2 (hi k) q) fun a => by
    match a with
    | ⟨0, _⟩ => show 128 + k.val = 128 + k.val; rfl
    | ⟨1, _⟩ => show q.val = 0 + q.val; omega

/-- The bias recast as a 1 by 1 array has the bias as its one entry. -/
theorem biasCast_apply (b : FVec Ideal S1 .f32) :
    shapeCast S1x1 b shapeCasts_S1_S1x1 (ix2 (0 : Fin 1) (0 : Fin 1)) = b (ix1 (0 : Fin 1)) :=
  shapeCast_apply b shapeCasts_S1_S1x1 (ix2 (0 : Fin 1) (0 : Fin 1)) (ix1 (0 : Fin 1)) (by decide)

/-- THE BRIDGE: the kernel's stage, handed the two halves of the weights and the bias recast as the
    kernel program prepares them, is the reference's stage. -/
theorem out_bridge (x0e xs : FVec Ideal S262144x128 .f32) (smask : FVec Ideal S262144x1 .f32)
    (W : FVec Ideal S256x1 .f32) (b : FVec Ideal S1 .f32) :
    kerOut x0e xs smask (extractStridedSlice S128x1 ![0, 0] W slices_S256x1_S128x1_0_0)
        (extractStridedSlice S128x1 ![128, 0] W slices_S256x1_S128x1_128_0) (shapeCast S1x1 b shapeCasts_S1_S1x1)
      = refOut x0e xs smask W b := by
  funext i
  obtain ⟨n, q, rfl⟩ : ∃ (n : Fin 262144) (q : Fin 1), i = ix2 n q := ⟨i 0, i 1, eq_ix2 i⟩
  obtain rfl : q = 0 := Subsingleton.elim _ _
  refine Eq.trans ?_ (refOut_apply x0e xs smask W b n).symm
  show kerOutRow x0e xs smask _ _ _ n = _
  unfold kerOutRow
  simp only [sliceLo_apply, sliceHi_apply, biasCast_apply]

end Kernel

end Cert.SubOut

end
-- ==== Proof.RootXSpec.lean ====
/-
  The root stage's x_root, stated twice over whole arrays at the ideal values.

  `refXRoot` is the reference's composed term from the segment mean to x_root: a layer norm of the mean over its 128
  lanes, written into columns 64..191 of the root features, the mask columns appended, one product with the 194 x 128
  weight, the bias, the leaky rectifier, and a second layer norm. Each line is one operation of the printed reference,
  in its order, with the same dimension records and shape facts.

  `kerXRoot` is the kernel's x_root as one function of the whole arrays, row by row, in the association the kernel body
  computes in: the product is split into the 64 leading feature columns, the 128 normalized lanes and the 2 mask columns.
-/
import proofs.«145994_j34600256537163_1_alg».proof.Proof.Gen.KernelIdeal
import proofs.«145994_j34600256537163_1_alg».proof.Proof.Gen.ReferenceIdeal
import Idealize.ShloMosaic.Lib.ValueIdx

noncomputable section

open Idealize.ShloMosaic Idealize.ShloMosaic.TcCoe Idealize.SL.Sem
open Idealize.ShloMosaic.ValueIdx
open scoped BigOperators

namespace Cert.RootX

/-! ## The constants, as the words both programs print -/

/-- 128, the lane count the two means divide by. -/
abbrev c128 : EReal := Ideal.ofBits .f32 0x43000000#32
/-- The layer norm's epsilon, 1e-5 rounded to f32. -/
abbrev cEps : EReal := Ideal.ofBits .f32 0x3727C5AC#32
/-- The leaky rectifier's slope, 0.01 rounded to f32. -/
abbrev cSlope : EReal := Ideal.ofBits .f32 0x3C23D70A#32
/-- The zero word the rectifier compares with. -/
abbrev cZero : EReal := Ideal.ofBits .f32 0x00000000#32

/-! ## One row of the kernel's arithmetic -/

/-- The mean of a row of 128 lanes. -/
def rowMean (x : Fin 128 → EReal) : EReal := Ideal.div (∑ k : Fin 128, x k) c128

/-- The variance of a row of 128 lanes: the mean of the squared deviations from the row's mean. -/
def rowVar (x : Fin 128 → EReal) : EReal :=
  Ideal.div (∑ k : Fin 128, (x k - rowMean x) * (x k - rowMean x)) c128

/-- Layer norm of a row at lane `j`: the deviation times the inverse root of variance plus epsilon, times the gain,
    plus the offset, associated as both programs compute it. -/
def lnRow (x g b : Fin 128 → EReal) (j : Fin 128) : EReal :=
  (x j - rowMean x) * Ideal.rsqrt (rowVar x + cEps) * g j + b j

/-- The leaky rectifier as the kernel computes it: `y` where `y ≥ 0`, else `y` times the slope. -/
def leaky (y : EReal) : EReal := Scalar.select (Ideal.cmp .oge y cZero) y (y * cSlope)

/-- The root layer's row before its layer norm, at lane `j`: the 64 feature columns against the weight's rows 0..63,
    plus the 128 normalized lanes against its rows 64..191, plus the two mask entries against its rows 192 and 193, plus
    the bias; then the leaky rectifier. `p` is the row's leading features, `s` its normalized segment mean, `m0 m1` its
    mask entries. -/
def rawRootRow (p : Fin 64 → EReal) (s : Fin 128 → EReal) (m0 m1 : EReal)
    (Wp : FVec Ideal Cert.KernelIdeal.S64x128 .f32) (Wb : FVec Ideal Cert.KernelIdeal.S128x128 .f32)
    (Wm : FVec Ideal Cert.KernelIdeal.S2x128 .f32) (b : FVec Ideal Cert.KernelIdeal.S1x128 .f32) (j : Fin 128) : EReal :=
  leaky ((((∑ k : Fin 64, p k * Wp (ix2 k j)) + (∑ k : Fin 128, s k * Wb (ix2 k j)))
      + (m0 * Wm (ix2 (0 : Fin 2) j) + m1 * Wm (ix2 (1 : Fin 2) j))) + b (ix2 (0 : Fin 1) j))

/-- A one-row array [1,128] as a function of the lane. -/
abbrev laneOf (v : FVec Ideal Cert.KernelIdeal.S1x128 .f32) : Fin 128 → EReal := fun k => v (ix2 (0 : Fin 1) k)

/-- One row of x_root at lane `j`, from that row's leading features `p`, its segment mean `mu` and its two mask
    entries: layer norm of the mean (gain `gs`, offset `bes`), the root layer, layer norm again (gain `gr`, offset `ber`). -/
def xRootRow (p : Fin 64 → EReal) (mu : Fin 128 → EReal) (m0 m1 : EReal)
    (Wp : FVec Ideal Cert.KernelIdeal.S64x128 .f32) (Wb : FVec Ideal Cert.KernelIdeal.S128x128 .f32)
    (Wm : FVec Ideal Cert.KernelIdeal.S2x128 .f32) (b gs bes gr ber : FVec Ideal Cert.KernelIdeal.S1x128 .f32)
    (j : Fin 128) : EReal :=
  lnRow (rawRootRow p (lnRow mu (laneOf gs) (laneOf bes)) m0 m1 Wp Wb Wm b) (laneOf gr) (laneOf ber) j

/-! ## The kernel's x_root over the whole arrays -/

/-- x_root at row `r`, lane `j`. -/
def kerXRootAt (rfp : FVec Ideal Cert.KernelIdeal.S8192x64 .f32) (mean : FVec Ideal Cert.KernelIdeal.S8192x128 .f32)
    (rmask : FVec Ideal Cert.KernelIdeal.S8192x2 .f32) (Wp : FVec Ideal Cert.KernelIdeal.S64x128 .f32)
    (Wb : FVec Ideal Cert.KernelIdeal.S128x128 .f32) (Wm : FVec Ideal Cert.KernelIdeal.S2x128 .f32)
    (b gs bes gr ber : FVec Ideal Cert.KernelIdeal.S1x128 .f32) (r : Fin 8192) (j : Fin 128) : EReal :=
  xRootRow (fun k => rfp (ix2 r k)) (fun k => mean (ix2 r k)) (rmask (ix2 r (0 : Fin 2))) (rmask (ix2 r (1 : Fin 2)))
    Wp Wb Wm b gs bes gr ber j

/-- The kernel's x_root as ONE function of the whole arrays: row `i 0`, lane `i 1`. -/
def kerXRoot (rfp : FVec Ideal Cert.KernelIdeal.S8192x64 .f32) (mean : FVec Ideal Cert.KernelIdeal.S8192x128 .f32)
    (rmask : FVec Ideal Cert.KernelIdeal.S8192x2 .f32) (Wp : FVec Ideal Cert.KernelIdeal.S64x128 .f32)
    (Wb : FVec Ideal Cert.KernelIdeal.S128x128 .f32) (Wm : FVec Ideal Cert.KernelIdeal.S2x128 .f32)
    (b gs bes gr ber : FVec Ideal Cert.KernelIdeal.S1x128 .f32) : FVec Ideal Cert.KernelIdeal.S8192x128 .f32 :=
  fun i => kerXRootAt rfp mean rmask Wp Wb Wm b gs bes gr ber (i 0) (i 1)

/-- At an index given by its coordinates. -/
theorem kerXRoot_ix2 (rfp : FVec Ideal Cert.KernelIdeal.S8192x64 .f32) (mean : FVec Ideal Cert.KernelIdeal.S8192x128 .f32)
    (rmask : FVec Ideal Cert.KernelIdeal.S8192x2 .f32) (Wp : FVec Ideal Cert.KernelIdeal.S64x128 .f32)
    (Wb : FVec Ideal Cert.KernelIdeal.S128x128 .f32) (Wm : FVec Ideal Cert.KernelIdeal.S2x128 .f32)
    (b gs bes gr ber : FVec Ideal Cert.KernelIdeal.S1x128 .f32) (r : Fin 8192) (j : Fin 128) :
    kerXRoot rfp mean rmask Wp Wb Wm b gs bes gr ber (ix2 r j) = kerXRootAt rfp mean rmask Wp Wb Wm b gs bes gr ber r j := rfl

/-! ## The reference's x_root, operation by operation -/

section Reference
open Cert.ReferenceIdeal Cert.ReferenceIdeal.Facts₀

/-- The reference's layer norm over the lanes of an [8192,128] array, with gain `g` and offset `be` of [128]: the
    twenty-four operations the reference prints for it, in their order (a sum over the lanes from the zero word, kept as a
    column; divided by 128; subtracted; squared; summed, divided by 128; epsilon added; the inverse root; the products with
    the deviation and the gain; the offset added). The reference applies this sequence twice. -/
def refLayerNorm (x : FVec Ideal S8192x128 .f32) (g be : FVec Ideal S128 .f32) : FVec Ideal S8192x128 .f32 :=
  have cst_8 : FVec Ideal S_ .f32 := constant (F := Ideal) S_ .f32 0x00000000#32
  have v33 : FVec Ideal S8192 .f32 := Host.reduceAdd (F := Ideal) x cst_8 reducesTo_S8192x128_S8192_d1 h_S_
  have v34 : FVec Ideal S8192x1 .f32 := broadcastInDim S8192x1 ![0] bcast_S8192_S8192x1_0 v33
  have cst_9 : FVec Ideal S_ .f32 := constant (F := Ideal) S_ .f32 0x43000000#32
  have v35 : FVec Ideal S8192x1 .f32 := broadcastInDim S8192x1 ![] bcast_S_S8192x1 cst_9
  have v36 : FVec Ideal S8192x1 .f32 := Host.divf (F := Ideal) v34 v35
  have v37 : FVec Ideal S8192x128 .f32 := broadcastInDim S8192x128 ![0, 1] bcast_S8192x1_S8192x128_0_1 v36
  have v38 : FVec Ideal S8192x128 .f32 := subf x v37
  have v39 : FVec Ideal S8192x128 .f32 := mulf v38 v38
  have cst_10 : FVec Ideal S_ .f32 := constant (F := Ideal) S_ .f32 0x00000000#32
  have v40 : FVec Ideal S8192 .f32 := Host.reduceAdd (F := Ideal) v39 cst_10 reducesTo_S8192x128_S8192_d1 h_S_
  have v41 : FVec Ideal S8192x1 .f32 := broadcastInDim S8192x1 ![0] bcast_S8192_S8192x1_0 v40
  have cst_11 : FVec Ideal S_ .f32 := constant (F := Ideal) S_ .f32 0x43000000#32
  have v42 : FVec Ideal S8192x1 .f32 := broadcastInDim S8192x1 ![] bcast_S_S8192x1 cst_11
  have v43 : FVec Ideal S8192x1 .f32 := Host.divf (F := Ideal) v41 v42
  have v44 : FVec Ideal S8192x128 .f32 := broadcastInDim S8192x128 ![0, 1] bcast_S8192x1_S8192x128_0_1 v36
  have v45 : FVec Ideal S8192x128 .f32 := subf x v44
  have cst_12 : FVec Ideal S_ .f32 := constant (F := Ideal) S_ .f32 0x3727C5AC#32
  have v46 : FVec Ideal S8192x1 .f32 := broadcastInDim S8192x1 ![] bcast_S_S8192x1 cst_12
  have v47 : FVec Ideal S8192x1 .f32 := addf v43 v46
  have v48 : FVec Ideal S8192x1 .f32 := Host.rsqrt (F := Ideal) v47
  have v49 : FVec Ideal S8192x128 .f32 := broadcastInDim S8192x128 ![0, 1] bcast_S8192x1_S8192x128_0_1 v48
  have v50 : FVec Ideal S8192x128 .f32 := mulf v45 v49
  have v51 : FVec Ideal S1x128 .f32 := broadcastInDim S1x128 ![1] bcast_S128_S1x128_1 g
  have v52 : FVec Ideal S8192x128 .f32 := broadcastInDim S8192x128 ![0, 1] bcast_S1x128_S8192x128_0_1 v51
  have v53 : FVec Ideal S8192x128 .f32 := mulf v50 v52
  have v54 : FVec Ideal S1x128 .f32 := broadcastInDim S1x128 ![1] bcast_S128_S1x128_1 be
  have v55 : FVec Ideal S8192x128 .f32 := broadcastInDim S8192x128 ![0, 1] bcast_S1x128_S8192x128_0_1 v54
  have v56 : FVec Ideal S8192x128 .f32 := addf v53 v55
  v56

/-- The reference's root layer before its layer norm: the normalized mean `sn` scattered into columns 64..191 of the root
    features `rf`, the mask `rmask` appended, the product with the [194,128] weight `W9`, the bias `b10`, and the leaky
    rectifier with its select written out; the reference's operations from the scatter's start index to the select, in
    their order. -/
def refRawRoot (sn : FVec Ideal S8192x128 .f32) (rf : FVec Ideal S8192x192 .f32) (rmask : FVec Ideal S8192x2 .f32)
    (W9 : FVec Ideal S194x128 .f32) (b10 : FVec Ideal S128 .f32) : FVec Ideal S8192x128 .f32 :=
  have c_13 : IVec S_ 32 := constantI S_ 32 64#32
  have v57 : IVec S1 32 := broadcastInDim S1 ![] bcast_S_S1 c_13
  have v58 : FVec Ideal S8192x192 .f32 := Host.scatter scatter_S8192x192_S1_S8192x128_01_n_1_0 (fun _ b => b) rf v57 sn
  have v59 : FVec Ideal S8192x194 .f32 :=
    concatenate S8192x194 1 [⟨S8192x192, v58⟩, ⟨S8192x2, rmask⟩] concatenates_S8192x192_S8192x2_S8192x194_d1
  have v60 : FVec Ideal S8192x128 .f32 := Host.dotGeneral (F := Ideal) dot_S8192x194_S194x128_S8192x128_1_0_0_1_n_n none v59 W9
  have v61 : FVec Ideal S1x128 .f32 := broadcastInDim S1x128 ![1] bcast_S128_S1x128_1 b10
  have v62 : FVec Ideal S8192x128 .f32 := broadcastInDim S8192x128 ![0, 1] bcast_S1x128_S8192x128_0_1 v61
  have v63 : FVec Ideal S8192x128 .f32 := addf v60 v62
  have cst_14 : FVec Ideal S_ .f32 := constant (F := Ideal) S_ .f32 0x3C23D70A#32
  have call5_cst : FVec Ideal S_ .f32 := constant (F := Ideal) S_ .f32 0x00000000#32
  have call5_v0 : FVec Ideal S8192x128 .f32 := broadcastInDim S8192x128 ![] bcast_S_S8192x128 call5_cst
  have call5_v1 : IVec S8192x128 1 := cmpf .oge v63 call5_v0
  have call5_v2 : FVec Ideal S_ .f32 := id cst_14
  have call5_v3 : FVec Ideal S8192x128 .f32 := broadcastInDim S8192x128 ![] bcast_S_S8192x128 call5_v2
  have call5_v4 : FVec Ideal S8192x128 .f32 := mulf call5_v3 v63
  have v64 : FVec Ideal S8192x128 .f32 := select call5_v1 v63 call5_v4
  v64

/-- The reference's normalized segment mean (its buffer before the scatter), from the segment mean `mean`. -/
def refSubNorm (mean : FVec Ideal S8192x128 .f32) (g7 be8 : FVec Ideal S128 .f32) : FVec Ideal S8192x128 .f32 :=
  refLayerNorm mean g7 be8

/-- The reference's x_root from its segment mean `mean` and its arguments: root features `rf`, root mask `rmask`, the
    first norm's gain and offset `g7 be8`, the root weight `W9` and bias `b10`, the second norm's gain and offset
    `g11 be12`. -/
def refXRoot (mean : FVec Ideal S8192x128 .f32) (rf : FVec Ideal S8192x192 .f32) (rmask : FVec Ideal S8192x2 .f32)
    (g7 be8 : FVec Ideal S128 .f32) (W9 : FVec Ideal S194x128 .f32) (b10 g11 be12 : FVec Ideal S128 .f32) :
    FVec Ideal S8192x128 .f32 :=
  refLayerNorm (refRawRoot (refSubNorm mean g7 be8) rf rmask W9 b10) g11 be12

end Reference

end Cert.RootX

end
-- ==== Proof.RootXLayout.lean ====
/-
  Small facts about layout operations and contractions read at an index given by its coordinates, at the ideal values:
  a vector kept as a column ([a] to [a,1]), a column copied along the lanes ([a,1] to [a,b]), the sum over the lanes of
  a matrix, and the product of a matrix by a matrix (on the vector unit and on the host) as the sum over the contracted
  coordinate. Stated over variable extents so that each applies to a printed operation by unification.
-/
import Idealize.ShloMosaic.Lib.ValueLayout
import Idealize.ShloMosaic.PureOps.Ideal.Laws

noncomputable section

open Idealize.ShloMosaic Idealize.ShloMosaic.TcCoe Idealize.SL.Sem
open Idealize.ShloMosaic.ValueIdx
open scoped BigOperators

namespace Cert.RootX

variable {α : Type}

/-- An `[a]` array cast to `[a, 1]` (a reduction's result kept as a column) reads, at `(i, u)`, the operand at `i`. -/
theorem castCol_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem bcastCol_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the lanes of an `[a, b]` matrix (a `multi_reduction <add>` over axis 1 from the zero word), read at
    row `r`, is the sum of that row's entries. The proofs the operation carries are arguments, so that the statement
    meets the printed operation whatever their spelling. -/
theorem laneSum_apply {a b : ℕ} (src : FVec Ideal ⟨2, ![a, b]⟩ .f32) (acc : BitVec 32)
    (h : (⟨2, ![a, b]⟩ : Shape).Reduces [(1 : Fin 2)] ⟨1, ![a]⟩) (hφ : FKind.Formats .f32)
    (hacc : acc = FKind.add.neutral .f32 hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext d; apply Fin.ext
  match d with
  | ⟨0, _⟩ => rfl
  | ⟨1, _⟩ => rfl

/-- The host's sum over the lanes of an `[a, b]` matrix from an initial value, read at row `r`: the initial value plus
    the sum of that row's entries. -/
theorem hostLaneSum_apply {a b : ℕ} (x : FVec Ideal ⟨2, ![a, b]⟩ .f32) (init : FVec Ideal ⟨0, ![]⟩ .f32)
    (h' : (⟨2, ![a, b]⟩ : Shape).ReducesTo [(1 : Fin 2)] ⟨1, ![a]⟩) (h0 : 0 < (⟨0, ![]⟩ : Shape).numel)
    (h : (⟨2, ![a, b]⟩ : Shape).Reduces [(1 : Fin 2)] ⟨1, ![a]⟩) (r : Fin a) :
    Host.reduceAdd (F := Ideal) x init h' h0 (ix1 r) = init ix0 + ∑ k : Fin b, x (ix2 r k) := by
  refine (Ideal.hostReduceAdd_single h' h x (init (Shape.Idx.first h0)) (ix1 r)).trans ?_
  refine congrArg₂ (· + ·) (congrArg init (funext fun d => d.elim0)) (Finset.sum_congr rfl fun k _ => congrArg x ?_)
  funext d; apply Fin.ext
  match d with
  | ⟨0, _⟩ => rfl
  | ⟨1, _⟩ => rfl

/-- A `tpu.matmul` of an `[m, k]` by a `[k, n]` matrix into the zero splat, read at `(a, b)`: the sum over the
    contracted coordinate of the products of the entries. -/
theorem matmul_rowcol_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The host's `dot_general` of an `[m, k]` by a `[k, n]` matrix, read at `(a, b)`: the same sum. -/
theorem dotGeneral_rowcol_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.RootX

end
-- ==== Proof.RootXNorm.lean ====
/-
  The kernel body's layer norm over the 128 lanes of a [1024,128] block, read at row p and lane q: the vector
  operations the body applies (a lane sum kept as a column, divided by 128; the deviation; its square's lane sum divided
  by 128; epsilon added; the inverse root copied along the lanes; the gain and the offset copied along the rows) are, at
  each entry, the row's `lnRow`.
-/
import proofs.«145994_j34600256537163_1_alg».proof.Proof.RootXSpec
import proofs.«145994_j34600256537163_1_alg».proof.Proof.RootXLayout

noncomputable section

open Idealize.ShloMosaic Idealize.ShloMosaic.TcCoe Idealize.SL.Sem
open Idealize.ShloMosaic.ValueIdx
open scoped BigOperators

namespace Cert.RootX

section KernelNorm
open Cert.KernelIdeal

variable (x : FVec Ideal S1024x128 .f32) (g b : FVec Ideal S1x128 .f32) (acc : BitVec 32)
  (hr : S1024x128.Reduces [(1 : Fin 2)] S1024) (hφ : FKind.Formats .f32) (hacc : acc = FKind.add.neutral .f32 hφ)
  (hc : S1024.ShapeCasts S1024x1) (hb : S1024x1.Broadcasts S1024x128) (hbr : S1x128.Broadcasts S1024x128)

/-- The block's mean column as the body computes it. -/
abbrev blkMean : FVec Ideal S1024x1 .f32 :=
  divf (shapeCast S1024x1 (multiReduction .add [(1 : Fin 2)] S1024 x acc hr hφ hacc) hc)
    (broadcast S1024x1 (Scalar.ofBits (F := Ideal) .f32 0x43000000#32))

/-- The block's deviation from its rows' means. -/
abbrev blkDev : FVec Ideal S1024x128 .f32 := subf x (broadcastTo S1024x128 (blkMean x acc hr hφ hacc hc) hb)

/-- The block's variance column. -/
abbrev blkVar : FVec Ideal S1024x1 .f32 :=
  divf (shapeCast S1024x1 (multiReduction .add [(1 : Fin 2)] S1024
      (mulf (blkDev x acc hr hφ hacc hc hb) (blkDev x acc hr hφ hacc hc hb)) acc hr hφ hacc) hc)
    (broadcast S1024x1 (Scalar.ofBits (F := Ideal) .f32 0x43000000#32))

/-- The mean column at row `p` is the row's mean. -/
theorem blkMean_apply (p : Fin 1024) (u : Fin 1) :
    blkMean x acc hr hφ hacc hc (ix2 p u) = rowMean (fun k => x (ix2 p k)) :=
  congrArg (fun s => Ideal.div s c128) ((castCol_apply _ hc p u).trans (laneSum_apply x acc hr hφ hacc p))

/-- The deviation at `(p, q)`. -/
theorem blkDev_apply (p : Fin 1024) (q : Fin 128) :
    blkDev x acc hr hφ hacc hc hb (ix2 p q) = x (ix2 p q) - rowMean (fun k => x (ix2 p k)) :=
  congrArg (fun s => x (ix2 p q) - s) ((bcastCol_apply _ hb p q).trans (blkMean_apply x acc hr hφ hacc hc p 0))

/-- The variance column at row `p` is the row's variance. -/
theorem blkVar_apply (p : Fin 1024) (u : Fin 1) :
    blkVar x acc hr hφ hacc hc hb (ix2 p u) = rowVar (fun k => x (ix2 p k)) := by
  refine congrArg (fun s => Ideal.div s c128) ((castCol_apply _ hc p u).trans ((laneSum_apply _ acc hr hφ hacc p).trans ?_))
  refine Finset.sum_congr rfl fun k _ => ?_
  show blkDev x acc hr hφ hacc hc hb (ix2 p k) * blkDev x acc hr hφ hacc hc hb (ix2 p k) = _
  rw [blkDev_apply]

/-- THE NORM AT AN ENTRY: from a deviation `dev` and a variance column `var` that are the row's, the body's
    `dev * rsqrt (var + eps) * g + b` at `(p, q)` is `lnRow` of the row at lane `q`. -/
theorem blkNorm_apply (dev : FVec Ideal S1024x128 .f32) (var eps : FVec Ideal S1024x1 .f32) (p : Fin 1024) (q : Fin 128)
    (hdev : dev (ix2 p q) = x (ix2 p q) - rowMean (fun k => x (ix2 p k)))
    (hvar : var (ix2 p (0 : Fin 1)) = rowVar (fun k => x (ix2 p k)))
    (heps : eps (ix2 p (0 : Fin 1)) = cEps) :
    addf (mulf (mulf dev (broadcastTo S1024x128 (rsqrt (addf var eps)) hb)) (broadcastTo S1024x128 g hbr))
        (broadcastTo S1024x128 b hbr) (ix2 p q)
      = lnRow (fun k => x (ix2 p k)) (laneOf g) (laneOf b) q := by
  show dev (ix2 p q) * broadcastTo S1024x128 (rsqrt (addf var eps)) hb (ix2 p q) * broadcastTo S1024x128 g hbr (ix2 p q)
      + broadcastTo S1024x128 b hbr (ix2 p q) = _
  rw [bcastCol_apply _ hb p q, broadcastTo_1b_ab_apply g hbr p q, broadcastTo_1b_ab_apply b hbr p q, hdev]
  show (x (ix2 p q) - rowMean (fun k => x (ix2 p k))) * Ideal.rsqrt (var (ix2 p (0 : Fin 1)) + eps (ix2 p (0 : Fin 1)))
      * g (ix2 (0 : Fin 1) q) + b (ix2 (0 : Fin 1) q) = _
  rw [hvar, heps]
  rfl

end KernelNorm

end Cert.RootX

end
-- ==== Proof.RootXPayload.lean ====
/-
  The kernel body's arithmetic for x_root read at one entry of a block. Over the loaded blocks as variables: the two
  products (64 feature columns; 128 normalized lanes), the root layer before its norm, and the stored block, each at
  row p and lane q, in the association the body computes in.
-/
import proofs.«145994_j34600256537163_1_alg».proof.Proof.Gen.KernelIdeal.Skeleton
import proofs.«145994_j34600256537163_1_alg».proof.Proof.RootXNorm

noncomputable section

open Idealize.ShloMosaic Idealize.ShloMosaic.TcCoe Idealize.SL.Sem
open Idealize.ShloMosaic.ValueIdx
open scoped BigOperators

namespace Cert.RootX

section Payloads
open Cert.KernelIdeal

/-- The product of the block's 64 leading feature columns with the weight's rows 0..63, at `(p, q)`. -/
theorem featProduct_apply (v28 : Vec Ideal S1024x64 .f32) (v31 : Vec Ideal S64x128 .f32) (p : Fin 1024) (q : Fin 128) :
    Gen.k1_pay2 (F := Ideal) v28 v31 (ix2 p q) = ∑ k : Fin 64, v28 (ix2 p k) * v31 (ix2 k q) := by
  unfold Gen.k1_pay2
  simp only [shapeCast_self]
  exact matmul_rowcol_apply _ none _ _ p q

/-- The product of the block's normalized segment mean with the weight's rows 64..191, at `(p, q)`: the sum over the
    128 lanes of the row's layer norm times the weight. -/
theorem bagProduct_apply (v0 : Vec Ideal S1024x128 .f32) (v2 v4 : Vec Ideal S1x128 .f32) (v36 : Vec Ideal S128x128 .f32)
    (p : Fin 1024) (q : Fin 128) :
    Gen.k1_pay3 (F := Ideal) v0 v2 v4 v36 (ix2 p q)
      = ∑ k : Fin 128, lnRow (fun k' => v0 (ix2 p k')) (laneOf v2) (laneOf v4) k * v36 (ix2 k q) := by
  unfold Gen.k1_pay3
  simp only [shapeCast_self]
  refine (matmul_rowcol_apply _ none _ _ p q).trans ?_
  refine Finset.sum_congr rfl fun k _ => congrArg (· * v36 (ix2 k q)) ?_
  exact blkNorm_apply v0 v2 v4 _ _ _ _ _ p k (blkDev_apply v0 _ _ _ _ _ _ p k) (blkVar_apply v0 _ _ _ _ _ _ p 0) rfl

/-- The root layer's block before its norm, at `(p, q)`, from the two products `t1 t2`, the mask block, the mask
    weight and the bias. -/
theorem rawRoot_apply (v34 v39 : FVec Ideal S1024x128 .f32) (v40 : Vec Ideal S1024x2 .f32) (v41 : Vec Ideal S2x128 .f32)
    (v56 : Vec Ideal S1x128 .f32) (p : Fin 1024) (q : Fin 128) :
    Gen.k1_pay4 (F := Ideal) v34 v39 v40 v41 v56 (ix2 p q)
      = leaky (((v34 (ix2 p q) + v39 (ix2 p q))
          + (v40 (ix2 p (0 : Fin 2)) * v41 (ix2 (0 : Fin 2) q) + v40 (ix2 p (1 : Fin 2)) * v41 (ix2 (1 : Fin 2) q)))
          + v56 (ix2 (0 : Fin 1) q)) := by
  unfold Gen.k1_pay4
  simp only [shapeCast_self]
  refine congrArg leaky ?_
  refine congrArg₂ (· + ·) (congrArg₂ (· + ·) rfl (congrArg₂ (· + ·) (congrArg₂ (· * ·) ?_ ?_) (congrArg₂ (· * ·) ?_ ?_))) ?_
  · exact (bcastCol_apply _ _ p q).trans (slice2_axis1_apply 0 v40 _ p (0 : Fin 1) (0 : Fin 2) rfl)
  · exact (broadcastTo_1b_ab_apply _ _ p q).trans (slice2_axis0_apply 0 v41 _ (0 : Fin 1) q (0 : Fin 2) rfl)
  · exact (bcastCol_apply _ _ p q).trans (slice2_axis1_apply 1 v40 _ p (0 : Fin 1) (1 : Fin 2) rfl)
  · exact (broadcastTo_1b_ab_apply _ _ p q).trans (slice2_axis0_apply 1 v41 _ (0 : Fin 1) q (1 : Fin 2) rfl)
  · exact broadcastTo_1b_ab_apply v56 _ p q

/-- THE STORED BLOCK at `(p, q)`: the body's store for x_root, over the loaded blocks, is the row's `xRootRow`. -/
theorem xrootBlock_apply (x0 : Vec Ideal S1024x64 .f32) (x1 : Vec Ideal S1024x128 .f32) (x2 : Vec Ideal S1024x2 .f32)
    (x3 : Vec Ideal S64x128 .f32) (x4 : Vec Ideal S128x128 .f32) (x5 : Vec Ideal S2x128 .f32)
    (x6 x7 x8 x9 x10 : Vec Ideal S1x128 .f32) (p : Fin 1024) (q : Fin 128) :
    Gen.k1_pay11 (F := Ideal) (Gen.k1_pay5 x9) (Gen.k1_pay6 x10)
        (Gen.k1_pay8 (Gen.k1_pay2 x0 x3) (Gen.k1_pay3 x1 x7 x8 x4) x2 x5 x6)
        (Gen.k1_pay9 (Gen.k1_pay2 x0 x3) (Gen.k1_pay3 x1 x7 x8 x4) x2 x5 x6) (Gen.k1_pay10 (F := Ideal)) (ix2 p q)
      = xRootRow (fun k => x0 (ix2 p k)) (fun k => x1 (ix2 p k)) (x2 (ix2 p (0 : Fin 2))) (x2 (ix2 p (1 : Fin 2)))
          x3 x4 x5 x6 x7 x8 x9 x10 q := by
  unfold Gen.k1_pay11 Gen.k1_pay5 Gen.k1_pay6 Gen.k1_pay8 Gen.k1_pay9 Gen.k1_pay7 Gen.k1_pay10
  simp only [shapeCast_self]
  refine (blkNorm_apply (Gen.k1_pay4 (Gen.k1_pay2 x0 x3) (Gen.k1_pay3 x1 x7 x8 x4) x2 x5 x6) x9 x10 _ _ _ _ _ p q
    (blkDev_apply _ _ _ _ _ _ _ p q) (blkVar_apply _ _ _ _ _ _ _ p 0) rfl).trans ?_
  unfold xRootRow
  refine congrArg (fun f => lnRow f (laneOf x9) (laneOf x10) q) (funext fun k => ?_)
  refine (rawRoot_apply _ _ x2 x5 x6 p k).trans ?_
  unfold rawRootRow
  rw [featProduct_apply, bagProduct_apply]

/-- So a block whose loads are rows `r p` of the arrays `A0 A1 A2` (and the whole of the weight arrays) stores, at each of
    its entries, the whole-array function `kerXRoot` at the array index `e` that entry is written back to. -/
theorem xrootBlock_eq (x0 : Vec Ideal S1024x64 .f32) (x1 : Vec Ideal S1024x128 .f32) (x2 : Vec Ideal S1024x2 .f32)
    (x3 : Vec Ideal S64x128 .f32) (x4 : Vec Ideal S128x128 .f32) (x5 : Vec Ideal S2x128 .f32)
    (x6 x7 x8 x9 x10 : Vec Ideal S1x128 .f32)
    (A0 : FVec Ideal S8192x64 .f32) (A1 : FVec Ideal S8192x128 .f32) (A2 : FVec Ideal S8192x2 .f32)
    (e : S1024x128.Idx → S8192x128.Idx) (r : Fin 1024 → Fin 8192)
    (he : ∀ (p : Fin 1024) (q : Fin 128), e (ix2 p q) = ix2 (r p) q)
    (h0 : ∀ (p : Fin 1024) (k : Fin 64), x0 (ix2 p k) = A0 (ix2 (r p) k))
    (h1 : ∀ (p : Fin 1024) (k : Fin 128), x1 (ix2 p k) = A1 (ix2 (r p) k))
    (h2 : ∀ (p : Fin 1024) (k : Fin 2), x2 (ix2 p k) = A2 (ix2 (r p) k))
    (j : S1024x128.Idx) :
    Gen.k1_pay11 (F := Ideal) (Gen.k1_pay5 x9) (Gen.k1_pay6 x10)
        (Gen.k1_pay8 (Gen.k1_pay2 x0 x3) (Gen.k1_pay3 x1 x7 x8 x4) x2 x5 x6)
        (Gen.k1_pay9 (Gen.k1_pay2 x0 x3) (Gen.k1_pay3 x1 x7 x8 x4) x2 x5 x6) (Gen.k1_pay10 (F := Ideal)) j
      = kerXRoot A0 A1 A2 x3 x4 x5 x6 x7 x8 x9 x10 (e j) := by
  obtain ⟨p, q, rfl⟩ : ∃ (p : Fin 1024) (q : Fin 128), j = ix2 p q := ⟨j 0, j 1, eq_ix2 j⟩
  rw [he, kerXRoot_ix2, xrootBlock_apply]
  unfold kerXRootAt
  simp only [h0, h1, h2]

end Payloads

end Cert.RootX

end
-- ==== Proof.RootXArray.lean ====
/-
  From blocks to the array, for the root kernel's x_root output: at every grid point the block written back is the
  block of ONE whole-array function of the arrays the region finds, and the eight blocks of 1024 rows cover the array;
  so after the region the output array is that function.
-/
import proofs.«145994_j34600256537163_1_alg».proof.Proof.Gen.KernelIdeal.Frame
import proofs.«145994_j34600256537163_1_alg».proof.Proof.RootXPayload
import Idealize.ShloMosaic.Lib.Pipeline.Value

noncomputable section

open Idealize.ShloMosaic Idealize.ShloMosaic.TcCoe Idealize.SL.Sem
open Idealize.ShloMosaic.ValueIdx
open Idealize.ShloMosaic.Pipeline (Dat)

namespace Cert.RootX

section Array
open Cert.KernelIdeal

variable (V : (c : Dev nD) → (b : Ref sig .tc) → Buf (Elt Ideal) ((c : Thread nD τ).loc b))

/-- The zero offsets of a whole staging buffer's rectangle, as a constant function. -/
theorem zeroOffsets : (![0, 0] : Fin 2 → Nat) = fun _ => 0 := funext fun a => by fin_cases a <;> rfl

/-- The printed index maps, decided over the eight grid points: the three row-blocked inputs and the output take block
    `t` of rows and block 0 of columns; every weight window takes block (0, 0). -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_22.index t (0 : Fin 2) = t.val ∧ win1_22.index t (1 : Fin 2) = 0 :=
  (by decide +kernel : ∀ t : Fin grid1.N, _)

/-- The array row that row `p` of point `t`'s block is. -/
def rowOf (t : Fin cfg1.N) (p : Fin 1024) : Fin 8192 :=
  ⟨t.val * 1024 + p.val, by
    have ht : t.val < grid1.N := t.isLt
    rw [Gen.N_1] at ht
    have := p.isLt; omega⟩

/-- Input window 0's block at point `t`, at `(p, k)`, is its array at row `rowOf t p`. -/
theorem read0 (c : Dev nD) (t : Fin cfg1.N) (p : Fin 1024) (k : Fin 64) :
    Gen.iblk1 V c 0 t (ix2 p k) = V c main_v46 (ix2 (rowOf t p) k) := by
  obtain ⟨f0, f1, f2, f3, f4, f5, f6, f7, f8, f9, f10, f11, f12, f13, f14, f15, f16, f17, f18, f19, f20, f21, f22, f23⟩ := blockIndex t
  show V c main_v46 (((cfg1.win 0).blk t).view.emb (ix2 p k)) = V c main_v46 (ix2 (rowOf t p) k)
  refine congrArg (V c main_v46) (funext fun a => Fin.ext ?_)
  match a with
  | ⟨0, _⟩ => show win1_0.index t (0 : Fin 2) * 1024 + 1 * p.val = t.val * 1024 + p.val; omega
  | ⟨1, _⟩ => show win1_0.index t (1 : Fin 2) * 64 + 1 * k.val = k.val; omega

/-- Input window 1's block at point `t`, at `(p, k)`, is its array at row `rowOf t p`. -/
theorem read1 (c : Dev nD) (t : Fin cfg1.N) (p : Fin 1024) (k : Fin 128) :
    Gen.iblk1 V c 1 t (ix2 p k) = V c main_v45 (ix2 (rowOf t p) k) := by
  obtain ⟨f0, f1, f2, f3, f4, f5, f6, f7, f8, f9, f10, f11, f12, f13, f14, f15, f16, f17, f18, f19, f20, f21, f22, f23⟩ := blockIndex t
  show V c main_v45 (((cfg1.win 1).blk t).view.emb (ix2 p k)) = V c main_v45 (ix2 (rowOf t p) k)
  refine congrArg (V c main_v45) (funext fun a => Fin.ext ?_)
  match a with
  | ⟨0, _⟩ => show win1_1.index t (0 : Fin 2) * 1024 + 1 * p.val = t.val * 1024 + p.val; omega
  | ⟨1, _⟩ => show win1_1.index t (1 : Fin 2) * 128 + 1 * k.val = k.val; omega

/-- Input window 2's block at point `t`, at `(p, k)`, is its array at row `rowOf t p`. -/
theorem read2 (c : Dev nD) (t : Fin cfg1.N) (p : Fin 1024) (k : Fin 2) :
    Gen.iblk1 V c 2 t (ix2 p k) = V c main_arg1 (ix2 (rowOf t p) k) := by
  obtain ⟨f0, f1, f2, f3, f4, f5, f6, f7, f8, f9, f10, f11, f12, f13, f14, f15, f16, f17, f18, f19, f20, f21, f22, f23⟩ := blockIndex t
  show V c main_arg1 (((cfg1.win 2).blk t).view.emb (ix2 p k)) = V c main_arg1 (ix2 (rowOf t p) k)
  refine congrArg (V c main_arg1) (funext fun a => Fin.ext ?_)
  match a with
  | ⟨0, _⟩ => show win1_2.index t (0 : Fin 2) * 1024 + 1 * p.val = t.val * 1024 + p.val; omega
  | ⟨1, _⟩ => show win1_2.index t (1 : Fin 2) * 2 + 1 * k.val = k.val; omega

/-- Weight window 3's block at every point is its whole array. -/
theorem read3 (c : Dev nD) (t : Fin cfg1.N) : Gen.iblk1 V c 3 t = V c main_v2 := by
  obtain ⟨f0, f1, f2, f3, f4, f5, f6, f7, f8, f9, f10, f11, f12, f13, f14, f15, f16, f17, f18, f19, f20, f21, f22, f23⟩ := blockIndex t
  funext y
  show V c main_v2 (((cfg1.win 3).blk t).view.emb y) = V c main_v2 y
  refine congrArg (V c main_v2) (funext fun a => Fin.ext ?_)
  match a with
  | ⟨0, _⟩ => show win1_3.index t (0 : Fin 2) * 64 + 1 * (y 0).val = (y 0).val; omega
  | ⟨1, _⟩ => show win1_3.index t (1 : Fin 2) * 128 + 1 * (y 1).val = (y 1).val; omega

/-- Weight window 4's block at every point is its whole array. -/
theorem read4 (c : Dev nD) (t : Fin cfg1.N) : Gen.iblk1 V c 4 t = V c main_v3 := by
  obtain ⟨f0, f1, f2, f3, f4, f5, f6, f7, f8, f9, f10, f11, f12, f13, f14, f15, f16, f17, f18, f19, f20, f21, f22, f23⟩ := blockIndex t
  funext y
  show V c main_v3 (((cfg1.win 4).blk t).view.emb y) = V c main_v3 y
  refine congrArg (V c main_v3) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Weight window 5's block at every point is its whole array. -/
theorem read5 (c : Dev nD) (t : Fin cfg1.N) : Gen.iblk1 V c 5 t = V c main_v4 := by
  obtain ⟨f0, f1, f2, f3, f4, f5, f6, f7, f8, f9, f10, f11, f12, f13, f14, f15, f16, f17, f18, f19, f20, f21, f22, f23⟩ := blockIndex t
  funext y
  show V c main_v4 (((cfg1.win 5).blk t).view.emb y) = V c main_v4 y
  refine congrArg (V c main_v4) (funext fun a => Fin.ext ?_)
  match a with
  | ⟨0, _⟩ => show win1_5.index t (0 : Fin 2) * 2 + 1 * (y 0).val = (y 0).val; omega
  | ⟨1, _⟩ => show win1_5.index t (1 : Fin 2) * 128 + 1 * (y 1).val = (y 1).val; omega

/-- Weight window 6's block at every point is its whole array. -/
theorem read6 (c : Dev nD) (t : Fin cfg1.N) : Gen.iblk1 V c 6 t = V c main_v10 := by
  obtain ⟨f0, f1, f2, f3, f4, f5, f6, f7, f8, f9, f10, f11, f12, f13, f14, f15, f16, f17, f18, f19, f20, f21, f22, f23⟩ := blockIndex t
  funext y
  show V c main_v10 (((cfg1.win 6).blk t).view.emb y) = V c main_v10 y
  refine congrArg (V c main_v10) (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Weight window 7's block at every point is its whole array. -/
theorem read7 (c : Dev nD) (t : Fin cfg1.N) : Gen.iblk1 V c 7 t = V c main_v8 := by
  obtain ⟨f0, f1, f2, f3, f4, f5, f6, f7, f8, f9, f10, f11, f12, f13, f14, f15, f16, f17, f18, f19, f20, f21, f22, f23⟩ := blockIndex t
  funext y
  show V c main_v8 (((cfg1.win 7).blk t).view.emb y) = V c main_v8 y
  refine congrArg (V c main_v8) (funext fun a => Fin.ext ?_)
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- Weight window 8's block at every point is its whole array. -/
theorem read8 (c : Dev nD) (t : Fin cfg1.N) : Gen.iblk1 V c 8 t = V c main_v9 := by
  obtain ⟨f0, f1, f2, f3, f4, f5, f6, f7, f8, f9, f10, f11, f12, f13, f14, f15, f16, f17, f18, f19, f20, f21, f22, f23⟩ := blockIndex t
  funext y
  show V c main_v9 (((cfg1.win 8).blk t).view.emb y) = V c main_v9 y
  refine congrArg (V c main_v9) (funext fun a => Fin.ext ?_)
  match a with
  | ⟨0, _⟩ => show win1_8.index t (0 : Fin 2) * 1 + 1 * (y 0).val = (y 0).val; omega
  | ⟨1, _⟩ => show win1_8.index t (1 : Fin 2) * 128 + 1 * (y 1).val = (y 1).val; omega

/-- Weight window 9's block at every point is its whole array. -/
theorem read9 (c : Dev nD) (t : Fin cfg1.N) : Gen.iblk1 V c 9 t = V c main_v11 := by
  obtain ⟨f0, f1, f2, f3, f4, f5, f6, f7, f8, f9, f10, f11, f12, f13, f14, f15, f16, f17, f18, f19, f20, f21, f22, f23⟩ := blockIndex t
  funext y
  show V c main_v11 (((cfg1.win 9).blk t).view.emb y) = V c main_v11 y
  refine congrArg (V c main_v11) (funext fun a => Fin.ext ?_)
  match a with
  | ⟨0, _⟩ => show win1_9.index t (0 : Fin 2) * 1 + 1 * (y 0).val = (y 0).val; omega
  | ⟨1, _⟩ => show win1_9.index t (1 : Fin 2) * 128 + 1 * (y 1).val = (y 1).val; omega

/-- Weight window 10's block at every point is its whole array. -/
theorem read10 (c : Dev nD) (t : Fin cfg1.N) : Gen.iblk1 V c 10 t = V c main_v12 := by
  obtain ⟨f0, f1, f2, f3, f4, f5, f6, f7, f8, f9, f10, f11, f12, f13, f14, f15, f16, f17, f18, f19, f20, f21, f22, f23⟩ := blockIndex t
  funext y
  show V c main_v12 (((cfg1.win 10).blk t).view.emb y) = V c main_v12 y
  refine congrArg (V c main_v12) (funext fun a => Fin.ext ?_)
  match a with
  | ⟨0, _⟩ => show win1_10.index t (0 : Fin 2) * 1 + 1 * (y 0).val = (y 0).val; omega
  | ⟨1, _⟩ => show win1_10.index t (1 : Fin 2) * 128 + 1 * (y 1).val = (y 1).val; omega

/-- The array index that entry `(p, q)` of point `t`'s output block is written back to. -/
theorem writeBack (t : Fin cfg1.N) (p : Fin 1024) (q : Fin 128) :
    ((cfg1.win 22).blk t).view.emb (ix2 p q) = ix2 (rowOf t p) q := by
  obtain ⟨f0, f1, f2, f3, f4, f5, f6, f7, f8, f9, f10, f11, f12, f13, f14, f15, f16, f17, f18, f19, f20, f21, f22, f23⟩ := blockIndex t
  refine funext fun a => Fin.ext ?_
  match a with
  | ⟨0, _⟩ => show win1_22.index t (0 : Fin 2) * 1024 + 1 * p.val = t.val * 1024 + p.val; omega
  | ⟨1, _⟩ => show win1_22.index t (1 : Fin 2) * 128 + 1 * q.val = q.val; omega

/-- The x_root array as one function of the arrays the region finds. -/
abbrev xrootOf (c : Dev nD) : FVec Ideal S8192x128 .f32 :=
  kerXRoot (V c main_v46) (V c main_v45) (V c main_arg1) (V c main_v2) (V c main_v3) (V c main_v4) (V c main_v10)
    (V c main_v8) (V c main_v9) (V c main_v11) (V c main_v12)

/-- WHAT POINT `t` WRITES BACK to the x_root array is block `t` of `xrootOf`. -/
theorem xroot_flushed (c : Dev nD) (t : Fin cfg1.N) :
    (Gen.dat1 (F := Ideal) V c).flushed 22 t = ((cfg1.win 22).blk t).view.read (Elt Ideal) (xrootOf V c) := by
  show (cfg1.win 22).cut (grid1.coords t) ((Gen.dat1 (F := Ideal) V c).after 22 t) = _
  rw [Gen.after1_22]
  unfold Gen.out1_22
  rw [View.canon_unit_zero zeroOffsets]
  simp only [View.ld_unit_zero (S := S1024x64) zeroOffsets, View.ld_unit_zero (S := S1024x128) zeroOffsets,
    View.ld_unit_zero (S := S1024x2) zeroOffsets, View.ld_unit_zero (S := S64x128) zeroOffsets,
    View.ld_unit_zero (S := S128x128) zeroOffsets, View.ld_unit_zero (S := S2x128) zeroOffsets,
    View.ld_unit_zero (S := S1x128) zeroOffsets]
  rw [read3 V c t, read4 V c t, read5 V c t, read6 V c t, read7 V c t, read8 V c t, read9 V c t, read10 V c t]
  funext j
  exact xrootBlock_eq (Gen.iblk1 V c 0 t) (Gen.iblk1 V c 1 t) (Gen.iblk1 V c 2 t) (V c main_v2) (V c main_v3) (V c main_v4)
    (V c main_v10) (V c main_v8) (V c main_v9) (V c main_v11) (V c main_v12) (V c main_v46) (V c main_v45) (V c main_arg1)
    (fun y => ((cfg1.win 22).blk t).view.emb y) (rowOf t) (writeBack t) (read0 V c t) (read1 V c t) (read2 V c t) j

/-- An index of the array is in point `t`'s block iff each coordinate is in the block's range on its axis. -/
theorem mem_block (t : Fin cfg1.N) (i : S8192x128.Idx) :
    i ∈ ((cfg1.win 22).blk t).view.set ↔ ∀ a : Fin 2, win1_22.index t a * S1024x128.size a ≤ (i a).val
      ∧ (i a).val < win1_22.index t a * S1024x128.size a + S1024x128.size a := by
  show i ∈ ((View.whole main_v47_3).slice (win1_22.rect t)).set ↔ _
  rw [View.set_slice_whole, Rect.mem_set_unit]
  exact Iff.rfl

/-- The eight blocks cover the array: row `r` is in the block of point `r / 1024`. -/
theorem xroot_cover (i : S8192x128.Idx) :
    ∃ t : Fin cfg1.N, (cfg1.win 22).flush t = true ∧ i ∈ ((cfg1.win 22).blk t).view.set := by
  have hi0 : (i 0).val < 8192 := (i 0).isLt
  have hi1 : (i 1).val < 128 := (i 1).isLt
  have hN : grid1.N = 8 := Gen.N_1
  refine ⟨⟨(i 0).val / 1024, by rw [show cfg1.N = grid1.N from rfl, hN]; omega⟩, Gen.flush1_22 _, ?_⟩
  obtain ⟨f0, f1, f2, f3, f4, f5, f6, f7, f8, f9, f10, f11, f12, f13, f14, f15, f16, f17, f18, f19, f20, f21, f22, f23⟩ := blockIndex ⟨(i 0).val / 1024, by rw [show cfg1.N = grid1.N from rfl, hN]; omega⟩
  rw [mem_block]
  intro a
  match a with
  | ⟨0, _⟩ =>
    show win1_22.index _ (0 : Fin 2) * 1024 ≤ (i 0).val ∧ (i 0).val < win1_22.index _ (0 : Fin 2) * 1024 + 1024
    rw [f22]; show (i 0).val / 1024 * 1024 ≤ (i 0).val ∧ (i 0).val < (i 0).val / 1024 * 1024 + 1024; omega
  | ⟨1, _⟩ =>
    show win1_22.index _ (1 : Fin 2) * 128 ≤ (i 1).val ∧ (i 1).val < win1_22.index _ (1 : Fin 2) * 128 + 128
    rw [f23]; omega

/-- THE x_root ARRAY AFTER THE REGION, whatever the region found (`V`): the kernel's whole-array function of the
    eleven arrays it reads. -/
theorem xroot_array (c : Dev nD) :
    (Gen.dat1 (F := Ideal) V c).arrAt 22 cfg1.N
      = kerXRoot (V c main_v46) (V c main_v45) (V c main_arg1) (V c main_v2) (V c main_v3) (V c main_v4) (V c main_v10)
          (V c main_v8) (V c main_v9) (V c main_v11) (V c main_v12) :=
  (Gen.dat1 (F := Ideal) V c).arrAt_eq_of_cover 22 (xrootOf V c) (fun t _ => xroot_flushed V c t) xroot_cover

end Array

end Cert.RootX

end
-- ==== Proof.RootXSum.lean ====
/-
  Two pieces of algebra on the extended reals the root stage's bridge needs, and nothing else: a sum over 194 columns
  split as 64 + 128 + 2 in the association the kernel adds in, and the leaky rectifier with its product written in the
  other order.
-/
import proofs.«145994_j34600256537163_1_alg».proof.Proof.RootXSpec

noncomputable section

open Idealize.ShloMosaic Idealize.ShloMosaic.TcCoe Idealize.SL.Sem
open scoped BigOperators

namespace Cert.RootX

/-- A sum over 194 terms is the sum of the first 64, plus the sum of the next 128, plus the last two: addition on the
    extended reals is commutative and associative, so no finiteness is needed. -/
theorem sum_fin194 (F : Fin 194 → EReal) :
    ∑ c : Fin 194, F c
      = ((∑ c : Fin 64, F ⟨c.val, by omega⟩) + ∑ c : Fin 128, F ⟨64 + c.val, by omega⟩)
        + (F ⟨192, by omega⟩ + F ⟨193, by omega⟩) := by
  have h1 : ∑ c : Fin 194, F c
      = (∑ c : Fin 64, F ⟨c.val, by omega⟩) + ∑ c : Fin 130, F ⟨64 + c.val, by omega⟩ :=
    Fin.sum_univ_add (a := 64) (b := 130) F
  have h2 : (∑ c : Fin 130, F ⟨64 + c.val, by omega⟩)
      = (∑ c : Fin 128, F ⟨64 + c.val, by omega⟩) + ∑ c : Fin 2, F ⟨64 + (128 + c.val), by omega⟩ :=
    Fin.sum_univ_add (a := 128) (b := 2) fun c : Fin 130 => F ⟨64 + c.val, by omega⟩
  rw [h1, h2, Fin.sum_univ_two, add_assoc]
  rfl

/-- The reference multiplies the slope by the value, the kernel the value by the slope: one rectifier. -/
theorem leaky_mul_comm (y : EReal) : Scalar.select (Ideal.cmp .oge y cZero) y (cSlope * y) = leaky y := by
  unfold leaky
  rw [mul_comm]

end Cert.RootX

end
-- ==== Proof.RootXRefRaw.lean ====
/-
  The reference's root layer before its norm, read at row r and lane j: the concatenation of the scattered root
  features with the mask, its product with the [194,128] weight as a sum over 194 columns split 64 + 128 + 2, the bias,
  and the leaky rectifier. The operations after the scatter are read as a function of the scattered array, and what that array
  holds in a row (columns 64..191, columns 0..63) enters as two hypotheses.
-/
import proofs.«145994_j34600256537163_1_alg».proof.Proof.RootXSum
import proofs.«145994_j34600256537163_1_alg».proof.Proof.RootXLayout

noncomputable section

open Idealize.ShloMosaic Idealize.ShloMosaic.TcCoe Idealize.SL.Sem
open Idealize.ShloMosaic.ValueIdx
open scoped BigOperators

namespace Cert.RootX

section RefRaw
open Cert.ReferenceIdeal Cert.ReferenceIdeal.Facts₀

/-- The scattered root features: columns 64..191 of `rf` set to `sn`, as the reference prints it. -/
abbrev refScattered (sn : FVec Ideal S8192x128 .f32) (rf : FVec Ideal S8192x192 .f32) : FVec Ideal S8192x192 .f32 :=
  Host.scatter scatter_S8192x192_S1_S8192x128_01_n_1_0 (fun _ b => b) rf
    (broadcastInDim S1 ![] bcast_S_S1 (constantI S_ 32 64#32)) sn

/-- The concatenation with the mask at a column below 192 reads the scattered features. -/
theorem refConcat_left (X : FVec Ideal S8192x192 .f32) (rmask : FVec Ideal S8192x2 .f32) (r : Fin 8192) (c : Fin 194)
    (c' : Fin 192) (hc : c'.val = c.val) :
    concatenate S8192x194 1 [⟨S8192x192, X⟩, ⟨S8192x2, rmask⟩] concatenates_S8192x192_S8192x2_S8192x194_d1 (ix2 r c)
      = X (ix2 r c') :=
  concatenate_pair_apply_left (1 : Fin 2) X rmask concatenates_S8192x192_S8192x2_S8192x194_d1 (ix2 r c) rfl (ix2 r c')
    (fun b => by
      match b with
      | ⟨0, _⟩ => rfl
      | ⟨1, _⟩ => exact hc)

/-- The concatenation with the mask at column 192 + m reads the mask's column m. -/
theorem refConcat_right (X : FVec Ideal S8192x192 .f32) (rmask : FVec Ideal S8192x2 .f32) (r : Fin 8192) (c : Fin 194)
    (m : Fin 2) (hc : m.val + 192 = c.val) :
    concatenate S8192x194 1 [⟨S8192x192, X⟩, ⟨S8192x2, rmask⟩] concatenates_S8192x192_S8192x2_S8192x194_d1 (ix2 r c)
      = rmask (ix2 r m) :=
  concatenate_pair_apply_right (1 : Fin 2) X rmask concatenates_S8192x192_S8192x2_S8192x194_d1 (ix2 r c) rfl rfl (ix2 r m)
    (fun b hb => by
      match b with
      | ⟨0, _⟩ => rfl
      | ⟨1, _⟩ => exact absurd rfl hb)
    (by show m.val + 192 = c.val; exact hc)

/-- A [128] vector broadcast to a row and then to every row reads, at `(r, j)`, its entry `j`. -/
theorem refRowBroadcast_apply (b : FVec Ideal S128 .f32) (r : Fin 8192) (j : Fin 128) :
    broadcastInDim S8192x128 ![0, 1] bcast_S1x128_S8192x128_0_1 (broadcastInDim S1x128 ![1] bcast_S128_S1x128_1 b) (ix2 r j)
      = b (ix1 j) := by
  refine (broadcastInDim_apply _ bcast_S1x128_S8192x128_0_1 _ (ix2 r j) (ix2 (0 : Fin 1) j) fun a => ?_).trans
    (broadcastInDim_apply _ bcast_S128_S1x128_1 b (ix2 (0 : Fin 1) j) (ix1 j) fun a => ?_)
  · match a with
    | ⟨0, _⟩ => rfl
    | ⟨1, _⟩ => rfl
  · match a with
    | ⟨0, _⟩ => rfl

/-- The reference's operations after the scatter, as a function of the scattered array `X`: the mask appended, the product
    with the weight, the bias, the leaky rectifier with its select written out — the same lines as in `refRawRoot`. -/
def refRawFrom (X : FVec Ideal S8192x192 .f32) (rmask : FVec Ideal S8192x2 .f32) (W9 : FVec Ideal S194x128 .f32)
    (b10 : FVec Ideal S128 .f32) : FVec Ideal S8192x128 .f32 :=
  have v59 : FVec Ideal S8192x194 .f32 :=
    concatenate S8192x194 1 [⟨S8192x192, X⟩, ⟨S8192x2, rmask⟩] concatenates_S8192x192_S8192x2_S8192x194_d1
  have v60 : FVec Ideal S8192x128 .f32 := Host.dotGeneral (F := Ideal) dot_S8192x194_S194x128_S8192x128_1_0_0_1_n_n none v59 W9
  have v61 : FVec Ideal S1x128 .f32 := broadcastInDim S1x128 ![1] bcast_S128_S1x128_1 b10
  have v62 : FVec Ideal S8192x128 .f32 := broadcastInDim S8192x128 ![0, 1] bcast_S1x128_S8192x128_0_1 v61
  have v63 : FVec Ideal S8192x128 .f32 := addf v60 v62
  have cst_14 : FVec Ideal S_ .f32 := constant (F := Ideal) S_ .f32 0x3C23D70A#32
  have call5_cst : FVec Ideal S_ .f32 := constant (F := Ideal) S_ .f32 0x00000000#32
  have call5_v0 : FVec Ideal S8192x128 .f32 := broadcastInDim S8192x128 ![] bcast_S_S8192x128 call5_cst
  have call5_v1 : IVec S8192x128 1 := cmpf .oge v63 call5_v0
  have call5_v2 : FVec Ideal S_ .f32 := id cst_14
  have call5_v3 : FVec Ideal S8192x128 .f32 := broadcastInDim S8192x128 ![] bcast_S_S8192x128 call5_v2
  have call5_v4 : FVec Ideal S8192x128 .f32 := mulf call5_v3 v63
  have v64 : FVec Ideal S8192x128 .f32 := select call5_v1 v63 call5_v4
  v64

/-- `refRawRoot` is those operations of the scattered features: the two definitions are the same lines. -/
theorem refRawRoot_eq_from (sn : FVec Ideal S8192x128 .f32) (rf : FVec Ideal S8192x192 .f32) (rmask : FVec Ideal S8192x2 .f32)
    (W9 : FVec Ideal S194x128 .f32) (b10 : FVec Ideal S128 .f32) :
    refRawRoot sn rf rmask W9 b10 = refRawFrom (refScattered sn rf) rmask W9 b10 := rfl

/-- The reference's rectifier over a whole array, at an entry: `leaky` of the entry. -/
theorem refLeaky_apply (y : FVec Ideal S8192x128 .f32) (i : S8192x128.Idx) :
    select (cmpf .oge y (broadcastInDim S8192x128 ![] bcast_S_S8192x128 (constant (F := Ideal) S_ .f32 0x00000000#32))) y
        (mulf (broadcastInDim S8192x128 ![] bcast_S_S8192x128 (id (constant (F := Ideal) S_ .f32 0x3C23D70A#32))) y) i
      = leaky (y i) :=
  leaky_mul_comm (y i)

/-- THE ROOT LAYER BEFORE ITS NORM at `(r, j)`, from what the scattered array holds in row `r`: `xin` in columns
    64..191 and `xout` in columns 0..63. -/
theorem refRawFrom_apply (X : FVec Ideal S8192x192 .f32) (rmask : FVec Ideal S8192x2 .f32)
    (W9 : FVec Ideal S194x128 .f32) (b10 : FVec Ideal S128 .f32) (r : Fin 8192) (j : Fin 128)
    (xin : Fin 128 → EReal) (xout : Fin 64 → EReal)
    (hin : ∀ c : Fin 128, X (ix2 r (⟨64 + c.val, by omega⟩ : Fin 192)) = xin c)
    (hout : ∀ c : Fin 64, X (ix2 r (⟨c.val, by omega⟩ : Fin 192)) = xout c) :
    refRawFrom X rmask W9 b10 (ix2 r j)
      = leaky ((((∑ c : Fin 64, xout c * W9 (ix2 (⟨c.val, by omega⟩ : Fin 194) j))
            + ∑ c : Fin 128, xin c * W9 (ix2 (⟨64 + c.val, by omega⟩ : Fin 194) j))
          + (rmask (ix2 r (0 : Fin 2)) * W9 (ix2 (⟨192, by omega⟩ : Fin 194) j)
            + rmask (ix2 r (1 : Fin 2)) * W9 (ix2 (⟨193, by omega⟩ : Fin 194) j)))
        + b10 (ix1 j)) := by
  unfold refRawFrom
  refine (refLeaky_apply _ (ix2 r j)).trans (congrArg leaky ?_)
  refine (addf_apply _ _ (ix2 r j)).trans (congrArg₂ (· + ·) ?_ (refRowBroadcast_apply b10 r j))
  refine (dotGeneral_rowcol_apply _ none _ W9 r j).trans ?_
  rw [sum_fin194]
  refine congrArg₂ (· + ·)
    (congrArg₂ (· + ·) (Finset.sum_congr rfl fun c _ => congrArg (· * W9 (ix2 (⟨c.val, by omega⟩ : Fin 194) j)) ?_)
      (Finset.sum_congr rfl fun c _ => congrArg (· * W9 (ix2 (⟨64 + c.val, by omega⟩ : Fin 194) j)) ?_))
    (congrArg₂ (· + ·) (congrArg (· * W9 (ix2 (⟨192, by omega⟩ : Fin 194) j)) ?_)
      (congrArg (· * W9 (ix2 (⟨193, by omega⟩ : Fin 194) j)) ?_))
  · exact (refConcat_left X rmask r _ (⟨c.val, by omega⟩ : Fin 192) rfl).trans (hout c)
  · exact (refConcat_left X rmask r _ (⟨64 + c.val, by omega⟩ : Fin 192) rfl).trans (hin c)
  · exact refConcat_right X rmask r _ (0 : Fin 2) rfl
  · exact refConcat_right X rmask r _ (1 : Fin 2) rfl

end RefRaw

end Cert.RootX

end
-- ==== Proof.RootLnRef.lean ====
import proofs.«145994_j34600256537163_1_alg».proof.Proof.RootXSpec
import Idealize.ShloMosaic.Lib.Pipeline.Value
import Idealize.ShloMosaic.Lib.KernelVsHost
import Idealize.ShloMosaic.PureOps.Ideal.Laws

/-!
# The host program's layer norm at an entry

The host program normalizes each row of an [8192, 128] array over its 128 lanes: the row's sum (from the zero
word) kept as a column and divided by 128 is the row's mean; the deviation from it, squared, summed and divided by
128 is the row's variance; the deviation times the inverse root of variance plus epsilon, times the gain, plus the
offset is the result. Read at row `r` and lane `j`, every broadcast reads one entry of its operand, and the whole
sequence is `lnRow` of row `r` at lane `j`. The only arithmetic fact used is `0 + s = s` for the sums' initial value.
-/

noncomputable section

open Idealize.ShloMosaic Idealize.ShloMosaic.TcCoe Idealize.SL.Sem
open Idealize.ShloMosaic.ValueIdx
open scoped BigOperators

namespace Cert.RootLn

open Cert.RootX
open Cert.ReferenceIdeal Cert.ReferenceIdeal.Facts₀

/-! ## The layouts at an entry -/

/-- The host's sum over the lanes from the zero word, at row `r`: the sum of the row's entries. -/
theorem rowSum_apply (x : FVec Ideal S8192x128 .f32) (r : Fin 8192) :
    Host.reduceAdd (F := Ideal) x (constant (F := Ideal) S_ .f32 0x00000000#32) reducesTo_S8192x128_S8192_d1 h_S_ (ix1 r)
      = ∑ k : Fin 128, x (ix2 r k) := by
  have h : S8192x128.Reduces [(1 : Fin 2)] S8192 := by decide
  refine (Ideal.hostReduceAdd_single reducesTo_S8192x128_S8192_d1 h x _ (ix1 r)).trans ?_
  show Ideal.ofBits .f32 0x00000000#32 + _ = _
  rw [Ideal.ofBits_zero_f32, zero_add]
  refine Finset.sum_congr rfl fun k _ => congrArg x ?_
  funext d; apply Fin.ext
  match d with
  | ⟨0, _⟩ => rfl
  | ⟨1, _⟩ => rfl

/-- A vector of 8192 entries kept as a column reads its entry of the row. -/
theorem keepCol_apply (v : FVec Ideal S8192 .f32) (r : Fin 8192) (u : Fin 1) :
    broadcastInDim S8192x1 ![0] bcast_S8192_S8192x1_0 v (ix2 r u) = v (ix1 r) :=
  broadcastInDim_apply ![0] _ v (ix2 r u) (ix1 r) fun a => by
    match a with
    | ⟨0, _⟩ => show r.val = if (8192 : ℕ) = 1 then 0 else r.val; exact (if_neg (by decide)).symm

/-- A column copied along the 128 lanes reads the column's entry of the row. -/
theorem spreadCol_apply (v : FVec Ideal S8192x1 .f32) (r : Fin 8192) (j : Fin 128) :
    broadcastInDim S8192x128 ![0, 1] bcast_S8192x1_S8192x128_0_1 v (ix2 r j) = v (ix2 r (0 : Fin 1)) :=
  broadcastInDim_apply ![0, 1] _ v (ix2 r j) (ix2 r (0 : Fin 1)) fun a => by
    match a with
    | ⟨0, _⟩ => show r.val = if (8192 : ℕ) = 1 then 0 else r.val; exact (if_neg (by decide)).symm
    | ⟨1, _⟩ => show (0 : ℕ) = if (1 : ℕ) = 1 then 0 else j.val; exact (if_pos rfl).symm

/-- A vector of 128 entries laid as one row and copied down the 8192 rows reads its entry of the lane. -/
theorem spreadRow_apply (g : FVec Ideal S128 .f32) (r : Fin 8192) (j : Fin 128) :
    broadcastInDim S8192x128 ![0, 1] bcast_S1x128_S8192x128_0_1 (broadcastInDim S1x128 ![1] bcast_S128_S1x128_1 g) (ix2 r j)
      = g (ix1 j) :=
  (broadcastInDim_oneRow_apply _ _ r j).trans
    (broadcastInDim_apply ![1] _ g (ix2 (0 : Fin 1) j) (ix1 j) fun a => by
      match a with
      | ⟨0, _⟩ => show j.val = if (128 : ℕ) = 1 then 0 else j.val; exact (if_neg (by decide)).symm)

/-! ## Mean, deviation and variance as the host composes them -/

/-- The column of row means: the lane sums kept as a column, divided by the broadcast 128. -/
abbrev refMean (x : FVec Ideal S8192x128 .f32) : FVec Ideal S8192x1 .f32 :=
  Host.divf (F := Ideal)
    (broadcastInDim S8192x1 ![0] bcast_S8192_S8192x1_0
      (Host.reduceAdd (F := Ideal) x (constant (F := Ideal) S_ .f32 0x00000000#32) reducesTo_S8192x128_S8192_d1 h_S_))
    (broadcastInDim S8192x1 ![] bcast_S_S8192x1 (constant (F := Ideal) S_ .f32 0x43000000#32))

/-- The deviation of every entry from its row's mean. -/
abbrev refDev (x : FVec Ideal S8192x128 .f32) : FVec Ideal S8192x128 .f32 :=
  subf x (broadcastInDim S8192x128 ![0, 1] bcast_S8192x1_S8192x128_0_1 (refMean x))

/-- The column of row variances. -/
abbrev refVar (x : FVec Ideal S8192x128 .f32) : FVec Ideal S8192x1 .f32 :=
  Host.divf (F := Ideal)
    (broadcastInDim S8192x1 ![0] bcast_S8192_S8192x1_0
      (Host.reduceAdd (F := Ideal) (mulf (refDev x) (refDev x)) (constant (F := Ideal) S_ .f32 0x00000000#32)
        reducesTo_S8192x128_S8192_d1 h_S_))
    (broadcastInDim S8192x1 ![] bcast_S_S8192x1 (constant (F := Ideal) S_ .f32 0x43000000#32))

/-- The mean column at row `r` is the row's mean. -/
theorem refMean_apply (x : FVec Ideal S8192x128 .f32) (r : Fin 8192) (u : Fin 1) :
    refMean x (ix2 r u) = rowMean (fun k => x (ix2 r k)) :=
  congrArg (fun s => Ideal.div s c128) ((keepCol_apply _ r u).trans (rowSum_apply x r))

/-- The deviation at (r, j). -/
theorem refDev_apply (x : FVec Ideal S8192x128 .f32) (r : Fin 8192) (j : Fin 128) :
    refDev x (ix2 r j) = x (ix2 r j) - rowMean (fun k => x (ix2 r k)) :=
  congrArg (fun s => x (ix2 r j) - s) ((spreadCol_apply _ r j).trans (refMean_apply x r 0))

/-- The variance column at row `r` is the row's variance. -/
theorem refVar_apply (x : FVec Ideal S8192x128 .f32) (r : Fin 8192) (u : Fin 1) :
    refVar x (ix2 r u) = rowVar (fun k => x (ix2 r k)) := by
  refine congrArg (fun s => Ideal.div s c128) ((keepCol_apply _ r u).trans ((rowSum_apply _ r).trans ?_))
  refine Finset.sum_congr rfl fun k _ => ?_
  show refDev x (ix2 r k) * refDev x (ix2 r k) = _
  rw [refDev_apply]

/-! ## The layer norm at an entry -/

/-- THE HOST'S LAYER NORM AT (r, j) is `lnRow` of row `r`, with the gain and the offset read at lane `j`. -/
theorem refLayerNorm_apply (x : FVec Ideal S8192x128 .f32) (g be : FVec Ideal S128 .f32) (r : Fin 8192) (j : Fin 128) :
    refLayerNorm x g be (ix2 r j) = lnRow (fun k => x (ix2 r k)) (fun k => g (ix1 k)) (fun k => be (ix1 k)) j := by
  show refDev x (ix2 r j)
        * broadcastInDim S8192x128 ![0, 1] bcast_S8192x1_S8192x128_0_1
            (Host.rsqrt (F := Ideal) (addf (refVar x)
              (broadcastInDim S8192x1 ![] bcast_S_S8192x1 (constant (F := Ideal) S_ .f32 0x3727C5AC#32)))) (ix2 r j)
        * broadcastInDim S8192x128 ![0, 1] bcast_S1x128_S8192x128_0_1 (broadcastInDim S1x128 ![1] bcast_S128_S1x128_1 g) (ix2 r j)
      + broadcastInDim S8192x128 ![0, 1] bcast_S1x128_S8192x128_0_1 (broadcastInDim S1x128 ![1] bcast_S128_S1x128_1 be) (ix2 r j)
      = _
  rw [spreadCol_apply, spreadRow_apply, spreadRow_apply, refDev_apply]
  show (x (ix2 r j) - rowMean (fun k => x (ix2 r k))) * Ideal.rsqrt (refVar x (ix2 r (0 : Fin 1)) + cEps) * g (ix1 j) + be (ix1 j) = _
  rw [refVar_apply]
  rfl

end Cert.RootLn

end
-- ==== Proof.RootLnScatter.lean ====
import proofs.«145994_j34600256537163_1_alg».proof.Proof.RootXSpec
import Idealize.ShloMosaic.Lib.Pipeline.Value
import Idealize.ShloMosaic.Lib.KernelVsHost

/-!
# The host's scatter of the normalized means into the root features, at an entry

The host program overwrites columns 64..191 of the [8192, 192] root features with the [8192, 128] array of
normalized segment means: one `scatter` whose single start index is column 64, whose update window is the whole
update array, and whose body returns the update. The operation is defined as a fold over the 8192·128 update
entries; here it is read at one entry of the result without unfolding that fold over its list:

* a fold of "write one point" steps, read at a point `i'`, is the value of the one step that writes `i'` when all
  the steps writing `i'` agree, and the start value when no step writes it (stated for an arbitrary list);
* update entry (p, q) lands at (p, 64 + q), so entry (r, 64 + c) of the result is the update's (r, c) — the landing
  map is injective —, and an entry in columns 0..63 is hit by no update and keeps the root feature.
-/

noncomputable section

open Idealize.ShloMosaic Idealize.ShloMosaic.TcCoe Idealize.SL.Sem
open Idealize.ShloMosaic.ValueIdx

namespace Cert.RootLn

/-! ## A fold of point writes, read at a point -/

section Fold
variable {ι κ α : Type}

/-- If every step either leaves the point `i'` alone (`¬P n`) or sets it to `u n` (`P n`), the start value at `i'`
    is `v`, and every setting step of the list sets it to `v`, the fold reads `v` at `i'`. -/
theorem foldl_point (step : (κ → α) → ι → (κ → α)) (i' : κ) (P : ι → Prop) (u : ι → α)
    (hmiss : ∀ r n, ¬P n → step r n i' = r i') (hhit : ∀ r n, P n → step r n i' = u n) :
    ∀ (L : List ι) (x : κ → α) (v : α), x i' = v → (∀ n ∈ L, P n → u n = v) → L.foldl step x i' = v
  | [], _, _, hx, _ => hx
  | a :: L, x, v, hx, hL => by
    rw [List.foldl_cons]
    refine foldl_point step i' P u hmiss hhit L (step x a) v ?_ (fun n hn => hL n (List.mem_cons_of_mem _ hn))
    by_cases ha : P a
    · rw [hhit x a ha]; exact hL a List.mem_cons_self ha
    · rw [hmiss x a ha]; exact hx

/-- No step of the list sets `i'`: the fold reads the start value there. -/
theorem foldl_point_miss (step : (κ → α) → ι → (κ → α)) (i' : κ) (P : ι → Prop) (u : ι → α)
    (hmiss : ∀ r n, ¬P n → step r n i' = r i') (hhit : ∀ r n, P n → step r n i' = u n)
    (L : List ι) (x : κ → α) (hno : ∀ n ∈ L, ¬P n) : L.foldl step x i' = x i' :=
  foldl_point step i' P u hmiss hhit L x (x i') rfl fun n hn hp => absurd hp (hno n hn)

/-- A step `n₀` of the list sets `i'`, and every step that sets it sets it to the same value: the fold reads it. -/
theorem foldl_point_hit (step : (κ → α) → ι → (κ → α)) (i' : κ) (P : ι → Prop) (u : ι → α)
    (hmiss : ∀ r n, ¬P n → step r n i' = r i') (hhit : ∀ r n, P n → step r n i' = u n) (n₀ : ι) (h₀ : P n₀) :
    ∀ (L : List ι) (x : κ → α), n₀ ∈ L → (∀ n ∈ L, P n → u n = u n₀) → L.foldl step x i' = u n₀
  | [], _, hm, _ => absurd hm List.not_mem_nil
  | a :: L, x, hm, hL => by
    rw [List.foldl_cons]
    by_cases hin : n₀ ∈ L
    · exact foldl_point_hit step i' P u hmiss hhit n₀ h₀ L (step x a) hin fun n hn => hL n (List.mem_cons_of_mem _ hn)
    · obtain rfl : n₀ = a := by
        rcases List.mem_cons.mp hm with h | h
        · exact h
        · exact absurd h hin
      exact foldl_point step i' P u hmiss hhit L (step x n₀) (u n₀) (hhit x n₀ h₀)
        fun n hn => hL n (List.mem_cons_of_mem _ hn)

end Fold

/-! ## The host's scatter with a body that returns the update, at an entry -/

section Scatter
variable {α : Type} {s si u : Shape} {w : Nat}

/-- One step of the scatter's fold leaves an entry that the step's update does not land on. -/
theorem scatterStep_miss (d : ScatterDims s si u) (f : α → α → α) (idx : IVec si w) (upd : u.Idx → α) (i' : s.Idx)
    (r : s.Idx → α) (n : Fin u.numel) (h : ¬d.resultIdx? (u.rowMajor.symm n) idx = some i') :
    (match d.resultIdx? (u.rowMajor.symm n) idx with
      | some i => fun j => if j = i then f (r i) (upd (u.rowMajor.symm n)) else r j
      | none => r) i' = r i' := by
  generalize d.resultIdx? (u.rowMajor.symm n) idx = o at h ⊢
  cases o with
  | none => rfl
  | some i =>
    show (if i' = i then _ else r i') = r i'
    rw [if_neg fun e => h (by rw [e])]

/-- One step of the fold, when its update lands on the entry and the body returns the update, sets it to the update. -/
theorem scatterStep_hit (d : ScatterDims s si u) (idx : IVec si w) (upd : u.Idx → α) (i' : s.Idx)
    (r : s.Idx → α) (n : Fin u.numel) (h : d.resultIdx? (u.rowMajor.symm n) idx = some i') :
    (match d.resultIdx? (u.rowMajor.symm n) idx with
      | some i => fun j => if j = i then (fun _ b => b) (r i) (upd (u.rowMajor.symm n)) else r j
      | none => r) i' = upd (u.rowMajor.symm n) := by
  generalize d.resultIdx? (u.rowMajor.symm n) idx = o at h ⊢
  cases o with
  | none => cases h
  | some i =>
    show (if i' = i then upd (u.rowMajor.symm n) else r i') = _
    rw [if_pos (Option.some.inj h).symm]

/-- An entry no update lands on keeps the operand's value. -/
theorem hostScatter_miss (d : ScatterDims s si u) (f : α → α → α) (x : s.Idx → α) (idx : IVec si w) (upd : u.Idx → α)
    (i' : s.Idx) (hno : ∀ j : u.Idx, ¬d.resultIdx? j idx = some i') :
    Host.scatter d f x idx upd i' = x i' := by
  unfold Host.scatter
  exact foldl_point_miss _ i' (fun n => d.resultIdx? (u.rowMajor.symm n) idx = some i') (fun _ => x i')
    (fun r n h => scatterStep_miss d f idx upd i' r n h)
    (fun r n h => absurd h (hno _)) _ x fun n _ => hno _

/-- An entry the update's entry `j₀` lands on, when every update entry landing there carries the same value, reads
    that value (the body returns the update). -/
theorem hostScatter_hit (d : ScatterDims s si u) (x : s.Idx → α) (idx : IVec si w) (upd : u.Idx → α)
    (i' : s.Idx) (j₀ : u.Idx) (h₀ : d.resultIdx? j₀ idx = some i')
    (hsame : ∀ j : u.Idx, d.resultIdx? j idx = some i' → upd j = upd j₀) :
    Host.scatter d (fun _ b => b) x idx upd i' = upd j₀ := by
  unfold Host.scatter
  have e₀ : u.rowMajor.symm (u.rowMajor j₀) = j₀ := Equiv.symm_apply_apply _ _
  rw [← e₀]
  refine foldl_point_hit _ i' (fun n => d.resultIdx? (u.rowMajor.symm n) idx = some i') (fun n => upd (u.rowMajor.symm n))
    (fun r n h => scatterStep_miss d (fun _ b => b) idx upd i' r n h) (fun r n h => scatterStep_hit d idx upd i' r n h)
    (u.rowMajor j₀) (by rw [e₀]; exact h₀) _ x (List.mem_finRange _) fun n _ hn => ?_
  show upd (u.rowMajor.symm n) = upd (u.rowMajor.symm (u.rowMajor j₀))
  rw [e₀]
  exact hsame _ hn

end Scatter

/-! ## Where an update entry lands, for the root features' scatter -/

section Root
open Cert.ReferenceIdeal Cert.ReferenceIdeal.Facts₀

/-- The scatter's one start index, column 64, as the host program prints it. -/
abbrev startIdx : IVec S1 32 := broadcastInDim S1 ![] bcast_S_S1 (constantI S_ 32 64#32)

theorem start_row (j : S8192x128.Idx) : scatter_S8192x192_S1_S8192x128_01_n_1_0.start j startIdx 0 = 0 := by
  unfold ScatterDims.start
  rw [dif_neg (show ¬(0 : Fin S8192x192.rank) ∈ scatter_S8192x192_S1_S8192x128_01_n_1_0.scatterDimsToOperandDims by decide)]

theorem start_col (j : S8192x128.Idx) : scatter_S8192x192_S1_S8192x128_01_n_1_0.start j startIdx 1 = 64 := by
  unfold ScatterDims.start
  rw [dif_pos (show (1 : Fin S8192x192.rank) ∈ scatter_S8192x192_S1_S8192x128_01_n_1_0.scatterDimsToOperandDims by decide)]
  show (64#32 : BitVec 32).toInt = 64
  decide

theorem window_row (j : S8192x128.Idx) : scatter_S8192x192_S1_S8192x128_01_n_1_0.window j 0 = (j 0).val := by
  unfold ScatterDims.window
  rw [dif_pos (show (0 : Fin S8192x192.rank) ∈ scatter_S8192x192_S1_S8192x128_01_n_1_0.sKept by decide)]
  rfl

theorem window_col (j : S8192x128.Idx) : scatter_S8192x192_S1_S8192x128_01_n_1_0.window j 1 = (j 1).val := by
  unfold ScatterDims.window
  rw [dif_pos (show (1 : Fin S8192x192.rank) ∈ scatter_S8192x192_S1_S8192x128_01_n_1_0.sKept by decide)]
  rfl

/-- Update entry (p, q) lands at (p, 64 + q). -/
theorem lands (p : Fin 8192) (q : Fin 128) (i : S8192x192.Idx) (h0 : (i 0).val = p.val) (h1 : (i 1).val = 64 + q.val) :
    scatter_S8192x192_S1_S8192x128_01_n_1_0.resultIdx? (ix2 p q : S8192x128.Idx) startIdx = some i := by
  have hp : p.val < 8192 := p.isLt
  have hq : q.val < 128 := q.isLt
  unfold ScatterDims.resultIdx?
  rw [dif_pos (fun a => by
    match a with
    | ⟨0, _⟩ =>
      show 0 ≤ scatter_S8192x192_S1_S8192x128_01_n_1_0.start (ix2 p q) startIdx 0 + ↑(scatter_S8192x192_S1_S8192x128_01_n_1_0.window (ix2 p q) 0)
        ∧ scatter_S8192x192_S1_S8192x128_01_n_1_0.start (ix2 p q) startIdx 0 + ↑(scatter_S8192x192_S1_S8192x128_01_n_1_0.window (ix2 p q) 0) < ((8192 : ℕ) : ℤ)
      rw [start_row, window_row]; show (0 : ℤ) ≤ 0 + ↑p.val ∧ (0 : ℤ) + ↑p.val < ((8192 : ℕ) : ℤ); omega
    | ⟨1, _⟩ =>
      show 0 ≤ scatter_S8192x192_S1_S8192x128_01_n_1_0.start (ix2 p q) startIdx 1 + ↑(scatter_S8192x192_S1_S8192x128_01_n_1_0.window (ix2 p q) 1)
        ∧ scatter_S8192x192_S1_S8192x128_01_n_1_0.start (ix2 p q) startIdx 1 + ↑(scatter_S8192x192_S1_S8192x128_01_n_1_0.window (ix2 p q) 1) < ((192 : ℕ) : ℤ)
      rw [start_col, window_col]; show (0 : ℤ) ≤ 64 + ↑q.val ∧ (64 : ℤ) + ↑q.val < ((192 : ℕ) : ℤ); omega)]
  refine congrArg some (funext fun a => Fin.ext ?_)
  match a with
  | ⟨0, _⟩ =>
    show (scatter_S8192x192_S1_S8192x128_01_n_1_0.start (ix2 p q) startIdx 0 + ↑(scatter_S8192x192_S1_S8192x128_01_n_1_0.window (ix2 p q) 0)).toNat = (i 0).val
    rw [start_row, window_row, h0]; show ((0 : ℤ) + ↑p.val).toNat = p.val; omega
  | ⟨1, _⟩ =>
    show (scatter_S8192x192_S1_S8192x128_01_n_1_0.start (ix2 p q) startIdx 1 + ↑(scatter_S8192x192_S1_S8192x128_01_n_1_0.window (ix2 p q) 1)).toNat = (i 1).val
    rw [start_col, window_col, h1]; show ((64 : ℤ) + ↑q.val).toNat = 64 + q.val; omega

/-- So an update entry landing at (r, k) is the entry (r, k − 64), and `k ≥ 64`. -/
theorem of_lands (j : S8192x128.Idx) (r : Fin 8192) (k : Fin 192)
    (h : scatter_S8192x192_S1_S8192x128_01_n_1_0.resultIdx? j startIdx = some (ix2 r k : S8192x192.Idx)) :
    (j 0).val = r.val ∧ 64 + (j 1).val = k.val := by
  obtain ⟨p, q, rfl⟩ : ∃ (p : Fin 8192) (q : Fin 128), j = ix2 p q := ⟨j 0, j 1, eq_ix2 j⟩
  have hq : q.val < 128 := q.isLt
  have e := (lands p q (ix2 p ⟨64 + q.val, by omega⟩ : S8192x192.Idx) rfl rfl).symm.trans h
  have e' := Option.some.inj e
  exact ⟨congrArg Fin.val (congrFun e' 0), congrArg Fin.val (congrFun e' 1)⟩

/-! ## The scatter at an entry -/

/-- Columns 64..191 of the result are the update: entry (r, 64 + c) is the update's (r, c). -/
theorem scatter_mid (sn : FVec Ideal S8192x128 .f32) (rf : FVec Ideal S8192x192 .f32) (r : Fin 8192) (c : Fin 128)
    (k : Fin 192) (hk : k.val = 64 + c.val) :
    Host.scatter scatter_S8192x192_S1_S8192x128_01_n_1_0 (fun _ b => b) rf startIdx sn (ix2 r k) = sn (ix2 r c) := by
  refine hostScatter_hit _ rf startIdx sn (ix2 r k) (ix2 r c) (lands r c _ rfl hk) fun j hj => ?_
  obtain ⟨h0, h1⟩ := of_lands j r k hj
  refine congrArg sn ?_
  rw [eq_ix2 j]
  refine funext fun a => Fin.ext ?_
  match a with
  | ⟨0, _⟩ => exact h0
  | ⟨1, _⟩ => show (j 1).val = c.val; omega

/-- Columns 0..63 of the result are the root features. -/
theorem scatter_low (sn : FVec Ideal S8192x128 .f32) (rf : FVec Ideal S8192x192 .f32) (r : Fin 8192) (k : Fin 192)
    (hk : k.val < 64) :
    Host.scatter scatter_S8192x192_S1_S8192x128_01_n_1_0 (fun _ b => b) rf startIdx sn (ix2 r k) = rf (ix2 r k) :=
  hostScatter_miss _ _ rf startIdx sn (ix2 r k) fun j hj => by
    have := (of_lands j r k hj).2; omega

/-- The scatter at entry (r, k): the update's (r, k − 64) from column 64 on, the root feature before. -/
theorem scatter_apply (sn : FVec Ideal S8192x128 .f32) (rf : FVec Ideal S8192x192 .f32) (r : Fin 8192) (k : Fin 192) :
    Host.scatter scatter_S8192x192_S1_S8192x128_01_n_1_0 (fun _ b => b) rf startIdx sn (ix2 r k)
      = if 64 ≤ k.val then sn (ix2 r ⟨k.val - 64, by have := k.isLt; omega⟩) else rf (ix2 r k) := by
  split
  · next h => exact scatter_mid sn rf r ⟨k.val - 64, by have := k.isLt; omega⟩ k (by show k.val = 64 + (k.val - 64); omega)
  · next h => exact scatter_low sn rf r k (by omega)

end Root

end Cert.RootLn

end
-- ==== Proof.RootXBridge.lean ====
/-
  The bridge for x_root over pure terms: the kernel's whole-array function, at the host preparations the kernel's program
  prints (the slice of the root features' columns 0..63, the three slices of the root weight's rows, the five [128]
  vectors reshaped to one row), is the reference's composed term. Index by index: both sides are a layer norm of the
  same row, and the row before the norm agrees because the reference's sum over 194 columns splits into the kernel's
  three sums — the scattered columns 64..191 read as the normalized segment mean.
-/
import proofs.«145994_j34600256537163_1_alg».proof.Proof.RootXRefRaw
import proofs.«145994_j34600256537163_1_alg».proof.Proof.RootLnRef
import proofs.«145994_j34600256537163_1_alg».proof.Proof.RootLnScatter
import Idealize.ShloMosaic.Lib.ValueLayout

noncomputable section

open Idealize.ShloMosaic Idealize.ShloMosaic.TcCoe Idealize.SL.Sem
open Idealize.ShloMosaic.ValueIdx
open scoped BigOperators

namespace Cert.RootX

/-- A [128] vector reshaped to one row, read along the lanes, is the vector. -/
theorem laneOf_reshape (v : FVec Ideal Cert.KernelIdeal.S128 .f32) :
    laneOf (shapeCast Cert.KernelIdeal.S1x128 v Cert.KernelIdeal.Facts₀.shapeCasts_S128_S1x128) = fun k => v (ix1 k) :=
  funext fun k => shapeCast_a_1a_apply v _ (0 : Fin 1) k

/-- THE BRIDGE: the kernel's x_root of the prepared arrays is the reference's x_root. -/
theorem xroot_bridge (mean : FVec Ideal Cert.KernelIdeal.S8192x128 .f32) (rf : FVec Ideal Cert.KernelIdeal.S8192x192 .f32)
    (rmask : FVec Ideal Cert.KernelIdeal.S8192x2 .f32) (g7 be8 : FVec Ideal Cert.KernelIdeal.S128 .f32) (W9 : FVec Ideal Cert.KernelIdeal.S194x128 .f32)
    (b10 g11 be12 : FVec Ideal Cert.KernelIdeal.S128 .f32) :
    kerXRoot (extractStridedSlice Cert.KernelIdeal.S8192x64 ![0, 0] rf Cert.KernelIdeal.Facts₀.slices_S8192x192_S8192x64_0_0) mean rmask
        (extractStridedSlice Cert.KernelIdeal.S64x128 ![0, 0] W9 Cert.KernelIdeal.Facts₀.slices_S194x128_S64x128_0_0)
        (extractStridedSlice Cert.KernelIdeal.S128x128 ![64, 0] W9 Cert.KernelIdeal.Facts₀.slices_S194x128_S128x128_64_0)
        (extractStridedSlice Cert.KernelIdeal.S2x128 ![192, 0] W9 Cert.KernelIdeal.Facts₀.slices_S194x128_S2x128_192_0)
        (shapeCast Cert.KernelIdeal.S1x128 b10 Cert.KernelIdeal.Facts₀.shapeCasts_S128_S1x128)
        (shapeCast Cert.KernelIdeal.S1x128 g7 Cert.KernelIdeal.Facts₀.shapeCasts_S128_S1x128)
        (shapeCast Cert.KernelIdeal.S1x128 be8 Cert.KernelIdeal.Facts₀.shapeCasts_S128_S1x128)
        (shapeCast Cert.KernelIdeal.S1x128 g11 Cert.KernelIdeal.Facts₀.shapeCasts_S128_S1x128)
        (shapeCast Cert.KernelIdeal.S1x128 be12 Cert.KernelIdeal.Facts₀.shapeCasts_S128_S1x128)
      = refXRoot mean rf rmask g7 be8 W9 b10 g11 be12 := by
  funext i
  obtain ⟨r, j, rfl⟩ : ∃ (r : Fin 8192) (j : Fin 128), i = ix2 r j := ⟨i 0, i 1, eq_ix2 i⟩
  rw [kerXRoot_ix2]
  unfold kerXRootAt xRootRow refXRoot refSubNorm
  rw [Cert.RootLn.refLayerNorm_apply, laneOf_reshape g11, laneOf_reshape be12, laneOf_reshape g7, laneOf_reshape be8]
  refine congrArg (fun f => lnRow f (fun k => g11 (ix1 k)) (fun k => be12 (ix1 k)) j) (funext fun k => ?_)
  beta_reduce
  rw [refRawRoot_eq_from,
    refRawFrom_apply (refScattered (refLayerNorm mean g7 be8) rf) rmask W9 b10 r k
      (fun c => lnRow (fun k' => mean (ix2 r k')) (fun k' => g7 (ix1 k')) (fun k' => be8 (ix1 k')) c)
      (fun c => rf (ix2 r (⟨c.val, by omega⟩ : Fin 192)))
      (fun c => (Cert.RootLn.scatter_mid (refLayerNorm mean g7 be8) rf r c (⟨64 + c.val, by omega⟩ : Fin 192) rfl).trans
        (Cert.RootLn.refLayerNorm_apply mean g7 be8 r c))
      (fun c => Cert.RootLn.scatter_low (refLayerNorm mean g7 be8) rf r (⟨c.val, by omega⟩ : Fin 192) c.isLt)]
  unfold rawRootRow
  refine congrArg leaky ?_
  refine congrArg₂ (· + ·)
    (congrArg₂ (· + ·)
      (congrArg₂ (· + ·) (Finset.sum_congr rfl fun c _ => congrArg₂ (· * ·) ?_ ?_)
        (Finset.sum_congr rfl fun c _ => congrArg₂ (· * ·) rfl ?_))
      (congrArg₂ (· + ·) (congrArg₂ (· * ·) rfl ?_) (congrArg₂ (· * ·) rfl ?_)))
    ?_
  · exact slice2_axis1_apply 0 rf _ r c (⟨c.val, by omega⟩ : Fin 192) (Nat.zero_add _).symm
  · exact slice2_axis0_apply 0 W9 _ c k (⟨c.val, by omega⟩ : Fin 194) (Nat.zero_add _).symm
  · exact slice2_axis0_apply 64 W9 _ c k (⟨64 + c.val, by omega⟩ : Fin 194) rfl
  · exact slice2_axis0_apply 192 W9 _ (0 : Fin 2) k (⟨192, by omega⟩ : Fin 194) rfl
  · exact slice2_axis0_apply 192 W9 _ (1 : Fin 2) k (⟨193, by omega⟩ : Fin 194) rfl
  · exact shapeCast_a_1a_apply b10 _ (0 : Fin 1) k

end Cert.RootX

end
-- ==== Proof.RootHeadsBlocks.lean ====
import proofs.«145994_j34600256537163_1_alg».proof.Proof.Gen.KernelIdeal.Frame
import Idealize.ShloMosaic.Lib.Pipeline.Value
import Idealize.ShloMosaic.Lib.ValueIdx

/-!
# Region 1's blocks: where each window's block sits in its array

Region 1 has eight grid points.  At point `t` every row-blocked window (the root mask among the
inputs; the three head outputs) holds rows `1024 t … 1024 t + 1023` of its array, and every weight
and bias window holds its whole array: the printed index maps send `t` to block `(t, 0)` and to
block `(0, 0)` (decided over the eight points).  From that: each weight and bias block IS its
array, the mask block's row `p` is the mask's row `1024 t + p`, and the eight blocks of each head
output tile its array (row `r` lies in block `r / 1024`).
-/

noncomputable section

open Idealize.ShloMosaic Idealize.ShloMosaic.TcCoe Idealize.SL.Sem
open Idealize.ShloMosaic.ValueIdx
open Idealize.ShloMosaic.Pipeline (Dat)
open Cert.KernelIdeal Cert.KernelIdeal.Gen
open scoped BigOperators

namespace Cert.RootHeads
variable (V : (c : Dev nD) → (b : Ref sig .tc) → Buf (Elt Ideal) ((c : Thread nD τ).loc b))

/-- The whole-buffer rectangle's offsets are zero. -/
theorem zeroOffsets : (![0, 0] : Fin 2 → Nat) = fun _ => 0 := funext fun a => by fin_cases a <;> rfl

/-- The stored x_root block at grid point `t`, from the input windows' blocks there. -/
def xrootBlk (c : Dev nD) (t : Fin cfg1.N) : FVec Ideal S1024x128 .f32 :=
  k1_pay11 (k1_pay5 (iblk1 V c 9 t)) (k1_pay6 (iblk1 V c 10 t))
    (k1_pay8 (k1_pay2 (iblk1 V c 0 t) (iblk1 V c 3 t)) (k1_pay3 (iblk1 V c 1 t) (iblk1 V c 7 t) (iblk1 V c 8 t) (iblk1 V c 4 t)) (iblk1 V c 2 t) (iblk1 V c 5 t) (iblk1 V c 6 t))
    (k1_pay9 (k1_pay2 (iblk1 V c 0 t) (iblk1 V c 3 t)) (k1_pay3 (iblk1 V c 1 t) (iblk1 V c 7 t) (iblk1 V c 8 t) (iblk1 V c 4 t)) (iblk1 V c 2 t) (iblk1 V c 5 t) (iblk1 V c 6 t))
    (k1_pay10 (F := Ideal))

/-- The printed index maps over the grid: the row-blocked windows move with the point, the others stay. -/
theorem idx_facts : ∀ t : Fin cfg1.N,
    win1_19.index t (0 : Fin 2) = t.val ∧ win1_19.index t (1 : Fin 2) = 0
    ∧ win1_20.index t (0 : Fin 2) = t.val ∧ win1_20.index t (1 : Fin 2) = 0
    ∧ win1_21.index t (0 : Fin 2) = t.val ∧ win1_21.index t (1 : Fin 2) = 0
    ∧ win1_2.index t (0 : Fin 2) = t.val ∧ win1_2.index t (1 : Fin 2) = 0
    ∧ win1_11.index t (0 : Fin 2) = 0 ∧ win1_11.index t (1 : Fin 2) = 0
    ∧ win1_12.index t (0 : Fin 2) = 0 ∧ win1_12.index t (1 : Fin 2) = 0
    ∧ win1_13.index t (0 : Fin 2) = 0 ∧ win1_13.index t (1 : Fin 2) = 0
    ∧ win1_14.index t (0 : Fin 2) = 0 ∧ win1_14.index t (1 : Fin 2) = 0
    ∧ win1_15.index t (0 : Fin 2) = 0 ∧ win1_15.index t (1 : Fin 2) = 0
    ∧ win1_16.index t (0 : Fin 2) = 0 ∧ win1_16.index t (1 : Fin 2) = 0
    ∧ win1_17.index t (0 : Fin 2) = 0 ∧ win1_17.index t (1 : Fin 2) = 0
    ∧ win1_18.index t (0 : Fin 2) = 0 ∧ win1_18.index t (1 : Fin 2) = 0 :=
  (by decide +kernel : ∀ t : Fin grid1.N, _)

/-! ## The staged blocks of the weights, the biases and the root mask -/

/-- Window 11 stages its whole array at every point: its block is the array. -/
theorem blk11_eq (c : Dev nD) (t : Fin cfg1.N) : (iblk1 V c 11 t : S128x1.Idx → Elt Ideal .f32) = V c main_arg13 := by
  obtain ⟨-, -, -, -, -, -, -, -, e11_0, e11_1, e12_0, e12_1, e13_0, e13_1, e14_0, e14_1, e15_0, e15_1, e16_0, e16_1, e17_0, e17_1, e18_0, e18_1⟩ := idx_facts t
  funext y
  unfold iblk1
  rw [View.read_apply]
  show V c main_arg13 (((cfg1.win 11).blk t).view.emb y) = V c main_arg13 y
  refine congrArg (V c main_arg13) (funext fun a => Fin.ext ?_)
  match a with
  | ⟨0, _⟩ => show win1_11.index t (0 : Fin 2) * 128 + 1 * (y 0).val = (y 0).val; rw [e11_0]; omega
  | ⟨1, _⟩ => show win1_11.index t (1 : Fin 2) * 1 + 1 * (y 1).val = (y 1).val; rw [e11_1]; omega

/-- Window 12 stages its whole array at every point: its block is the array. -/
theorem blk12_eq (c : Dev nD) (t : Fin cfg1.N) : (iblk1 V c 12 t : S1x1.Idx → Elt Ideal .f32) = V c main_v13 := by
  obtain ⟨-, -, -, -, -, -, -, -, e11_0, e11_1, e12_0, e12_1, e13_0, e13_1, e14_0, e14_1, e15_0, e15_1, e16_0, e16_1, e17_0, e17_1, e18_0, e18_1⟩ := idx_facts t
  funext y
  unfold iblk1
  rw [View.read_apply]
  show V c main_v13 (((cfg1.win 12).blk t).view.emb y) = V c main_v13 y
  refine congrArg (V c main_v13) (funext fun a => Fin.ext ?_)
  match a with
  | ⟨0, _⟩ => show win1_12.index t (0 : Fin 2) * 1 + 1 * (y 0).val = (y 0).val; rw [e12_0]; omega
  | ⟨1, _⟩ => show win1_12.index t (1 : Fin 2) * 1 + 1 * (y 1).val = (y 1).val; rw [e12_1]; omega

/-- Window 13 stages its whole array at every point: its block is the array. -/
theorem blk13_eq (c : Dev nD) (t : Fin cfg1.N) : (iblk1 V c 13 t : S128x10.Idx → Elt Ideal .f32) = V c main_arg15 := by
  obtain ⟨-, -, -, -, -, -, -, -, e11_0, e11_1, e12_0, e12_1, e13_0, e13_1, e14_0, e14_1, e15_0, e15_1, e16_0, e16_1, e17_0, e17_1, e18_0, e18_1⟩ := idx_facts t
  funext y
  unfold iblk1
  rw [View.read_apply]
  show V c main_arg15 (((cfg1.win 13).blk t).view.emb y) = V c main_arg15 y
  refine congrArg (V c main_arg15) (funext fun a => Fin.ext ?_)
  match a with
  | ⟨0, _⟩ => show win1_13.index t (0 : Fin 2) * 128 + 1 * (y 0).val = (y 0).val; rw [e13_0]; omega
  | ⟨1, _⟩ => show win1_13.index t (1 : Fin 2) * 10 + 1 * (y 1).val = (y 1).val; rw [e13_1]; omega

/-- Window 14 stages its whole array at every point: its block is the array. -/
theorem blk14_eq (c : Dev nD) (t : Fin cfg1.N) : (iblk1 V c 14 t : S1x10.Idx → Elt Ideal .f32) = V c main_v14 := by
  obtain ⟨-, -, -, -, -, -, -, -, e11_0, e11_1, e12_0, e12_1, e13_0, e13_1, e14_0, e14_1, e15_0, e15_1, e16_0, e16_1, e17_0, e17_1, e18_0, e18_1⟩ := idx_facts t
  funext y
  unfold iblk1
  rw [View.read_apply]
  show V c main_v14 (((cfg1.win 14).blk t).view.emb y) = V c main_v14 y
  refine congrArg (V c main_v14) (funext fun a => Fin.ext ?_)
  match a with
  | ⟨0, _⟩ => show win1_14.index t (0 : Fin 2) * 1 + 1 * (y 0).val = (y 0).val; rw [e14_0]; omega
  | ⟨1, _⟩ => show win1_14.index t (1 : Fin 2) * 10 + 1 * (y 1).val = (y 1).val; rw [e14_1]; omega

/-- Window 15 stages its whole array at every point: its block is the array. -/
theorem blk15_eq (c : Dev nD) (t : Fin cfg1.N) : (iblk1 V c 15 t : S128x1.Idx → Elt Ideal .f32) = V c main_arg17 := by
  obtain ⟨-, -, -, -, -, -, -, -, e11_0, e11_1, e12_0, e12_1, e13_0, e13_1, e14_0, e14_1, e15_0, e15_1, e16_0, e16_1, e17_0, e17_1, e18_0, e18_1⟩ := idx_facts t
  funext y
  unfold iblk1
  rw [View.read_apply]
  show V c main_arg17 (((cfg1.win 15).blk t).view.emb y) = V c main_arg17 y
  refine congrArg (V c main_arg17) (funext fun a => Fin.ext ?_)
  match a with
  | ⟨0, _⟩ => show win1_15.index t (0 : Fin 2) * 128 + 1 * (y 0).val = (y 0).val; rw [e15_0]; omega
  | ⟨1, _⟩ => show win1_15.index t (1 : Fin 2) * 1 + 1 * (y 1).val = (y 1).val; rw [e15_1]; omega

/-- Window 16 stages its whole array at every point: its block is the array. -/
theorem blk16_eq (c : Dev nD) (t : Fin cfg1.N) : (iblk1 V c 16 t : S1x1.Idx → Elt Ideal .f32) = V c main_v15 := by
  obtain ⟨-, -, -, -, -, -, -, -, e11_0, e11_1, e12_0, e12_1, e13_0, e13_1, e14_0, e14_1, e15_0, e15_1, e16_0, e16_1, e17_0, e17_1, e18_0, e18_1⟩ := idx_facts t
  funext y
  unfold iblk1
  rw [View.read_apply]
  show V c main_v15 (((cfg1.win 16).blk t).view.emb y) = V c main_v15 y
  refine congrArg (V c main_v15) (funext fun a => Fin.ext ?_)
  match a with
  | ⟨0, _⟩ => show win1_16.index t (0 : Fin 2) * 1 + 1 * (y 0).val = (y 0).val; rw [e16_0]; omega
  | ⟨1, _⟩ => show win1_16.index t (1 : Fin 2) * 1 + 1 * (y 1).val = (y 1).val; rw [e16_1]; omega

/-- Window 17 stages its whole array at every point: its block is the array. -/
theorem blk17_eq (c : Dev nD) (t : Fin cfg1.N) : (iblk1 V c 17 t : S128x2.Idx → Elt Ideal .f32) = V c main_arg19 := by
  obtain ⟨-, -, -, -, -, -, -, -, e11_0, e11_1, e12_0, e12_1, e13_0, e13_1, e14_0, e14_1, e15_0, e15_1, e16_0, e16_1, e17_0, e17_1, e18_0, e18_1⟩ := idx_facts t
  funext y
  unfold iblk1
  rw [View.read_apply]
  show V c main_arg19 (((cfg1.win 17).blk t).view.emb y) = V c main_arg19 y
  refine congrArg (V c main_arg19) (funext fun a => Fin.ext ?_)
  match a with
  | ⟨0, _⟩ => show win1_17.index t (0 : Fin 2) * 128 + 1 * (y 0).val = (y 0).val; rw [e17_0]; omega
  | ⟨1, _⟩ => show win1_17.index t (1 : Fin 2) * 2 + 1 * (y 1).val = (y 1).val; rw [e17_1]; omega

/-- Window 18 stages its whole array at every point: its block is the array. -/
theorem blk18_eq (c : Dev nD) (t : Fin cfg1.N) : (iblk1 V c 18 t : S1x2.Idx → Elt Ideal .f32) = V c main_v16 := by
  obtain ⟨-, -, -, -, -, -, -, -, e11_0, e11_1, e12_0, e12_1, e13_0, e13_1, e14_0, e14_1, e15_0, e15_1, e16_0, e16_1, e17_0, e17_1, e18_0, e18_1⟩ := idx_facts t
  funext y
  unfold iblk1
  rw [View.read_apply]
  show V c main_v16 (((cfg1.win 18).blk t).view.emb y) = V c main_v16 y
  refine congrArg (V c main_v16) (funext fun a => Fin.ext ?_)
  match a with
  | ⟨0, _⟩ => show win1_18.index t (0 : Fin 2) * 1 + 1 * (y 0).val = (y 0).val; rw [e18_0]; omega
  | ⟨1, _⟩ => show win1_18.index t (1 : Fin 2) * 2 + 1 * (y 1).val = (y 1).val; rw [e18_1]; omega

/-- The root mask's block at point `t` is rows `1024 t … 1024 t + 1023` of the mask. -/
theorem blk2_apply (c : Dev nD) (t : Fin cfg1.N) (p : Fin 1024) (d : Fin 2) (r : Fin 8192) (hr : r.val = t.val * 1024 + p.val) :
    (iblk1 V c 2 t : S1024x2.Idx → Elt Ideal .f32) (ix2 p d) = (V c main_arg1 : S8192x2.Idx → Elt Ideal .f32) (ix2 r d) := by
  obtain ⟨-, -, -, -, -, -, e2_0, e2_1, -⟩ := idx_facts t
  unfold iblk1
  rw [View.read_apply]
  show V c main_arg1 (((cfg1.win 2).blk t).view.emb (ix2 p d)) = V c main_arg1 (ix2 r d)
  refine congrArg (V c main_arg1) (funext fun a => Fin.ext ?_)
  match a with
  | ⟨0, _⟩ => show win1_2.index t (0 : Fin 2) * 1024 + 1 * p.val = r.val; rw [e2_0, hr]; omega
  | ⟨1, _⟩ => show win1_2.index t (1 : Fin 2) * 2 + 1 * d.val = d.val; rw [e2_1]; omega

/-! ## The head outputs' blocks tile their arrays -/

/-- An index of the `o_v` array is in point `t`'s block iff each coordinate is in the block's range on its axis. -/
theorem mem_blk19 (t : Fin cfg1.N) (i : S8192x1.Idx) :
    i ∈ ((cfg1.win 19).blk t).view.set ↔ ∀ a : Fin 2, win1_19.index t a * S1024x1.size a ≤ (i a).val ∧ (i a).val < win1_19.index t a * S1024x1.size a + S1024x1.size a := by
  show i ∈ ((View.whole main_v47_0).slice (win1_19.rect t)).set ↔ _
  rw [View.set_slice_whole, Rect.mem_set_unit]
  exact Iff.rfl

/-- The eight row blocks tile the `o_v` array: row `r` lies in the block of point `r / 1024`. -/
theorem cover19 (i : S8192x1.Idx) : ∃ t : Fin cfg1.N, (cfg1.win 19).flush t = true ∧ i ∈ ((cfg1.win 19).blk t).view.set := by
  have hi0 : (i 0).val < 8192 := (i 0).isLt
  have hi1 : (i 1).val < 1 := (i 1).isLt
  have hN : cfg1.N = 8 := N_1
  obtain ⟨t, ht⟩ : ∃ t : Fin cfg1.N, t.val = (i 0).val / 1024 := ⟨⟨(i 0).val / 1024, by rw [hN]; omega⟩, rfl⟩
  obtain ⟨e19_0, e19_1, e20_0, e20_1, e21_0, e21_1, -⟩ := idx_facts t
  refine ⟨t, flush1_19 t, ?_⟩
  rw [mem_blk19]
  intro a
  match a with
  | ⟨0, _⟩ => show win1_19.index t (0 : Fin 2) * 1024 ≤ (i 0).val ∧ (i 0).val < win1_19.index t (0 : Fin 2) * 1024 + 1024; rw [e19_0, ht]; omega
  | ⟨1, _⟩ => show win1_19.index t (1 : Fin 2) * 1 ≤ (i 1).val ∧ (i 1).val < win1_19.index t (1 : Fin 2) * 1 + 1; rw [e19_1]; omega

/-- An index of the `o_cls_p` array is in point `t`'s block iff each coordinate is in the block's range on its axis. -/
theorem mem_blk20 (t : Fin cfg1.N) (i : S8192x10.Idx) :
    i ∈ ((cfg1.win 20).blk t).view.set ↔ ∀ a : Fin 2, win1_20.index t a * S1024x10.size a ≤ (i a).val ∧ (i a).val < win1_20.index t a * S1024x10.size a + S1024x10.size a := by
  show i ∈ ((View.whole main_v47_1).slice (win1_20.rect t)).set ↔ _
  rw [View.set_slice_whole, Rect.mem_set_unit]
  exact Iff.rfl

/-- The eight row blocks tile the `o_cls_p` array: row `r` lies in the block of point `r / 1024`. -/
theorem cover20 (i : S8192x10.Idx) : ∃ t : Fin cfg1.N, (cfg1.win 20).flush t = true ∧ i ∈ ((cfg1.win 20).blk t).view.set := by
  have hi0 : (i 0).val < 8192 := (i 0).isLt
  have hi1 : (i 1).val < 10 := (i 1).isLt
  have hN : cfg1.N = 8 := N_1
  obtain ⟨t, ht⟩ : ∃ t : Fin cfg1.N, t.val = (i 0).val / 1024 := ⟨⟨(i 0).val / 1024, by rw [hN]; omega⟩, rfl⟩
  obtain ⟨e19_0, e19_1, e20_0, e20_1, e21_0, e21_1, -⟩ := idx_facts t
  refine ⟨t, flush1_20 t, ?_⟩
  rw [mem_blk20]
  intro a
  match a with
  | ⟨0, _⟩ => show win1_20.index t (0 : Fin 2) * 1024 ≤ (i 0).val ∧ (i 0).val < win1_20.index t (0 : Fin 2) * 1024 + 1024; rw [e20_0, ht]; omega
  | ⟨1, _⟩ => show win1_20.index t (1 : Fin 2) * 10 ≤ (i 1).val ∧ (i 1).val < win1_20.index t (1 : Fin 2) * 10 + 10; rw [e20_1]; omega

/-- An index of the `of_x` array is in point `t`'s block iff each coordinate is in the block's range on its axis. -/
theorem mem_blk21 (t : Fin cfg1.N) (i : S8192x3.Idx) :
    i ∈ ((cfg1.win 21).blk t).view.set ↔ ∀ a : Fin 2, win1_21.index t a * S1024x3.size a ≤ (i a).val ∧ (i a).val < win1_21.index t a * S1024x3.size a + S1024x3.size a := by
  show i ∈ ((View.whole main_v47_2).slice (win1_21.rect t)).set ↔ _
  rw [View.set_slice_whole, Rect.mem_set_unit]
  exact Iff.rfl

/-- The eight row blocks tile the `of_x` array: row `r` lies in the block of point `r / 1024`. -/
theorem cover21 (i : S8192x3.Idx) : ∃ t : Fin cfg1.N, (cfg1.win 21).flush t = true ∧ i ∈ ((cfg1.win 21).blk t).view.set := by
  have hi0 : (i 0).val < 8192 := (i 0).isLt
  have hi1 : (i 1).val < 3 := (i 1).isLt
  have hN : cfg1.N = 8 := N_1
  obtain ⟨t, ht⟩ : ∃ t : Fin cfg1.N, t.val = (i 0).val / 1024 := ⟨⟨(i 0).val / 1024, by rw [hN]; omega⟩, rfl⟩
  obtain ⟨e19_0, e19_1, e20_0, e20_1, e21_0, e21_1, -⟩ := idx_facts t
  refine ⟨t, flush1_21 t, ?_⟩
  rw [mem_blk21]
  intro a
  match a with
  | ⟨0, _⟩ => show win1_21.index t (0 : Fin 2) * 1024 ≤ (i 0).val ∧ (i 0).val < win1_21.index t (0 : Fin 2) * 1024 + 1024; rw [e21_0, ht]; omega
  | ⟨1, _⟩ => show win1_21.index t (1 : Fin 2) * 3 ≤ (i 1).val ∧ (i 1).val < win1_21.index t (1 : Fin 2) * 3 + 3; rw [e21_1]; omega

end Cert.RootHeads

end
-- ==== Proof.RootHeadsDot.lean ====
import proofs.«145994_j34600256537163_1_alg».proof.Proof.Gen.KernelIdeal
import proofs.«145994_j34600256537163_1_alg».proof.Proof.Gen.ReferenceIdeal
import Idealize.ShloMosaic.Lib.ValueIdx
import Idealize.ShloMosaic.PureOps.Ideal.Laws

/-!
# The heads' contractions as sums over the 128 features

Each head multiplies a `[rows, 128]` operand by a `[128, n]` weight, contracting the one shared
axis.  Read at output entry `(p, q)` the contraction is the sum over `k < 128` of
`lhs[p, k] * rhs[k, q]`: the dimension numbers' operand indices are `(p, k)` and `(k, q)`, and
the contraction's index set is the one coordinate `k`.  Stated once per dimension-number record:
three of the kernel's row blocks (1024 rows), three of the reference's whole arrays (8192 rows).
-/

noncomputable section

open Idealize.ShloMosaic Idealize.ShloMosaic.TcCoe Idealize.SL.Sem
open Idealize.ShloMosaic.ValueIdx
open scoped BigOperators

namespace Cert.RootHeads

/-! ### `[1024,128] · [128,1]` (kdot1) -/

theorem kdot1_lhs0 (i : Cert.KernelIdeal.S1024x1.Idx) (q : Cert.KernelIdeal.dot_S1024x128_S128x1_S1024x1_1_0_0_1_n_n.contr.Idx) : (Cert.KernelIdeal.dot_S1024x128_S128x1_S1024x1_1_0_0_1_n_n.lhsIdx i q 0).val = (i 0).val := by
  unfold DotDims.lhsIdx
  rw [dif_neg (show ¬(0 : Fin Cert.KernelIdeal.S1024x128.rank) ∈ Cert.KernelIdeal.dot_S1024x128_S128x1_S1024x1_1_0_0_1_n_n.lhsBatch by decide), dif_pos (show (0 : Fin Cert.KernelIdeal.S1024x128.rank) ∈ Cert.KernelIdeal.dot_S1024x128_S128x1_S1024x1_1_0_0_1_n_n.lhsNonContracting by decide)]
  rfl
theorem kdot1_lhs1 (i : Cert.KernelIdeal.S1024x1.Idx) (q : Cert.KernelIdeal.dot_S1024x128_S128x1_S1024x1_1_0_0_1_n_n.contr.Idx) : (Cert.KernelIdeal.dot_S1024x128_S128x1_S1024x1_1_0_0_1_n_n.lhsIdx i q 1).val = (q ⟨0, by decide⟩).val :=
  Cert.KernelIdeal.dot_S1024x128_S128x1_S1024x1_1_0_0_1_n_n.lhsIdx_val_of_single rfl i q
theorem kdot1_rhs0 (i : Cert.KernelIdeal.S1024x1.Idx) (q : Cert.KernelIdeal.dot_S1024x128_S128x1_S1024x1_1_0_0_1_n_n.contr.Idx) : (Cert.KernelIdeal.dot_S1024x128_S128x1_S1024x1_1_0_0_1_n_n.rhsIdx i q 0).val = (q ⟨0, by decide⟩).val :=
  Cert.KernelIdeal.dot_S1024x128_S128x1_S1024x1_1_0_0_1_n_n.rhsIdx_val_of_single rfl i q
theorem kdot1_rhs1 (i : Cert.KernelIdeal.S1024x1.Idx) (q : Cert.KernelIdeal.dot_S1024x128_S128x1_S1024x1_1_0_0_1_n_n.contr.Idx) : (Cert.KernelIdeal.dot_S1024x128_S128x1_S1024x1_1_0_0_1_n_n.rhsIdx i q 1).val = (i 1).val := by
  unfold DotDims.rhsIdx
  rw [dif_neg (show ¬(1 : Fin Cert.KernelIdeal.S128x1.rank) ∈ Cert.KernelIdeal.dot_S1024x128_S128x1_S1024x1_1_0_0_1_n_n.rhsBatch by decide), dif_pos (show (1 : Fin Cert.KernelIdeal.S128x1.rank) ∈ Cert.KernelIdeal.dot_S1024x128_S128x1_S1024x1_1_0_0_1_n_n.rhsNonContracting by decide)]
  rfl

/-- The contraction at output entry `(p, q)`: row `p` of the left operand against column `q` of the right one. -/
theorem kdot1_sum (lhs : FVec Ideal Cert.KernelIdeal.S1024x128 .f32) (rhs : FVec Ideal Cert.KernelIdeal.S128x1 .f32) (p : Fin 1024) (q : Fin 1) :
    ∑ k : Cert.KernelIdeal.dot_S1024x128_S128x1_S1024x1_1_0_0_1_n_n.contr.Idx, lhs (Cert.KernelIdeal.dot_S1024x128_S128x1_S1024x1_1_0_0_1_n_n.lhsIdx (ix2 p q) k) * rhs (Cert.KernelIdeal.dot_S1024x128_S128x1_S1024x1_1_0_0_1_n_n.rhsIdx (ix2 p q) k)
      = ∑ k : Fin 128, lhs (ix2 p k) * rhs (ix2 k q) := by
  rw [← Equiv.sum_comp (contrEquiv1 Cert.KernelIdeal.dot_S1024x128_S128x1_S1024x1_1_0_0_1_n_n 128 rfl rfl).symm]
  refine Finset.sum_congr rfl fun k _ => ?_
  have hk := contrEquiv1_symm_val Cert.KernelIdeal.dot_S1024x128_S128x1_S1024x1_1_0_0_1_n_n 128 rfl rfl k
  have el : Cert.KernelIdeal.dot_S1024x128_S128x1_S1024x1_1_0_0_1_n_n.lhsIdx (ix2 p q) ((contrEquiv1 Cert.KernelIdeal.dot_S1024x128_S128x1_S1024x1_1_0_0_1_n_n 128 rfl rfl).symm k) = ix2 p k := funext fun a => Fin.ext (by
    match a with
    | ⟨0, _⟩ => exact kdot1_lhs0 _ _
    | ⟨1, _⟩ => exact (kdot1_lhs1 _ _).trans hk)
  have er : Cert.KernelIdeal.dot_S1024x128_S128x1_S1024x1_1_0_0_1_n_n.rhsIdx (ix2 p q) ((contrEquiv1 Cert.KernelIdeal.dot_S1024x128_S128x1_S1024x1_1_0_0_1_n_n 128 rfl rfl).symm k) = ix2 k q := funext fun a => Fin.ext (by
    match a with
    | ⟨0, _⟩ => exact (kdot1_rhs0 _ _).trans hk
    | ⟨1, _⟩ => exact kdot1_rhs1 _ _)
  rw [el, er]

/-! ### `[1024,128] · [128,10]` (kdot10) -/

theorem kdot10_lhs0 (i : Cert.KernelIdeal.S1024x10.Idx) (q : Cert.KernelIdeal.dot_S1024x128_S128x10_S1024x10_1_0_0_1_n_n.contr.Idx) : (Cert.KernelIdeal.dot_S1024x128_S128x10_S1024x10_1_0_0_1_n_n.lhsIdx i q 0).val = (i 0).val := by
  unfold DotDims.lhsIdx
  rw [dif_neg (show ¬(0 : Fin Cert.KernelIdeal.S1024x128.rank) ∈ Cert.KernelIdeal.dot_S1024x128_S128x10_S1024x10_1_0_0_1_n_n.lhsBatch by decide), dif_pos (show (0 : Fin Cert.KernelIdeal.S1024x128.rank) ∈ Cert.KernelIdeal.dot_S1024x128_S128x10_S1024x10_1_0_0_1_n_n.lhsNonContracting by decide)]
  rfl
theorem kdot10_lhs1 (i : Cert.KernelIdeal.S1024x10.Idx) (q : Cert.KernelIdeal.dot_S1024x128_S128x10_S1024x10_1_0_0_1_n_n.contr.Idx) : (Cert.KernelIdeal.dot_S1024x128_S128x10_S1024x10_1_0_0_1_n_n.lhsIdx i q 1).val = (q ⟨0, by decide⟩).val :=
  Cert.KernelIdeal.dot_S1024x128_S128x10_S1024x10_1_0_0_1_n_n.lhsIdx_val_of_single rfl i q
theorem kdot10_rhs0 (i : Cert.KernelIdeal.S1024x10.Idx) (q : Cert.KernelIdeal.dot_S1024x128_S128x10_S1024x10_1_0_0_1_n_n.contr.Idx) : (Cert.KernelIdeal.dot_S1024x128_S128x10_S1024x10_1_0_0_1_n_n.rhsIdx i q 0).val = (q ⟨0, by decide⟩).val :=
  Cert.KernelIdeal.dot_S1024x128_S128x10_S1024x10_1_0_0_1_n_n.rhsIdx_val_of_single rfl i q
theorem kdot10_rhs1 (i : Cert.KernelIdeal.S1024x10.Idx) (q : Cert.KernelIdeal.dot_S1024x128_S128x10_S1024x10_1_0_0_1_n_n.contr.Idx) : (Cert.KernelIdeal.dot_S1024x128_S128x10_S1024x10_1_0_0_1_n_n.rhsIdx i q 1).val = (i 1).val := by
  unfold DotDims.rhsIdx
  rw [dif_neg (show ¬(1 : Fin Cert.KernelIdeal.S128x10.rank) ∈ Cert.KernelIdeal.dot_S1024x128_S128x10_S1024x10_1_0_0_1_n_n.rhsBatch by decide), dif_pos (show (1 : Fin Cert.KernelIdeal.S128x10.rank) ∈ Cert.KernelIdeal.dot_S1024x128_S128x10_S1024x10_1_0_0_1_n_n.rhsNonContracting by decide)]
  rfl

/-- The contraction at output entry `(p, q)`: row `p` of the left operand against column `q` of the right one. -/
theorem kdot10_sum (lhs : FVec Ideal Cert.KernelIdeal.S1024x128 .f32) (rhs : FVec Ideal Cert.KernelIdeal.S128x10 .f32) (p : Fin 1024) (q : Fin 10) :
    ∑ k : Cert.KernelIdeal.dot_S1024x128_S128x10_S1024x10_1_0_0_1_n_n.contr.Idx, lhs (Cert.KernelIdeal.dot_S1024x128_S128x10_S1024x10_1_0_0_1_n_n.lhsIdx (ix2 p q) k) * rhs (Cert.KernelIdeal.dot_S1024x128_S128x10_S1024x10_1_0_0_1_n_n.rhsIdx (ix2 p q) k)
      = ∑ k : Fin 128, lhs (ix2 p k) * rhs (ix2 k q) := by
  rw [← Equiv.sum_comp (contrEquiv1 Cert.KernelIdeal.dot_S1024x128_S128x10_S1024x10_1_0_0_1_n_n 128 rfl rfl).symm]
  refine Finset.sum_congr rfl fun k _ => ?_
  have hk := contrEquiv1_symm_val Cert.KernelIdeal.dot_S1024x128_S128x10_S1024x10_1_0_0_1_n_n 128 rfl rfl k
  have el : Cert.KernelIdeal.dot_S1024x128_S128x10_S1024x10_1_0_0_1_n_n.lhsIdx (ix2 p q) ((contrEquiv1 Cert.KernelIdeal.dot_S1024x128_S128x10_S1024x10_1_0_0_1_n_n 128 rfl rfl).symm k) = ix2 p k := funext fun a => Fin.ext (by
    match a with
    | ⟨0, _⟩ => exact kdot10_lhs0 _ _
    | ⟨1, _⟩ => exact (kdot10_lhs1 _ _).trans hk)
  have er : Cert.KernelIdeal.dot_S1024x128_S128x10_S1024x10_1_0_0_1_n_n.rhsIdx (ix2 p q) ((contrEquiv1 Cert.KernelIdeal.dot_S1024x128_S128x10_S1024x10_1_0_0_1_n_n 128 rfl rfl).symm k) = ix2 k q := funext fun a => Fin.ext (by
    match a with
    | ⟨0, _⟩ => exact (kdot10_rhs0 _ _).trans hk
    | ⟨1, _⟩ => exact kdot10_rhs1 _ _)
  rw [el, er]

/-! ### `[1024,128] · [128,2]` (kdot2) -/

theorem kdot2_lhs0 (i : Cert.KernelIdeal.S1024x2.Idx) (q : Cert.KernelIdeal.dot_S1024x128_S128x2_S1024x2_1_0_0_1_n_n.contr.Idx) : (Cert.KernelIdeal.dot_S1024x128_S128x2_S1024x2_1_0_0_1_n_n.lhsIdx i q 0).val = (i 0).val := by
  unfold DotDims.lhsIdx
  rw [dif_neg (show ¬(0 : Fin Cert.KernelIdeal.S1024x128.rank) ∈ Cert.KernelIdeal.dot_S1024x128_S128x2_S1024x2_1_0_0_1_n_n.lhsBatch by decide), dif_pos (show (0 : Fin Cert.KernelIdeal.S1024x128.rank) ∈ Cert.KernelIdeal.dot_S1024x128_S128x2_S1024x2_1_0_0_1_n_n.lhsNonContracting by decide)]
  rfl
theorem kdot2_lhs1 (i : Cert.KernelIdeal.S1024x2.Idx) (q : Cert.KernelIdeal.dot_S1024x128_S128x2_S1024x2_1_0_0_1_n_n.contr.Idx) : (Cert.KernelIdeal.dot_S1024x128_S128x2_S1024x2_1_0_0_1_n_n.lhsIdx i q 1).val = (q ⟨0, by decide⟩).val :=
  Cert.KernelIdeal.dot_S1024x128_S128x2_S1024x2_1_0_0_1_n_n.lhsIdx_val_of_single rfl i q
theorem kdot2_rhs0 (i : Cert.KernelIdeal.S1024x2.Idx) (q : Cert.KernelIdeal.dot_S1024x128_S128x2_S1024x2_1_0_0_1_n_n.contr.Idx) : (Cert.KernelIdeal.dot_S1024x128_S128x2_S1024x2_1_0_0_1_n_n.rhsIdx i q 0).val = (q ⟨0, by decide⟩).val :=
  Cert.KernelIdeal.dot_S1024x128_S128x2_S1024x2_1_0_0_1_n_n.rhsIdx_val_of_single rfl i q
theorem kdot2_rhs1 (i : Cert.KernelIdeal.S1024x2.Idx) (q : Cert.KernelIdeal.dot_S1024x128_S128x2_S1024x2_1_0_0_1_n_n.contr.Idx) : (Cert.KernelIdeal.dot_S1024x128_S128x2_S1024x2_1_0_0_1_n_n.rhsIdx i q 1).val = (i 1).val := by
  unfold DotDims.rhsIdx
  rw [dif_neg (show ¬(1 : Fin Cert.KernelIdeal.S128x2.rank) ∈ Cert.KernelIdeal.dot_S1024x128_S128x2_S1024x2_1_0_0_1_n_n.rhsBatch by decide), dif_pos (show (1 : Fin Cert.KernelIdeal.S128x2.rank) ∈ Cert.KernelIdeal.dot_S1024x128_S128x2_S1024x2_1_0_0_1_n_n.rhsNonContracting by decide)]
  rfl

/-- The contraction at output entry `(p, q)`: row `p` of the left operand against column `q` of the right one. -/
theorem kdot2_sum (lhs : FVec Ideal Cert.KernelIdeal.S1024x128 .f32) (rhs : FVec Ideal Cert.KernelIdeal.S128x2 .f32) (p : Fin 1024) (q : Fin 2) :
    ∑ k : Cert.KernelIdeal.dot_S1024x128_S128x2_S1024x2_1_0_0_1_n_n.contr.Idx, lhs (Cert.KernelIdeal.dot_S1024x128_S128x2_S1024x2_1_0_0_1_n_n.lhsIdx (ix2 p q) k) * rhs (Cert.KernelIdeal.dot_S1024x128_S128x2_S1024x2_1_0_0_1_n_n.rhsIdx (ix2 p q) k)
      = ∑ k : Fin 128, lhs (ix2 p k) * rhs (ix2 k q) := by
  rw [← Equiv.sum_comp (contrEquiv1 Cert.KernelIdeal.dot_S1024x128_S128x2_S1024x2_1_0_0_1_n_n 128 rfl rfl).symm]
  refine Finset.sum_congr rfl fun k _ => ?_
  have hk := contrEquiv1_symm_val Cert.KernelIdeal.dot_S1024x128_S128x2_S1024x2_1_0_0_1_n_n 128 rfl rfl k
  have el : Cert.KernelIdeal.dot_S1024x128_S128x2_S1024x2_1_0_0_1_n_n.lhsIdx (ix2 p q) ((contrEquiv1 Cert.KernelIdeal.dot_S1024x128_S128x2_S1024x2_1_0_0_1_n_n 128 rfl rfl).symm k) = ix2 p k := funext fun a => Fin.ext (by
    match a with
    | ⟨0, _⟩ => exact kdot2_lhs0 _ _
    | ⟨1, _⟩ => exact (kdot2_lhs1 _ _).trans hk)
  have er : Cert.KernelIdeal.dot_S1024x128_S128x2_S1024x2_1_0_0_1_n_n.rhsIdx (ix2 p q) ((contrEquiv1 Cert.KernelIdeal.dot_S1024x128_S128x2_S1024x2_1_0_0_1_n_n 128 rfl rfl).symm k) = ix2 k q := funext fun a => Fin.ext (by
    match a with
    | ⟨0, _⟩ => exact (kdot2_rhs0 _ _).trans hk
    | ⟨1, _⟩ => exact kdot2_rhs1 _ _)
  rw [el, er]

/-! ### `[8192,128] · [128,1]` (rdot1) -/

theorem rdot1_lhs0 (i : Cert.ReferenceIdeal.S8192x1.Idx) (q : Cert.ReferenceIdeal.dot_S8192x128_S128x1_S8192x1_1_0_0_1_n_n.contr.Idx) : (Cert.ReferenceIdeal.dot_S8192x128_S128x1_S8192x1_1_0_0_1_n_n.lhsIdx i q 0).val = (i 0).val := by
  unfold DotDims.lhsIdx
  rw [dif_neg (show ¬(0 : Fin Cert.ReferenceIdeal.S8192x128.rank) ∈ Cert.ReferenceIdeal.dot_S8192x128_S128x1_S8192x1_1_0_0_1_n_n.lhsBatch by decide), dif_pos (show (0 : Fin Cert.ReferenceIdeal.S8192x128.rank) ∈ Cert.ReferenceIdeal.dot_S8192x128_S128x1_S8192x1_1_0_0_1_n_n.lhsNonContracting by decide)]
  rfl
theorem rdot1_lhs1 (i : Cert.ReferenceIdeal.S8192x1.Idx) (q : Cert.ReferenceIdeal.dot_S8192x128_S128x1_S8192x1_1_0_0_1_n_n.contr.Idx) : (Cert.ReferenceIdeal.dot_S8192x128_S128x1_S8192x1_1_0_0_1_n_n.lhsIdx i q 1).val = (q ⟨0, by decide⟩).val :=
  Cert.ReferenceIdeal.dot_S8192x128_S128x1_S8192x1_1_0_0_1_n_n.lhsIdx_val_of_single rfl i q
theorem rdot1_rhs0 (i : Cert.ReferenceIdeal.S8192x1.Idx) (q : Cert.ReferenceIdeal.dot_S8192x128_S128x1_S8192x1_1_0_0_1_n_n.contr.Idx) : (Cert.ReferenceIdeal.dot_S8192x128_S128x1_S8192x1_1_0_0_1_n_n.rhsIdx i q 0).val = (q ⟨0, by decide⟩).val :=
  Cert.ReferenceIdeal.dot_S8192x128_S128x1_S8192x1_1_0_0_1_n_n.rhsIdx_val_of_single rfl i q
theorem rdot1_rhs1 (i : Cert.ReferenceIdeal.S8192x1.Idx) (q : Cert.ReferenceIdeal.dot_S8192x128_S128x1_S8192x1_1_0_0_1_n_n.contr.Idx) : (Cert.ReferenceIdeal.dot_S8192x128_S128x1_S8192x1_1_0_0_1_n_n.rhsIdx i q 1).val = (i 1).val := by
  unfold DotDims.rhsIdx
  rw [dif_neg (show ¬(1 : Fin Cert.ReferenceIdeal.S128x1.rank) ∈ Cert.ReferenceIdeal.dot_S8192x128_S128x1_S8192x1_1_0_0_1_n_n.rhsBatch by decide), dif_pos (show (1 : Fin Cert.ReferenceIdeal.S128x1.rank) ∈ Cert.ReferenceIdeal.dot_S8192x128_S128x1_S8192x1_1_0_0_1_n_n.rhsNonContracting by decide)]
  rfl

/-- The contraction at output entry `(p, q)`: row `p` of the left operand against column `q` of the right one. -/
theorem rdot1_sum (lhs : FVec Ideal Cert.ReferenceIdeal.S8192x128 .f32) (rhs : FVec Ideal Cert.ReferenceIdeal.S128x1 .f32) (p : Fin 8192) (q : Fin 1) :
    ∑ k : Cert.ReferenceIdeal.dot_S8192x128_S128x1_S8192x1_1_0_0_1_n_n.contr.Idx, lhs (Cert.ReferenceIdeal.dot_S8192x128_S128x1_S8192x1_1_0_0_1_n_n.lhsIdx (ix2 p q) k) * rhs (Cert.ReferenceIdeal.dot_S8192x128_S128x1_S8192x1_1_0_0_1_n_n.rhsIdx (ix2 p q) k)
      = ∑ k : Fin 128, lhs (ix2 p k) * rhs (ix2 k q) := by
  rw [← Equiv.sum_comp (contrEquiv1 Cert.ReferenceIdeal.dot_S8192x128_S128x1_S8192x1_1_0_0_1_n_n 128 rfl rfl).symm]
  refine Finset.sum_congr rfl fun k _ => ?_
  have hk := contrEquiv1_symm_val Cert.ReferenceIdeal.dot_S8192x128_S128x1_S8192x1_1_0_0_1_n_n 128 rfl rfl k
  have el : Cert.ReferenceIdeal.dot_S8192x128_S128x1_S8192x1_1_0_0_1_n_n.lhsIdx (ix2 p q) ((contrEquiv1 Cert.ReferenceIdeal.dot_S8192x128_S128x1_S8192x1_1_0_0_1_n_n 128 rfl rfl).symm k) = ix2 p k := funext fun a => Fin.ext (by
    match a with
    | ⟨0, _⟩ => exact rdot1_lhs0 _ _
    | ⟨1, _⟩ => exact (rdot1_lhs1 _ _).trans hk)
  have er : Cert.ReferenceIdeal.dot_S8192x128_S128x1_S8192x1_1_0_0_1_n_n.rhsIdx (ix2 p q) ((contrEquiv1 Cert.ReferenceIdeal.dot_S8192x128_S128x1_S8192x1_1_0_0_1_n_n 128 rfl rfl).symm k) = ix2 k q := funext fun a => Fin.ext (by
    match a with
    | ⟨0, _⟩ => exact (rdot1_rhs0 _ _).trans hk
    | ⟨1, _⟩ => exact rdot1_rhs1 _ _)
  rw [el, er]

/-! ### `[8192,128] · [128,10]` (rdot10) -/

theorem rdot10_lhs0 (i : Cert.ReferenceIdeal.S8192x10.Idx) (q : Cert.ReferenceIdeal.dot_S8192x128_S128x10_S8192x10_1_0_0_1_n_n.contr.Idx) : (Cert.ReferenceIdeal.dot_S8192x128_S128x10_S8192x10_1_0_0_1_n_n.lhsIdx i q 0).val = (i 0).val := by
  unfold DotDims.lhsIdx
  rw [dif_neg (show ¬(0 : Fin Cert.ReferenceIdeal.S8192x128.rank) ∈ Cert.ReferenceIdeal.dot_S8192x128_S128x10_S8192x10_1_0_0_1_n_n.lhsBatch by decide), dif_pos (show (0 : Fin Cert.ReferenceIdeal.S8192x128.rank) ∈ Cert.ReferenceIdeal.dot_S8192x128_S128x10_S8192x10_1_0_0_1_n_n.lhsNonContracting by decide)]
  rfl
theorem rdot10_lhs1 (i : Cert.ReferenceIdeal.S8192x10.Idx) (q : Cert.ReferenceIdeal.dot_S8192x128_S128x10_S8192x10_1_0_0_1_n_n.contr.Idx) : (Cert.ReferenceIdeal.dot_S8192x128_S128x10_S8192x10_1_0_0_1_n_n.lhsIdx i q 1).val = (q ⟨0, by decide⟩).val :=
  Cert.ReferenceIdeal.dot_S8192x128_S128x10_S8192x10_1_0_0_1_n_n.lhsIdx_val_of_single rfl i q
theorem rdot10_rhs0 (i : Cert.ReferenceIdeal.S8192x10.Idx) (q : Cert.ReferenceIdeal.dot_S8192x128_S128x10_S8192x10_1_0_0_1_n_n.contr.Idx) : (Cert.ReferenceIdeal.dot_S8192x128_S128x10_S8192x10_1_0_0_1_n_n.rhsIdx i q 0).val = (q ⟨0, by decide⟩).val :=
  Cert.ReferenceIdeal.dot_S8192x128_S128x10_S8192x10_1_0_0_1_n_n.rhsIdx_val_of_single rfl i q
theorem rdot10_rhs1 (i : Cert.ReferenceIdeal.S8192x10.Idx) (q : Cert.ReferenceIdeal.dot_S8192x128_S128x10_S8192x10_1_0_0_1_n_n.contr.Idx) : (Cert.ReferenceIdeal.dot_S8192x128_S128x10_S8192x10_1_0_0_1_n_n.rhsIdx i q 1).val = (i 1).val := by
  unfold DotDims.rhsIdx
  rw [dif_neg (show ¬(1 : Fin Cert.ReferenceIdeal.S128x10.rank) ∈ Cert.ReferenceIdeal.dot_S8192x128_S128x10_S8192x10_1_0_0_1_n_n.rhsBatch by decide), dif_pos (show (1 : Fin Cert.ReferenceIdeal.S128x10.rank) ∈ Cert.ReferenceIdeal.dot_S8192x128_S128x10_S8192x10_1_0_0_1_n_n.rhsNonContracting by decide)]
  rfl

/-- The contraction at output entry `(p, q)`: row `p` of the left operand against column `q` of the right one. -/
theorem rdot10_sum (lhs : FVec Ideal Cert.ReferenceIdeal.S8192x128 .f32) (rhs : FVec Ideal Cert.ReferenceIdeal.S128x10 .f32) (p : Fin 8192) (q : Fin 10) :
    ∑ k : Cert.ReferenceIdeal.dot_S8192x128_S128x10_S8192x10_1_0_0_1_n_n.contr.Idx, lhs (Cert.ReferenceIdeal.dot_S8192x128_S128x10_S8192x10_1_0_0_1_n_n.lhsIdx (ix2 p q) k) * rhs (Cert.ReferenceIdeal.dot_S8192x128_S128x10_S8192x10_1_0_0_1_n_n.rhsIdx (ix2 p q) k)
      = ∑ k : Fin 128, lhs (ix2 p k) * rhs (ix2 k q) := by
  rw [← Equiv.sum_comp (contrEquiv1 Cert.ReferenceIdeal.dot_S8192x128_S128x10_S8192x10_1_0_0_1_n_n 128 rfl rfl).symm]
  refine Finset.sum_congr rfl fun k _ => ?_
  have hk := contrEquiv1_symm_val Cert.ReferenceIdeal.dot_S8192x128_S128x10_S8192x10_1_0_0_1_n_n 128 rfl rfl k
  have el : Cert.ReferenceIdeal.dot_S8192x128_S128x10_S8192x10_1_0_0_1_n_n.lhsIdx (ix2 p q) ((contrEquiv1 Cert.ReferenceIdeal.dot_S8192x128_S128x10_S8192x10_1_0_0_1_n_n 128 rfl rfl).symm k) = ix2 p k := funext fun a => Fin.ext (by
    match a with
    | ⟨0, _⟩ => exact rdot10_lhs0 _ _
    | ⟨1, _⟩ => exact (rdot10_lhs1 _ _).trans hk)
  have er : Cert.ReferenceIdeal.dot_S8192x128_S128x10_S8192x10_1_0_0_1_n_n.rhsIdx (ix2 p q) ((contrEquiv1 Cert.ReferenceIdeal.dot_S8192x128_S128x10_S8192x10_1_0_0_1_n_n 128 rfl rfl).symm k) = ix2 k q := funext fun a => Fin.ext (by
    match a with
    | ⟨0, _⟩ => exact (rdot10_rhs0 _ _).trans hk
    | ⟨1, _⟩ => exact rdot10_rhs1 _ _)
  rw [el, er]

/-! ### `[8192,128] · [128,2]` (rdot2) -/

theorem rdot2_lhs0 (i : Cert.ReferenceIdeal.S8192x2.Idx) (q : Cert.ReferenceIdeal.dot_S8192x128_S128x2_S8192x2_1_0_0_1_n_n.contr.Idx) : (Cert.ReferenceIdeal.dot_S8192x128_S128x2_S8192x2_1_0_0_1_n_n.lhsIdx i q 0).val = (i 0).val := by
  unfold DotDims.lhsIdx
  rw [dif_neg (show ¬(0 : Fin Cert.ReferenceIdeal.S8192x128.rank) ∈ Cert.ReferenceIdeal.dot_S8192x128_S128x2_S8192x2_1_0_0_1_n_n.lhsBatch by decide), dif_pos (show (0 : Fin Cert.ReferenceIdeal.S8192x128.rank) ∈ Cert.ReferenceIdeal.dot_S8192x128_S128x2_S8192x2_1_0_0_1_n_n.lhsNonContracting by decide)]
  rfl
theorem rdot2_lhs1 (i : Cert.ReferenceIdeal.S8192x2.Idx) (q : Cert.ReferenceIdeal.dot_S8192x128_S128x2_S8192x2_1_0_0_1_n_n.contr.Idx) : (Cert.ReferenceIdeal.dot_S8192x128_S128x2_S8192x2_1_0_0_1_n_n.lhsIdx i q 1).val = (q ⟨0, by decide⟩).val :=
  Cert.ReferenceIdeal.dot_S8192x128_S128x2_S8192x2_1_0_0_1_n_n.lhsIdx_val_of_single rfl i q
theorem rdot2_rhs0 (i : Cert.ReferenceIdeal.S8192x2.Idx) (q : Cert.ReferenceIdeal.dot_S8192x128_S128x2_S8192x2_1_0_0_1_n_n.contr.Idx) : (Cert.ReferenceIdeal.dot_S8192x128_S128x2_S8192x2_1_0_0_1_n_n.rhsIdx i q 0).val = (q ⟨0, by decide⟩).val :=
  Cert.ReferenceIdeal.dot_S8192x128_S128x2_S8192x2_1_0_0_1_n_n.rhsIdx_val_of_single rfl i q
theorem rdot2_rhs1 (i : Cert.ReferenceIdeal.S8192x2.Idx) (q : Cert.ReferenceIdeal.dot_S8192x128_S128x2_S8192x2_1_0_0_1_n_n.contr.Idx) : (Cert.ReferenceIdeal.dot_S8192x128_S128x2_S8192x2_1_0_0_1_n_n.rhsIdx i q 1).val = (i 1).val := by
  unfold DotDims.rhsIdx
  rw [dif_neg (show ¬(1 : Fin Cert.ReferenceIdeal.S128x2.rank) ∈ Cert.ReferenceIdeal.dot_S8192x128_S128x2_S8192x2_1_0_0_1_n_n.rhsBatch by decide), dif_pos (show (1 : Fin Cert.ReferenceIdeal.S128x2.rank) ∈ Cert.ReferenceIdeal.dot_S8192x128_S128x2_S8192x2_1_0_0_1_n_n.rhsNonContracting by decide)]
  rfl

/-- The contraction at output entry `(p, q)`: row `p` of the left operand against column `q` of the right one. -/
theorem rdot2_sum (lhs : FVec Ideal Cert.ReferenceIdeal.S8192x128 .f32) (rhs : FVec Ideal Cert.ReferenceIdeal.S128x2 .f32) (p : Fin 8192) (q : Fin 2) :
    ∑ k : Cert.ReferenceIdeal.dot_S8192x128_S128x2_S8192x2_1_0_0_1_n_n.contr.Idx, lhs (Cert.ReferenceIdeal.dot_S8192x128_S128x2_S8192x2_1_0_0_1_n_n.lhsIdx (ix2 p q) k) * rhs (Cert.ReferenceIdeal.dot_S8192x128_S128x2_S8192x2_1_0_0_1_n_n.rhsIdx (ix2 p q) k)
      = ∑ k : Fin 128, lhs (ix2 p k) * rhs (ix2 k q) := by
  rw [← Equiv.sum_comp (contrEquiv1 Cert.ReferenceIdeal.dot_S8192x128_S128x2_S8192x2_1_0_0_1_n_n 128 rfl rfl).symm]
  refine Finset.sum_congr rfl fun k _ => ?_
  have hk := contrEquiv1_symm_val Cert.ReferenceIdeal.dot_S8192x128_S128x2_S8192x2_1_0_0_1_n_n 128 rfl rfl k
  have el : Cert.ReferenceIdeal.dot_S8192x128_S128x2_S8192x2_1_0_0_1_n_n.lhsIdx (ix2 p q) ((contrEquiv1 Cert.ReferenceIdeal.dot_S8192x128_S128x2_S8192x2_1_0_0_1_n_n 128 rfl rfl).symm k) = ix2 p k := funext fun a => Fin.ext (by
    match a with
    | ⟨0, _⟩ => exact rdot2_lhs0 _ _
    | ⟨1, _⟩ => exact (rdot2_lhs1 _ _).trans hk)
  have er : Cert.ReferenceIdeal.dot_S8192x128_S128x2_S8192x2_1_0_0_1_n_n.rhsIdx (ix2 p q) ((contrEquiv1 Cert.ReferenceIdeal.dot_S8192x128_S128x2_S8192x2_1_0_0_1_n_n 128 rfl rfl).symm k) = ix2 k q := funext fun a => Fin.ext (by
    match a with
    | ⟨0, _⟩ => exact (rdot2_rhs0 _ _).trans hk
    | ⟨1, _⟩ => exact rdot2_rhs1 _ _)
  rw [el, er]

end Cert.RootHeads

end
-- ==== Proof.RootHeadsSpec.lean ====
import proofs.«145994_j34600256537163_1_alg».proof.Proof.Gen.KernelIdeal
import proofs.«145994_j34600256537163_1_alg».proof.Proof.Gen.ReferenceIdeal
import Idealize.ShloMosaic.Lib.ValueIdx

/-!
# The three head outputs of the root stage, as functions of the x_root array

The root stage ends with three small linear heads read off the normalised root features
`x_root : [8192, 128]`:

* `o_v      = x_root · W_v + b_v`                         (`[8192, 1]`),
* `o_cls_p  = x_root · W_cls_p + b_cls_p`                 (`[8192, 10]`),
* `of_x     = [ x_root · W_cls_a + b_cls_a  |  where(root_mask ≥ 1, -∞, x_root · W_out_root + b_out_root) ]`
  (`[8192, 3]`: one column, then two).

This module only states them, twice.  The *reference* side is the host program's own chain of
operations (a `dot_general`, the bias broadcast to a row and then down the rows, an add; for
`of_x` also the comparison, the select against the `-∞` splat and the concatenation), with the
x_root buffer a variable.  The *kernel* side is each head as one function of the whole x_root
array, element by element: the sum over the 128 features of row `r` times weight column `c`,
plus the bias entry of column `c` of the `[1, n]` bias row the host prepared.
-/

noncomputable section

open Idealize.ShloMosaic Idealize.ShloMosaic.TcCoe Idealize.SL.Sem
open Idealize.ShloMosaic.ValueIdx
open scoped BigOperators

namespace Cert.RootHeads

/-! ## The reference's heads over an x_root buffer -/

section Reference
open Cert.ReferenceIdeal Cert.ReferenceIdeal.Facts₀

/-- `o_v` as the reference computes it: `dot_general` of x_root with `W_v`, plus `b_v` broadcast
    `[1] → [1,1] → [8192,1]`. -/
def refOV (xr : FVec Ideal S8192x128 .f32) (W13 : FVec Ideal S128x1 .f32) (b14 : FVec Ideal S1 .f32) :
    FVec Ideal S8192x1 .f32 :=
  addf (Host.dotGeneral dot_S8192x128_S128x1_S8192x1_1_0_0_1_n_n none xr W13)
    (broadcastInDim S8192x1 ![0, 1] bcast_S1x1_S8192x1_0_1 (broadcastInDim S1x1 ![1] bcast_S1_S1x1_1 b14))

/-- `o_cls_p` as the reference computes it: `dot_general` of x_root with `W_cls_p`, plus `b_cls_p`
    broadcast `[10] → [1,10] → [8192,10]`. -/
def refOClsP (xr : FVec Ideal S8192x128 .f32) (W15 : FVec Ideal S128x10 .f32) (b16 : FVec Ideal S10 .f32) :
    FVec Ideal S8192x10 .f32 :=
  addf (Host.dotGeneral dot_S8192x128_S128x10_S8192x10_1_0_0_1_n_n none xr W15)
    (broadcastInDim S8192x10 ![0, 1] bcast_S1x10_S8192x10_0_1 (broadcastInDim S1x10 ![1] bcast_S10_S1x10_1 b16))

/-- `of_x` as the reference computes it: the one-column head `x_root · W_cls_a + b_cls_a` set
    beside the two-column head `x_root · W_out_root + b_out_root` masked to `-∞` wherever
    `root_mask ≥ 1`. -/
def refOfx (xr : FVec Ideal S8192x128 .f32) (rmask : FVec Ideal S8192x2 .f32)
    (W17 : FVec Ideal S128x1 .f32) (b18 : FVec Ideal S1 .f32)
    (W19 : FVec Ideal S128x2 .f32) (b20 : FVec Ideal S2 .f32) : FVec Ideal S8192x3 .f32 :=
  concatenate S8192x3 1
    [⟨S8192x1, addf (Host.dotGeneral dot_S8192x128_S128x1_S8192x1_1_0_0_1_n_n none xr W17)
        (broadcastInDim S8192x1 ![0, 1] bcast_S1x1_S8192x1_0_1 (broadcastInDim S1x1 ![1] bcast_S1_S1x1_1 b18))⟩,
     ⟨S8192x2, select
        (cmpf .oge rmask (broadcastInDim S8192x2 ![] bcast_S_S8192x2 (constant (F := Ideal) S_ .f32 0x3F800000#32)))
        (broadcastInDim S8192x2 ![] bcast_S_S8192x2 (id (constant (F := Ideal) S_ .f32 0xFF800000#32)))
        (addf (Host.dotGeneral dot_S8192x128_S128x2_S8192x2_1_0_0_1_n_n none xr W19)
          (broadcastInDim S8192x2 ![0, 1] bcast_S1x2_S8192x2_0_1 (broadcastInDim S1x2 ![1] bcast_S2_S1x2_1 b20)))⟩]
    concatenates_S8192x1_S8192x2_S8192x3_d1

end Reference

/-! ## The kernel's heads over the x_root array -/

section Kernel
open Cert.KernelIdeal

/-- The column of `of_x` past the first, as a column of the two-column head. -/
def maskedCol (c : Fin 3) : Fin 2 := ⟨c.val - 1, by omega⟩

/-- `o_v` at row `r`: the row of x_root against the one weight column, plus the bias entry. -/
def kerOV (xr : FVec Ideal S8192x128 .f32) (W : FVec Ideal S128x1 .f32) (b2 : FVec Ideal S1x1 .f32) :
    FVec Ideal S8192x1 .f32 :=
  fun i => (∑ k : Fin 128, xr (ix2 (i 0) k) * W (ix2 k (i 1))) + b2 (ix2 0 (i 1))

/-- `o_cls_p` at row `r`, column `c`: the row of x_root against weight column `c`, plus bias entry `c`. -/
def kerOClsP (xr : FVec Ideal S8192x128 .f32) (W : FVec Ideal S128x10 .f32) (b2 : FVec Ideal S1x10 .f32) :
    FVec Ideal S8192x10 .f32 :=
  fun i => (∑ k : Fin 128, xr (ix2 (i 0) k) * W (ix2 k (i 1))) + b2 (ix2 0 (i 1))

/-- `of_x` at row `r`, column `c`: column 0 is the one-column head; columns 1 and 2 are the
    two-column head's columns 0 and 1, replaced by `-∞` where the root mask there is at least 1. -/
def kerOfx (xr : FVec Ideal S8192x128 .f32) (rmask : FVec Ideal S8192x2 .f32)
    (Wa : FVec Ideal S128x1 .f32) (ba : FVec Ideal S1x1 .f32)
    (Wr : FVec Ideal S128x2 .f32) (br : FVec Ideal S1x2 .f32) : FVec Ideal S8192x3 .f32 :=
  fun i =>
    if (i 1).val < 1 then (∑ k : Fin 128, xr (ix2 (i 0) k) * Wa (ix2 k 0)) + ba (ix2 0 0)
    else Scalar.select
      (FloatOps.cmpf .oge (rmask (ix2 (i 0) (maskedCol (i 1)))) (Ideal.ofBits .f32 0x3F800000#32))
      (Ideal.ofBits .f32 0xFF800000#32)
      ((∑ k : Fin 128, xr (ix2 (i 0) k) * Wr (ix2 k (maskedCol (i 1)))) + br (ix2 0 (maskedCol (i 1))))

end Kernel

end Cert.RootHeads

end
-- ==== Proof.RootHeadsPoint.lean ====
import proofs.«145994_j34600256537163_1_alg».proof.Proof.Gen.KernelIdeal.Skeleton
import proofs.«145994_j34600256537163_1_alg».proof.Proof.RootHeadsDot
import proofs.«145994_j34600256537163_1_alg».proof.Proof.RootHeadsSpec
import Idealize.ShloMosaic.Lib.Pipeline.Value

/-!
# The head payloads of the root kernel, read at one entry

Every head payload of the root kernel takes the same five values as the stored x_root block and
begins by recomputing that block, narrows it and the weight to bf16 (the identity on extended
reals), multiplies into a zero accumulator and adds the bias row spread down the rows.  So at
entry `(p, q)` of a block each head is `∑ k < 128, x_root[p, k] * W[k, q] + b[0, q]` with
`x_root` the stored block.  The `of_x` payload sets the one-column head beside the two-column
head masked to `-∞` where the block's root mask is at least 1: column 0 reads the first piece,
columns 1 and 2 the second piece's columns 0 and 1.
-/

noncomputable section

open Idealize.ShloMosaic Idealize.ShloMosaic.TcCoe Idealize.SL.Sem
open Idealize.ShloMosaic.ValueIdx
open Cert.KernelIdeal Cert.KernelIdeal.Gen
open scoped BigOperators

namespace Cert.RootHeads

/-! ### The head with 1 column -/

/-- The `[1, 1]` bias row spread down the block's 1024 rows reads, in every row, its entry of the column. -/
theorem biasRow1_apply (b : Vec Ideal S1x1 .f32) (p : Fin 1024) (q : Fin 1) :
    broadcastTo S1024x1 (shapeCast S1x1 b shapeCasts_S1x1_S1x1) broadcasts_S1x1_S1024x1 (ix2 p q) = b (ix2 0 q) := by
  rw [shapeCast_self]
  refine broadcastTo_apply b _ (ix2 p q) (ix2 0 q) fun a => ?_
  match a with
  | ⟨0, _⟩ => rfl
  | ⟨1, _⟩ => show (q : Nat) = 0; omega

/-- One entry of the head over a block of x_root rows: the row against the weight column (the
    narrowing of both operands is the identity on extended reals, and the accumulator is zero),
    plus the bias entry. -/
theorem headBlock1_apply (xr : FVec Ideal S1024x128 .f32) (W : Vec Ideal S128x1 .f32) (b : Vec Ideal S1x1 .f32)
    (p : Fin 1024) (q : Fin 1) :
    addf (matmul dot_S1024x128_S128x1_S1024x1_1_0_0_1_n_n none (truncf .bf16 xr bitsLt_bf16_f32) (truncf .bf16 W bitsLt_bf16_f32)
          (constant (F := Ideal) S1024x1 .f32 0x00000000#32))
        (broadcastTo S1024x1 (shapeCast S1x1 b shapeCasts_S1x1_S1x1) broadcasts_S1x1_S1024x1) (ix2 p q)
      = (∑ k : Fin 128, xr (ix2 p k) * W (ix2 k q)) + b (ix2 0 q) := by
  rw [addf_apply, biasRow1_apply]
  refine congrArg (· + b (ix2 0 q)) ?_
  refine (Ideal.matmul_constant_zero_apply dot_S1024x128_S128x1_S1024x1_1_0_0_1_n_n none _ _ (ix2 p q)).trans ?_
  exact kdot1_sum xr W p q

/-! ### The head with 10 columns -/

/-- The `[1, 10]` bias row spread down the block's 1024 rows reads, in every row, its entry of the column. -/
theorem biasRow10_apply (b : Vec Ideal S1x10 .f32) (p : Fin 1024) (q : Fin 10) :
    broadcastTo S1024x10 (shapeCast S1x10 b shapeCasts_S1x10_S1x10) broadcasts_S1x10_S1024x10 (ix2 p q) = b (ix2 0 q) := by
  rw [shapeCast_self]
  refine broadcastTo_apply b _ (ix2 p q) (ix2 0 q) fun a => ?_
  match a with
  | ⟨0, _⟩ => rfl
  | ⟨1, _⟩ => rfl

/-- One entry of the head over a block of x_root rows: the row against the weight column (the
    narrowing of both operands is the identity on extended reals, and the accumulator is zero),
    plus the bias entry. -/
theorem headBlock10_apply (xr : FVec Ideal S1024x128 .f32) (W : Vec Ideal S128x10 .f32) (b : Vec Ideal S1x10 .f32)
    (p : Fin 1024) (q : Fin 10) :
    addf (matmul dot_S1024x128_S128x10_S1024x10_1_0_0_1_n_n none (truncf .bf16 xr bitsLt_bf16_f32) (truncf .bf16 W bitsLt_bf16_f32)
          (constant (F := Ideal) S1024x10 .f32 0x00000000#32))
        (broadcastTo S1024x10 (shapeCast S1x10 b shapeCasts_S1x10_S1x10) broadcasts_S1x10_S1024x10) (ix2 p q)
      = (∑ k : Fin 128, xr (ix2 p k) * W (ix2 k q)) + b (ix2 0 q) := by
  rw [addf_apply, biasRow10_apply]
  refine congrArg (· + b (ix2 0 q)) ?_
  refine (Ideal.matmul_constant_zero_apply dot_S1024x128_S128x10_S1024x10_1_0_0_1_n_n none _ _ (ix2 p q)).trans ?_
  exact kdot10_sum xr W p q

/-! ### The head with 2 columns -/

/-- The `[1, 2]` bias row spread down the block's 1024 rows reads, in every row, its entry of the column. -/
theorem biasRow2_apply (b : Vec Ideal S1x2 .f32) (p : Fin 1024) (q : Fin 2) :
    broadcastTo S1024x2 (shapeCast S1x2 b shapeCasts_S1x2_S1x2) broadcasts_S1x2_S1024x2 (ix2 p q) = b (ix2 0 q) := by
  rw [shapeCast_self]
  refine broadcastTo_apply b _ (ix2 p q) (ix2 0 q) fun a => ?_
  match a with
  | ⟨0, _⟩ => rfl
  | ⟨1, _⟩ => rfl

/-- One entry of the head over a block of x_root rows: the row against the weight column (the
    narrowing of both operands is the identity on extended reals, and the accumulator is zero),
    plus the bias entry. -/
theorem headBlock2_apply (xr : FVec Ideal S1024x128 .f32) (W : Vec Ideal S128x2 .f32) (b : Vec Ideal S1x2 .f32)
    (p : Fin 1024) (q : Fin 2) :
    addf (matmul dot_S1024x128_S128x2_S1024x2_1_0_0_1_n_n none (truncf .bf16 xr bitsLt_bf16_f32) (truncf .bf16 W bitsLt_bf16_f32)
          (constant (F := Ideal) S1024x2 .f32 0x00000000#32))
        (broadcastTo S1024x2 (shapeCast S1x2 b shapeCasts_S1x2_S1x2) broadcasts_S1x2_S1024x2) (ix2 p q)
      = (∑ k : Fin 128, xr (ix2 p k) * W (ix2 k q)) + b (ix2 0 q) := by
  rw [addf_apply, biasRow2_apply]
  refine congrArg (· + b (ix2 0 q)) ?_
  refine (Ideal.matmul_constant_zero_apply dot_S1024x128_S128x2_S1024x2_1_0_0_1_n_n none _ _ (ix2 p q)).trans ?_
  exact kdot2_sum xr W p q

/-! ### The payloads -/

/-- The kernel's `o_v` payload at an entry: it recomputes the stored x_root block (`k1_pay11` of the same five
    values) and applies the head to it. -/
theorem pay13_apply (v66 v68 : FVec Ideal S1x128 .f32) (v79 : FVec Ideal S1024x1 .f32) (v81 : FVec Ideal S1024x128 .f32)
    (v82 : FVec Ideal S1024x1 .f32) (W : Vec Ideal S128x1 .f32) (b : Vec Ideal S1x1 .f32) (p : Fin 1024) (q : Fin 1) :
    k1_pay13 v66 v68 v79 v81 v82 W b (ix2 p q)
      = (∑ k : Fin 128, k1_pay11 v66 v68 v79 v81 v82 (ix2 p k) * W (ix2 k q)) + b (ix2 0 q) :=
  headBlock1_apply (k1_pay11 v66 v68 v79 v81 v82) W b p q

/-- The kernel's `o_cls_p` payload at an entry: it recomputes the stored x_root block (`k1_pay11` of the same five
    values) and applies the head to it. -/
theorem pay14_apply (v66 v68 : FVec Ideal S1x128 .f32) (v79 : FVec Ideal S1024x1 .f32) (v81 : FVec Ideal S1024x128 .f32)
    (v82 : FVec Ideal S1024x1 .f32) (W : Vec Ideal S128x10 .f32) (b : Vec Ideal S1x10 .f32) (p : Fin 1024) (q : Fin 10) :
    k1_pay14 v66 v68 v79 v81 v82 W b (ix2 p q)
      = (∑ k : Fin 128, k1_pay11 v66 v68 v79 v81 v82 (ix2 p k) * W (ix2 k q)) + b (ix2 0 q) :=
  headBlock10_apply (k1_pay11 v66 v68 v79 v81 v82) W b p q

/-- The kernel's `cls_a` payload at an entry: it recomputes the stored x_root block (`k1_pay11` of the same five
    values) and applies the head to it. -/
theorem pay15_apply (v66 v68 : FVec Ideal S1x128 .f32) (v79 : FVec Ideal S1024x1 .f32) (v81 : FVec Ideal S1024x128 .f32)
    (v82 : FVec Ideal S1024x1 .f32) (W : Vec Ideal S128x1 .f32) (b : Vec Ideal S1x1 .f32) (p : Fin 1024) (q : Fin 1) :
    k1_pay15 v66 v68 v79 v81 v82 W b (ix2 p q)
      = (∑ k : Fin 128, k1_pay11 v66 v68 v79 v81 v82 (ix2 p k) * W (ix2 k q)) + b (ix2 0 q) :=
  headBlock1_apply (k1_pay11 v66 v68 v79 v81 v82) W b p q

/-- The kernel's `out_root` payload at an entry: it recomputes the stored x_root block (`k1_pay11` of the same five
    values) and applies the head to it. -/
theorem pay16_apply (v66 v68 : FVec Ideal S1x128 .f32) (v79 : FVec Ideal S1024x1 .f32) (v81 : FVec Ideal S1024x128 .f32)
    (v82 : FVec Ideal S1024x1 .f32) (W : Vec Ideal S128x2 .f32) (b : Vec Ideal S1x2 .f32) (p : Fin 1024) (q : Fin 2) :
    k1_pay16 v66 v68 v79 v81 v82 W b (ix2 p q)
      = (∑ k : Fin 128, k1_pay11 v66 v68 v79 v81 v82 (ix2 p k) * W (ix2 k q)) + b (ix2 0 q) :=
  headBlock2_apply (k1_pay11 v66 v68 v79 v81 v82) W b p q

/-- The mask payload at an entry: is the root mask there at least 1? -/
theorem pay17_apply (v40 : Vec Ideal S1024x2 .f32) (p : Fin 1024) (c : Fin 2) :
    k1_pay17 v40 (ix2 p c) = FloatOps.cmpf .oge (v40 (ix2 p c)) (Ideal.ofBits .f32 0x3F800000#32) := rfl

/-- Column 0 of the stored `of_x` block is the one-column piece. -/
theorem pay1_apply_first (v112 : FVec Ideal S1024x1 .f32) (v119 : FVec Ideal S1024x2 .f32) (v121 : IVec S1024x2 1)
    (p : Fin 1024) (c : Fin 3) (hc : c.val < 1) :
    k1_pay1 v112 v119 v121 (ix2 p c) = v112 (ix2 p 0) := by
  unfold k1_pay1
  refine concatenate_pair_apply_left (1 : Fin S1024x3.rank) v112 _ concatenates_S1024x1_S1024x2_S1024x3_d1 (ix2 p c) rfl (ix2 p 0) fun b => ?_
  match b with
  | ⟨0, _⟩ => rfl
  | ⟨1, _⟩ => show (0 : Nat) = c.val; omega

/-- Columns 1 and 2 of the stored `of_x` block are columns 0 and 1 of the masked two-column piece. -/
theorem pay1_apply_masked (v112 : FVec Ideal S1024x1 .f32) (v119 : FVec Ideal S1024x2 .f32) (v121 : IVec S1024x2 1)
    (p : Fin 1024) (c : Fin 3) (hc : ¬ c.val < 1) :
    k1_pay1 v112 v119 v121 (ix2 p c)
      = Scalar.select (v121 (ix2 p (maskedCol c))) (Ideal.ofBits .f32 0xFF800000#32) (v119 (ix2 p (maskedCol c))) := by
  unfold k1_pay1
  refine (concatenate_pair_apply_right (1 : Fin S1024x3.rank) v112 _ concatenates_S1024x1_S1024x2_S1024x3_d1 (ix2 p c) rfl rfl
    (ix2 p (maskedCol c)) (fun b hb => ?_) ?_).trans rfl
  · match b with
    | ⟨0, _⟩ => rfl
    | ⟨1, _⟩ => exact absurd rfl hb
  · show (c.val - 1) + 1 = c.val
    omega

end Cert.RootHeads

end
-- ==== Proof.RootHeadsEntry.lean ====
import proofs.«145994_j34600256537163_1_alg».proof.Proof.RootHeadsPoint

/-!
# One entry of each stored head block against the head's whole-array function

A head's block at a grid point is stored from the point's x_root block, its staged weight and
bias, and (for `of_x`) its block of the root mask.  If row `p` of the x_root block is row `r` of the
x_root array, the staged weight and bias are the arrays, and (for `of_x`) row `p` of the mask block
is row `r` of the mask, then entry `(p, q)` of the stored block is entry `(r, q)` of the head's
whole-array function.  Stated over variables; the blocks are put in afterwards.
-/

noncomputable section

open Idealize.ShloMosaic Idealize.ShloMosaic.TcCoe Idealize.SL.Sem
open Idealize.ShloMosaic.ValueIdx
open Cert.KernelIdeal Cert.KernelIdeal.Gen
open scoped BigOperators

namespace Cert.RootHeads

/-- An entry of the stored `o_v` block is the entry of `kerOV` it is written to, once the stored x_root
    block's row is the x_root array's row there and the staged weight and bias are the arrays. -/
theorem ov_entry (v66 v68 : FVec Ideal S1x128 .f32) (v79 : FVec Ideal S1024x1 .f32) (v81 : FVec Ideal S1024x128 .f32) (v82 : FVec Ideal S1024x1 .f32)
    (Wb : Vec Ideal S128x1 .f32) (Bb : Vec Ideal S1x1 .f32)
    (X : FVec Ideal S8192x128 .f32) (W : FVec Ideal S128x1 .f32) (B : FVec Ideal S1x1 .f32)
    (j : S1024x1.Idx) (i : S8192x1.Idx) (hcol : (i 1).val = (j 1).val)
    (hX : ∀ k : Fin 128, k1_pay11 v66 v68 v79 v81 v82 (ix2 (j 0) k) = X (ix2 (i 0) k))
    (hW : Wb = W) (hB : Bb = B) :
    k1_pay13 v66 v68 v79 v81 v82 Wb Bb j = kerOV X W B i := by
  subst hW hB
  obtain ⟨p, q, rfl⟩ : ∃ (p : Fin 1024) (q : Fin 1), j = ix2 p q := ⟨j 0, j 1, eq_ix2 j⟩
  have hq : (i 1 : Fin 1) = q := Fin.ext hcol
  refine (pay13_apply v66 v68 v79 v81 v82 Wb Bb p q).trans ?_
  show _ = (∑ k : Fin 128, X (ix2 (i 0) k) * Wb (ix2 k (i 1))) + Bb (ix2 0 (i 1))
  rw [hq]
  exact congrArg (· + Bb (ix2 0 q)) (Finset.sum_congr rfl fun k _ => congrArg (· * Wb (ix2 k q)) (hX k))

/-- The same for `o_cls_p`. -/
theorem oclsp_entry (v66 v68 : FVec Ideal S1x128 .f32) (v79 : FVec Ideal S1024x1 .f32) (v81 : FVec Ideal S1024x128 .f32) (v82 : FVec Ideal S1024x1 .f32)
    (Wb : Vec Ideal S128x10 .f32) (Bb : Vec Ideal S1x10 .f32)
    (X : FVec Ideal S8192x128 .f32) (W : FVec Ideal S128x10 .f32) (B : FVec Ideal S1x10 .f32)
    (j : S1024x10.Idx) (i : S8192x10.Idx) (hcol : (i 1).val = (j 1).val)
    (hX : ∀ k : Fin 128, k1_pay11 v66 v68 v79 v81 v82 (ix2 (j 0) k) = X (ix2 (i 0) k))
    (hW : Wb = W) (hB : Bb = B) :
    k1_pay14 v66 v68 v79 v81 v82 Wb Bb j = kerOClsP X W B i := by
  subst hW hB
  obtain ⟨p, q, rfl⟩ : ∃ (p : Fin 1024) (q : Fin 10), j = ix2 p q := ⟨j 0, j 1, eq_ix2 j⟩
  have hq : (i 1 : Fin 10) = q := Fin.ext hcol
  refine (pay14_apply v66 v68 v79 v81 v82 Wb Bb p q).trans ?_
  show _ = (∑ k : Fin 128, X (ix2 (i 0) k) * Wb (ix2 k (i 1))) + Bb (ix2 0 (i 1))
  rw [hq]
  exact congrArg (· + Bb (ix2 0 q)) (Finset.sum_congr rfl fun k _ => congrArg (· * Wb (ix2 k q)) (hX k))

/-- The same for `of_x`, whose block is one store of the one-column head beside the masked two-column head:
    column 0 by the first piece, columns 1 and 2 by the second. -/
theorem ofx_entry (v66 v68 : FVec Ideal S1x128 .f32) (v79 : FVec Ideal S1024x1 .f32) (v81 : FVec Ideal S1024x128 .f32) (v82 : FVec Ideal S1024x1 .f32)
    (rmb : Vec Ideal S1024x2 .f32) (Wab : Vec Ideal S128x1 .f32) (Bab : Vec Ideal S1x1 .f32) (Wrb : Vec Ideal S128x2 .f32) (Brb : Vec Ideal S1x2 .f32)
    (X : FVec Ideal S8192x128 .f32) (rmask : FVec Ideal S8192x2 .f32)
    (Wa : FVec Ideal S128x1 .f32) (Ba : FVec Ideal S1x1 .f32) (Wr : FVec Ideal S128x2 .f32) (Br : FVec Ideal S1x2 .f32)
    (j : S1024x3.Idx) (i : S8192x3.Idx) (hcol : (i 1).val = (j 1).val)
    (hX : ∀ k : Fin 128, k1_pay11 v66 v68 v79 v81 v82 (ix2 (j 0) k) = X (ix2 (i 0) k))
    (hrm : ∀ d : Fin 2, rmb (ix2 (j 0) d) = rmask (ix2 (i 0) d))
    (hWa : Wab = Wa) (hBa : Bab = Ba) (hWr : Wrb = Wr) (hBr : Brb = Br) :
    k1_pay1 (k1_pay15 v66 v68 v79 v81 v82 Wab Bab) (k1_pay16 v66 v68 v79 v81 v82 Wrb Brb) (k1_pay17 rmb) j
      = kerOfx X rmask Wa Ba Wr Br i := by
  subst hWa hBa hWr hBr
  obtain ⟨p, d, rfl⟩ : ∃ (p : Fin 1024) (d : Fin 3), j = ix2 p d := ⟨j 0, j 1, eq_ix2 j⟩
  have hd : (i 1).val = d.val := hcol
  by_cases hc : d.val < 1
  · refine (pay1_apply_first _ _ _ p d hc).trans ((pay15_apply v66 v68 v79 v81 v82 Wab Bab p 0).trans ?_)
    show _ = (if (i 1).val < 1 then _ else _)
    rw [if_pos (by omega)]
    exact congrArg (· + Bab (ix2 0 0)) (Finset.sum_congr rfl fun k _ => congrArg (· * Wab (ix2 k 0)) (hX k))
  · have hm : maskedCol (i 1) = maskedCol d := Fin.ext (by show (i 1).val - 1 = d.val - 1; omega)
    refine (pay1_apply_masked _ _ _ p d hc).trans ?_
    rw [pay17_apply, pay16_apply]
    show _ = (if (i 1).val < 1 then _ else _)
    rw [if_neg (by omega), hm, hrm (maskedCol d)]
    exact congrArg (Scalar.select _ _) (congrArg (· + Brb (ix2 0 (maskedCol d))) (Finset.sum_congr rfl fun k _ => congrArg (· * Wrb (ix2 k (maskedCol d))) (hX k)))

end Cert.RootHeads

end
-- ==== Proof.RootHeadsOV.lean ====
import proofs.«145994_j34600256537163_1_alg».proof.Proof.RootHeadsBlocks
import proofs.«145994_j34600256537163_1_alg».proof.Proof.RootHeadsEntry

/-!
# From the blocks to the array: the `o_v` output of region 1

Region 1 runs over eight grid points; point `t` stages rows `1024 t … 1024 t + 1023` of every row-blocked
window and the whole of every weight and bias.  What point `t` writes back to a head's array is block `t` of
the head's whole-array function of the x_root ARRAY `X`, as soon as the x_root block the point stores is
block `t` of `X` (the hypothesis `hx`); the eight blocks tile each array, so the array ends holding that
function. -/

noncomputable section

open Idealize.ShloMosaic Idealize.ShloMosaic.TcCoe Idealize.SL.Sem
open Idealize.ShloMosaic.ValueIdx
open Idealize.ShloMosaic.Pipeline (Dat)
open Cert.KernelIdeal Cert.KernelIdeal.Gen
open scoped BigOperators

namespace Cert.RootHeads
variable (V : (c : Dev nD) → (b : Ref sig .tc) → Buf (Elt Ideal) ((c : Thread nD τ).loc b))

/-- Point `t` writes back block `t` of `kerOV`. -/
theorem ov_flushed (c : Dev nD) (X : FVec Ideal S8192x128 .f32)
    (hx : ∀ (t : Fin cfg1.N) (p : Fin 1024) (q : Fin 128) (r : Fin 8192), r.val = t.val * 1024 + p.val → xrootBlk V c t (ix2 p q) = X (ix2 r q))
    (t : Fin cfg1.N) :
    (dat1 V c).flushed 19 t = ((cfg1.win 19).blk t).view.read (Elt Ideal) (kerOV X (V c main_arg13) (V c main_v13)) := by
  obtain ⟨e19_0, e19_1, -⟩ := idx_facts t
  show (cfg1.win 19).cut (grid1.coords t) ((dat1 V c).after 19 t) = _
  rw [after1_19]
  unfold out1_19
  rw [View.canon_unit_zero zeroOffsets]
  simp only [View.ld_unit_zero (S := S1024x64) zeroOffsets, View.ld_unit_zero (S := S1024x128) zeroOffsets, View.ld_unit_zero (S := S1024x2) zeroOffsets, View.ld_unit_zero (S := S64x128) zeroOffsets, View.ld_unit_zero (S := S128x128) zeroOffsets, View.ld_unit_zero (S := S2x128) zeroOffsets, View.ld_unit_zero (S := S1x128) zeroOffsets, View.ld_unit_zero (S := S128x1) zeroOffsets, View.ld_unit_zero (S := S1x1) zeroOffsets]
  funext j
  show k1_pay13 (k1_pay5 (iblk1 V c 9 t)) (k1_pay6 (iblk1 V c 10 t))
    (k1_pay8 (k1_pay2 (iblk1 V c 0 t) (iblk1 V c 3 t)) (k1_pay3 (iblk1 V c 1 t) (iblk1 V c 7 t) (iblk1 V c 8 t) (iblk1 V c 4 t)) (iblk1 V c 2 t) (iblk1 V c 5 t) (iblk1 V c 6 t))
    (k1_pay9 (k1_pay2 (iblk1 V c 0 t) (iblk1 V c 3 t)) (k1_pay3 (iblk1 V c 1 t) (iblk1 V c 7 t) (iblk1 V c 8 t) (iblk1 V c 4 t)) (iblk1 V c 2 t) (iblk1 V c 5 t) (iblk1 V c 6 t))
    (k1_pay10 (F := Ideal)) (iblk1 V c 11 t) (iblk1 V c 12 t) j
    = kerOV X (V c main_arg13) (V c main_v13) (((cfg1.win 19).blk t).view.emb j)
  refine ov_entry (k1_pay5 (iblk1 V c 9 t)) (k1_pay6 (iblk1 V c 10 t))
    (k1_pay8 (k1_pay2 (iblk1 V c 0 t) (iblk1 V c 3 t)) (k1_pay3 (iblk1 V c 1 t) (iblk1 V c 7 t) (iblk1 V c 8 t) (iblk1 V c 4 t)) (iblk1 V c 2 t) (iblk1 V c 5 t) (iblk1 V c 6 t))
    (k1_pay9 (k1_pay2 (iblk1 V c 0 t) (iblk1 V c 3 t)) (k1_pay3 (iblk1 V c 1 t) (iblk1 V c 7 t) (iblk1 V c 8 t) (iblk1 V c 4 t)) (iblk1 V c 2 t) (iblk1 V c 5 t) (iblk1 V c 6 t))
    (k1_pay10 (F := Ideal)) (iblk1 V c 11 t) (iblk1 V c 12 t) X (V c main_arg13) (V c main_v13) j (((cfg1.win 19).blk t).view.emb j) ?_ (fun k => ?_)
    (blk11_eq V c t) (blk12_eq V c t)
  · show win1_19.index t (1 : Fin 2) * 1 + 1 * (j 1).val = (j 1).val
    rw [e19_1]; omega
  · refine hx t (j 0) k _ ?_
    show win1_19.index t (0 : Fin 2) * 1024 + 1 * (j 0).val = t.val * 1024 + (j 0).val
    rw [e19_0]; omega

/-- THE `o_v` ARRAY after region 1: `kerOV` of the x_root array and the staged weight and bias row. -/
theorem ov_array (c : Dev nD) (X : FVec Ideal S8192x128 .f32)
    (hx : ∀ (t : Fin cfg1.N) (p : Fin 1024) (q : Fin 128) (r : Fin 8192), r.val = t.val * 1024 + p.val → xrootBlk V c t (ix2 p q) = X (ix2 r q)) :
    (dat1 V c).arrAt 19 cfg1.N = kerOV X (V c main_arg13) (V c main_v13) :=
  (dat1 V c).arrAt_eq_of_cover 19 (kerOV X (V c main_arg13) (V c main_v13)) (fun t _ => ov_flushed V c X hx t) cover19

end Cert.RootHeads

end
-- ==== Proof.RootHeadsOClsP.lean ====
import proofs.«145994_j34600256537163_1_alg».proof.Proof.RootHeadsBlocks
import proofs.«145994_j34600256537163_1_alg».proof.Proof.RootHeadsEntry

/-!
# From the blocks to the array: the `o_cls_p` output of region 1

Region 1 runs over eight grid points; point `t` stages rows `1024 t … 1024 t + 1023` of every row-blocked
window and the whole of every weight and bias.  What point `t` writes back to a head's array is block `t` of
the head's whole-array function of the x_root ARRAY `X`, as soon as the x_root block the point stores is
block `t` of `X` (the hypothesis `hx`); the eight blocks tile each array, so the array ends holding that
function. -/

noncomputable section

open Idealize.ShloMosaic Idealize.ShloMosaic.TcCoe Idealize.SL.Sem
open Idealize.ShloMosaic.ValueIdx
open Idealize.ShloMosaic.Pipeline (Dat)
open Cert.KernelIdeal Cert.KernelIdeal.Gen
open scoped BigOperators

namespace Cert.RootHeads
variable (V : (c : Dev nD) → (b : Ref sig .tc) → Buf (Elt Ideal) ((c : Thread nD τ).loc b))

/-- Point `t` writes back block `t` of `kerOClsP`. -/
theorem oclsp_flushed (c : Dev nD) (X : FVec Ideal S8192x128 .f32)
    (hx : ∀ (t : Fin cfg1.N) (p : Fin 1024) (q : Fin 128) (r : Fin 8192), r.val = t.val * 1024 + p.val → xrootBlk V c t (ix2 p q) = X (ix2 r q))
    (t : Fin cfg1.N) :
    (dat1 V c).flushed 20 t = ((cfg1.win 20).blk t).view.read (Elt Ideal) (kerOClsP X (V c main_arg15) (V c main_v14)) := by
  obtain ⟨-, -, e20_0, e20_1, -⟩ := idx_facts t
  show (cfg1.win 20).cut (grid1.coords t) ((dat1 V c).after 20 t) = _
  rw [after1_20]
  unfold out1_20
  rw [View.canon_unit_zero zeroOffsets]
  simp only [View.ld_unit_zero (S := S1024x64) zeroOffsets, View.ld_unit_zero (S := S1024x128) zeroOffsets, View.ld_unit_zero (S := S1024x2) zeroOffsets, View.ld_unit_zero (S := S64x128) zeroOffsets, View.ld_unit_zero (S := S128x128) zeroOffsets, View.ld_unit_zero (S := S2x128) zeroOffsets, View.ld_unit_zero (S := S1x128) zeroOffsets, View.ld_unit_zero (S := S128x10) zeroOffsets, View.ld_unit_zero (S := S1x10) zeroOffsets]
  funext j
  show k1_pay14 (k1_pay5 (iblk1 V c 9 t)) (k1_pay6 (iblk1 V c 10 t))
    (k1_pay8 (k1_pay2 (iblk1 V c 0 t) (iblk1 V c 3 t)) (k1_pay3 (iblk1 V c 1 t) (iblk1 V c 7 t) (iblk1 V c 8 t) (iblk1 V c 4 t)) (iblk1 V c 2 t) (iblk1 V c 5 t) (iblk1 V c 6 t))
    (k1_pay9 (k1_pay2 (iblk1 V c 0 t) (iblk1 V c 3 t)) (k1_pay3 (iblk1 V c 1 t) (iblk1 V c 7 t) (iblk1 V c 8 t) (iblk1 V c 4 t)) (iblk1 V c 2 t) (iblk1 V c 5 t) (iblk1 V c 6 t))
    (k1_pay10 (F := Ideal)) (iblk1 V c 13 t) (iblk1 V c 14 t) j
    = kerOClsP X (V c main_arg15) (V c main_v14) (((cfg1.win 20).blk t).view.emb j)
  refine oclsp_entry (k1_pay5 (iblk1 V c 9 t)) (k1_pay6 (iblk1 V c 10 t))
    (k1_pay8 (k1_pay2 (iblk1 V c 0 t) (iblk1 V c 3 t)) (k1_pay3 (iblk1 V c 1 t) (iblk1 V c 7 t) (iblk1 V c 8 t) (iblk1 V c 4 t)) (iblk1 V c 2 t) (iblk1 V c 5 t) (iblk1 V c 6 t))
    (k1_pay9 (k1_pay2 (iblk1 V c 0 t) (iblk1 V c 3 t)) (k1_pay3 (iblk1 V c 1 t) (iblk1 V c 7 t) (iblk1 V c 8 t) (iblk1 V c 4 t)) (iblk1 V c 2 t) (iblk1 V c 5 t) (iblk1 V c 6 t))
    (k1_pay10 (F := Ideal)) (iblk1 V c 13 t) (iblk1 V c 14 t) X (V c main_arg15) (V c main_v14) j (((cfg1.win 20).blk t).view.emb j) ?_ (fun k => ?_)
    (blk13_eq V c t) (blk14_eq V c t)
  · show win1_20.index t (1 : Fin 2) * 10 + 1 * (j 1).val = (j 1).val
    rw [e20_1]; omega
  · refine hx t (j 0) k _ ?_
    show win1_20.index t (0 : Fin 2) * 1024 + 1 * (j 0).val = t.val * 1024 + (j 0).val
    rw [e20_0]; omega

/-- THE `o_cls_p` ARRAY after region 1. -/
theorem oclsp_array (c : Dev nD) (X : FVec Ideal S8192x128 .f32)
    (hx : ∀ (t : Fin cfg1.N) (p : Fin 1024) (q : Fin 128) (r : Fin 8192), r.val = t.val * 1024 + p.val → xrootBlk V c t (ix2 p q) = X (ix2 r q)) :
    (dat1 V c).arrAt 20 cfg1.N = kerOClsP X (V c main_arg15) (V c main_v14) :=
  (dat1 V c).arrAt_eq_of_cover 20 (kerOClsP X (V c main_arg15) (V c main_v14)) (fun t _ => oclsp_flushed V c X hx t) cover20

end Cert.RootHeads

end
-- ==== Proof.RootHeadsOfx.lean ====
import proofs.«145994_j34600256537163_1_alg».proof.Proof.RootHeadsBlocks
import proofs.«145994_j34600256537163_1_alg».proof.Proof.RootHeadsEntry

/-!
# From the blocks to the array: the `of_x` output of region 1

Region 1 runs over eight grid points; point `t` stages rows `1024 t … 1024 t + 1023` of every row-blocked
window and the whole of every weight and bias.  What point `t` writes back to a head's array is block `t` of
the head's whole-array function of the x_root ARRAY `X`, as soon as the x_root block the point stores is
block `t` of `X` (the hypothesis `hx`); the eight blocks tile each array, so the array ends holding that
function. -/

noncomputable section

open Idealize.ShloMosaic Idealize.ShloMosaic.TcCoe Idealize.SL.Sem
open Idealize.ShloMosaic.ValueIdx
open Idealize.ShloMosaic.Pipeline (Dat)
open Cert.KernelIdeal Cert.KernelIdeal.Gen
open scoped BigOperators

namespace Cert.RootHeads
variable (V : (c : Dev nD) → (b : Ref sig .tc) → Buf (Elt Ideal) ((c : Thread nD τ).loc b))

/-- Point `t` writes back block `t` of `kerOfx`. -/
theorem ofx_flushed (c : Dev nD) (X : FVec Ideal S8192x128 .f32)
    (hx : ∀ (t : Fin cfg1.N) (p : Fin 1024) (q : Fin 128) (r : Fin 8192), r.val = t.val * 1024 + p.val → xrootBlk V c t (ix2 p q) = X (ix2 r q))
    (t : Fin cfg1.N) :
    (dat1 V c).flushed 21 t = ((cfg1.win 21).blk t).view.read (Elt Ideal)
      (kerOfx X (V c main_arg1) (V c main_arg17) (V c main_v15) (V c main_arg19) (V c main_v16)) := by
  obtain ⟨-, -, -, -, e21_0, e21_1, -⟩ := idx_facts t
  show (cfg1.win 21).cut (grid1.coords t) ((dat1 V c).after 21 t) = _
  rw [after1_21]
  unfold out1_21
  rw [View.canon_unit_zero zeroOffsets]
  simp only [View.ld_unit_zero (S := S1024x64) zeroOffsets, View.ld_unit_zero (S := S1024x128) zeroOffsets, View.ld_unit_zero (S := S1024x2) zeroOffsets, View.ld_unit_zero (S := S64x128) zeroOffsets, View.ld_unit_zero (S := S128x128) zeroOffsets, View.ld_unit_zero (S := S2x128) zeroOffsets, View.ld_unit_zero (S := S1x128) zeroOffsets, View.ld_unit_zero (S := S128x1) zeroOffsets, View.ld_unit_zero (S := S1x1) zeroOffsets, View.ld_unit_zero (S := S128x2) zeroOffsets, View.ld_unit_zero (S := S1x2) zeroOffsets]
  funext j
  show k1_pay1 (k1_pay15 (k1_pay5 (iblk1 V c 9 t)) (k1_pay6 (iblk1 V c 10 t))
    (k1_pay8 (k1_pay2 (iblk1 V c 0 t) (iblk1 V c 3 t)) (k1_pay3 (iblk1 V c 1 t) (iblk1 V c 7 t) (iblk1 V c 8 t) (iblk1 V c 4 t)) (iblk1 V c 2 t) (iblk1 V c 5 t) (iblk1 V c 6 t))
    (k1_pay9 (k1_pay2 (iblk1 V c 0 t) (iblk1 V c 3 t)) (k1_pay3 (iblk1 V c 1 t) (iblk1 V c 7 t) (iblk1 V c 8 t) (iblk1 V c 4 t)) (iblk1 V c 2 t) (iblk1 V c 5 t) (iblk1 V c 6 t))
    (k1_pay10 (F := Ideal)) (iblk1 V c 15 t) (iblk1 V c 16 t)) (k1_pay16 (k1_pay5 (iblk1 V c 9 t)) (k1_pay6 (iblk1 V c 10 t))
    (k1_pay8 (k1_pay2 (iblk1 V c 0 t) (iblk1 V c 3 t)) (k1_pay3 (iblk1 V c 1 t) (iblk1 V c 7 t) (iblk1 V c 8 t) (iblk1 V c 4 t)) (iblk1 V c 2 t) (iblk1 V c 5 t) (iblk1 V c 6 t))
    (k1_pay9 (k1_pay2 (iblk1 V c 0 t) (iblk1 V c 3 t)) (k1_pay3 (iblk1 V c 1 t) (iblk1 V c 7 t) (iblk1 V c 8 t) (iblk1 V c 4 t)) (iblk1 V c 2 t) (iblk1 V c 5 t) (iblk1 V c 6 t))
    (k1_pay10 (F := Ideal)) (iblk1 V c 17 t) (iblk1 V c 18 t)) (k1_pay17 (iblk1 V c 2 t)) j
    = kerOfx X (V c main_arg1) (V c main_arg17) (V c main_v15) (V c main_arg19) (V c main_v16) (((cfg1.win 21).blk t).view.emb j)
  have hrow : ((((cfg1.win 21).blk t).view.emb j) 0).val = t.val * 1024 + (j 0).val := by
    show win1_21.index t (0 : Fin 2) * 1024 + 1 * (j 0).val = t.val * 1024 + (j 0).val
    rw [e21_0]; omega
  refine ofx_entry (k1_pay5 (iblk1 V c 9 t)) (k1_pay6 (iblk1 V c 10 t))
    (k1_pay8 (k1_pay2 (iblk1 V c 0 t) (iblk1 V c 3 t)) (k1_pay3 (iblk1 V c 1 t) (iblk1 V c 7 t) (iblk1 V c 8 t) (iblk1 V c 4 t)) (iblk1 V c 2 t) (iblk1 V c 5 t) (iblk1 V c 6 t))
    (k1_pay9 (k1_pay2 (iblk1 V c 0 t) (iblk1 V c 3 t)) (k1_pay3 (iblk1 V c 1 t) (iblk1 V c 7 t) (iblk1 V c 8 t) (iblk1 V c 4 t)) (iblk1 V c 2 t) (iblk1 V c 5 t) (iblk1 V c 6 t))
    (k1_pay10 (F := Ideal)) (iblk1 V c 2 t) (iblk1 V c 15 t) (iblk1 V c 16 t) (iblk1 V c 17 t) (iblk1 V c 18 t)
    X (V c main_arg1) (V c main_arg17) (V c main_v15) (V c main_arg19) (V c main_v16) j (((cfg1.win 21).blk t).view.emb j) ?_ (fun k => ?_) (fun d => ?_)
    (blk15_eq V c t) (blk16_eq V c t) (blk17_eq V c t) (blk18_eq V c t)
  · show win1_21.index t (1 : Fin 2) * 3 + 1 * (j 1).val = (j 1).val
    rw [e21_1]; omega
  · exact hx t (j 0) k _ hrow
  · exact blk2_apply V c t (j 0) d _ hrow

/-- THE `of_x` ARRAY after region 1. -/
theorem ofx_array (c : Dev nD) (X : FVec Ideal S8192x128 .f32)
    (hx : ∀ (t : Fin cfg1.N) (p : Fin 1024) (q : Fin 128) (r : Fin 8192), r.val = t.val * 1024 + p.val → xrootBlk V c t (ix2 p q) = X (ix2 r q)) :
    (dat1 V c).arrAt 21 cfg1.N = kerOfx X (V c main_arg1) (V c main_arg17) (V c main_v15) (V c main_arg19) (V c main_v16) :=
  (dat1 V c).arrAt_eq_of_cover 21 (kerOfx X (V c main_arg1) (V c main_arg17) (V c main_v15) (V c main_arg19) (V c main_v16))
    (fun t _ => ofx_flushed V c X hx t) cover21

end Cert.RootHeads

end
-- ==== Proof.RootHeadsXBlk.lean ====
import proofs.«145994_j34600256537163_1_alg».proof.Proof.RootHeadsBlocks

/-!
# The stored x_root block, from what a point writes back to the x_root array

The heads are computed from the same x_root block the kernel stores through window 22.  A
blocks-to-array proof of that output says: what every point writes back is its block of a
whole-array function `X`.  Read at one entry, that is the fact the heads' proofs use: entry
`(p, q)` of the x_root block stored at point `t` is `X` at row `1024 t + p`, lane `q`.
-/

noncomputable section

open Idealize.ShloMosaic Idealize.ShloMosaic.TcCoe Idealize.SL.Sem
open Idealize.ShloMosaic.ValueIdx
open Idealize.ShloMosaic.Pipeline (Dat)
open Cert.KernelIdeal Cert.KernelIdeal.Gen
open scoped BigOperators

namespace Cert.RootHeads
variable (V : (c : Dev nD) → (b : Ref sig .tc) → Buf (Elt Ideal) ((c : Thread nD τ).loc b))

/-- The hypothesis on the stored x_root blocks, from the form a blocks-to-array proof of the x_root output itself
    has it in: if what every point writes back to the x_root array (window 22) is its block of `X`, then each entry
    of the stored x_root block is the entry of `X` in the point's rows. -/
theorem xrootBlk_of_flushed (c : Dev nD) (X : FVec Ideal S8192x128 .f32)
    (hfl : ∀ t : Fin cfg1.N, (dat1 V c).flushed 22 t = ((cfg1.win 22).blk t).view.read (Elt Ideal) X)
    (t : Fin cfg1.N) (p : Fin 1024) (q : Fin 128) (r : Fin 8192) (hr : r.val = t.val * 1024 + p.val) :
    xrootBlk V c t (ix2 p q) = X (ix2 r q) := by
  have e22 : win1_22.index t (0 : Fin 2) = t.val ∧ win1_22.index t (1 : Fin 2) = 0 :=
    (by decide +kernel : ∀ t : Fin grid1.N, win1_22.index t (0 : Fin 2) = t.val ∧ win1_22.index t (1 : Fin 2) = 0) t
  have h := hfl t
  have h' : (cfg1.win 22).cut (grid1.coords t) ((dat1 V c).after 22 t) = ((cfg1.win 22).blk t).view.read (Elt Ideal) X := h
  rw [after1_22] at h'
  unfold out1_22 at h'
  rw [View.canon_unit_zero zeroOffsets] at h'
  simp only [View.ld_unit_zero (S := S1024x64) zeroOffsets, View.ld_unit_zero (S := S1024x128) zeroOffsets, View.ld_unit_zero (S := S1024x2) zeroOffsets, View.ld_unit_zero (S := S64x128) zeroOffsets, View.ld_unit_zero (S := S128x128) zeroOffsets, View.ld_unit_zero (S := S2x128) zeroOffsets, View.ld_unit_zero (S := S1x128) zeroOffsets] at h'
  have hpq := congrFun h' (ix2 p q)
  rw [View.read_apply] at hpq
  refine Eq.trans ?_ (hpq.trans (congrArg X (funext fun a => Fin.ext ?_)))
  · rfl
  · match a with
    | ⟨0, _⟩ => show win1_22.index t (0 : Fin 2) * 1024 + 1 * p.val = r.val; rw [e22.1, hr]; omega
    | ⟨1, _⟩ => show win1_22.index t (1 : Fin 2) * 128 + 1 * q.val = q.val; rw [e22.2]; omega

end Cert.RootHeads

end
-- ==== Proof.RootHeadsRoot.lean ====
import proofs.«145994_j34600256537163_1_alg».proof.Proof.RootHeadsOV
import proofs.«145994_j34600256537163_1_alg».proof.Proof.RootHeadsOClsP
import proofs.«145994_j34600256537163_1_alg».proof.Proof.RootHeadsOfx
import proofs.«145994_j34600256537163_1_alg».proof.Proof.RootHeadsXBlk
import proofs.«145994_j34600256537163_1_alg».proof.Proof.RootXArray

/-!
# The three head arrays after region 1, over the kernel's x_root array

The whole-array theorems of the heads at the x_root array the kernel computes,
`Cert.RootX.xrootOf V c`: `Cert.RootX.kerXRoot` of region 1's first eleven input arrays as the region
finds them (the leading root features, the segment mean, the root mask, the three pieces of the root
weight, the root bias and the two layer norms' gains and offsets).  The x_root block a grid point stores
is that point's rows of this array: that is what the point writes back to the x_root output.
-/

noncomputable section

open Idealize.ShloMosaic Idealize.ShloMosaic.TcCoe Idealize.SL.Sem
open Idealize.ShloMosaic.ValueIdx
open Idealize.ShloMosaic.Pipeline (Dat)
open Cert.KernelIdeal Cert.KernelIdeal.Gen
open scoped BigOperators

namespace Cert.RootHeads
variable (V : (c : Dev nD) → (b : Ref sig .tc) → Buf (Elt Ideal) ((c : Thread nD τ).loc b))

/-- The x_root block stored at point `t` is rows `1024 t … 1024 t + 1023` of the kernel's x_root array. -/
theorem xroot_blocks (c : Dev nD) (t : Fin cfg1.N) (p : Fin 1024) (q : Fin 128) (r : Fin 8192)
    (hr : r.val = t.val * 1024 + p.val) : xrootBlk V c t (ix2 p q) = Cert.RootX.xrootOf V c (ix2 r q) :=
  xrootBlk_of_flushed V c (Cert.RootX.xrootOf V c) (Cert.RootX.xroot_flushed V c) t p q r hr

/-- `o_v` after region 1, over the kernel's x_root array. -/
theorem ov_array_root (c : Dev nD) :
    (dat1 V c).arrAt 19 cfg1.N = kerOV (Cert.RootX.xrootOf V c) (V c main_arg13) (V c main_v13) :=
  ov_array V c (Cert.RootX.xrootOf V c) (xroot_blocks V c)

/-- `o_cls_p` after region 1, over the kernel's x_root array. -/
theorem oclsp_array_root (c : Dev nD) :
    (dat1 V c).arrAt 20 cfg1.N = kerOClsP (Cert.RootX.xrootOf V c) (V c main_arg15) (V c main_v14) :=
  oclsp_array V c (Cert.RootX.xrootOf V c) (xroot_blocks V c)

/-- `of_x` after region 1, over the kernel's x_root array. -/
theorem ofx_array_root (c : Dev nD) :
    (dat1 V c).arrAt 21 cfg1.N
      = kerOfx (Cert.RootX.xrootOf V c) (V c main_arg1) (V c main_arg17) (V c main_v15) (V c main_arg19) (V c main_v16) :=
  ofx_array V c (Cert.RootX.xrootOf V c) (xroot_blocks V c)

end Cert.RootHeads

end
-- ==== Proof.RootHeadsBridge.lean ====
import proofs.«145994_j34600256537163_1_alg».proof.Proof.RootHeadsSpec
import proofs.«145994_j34600256537163_1_alg».proof.Proof.RootHeadsDot
import Idealize.ShloMosaic.Lib.Pipeline.Value

/-!
# The kernel's heads are the reference's heads, as functions of the x_root array

Entry by entry.  The reference's `dot_general` at entry `(p, q)` is the sum over the 128
features of `x_root[p, k] * W[k, q]`, which is the kernel-side function's sum; the reference
broadcasts the bias vector to a row and then down the rows, the kernel's host side reshapes it to
a `[1, n]` row, and both read entry `q` of the bias.  For `of_x` the reference's concatenation
reads its first piece in column 0 and its second piece, shifted by one column, in columns 1 and 2;
the comparison and the select are the same pointwise functions of the same entries, and the two
literals (1 and `-∞`) are the same words on both sides.  Nothing here needs the inputs finite.
-/

noncomputable section

open Idealize.ShloMosaic Idealize.ShloMosaic.TcCoe Idealize.SL.Sem
open Idealize.ShloMosaic.ValueIdx
open scoped BigOperators

namespace Cert.RootHeads

/-- The reference's bias for the 1-column head — `[1] → [1,1] → [8192,1]` — reads entry `q` of the bias in every row. -/
theorem refBias1_apply (b : FVec Ideal Cert.ReferenceIdeal.S1 .f32) (p : Fin 8192) (q : Fin 1) :
    broadcastInDim Cert.ReferenceIdeal.S8192x1 ![0, 1] Cert.ReferenceIdeal.Gen.bcast_S1x1_S8192x1_0_1 (broadcastInDim Cert.ReferenceIdeal.S1x1 ![1] Cert.ReferenceIdeal.Gen.bcast_S1_S1x1_1 b) (ix2 p q)
      = b (ix1 q) := by
  refine (broadcastInDim_apply _ _ _ (ix2 p q) (ix2 0 q) fun a => ?_).trans
    (broadcastInDim_apply _ _ _ (ix2 0 q) (ix1 q) fun a => ?_)
  · match a with
    | ⟨0, _⟩ => rfl
    | ⟨1, _⟩ => show (q : Nat) = 0; omega
  · match a with
    | ⟨0, _⟩ => show (q : Nat) = 0; omega

/-- The kernel's bias row for the 1-column head — the host's reshape `[1] → [1,1]` — reads the same entry. -/
theorem kerBias1_apply (b : FVec Ideal Cert.KernelIdeal.S1 .f32) (q : Fin 1) :
    shapeCast Cert.KernelIdeal.S1x1 b Cert.KernelIdeal.Gen.shapeCasts_S1_S1x1 (ix2 0 q) = b (ix1 q) := by
  refine shapeCast_apply b _ (ix2 0 q) (ix1 q) ?_
  rw [Shape.rowMajor_val_one, Shape.rowMajor_val_two]
  show (q : Nat) = 0 * 1 + (q : Nat)
  omega

/-- The reference's 1-column head at an entry: the same sum over the 128 features, plus the same bias entry. -/
theorem refHead1_apply (xr : FVec Ideal Cert.ReferenceIdeal.S8192x128 .f32) (W : FVec Ideal Cert.ReferenceIdeal.S128x1 .f32) (b : FVec Ideal Cert.ReferenceIdeal.S1 .f32)
    (p : Fin 8192) (q : Fin 1) :
    addf (Host.dotGeneral Cert.ReferenceIdeal.dot_S8192x128_S128x1_S8192x1_1_0_0_1_n_n none xr W)
        (broadcastInDim Cert.ReferenceIdeal.S8192x1 ![0, 1] Cert.ReferenceIdeal.Gen.bcast_S1x1_S8192x1_0_1 (broadcastInDim Cert.ReferenceIdeal.S1x1 ![1] Cert.ReferenceIdeal.Gen.bcast_S1_S1x1_1 b)) (ix2 p q)
      = (∑ k : Fin 128, xr (ix2 p k) * W (ix2 k q)) + b (ix1 q) := by
  rw [addf_apply, refBias1_apply]
  refine congrArg (· + b (ix1 q)) ?_
  exact (Ideal.dotGeneral_apply Cert.ReferenceIdeal.dot_S8192x128_S128x1_S8192x1_1_0_0_1_n_n none .single xr W (ix2 p q)).trans (rdot1_sum xr W p q)

/-- The reference's bias for the 10-column head — `[10] → [1,10] → [8192,10]` — reads entry `q` of the bias in every row. -/
theorem refBias10_apply (b : FVec Ideal Cert.ReferenceIdeal.S10 .f32) (p : Fin 8192) (q : Fin 10) :
    broadcastInDim Cert.ReferenceIdeal.S8192x10 ![0, 1] Cert.ReferenceIdeal.Gen.bcast_S1x10_S8192x10_0_1 (broadcastInDim Cert.ReferenceIdeal.S1x10 ![1] Cert.ReferenceIdeal.Gen.bcast_S10_S1x10_1 b) (ix2 p q)
      = b (ix1 q) := by
  refine (broadcastInDim_apply _ _ _ (ix2 p q) (ix2 0 q) fun a => ?_).trans
    (broadcastInDim_apply _ _ _ (ix2 0 q) (ix1 q) fun a => ?_)
  · match a with
    | ⟨0, _⟩ => rfl
    | ⟨1, _⟩ => rfl
  · match a with
    | ⟨0, _⟩ => rfl

/-- The kernel's bias row for the 10-column head — the host's reshape `[10] → [1,10]` — reads the same entry. -/
theorem kerBias10_apply (b : FVec Ideal Cert.KernelIdeal.S10 .f32) (q : Fin 10) :
    shapeCast Cert.KernelIdeal.S1x10 b Cert.KernelIdeal.Gen.shapeCasts_S10_S1x10 (ix2 0 q) = b (ix1 q) := by
  refine shapeCast_apply b _ (ix2 0 q) (ix1 q) ?_
  rw [Shape.rowMajor_val_one, Shape.rowMajor_val_two]
  show (q : Nat) = 0 * 10 + (q : Nat)
  omega

/-- The reference's 10-column head at an entry: the same sum over the 128 features, plus the same bias entry. -/
theorem refHead10_apply (xr : FVec Ideal Cert.ReferenceIdeal.S8192x128 .f32) (W : FVec Ideal Cert.ReferenceIdeal.S128x10 .f32) (b : FVec Ideal Cert.ReferenceIdeal.S10 .f32)
    (p : Fin 8192) (q : Fin 10) :
    addf (Host.dotGeneral Cert.ReferenceIdeal.dot_S8192x128_S128x10_S8192x10_1_0_0_1_n_n none xr W)
        (broadcastInDim Cert.ReferenceIdeal.S8192x10 ![0, 1] Cert.ReferenceIdeal.Gen.bcast_S1x10_S8192x10_0_1 (broadcastInDim Cert.ReferenceIdeal.S1x10 ![1] Cert.ReferenceIdeal.Gen.bcast_S10_S1x10_1 b)) (ix2 p q)
      = (∑ k : Fin 128, xr (ix2 p k) * W (ix2 k q)) + b (ix1 q) := by
  rw [addf_apply, refBias10_apply]
  refine congrArg (· + b (ix1 q)) ?_
  exact (Ideal.dotGeneral_apply Cert.ReferenceIdeal.dot_S8192x128_S128x10_S8192x10_1_0_0_1_n_n none .single xr W (ix2 p q)).trans (rdot10_sum xr W p q)

/-- The reference's bias for the 2-column head — `[2] → [1,2] → [8192,2]` — reads entry `q` of the bias in every row. -/
theorem refBias2_apply (b : FVec Ideal Cert.ReferenceIdeal.S2 .f32) (p : Fin 8192) (q : Fin 2) :
    broadcastInDim Cert.ReferenceIdeal.S8192x2 ![0, 1] Cert.ReferenceIdeal.Gen.bcast_S1x2_S8192x2_0_1 (broadcastInDim Cert.ReferenceIdeal.S1x2 ![1] Cert.ReferenceIdeal.Gen.bcast_S2_S1x2_1 b) (ix2 p q)
      = b (ix1 q) := by
  refine (broadcastInDim_apply _ _ _ (ix2 p q) (ix2 0 q) fun a => ?_).trans
    (broadcastInDim_apply _ _ _ (ix2 0 q) (ix1 q) fun a => ?_)
  · match a with
    | ⟨0, _⟩ => rfl
    | ⟨1, _⟩ => rfl
  · match a with
    | ⟨0, _⟩ => rfl

/-- The kernel's bias row for the 2-column head — the host's reshape `[2] → [1,2]` — reads the same entry. -/
theorem kerBias2_apply (b : FVec Ideal Cert.KernelIdeal.S2 .f32) (q : Fin 2) :
    shapeCast Cert.KernelIdeal.S1x2 b Cert.KernelIdeal.Gen.shapeCasts_S2_S1x2 (ix2 0 q) = b (ix1 q) := by
  refine shapeCast_apply b _ (ix2 0 q) (ix1 q) ?_
  rw [Shape.rowMajor_val_one, Shape.rowMajor_val_two]
  show (q : Nat) = 0 * 2 + (q : Nat)
  omega

/-- The reference's 2-column head at an entry: the same sum over the 128 features, plus the same bias entry. -/
theorem refHead2_apply (xr : FVec Ideal Cert.ReferenceIdeal.S8192x128 .f32) (W : FVec Ideal Cert.ReferenceIdeal.S128x2 .f32) (b : FVec Ideal Cert.ReferenceIdeal.S2 .f32)
    (p : Fin 8192) (q : Fin 2) :
    addf (Host.dotGeneral Cert.ReferenceIdeal.dot_S8192x128_S128x2_S8192x2_1_0_0_1_n_n none xr W)
        (broadcastInDim Cert.ReferenceIdeal.S8192x2 ![0, 1] Cert.ReferenceIdeal.Gen.bcast_S1x2_S8192x2_0_1 (broadcastInDim Cert.ReferenceIdeal.S1x2 ![1] Cert.ReferenceIdeal.Gen.bcast_S2_S1x2_1 b)) (ix2 p q)
      = (∑ k : Fin 128, xr (ix2 p k) * W (ix2 k q)) + b (ix1 q) := by
  rw [addf_apply, refBias2_apply]
  refine congrArg (· + b (ix1 q)) ?_
  exact (Ideal.dotGeneral_apply Cert.ReferenceIdeal.dot_S8192x128_S128x2_S8192x2_1_0_0_1_n_n none .single xr W (ix2 p q)).trans (rdot2_sum xr W p q)

/-! ## The bridges -/

/-- `o_v`: the kernel's function of the x_root array, at the bias row the host reshaped, is the reference's. -/
theorem kerOV_eq_refOV (xr : FVec Ideal Cert.KernelIdeal.S8192x128 .f32) (W13 : FVec Ideal Cert.KernelIdeal.S128x1 .f32) (b14 : FVec Ideal Cert.KernelIdeal.S1 .f32) :
    kerOV xr W13 (shapeCast Cert.KernelIdeal.S1x1 b14 Cert.KernelIdeal.Gen.shapeCasts_S1_S1x1) = refOV xr W13 b14 := by
  funext i
  obtain ⟨p, q, rfl⟩ : ∃ (p : Fin 8192) (q : Fin 1), i = ix2 p q := ⟨i 0, i 1, eq_ix2 i⟩
  refine Eq.trans ?_ (refHead1_apply xr W13 b14 p q).symm
  show (∑ k : Fin 128, xr (ix2 p k) * W13 (ix2 k q)) + shapeCast Cert.KernelIdeal.S1x1 b14 Cert.KernelIdeal.Gen.shapeCasts_S1_S1x1 (ix2 0 q) = _
  rw [kerBias1_apply]

/-- `o_cls_p`: likewise. -/
theorem kerOClsP_eq_refOClsP (xr : FVec Ideal Cert.KernelIdeal.S8192x128 .f32) (W15 : FVec Ideal Cert.KernelIdeal.S128x10 .f32) (b16 : FVec Ideal Cert.KernelIdeal.S10 .f32) :
    kerOClsP xr W15 (shapeCast Cert.KernelIdeal.S1x10 b16 Cert.KernelIdeal.Gen.shapeCasts_S10_S1x10) = refOClsP xr W15 b16 := by
  funext i
  obtain ⟨p, q, rfl⟩ : ∃ (p : Fin 8192) (q : Fin 10), i = ix2 p q := ⟨i 0, i 1, eq_ix2 i⟩
  refine Eq.trans ?_ (refHead10_apply xr W15 b16 p q).symm
  show (∑ k : Fin 128, xr (ix2 p k) * W15 (ix2 k q)) + shapeCast Cert.KernelIdeal.S1x10 b16 Cert.KernelIdeal.Gen.shapeCasts_S10_S1x10 (ix2 0 q) = _
  rw [kerBias10_apply]

/-- `of_x`: column 0 is the one-column head on both sides; columns 1 and 2 are the two-column head's
    columns 0 and 1 under the same mask test and the same `-∞`. -/
theorem kerOfx_eq_refOfx (xr : FVec Ideal Cert.KernelIdeal.S8192x128 .f32) (rmask : FVec Ideal Cert.KernelIdeal.S8192x2 .f32)
    (W17 : FVec Ideal Cert.KernelIdeal.S128x1 .f32) (b18 : FVec Ideal Cert.KernelIdeal.S1 .f32) (W19 : FVec Ideal Cert.KernelIdeal.S128x2 .f32) (b20 : FVec Ideal Cert.KernelIdeal.S2 .f32) :
    kerOfx xr rmask W17 (shapeCast Cert.KernelIdeal.S1x1 b18 Cert.KernelIdeal.Gen.shapeCasts_S1_S1x1) W19 (shapeCast Cert.KernelIdeal.S1x2 b20 Cert.KernelIdeal.Gen.shapeCasts_S2_S1x2)
      = refOfx xr rmask W17 b18 W19 b20 := by
  funext i
  obtain ⟨p, c, rfl⟩ : ∃ (p : Fin 8192) (c : Fin 3), i = ix2 p c := ⟨i 0, i 1, eq_ix2 i⟩
  unfold refOfx
  by_cases hc : c.val < 1
  · refine Eq.trans ?_ (concatenate_pair_apply_left (s₁ := Cert.ReferenceIdeal.S8192x1) (s₂ := Cert.ReferenceIdeal.S8192x2) (1 : Fin Cert.ReferenceIdeal.S8192x3.rank) _ _ _ (ix2 p c) rfl (ix2 p (0 : Fin 1)) fun b => ?_).symm
    · refine Eq.trans ?_ (refHead1_apply xr W17 b18 p 0).symm
      show (if c.val < 1 then _ else _) = _
      rw [if_pos hc, kerBias1_apply]
    · match b with
      | ⟨0, _⟩ => rfl
      | ⟨1, _⟩ => show (0 : Nat) = c.val; omega
  · refine Eq.trans ?_ (concatenate_pair_apply_right (s₁ := Cert.ReferenceIdeal.S8192x1) (s₂ := Cert.ReferenceIdeal.S8192x2) (1 : Fin Cert.ReferenceIdeal.S8192x3.rank) _ _ _ (ix2 p c) rfl rfl (ix2 p (maskedCol c)) (fun b hb => ?_) ?_).symm
    · rw [select_apply, refHead2_apply]
      show (if c.val < 1 then _ else _) = _
      rw [if_neg hc, kerBias2_apply]
      rfl
    · match b with
      | ⟨0, _⟩ => rfl
      | ⟨1, _⟩ => exact absurd rfl hb
    · show (c.val - 1) + 1 = c.val
      omega

end Cert.RootHeads

end
-- ==== Proof.KValues.lean ====
/-
  The kernel program's four results as functions of its arguments.

  Following the fold of the segments from the launch: the first region's array is the reference's
  first stage of the item features (`xs`); the host's segment means of it enter the second region, whose
  fourth output is the normalized root rows (`xroot`) and whose first three outputs are the heads; the
  host expands the root rows to the items, and the third region's array is the last stage.
-/
import proofs.«145994_j34600256537163_1_alg».proof.Proof.KChain
import proofs.«145994_j34600256537163_1_alg».proof.Proof.SubRawEntry
import proofs.«145994_j34600256537163_1_alg».proof.Proof.SubOutArray
import proofs.«145994_j34600256537163_1_alg».proof.Proof.SubOutBridge
import proofs.«145994_j34600256537163_1_alg».proof.Proof.RootXArray
import proofs.«145994_j34600256537163_1_alg».proof.Proof.RootXBridge
import proofs.«145994_j34600256537163_1_alg».proof.Proof.RootHeadsRoot
import proofs.«145994_j34600256537163_1_alg».proof.Proof.RootHeadsBridge

noncomputable section

namespace Cert.KernelIdeal.KValues

open Cert.KernelIdeal Cert.KernelIdeal.Gen Cert.KernelIdeal.KHost Cert.KernelIdeal.KChain Cert.Chains
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The first stage of the item features, of the launch contents. -/
abbrev xs : (⟨S262144x128, .f32⟩ : BufTy).Contents (Elt Ideal) :=
  Cert.SubRaw.refXS (m ((c : Thread nD τ).loc main_arg2)) (m ((c : Thread nD τ).loc main_arg3))
    (m ((c : Thread nD τ).loc main_arg5)) (m ((c : Thread nD τ).loc main_arg6))

/-- The bag lengths, of the launch contents. -/
abbrev lens : (⟨S8192, .i32⟩ : BufTy).Contents (Elt Ideal) := m ((c : Thread nD τ).loc main_arg4)

/-- The first region leaves the first stage. -/
theorem first_stage : (dat0 (V1 m ρ) c).arrAt 5 cfg0.N = xs m c := Cert.SubRaw.xs_entry m ρ c

/-- The second region is entered with the segment means of the first stage. -/
theorem mean_entry : V11 m ρ c main_v45 = segMeanK (xs m c) (lens m c) :=
  (W11_segMean m ρ c).trans (by rw [first_stage])

/-- The item mask, an input of the first and the third region, is as launched when the third region is entered. -/
theorem mask_entry : V19 m ρ c main_arg3 = m ((c : Thread nD τ).loc main_arg3) := by
  show W19 m ρ c (Proc.devRef .tc main_arg3) = _
  rw [W19_eq, after_of_forall_not_mem (b := Proc.devRef .tc main_arg3) _ _ (by line_leaves),
    W12_of_ne m ρ c main_arg3 (by decide), W11_eq,
    after_of_forall_not_mem (b := Proc.devRef .tc main_arg3) _ _ (by line_leaves)]
  exact ((W2_arr m ρ c 1).trans (((dat0 (V1 m ρ) c).arrAt_in 1 rfl _).trans (A_eq0 (V1 m ρ) c 1))).trans
    (W1_keeps m ρ c main_arg3 (by line_leaves))

/-- The third region's array, from what the second region's fourth output holds: the last stage of the expanded rows. -/
theorem last_stage (xroot : (⟨S8192x128, .f32⟩ : BufTy).Contents (Elt Ideal))
    (hx : (dat1 (V11 m ρ) c).arrAt 22 cfg1.N = xroot) :
    W20 m ρ c (Proc.devRef .tc main_v65)
      = Cert.SubOut.refOut (takeRows xroot (bagOf (lens m c))) (xs m c) (m ((c : Thread nD τ).loc main_arg3))
          (m ((c : Thread nD τ).loc main_arg21)) (m ((c : Thread nD τ).loc main_arg22)) := by
  rw [W20_subout, Cert.SubOut.out_array (V19 m ρ) c]
  rw [show V19 m ρ c main_v64 = takeRows xroot (bagOf (lens m c)) from (W19_expanded m ρ c).trans (by rw [hx]),
    show V19 m ρ c main_v18 = xs m c from (W19_v18 m ρ c).trans (first_stage m ρ c),
    mask_entry m ρ c,
    show V19 m ρ c main_v5 = _ from
      (W19_keeps m ρ c main_v5 (by decide) (by line_leaves) (by decide) (by line_leaves)).trans (W1_v5 m ρ c),
    show V19 m ρ c main_v6 = _ from
      (W19_keeps m ρ c main_v6 (by decide) (by line_leaves) (by decide) (by line_leaves)).trans (W1_v6 m ρ c),
    show V19 m ρ c main_v17 = _ from
      (W19_keeps m ρ c main_v17 (by decide) (by line_leaves) (by decide) (by line_leaves)).trans (W1_v17 m ρ c)]
  exact Cert.SubOut.out_bridge _ _ _ _ _

/-! ## The second region -/

/-- The normalized root rows, of the launch contents. -/
abbrev xroot : (⟨S8192x128, .f32⟩ : BufTy).Contents (Elt Ideal) :=
  Cert.RootX.refXRoot (segMeanK (xs m c) (lens m c)) (m ((c : Thread nD τ).loc main_arg0)) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- An argument array that only the second or third region reads is as launched when the second region is entered. -/
theorem arg_entry (b : Ref sig .tc) (h0 : ∀ w, Pipeline.arrRef spec0 w ≠ b)
    (h1 : ∀ op ∈ (gap1 : List (HloOp τ sig (Elt Ideal))), (Proc.devRef .tc b : DevRef τ sig) ∉ op.writes)
    (h : ∀ op ∈ (hostOps0 : List (HloOp τ sig (Elt Ideal))), (Proc.devRef .tc b : DevRef τ sig) ∉ op.writes) :
    V11 m ρ c b = m ((c : Thread nD τ).loc b) :=
  (W11_keeps m ρ c b h0 h1).trans (W1_keeps m ρ c b h)

/-- The kernel's root rows at the second region's entry contents are the reference's. -/
theorem xrootOf_entry : Cert.RootX.xrootOf (V11 m ρ) c = xroot m c := by
  unfold Cert.RootX.xrootOf
  rw [show V11 m ρ c main_v46 = _ from W11_rootPre m ρ c, mean_entry m ρ c,
    arg_entry m ρ c main_arg1 (by decide) (by line_leaves) (by line_leaves),
    show V11 m ρ c main_v2 = _ from (W11_keeps m ρ c main_v2 (by decide) (by line_leaves)).trans (W1_v2 m ρ c),
    show V11 m ρ c main_v3 = _ from (W11_keeps m ρ c main_v3 (by decide) (by line_leaves)).trans (W1_v3 m ρ c),
    show V11 m ρ c main_v4 = _ from (W11_keeps m ρ c main_v4 (by decide) (by line_leaves)).trans (W1_v4 m ρ c),
    show V11 m ρ c main_v10 = _ from (W11_keeps m ρ c main_v10 (by decide) (by line_leaves)).trans (W1_v10 m ρ c),
    show V11 m ρ c main_v8 = _ from (W11_keeps m ρ c main_v8 (by decide) (by line_leaves)).trans (W1_v8 m ρ c),
    show V11 m ρ c main_v9 = _ from (W11_keeps m ρ c main_v9 (by decide) (by line_leaves)).trans (W1_v9 m ρ c),
    show V11 m ρ c main_v11 = _ from (W11_keeps m ρ c main_v11 (by decide) (by line_leaves)).trans (W1_v11 m ρ c),
    show V11 m ρ c main_v12 = _ from (W11_keeps m ρ c main_v12 (by decide) (by line_leaves)).trans (W1_v12 m ρ c)]
  exact Cert.RootX.xroot_bridge _ _ _ _ _ _ _ _ _

/-- The second region's fourth output: the normalized root rows. -/
theorem root_stage : (dat1 (V11 m ρ) c).arrAt 22 cfg1.N = xroot m c :=
  (Cert.RootX.xroot_array (V11 m ρ) c).trans (xrootOf_entry m ρ c)

/-- The first result. -/
theorem ov_result : W20 m ρ c (Proc.devRef .tc main_v47_0)
    = Cert.RootHeads.refOV (xroot m c) (m ((c : Thread nD τ).loc main_arg13)) (m ((c : Thread nD τ).loc main_arg14)) := by
  rw [W20_ov, Cert.RootHeads.ov_array_root (V11 m ρ) c, xrootOf_entry,
    arg_entry m ρ c main_arg13 (by decide) (by line_leaves) (by line_leaves),
    show V11 m ρ c main_v13 = _ from (W11_keeps m ρ c main_v13 (by decide) (by line_leaves)).trans (W1_v13 m ρ c)]
  exact Cert.RootHeads.kerOV_eq_refOV _ _ _

/-- The second result. -/
theorem oclsp_result : W20 m ρ c (Proc.devRef .tc main_v47_1)
    = Cert.RootHeads.refOClsP (xroot m c) (m ((c : Thread nD τ).loc main_arg15)) (m ((c : Thread nD τ).loc main_arg16)) := by
  rw [W20_oclsp, Cert.RootHeads.oclsp_array_root (V11 m ρ) c, xrootOf_entry,
    arg_entry m ρ c main_arg15 (by decide) (by line_leaves) (by line_leaves),
    show V11 m ρ c main_v14 = _ from (W11_keeps m ρ c main_v14 (by decide) (by line_leaves)).trans (W1_v14 m ρ c)]
  exact Cert.RootHeads.kerOClsP_eq_refOClsP _ _ _

/-- The third result. -/
theorem ofx_result : W20 m ρ c (Proc.devRef .tc main_v47_2)
    = Cert.RootHeads.refOfx (xroot m c) (m ((c : Thread nD τ).loc main_arg1)) (m ((c : Thread nD τ).loc main_arg17)) (m ((c : Thread nD τ).loc main_arg18)) (m ((c : Thread nD τ).loc main_arg19)) (m ((c : Thread nD τ).loc main_arg20)) := by
  rw [W20_ofx, Cert.RootHeads.ofx_array_root (V11 m ρ) c, xrootOf_entry,
    arg_entry m ρ c main_arg1 (by decide) (by line_leaves) (by line_leaves),
    arg_entry m ρ c main_arg17 (by decide) (by line_leaves) (by line_leaves),
    show V11 m ρ c main_v15 = _ from (W11_keeps m ρ c main_v15 (by decide) (by line_leaves)).trans (W1_v15 m ρ c),
    arg_entry m ρ c main_arg19 (by decide) (by line_leaves) (by line_leaves),
    show V11 m ρ c main_v16 = _ from (W11_keeps m ρ c main_v16 (by decide) (by line_leaves)).trans (W1_v16 m ρ c)]
  exact Cert.RootHeads.kerOfx_eq_refOfx _ _ _ _ _ _

/-- The fourth result. -/
theorem subout_result : W20 m ρ c (Proc.devRef .tc main_v65)
    = Cert.SubOut.refOut (takeRows (xroot m c) (bagOf (lens m c))) (xs m c) (m ((c : Thread nD τ).loc main_arg3)) (m ((c : Thread nD τ).loc main_arg21)) (m ((c : Thread nD τ).loc main_arg22)) :=
  last_stage m ρ c (xroot m c) (root_stage m ρ c)

end Cert.KernelIdeal.KValues

end
-- ==== Proof.RefBase.lean ====
/-
  The reference's run, by hand: two facts about lists of host operations used by every window.
  A window of the operation list writes a known list of buffers; a buffer outside that list is
  left unchanged by the window (the library's `after_of_writes_sub`). The first lemma states the
  hypothesis that lemma asks of one operation whose only written buffer is `y`; the second and
  third carry a property of every operation across a concatenation of two windows.
-/
import proofs.«145994_j34600256537163_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- An operation that writes the single buffer `y` writes inside any list of buffers holding `y`. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- A property of every operation of two lists holds of every operation of their concatenation. -/
theorem forall_append_of {α : Type} {p : α → Prop} {l₁ l₂ : List α} (h₁ : l₁.Forall p) (h₂ : l₂.Forall p) :
    (l₁ ++ l₂).Forall p :=
  List.forall_iff_forall_mem.mpr fun x hx => (List.mem_append.mp hx).elim
    (List.forall_iff_forall_mem.mp h₁ x) (List.forall_iff_forall_mem.mp h₂ x)

end Cert.ReferenceIdeal.RefRun

end
-- ==== Proof.RefOps0.lean ====
/-
  The reference's run, by hand: the operations of @main's first printed part (main_part0),
  cut in windows A, Ac, I0, I1, I2, I3, I4, I5, I6, I7, C, D1: at the boundaries of the computation's stages and at EVERY call boundary (one
  window per outlined call, one per straight-line run between calls). For each window: the list of its
  operations in program order (each `hlo` statement contributes its operation; each call contributes its
  callee's operations, over that call's buffers), that every operation touches TensorCore references only and
  determines its results, and the list of buffers the window writes.
-/
import proofs.«145994_j34600256537163_1_alg».proof.Proof.RefBase

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- Window A (6 operations) — x_raw_sub before its activation: concatenate(sub_feats, sub_mask) · W_sub_in + b_sub_in (main_v4), and the slope constant (main_cst). Calls are inlined: a callee's operations stand at the
    call site over that call's buffer record. -/
abbrev opsA : List (HloOp τ sig (Elt F)) :=
  [
    StableHlo.binary main_arg2 main_arg3 main_v0 ((fun a b => concatenate S262144x65 1 [⟨S262144x64, a⟩, ⟨S262144x1, b⟩] concatenates_S262144x64_S262144x1_S262144x65_d1) : (⟨S262144x64, .f32⟩ : BufTy).Contents (Elt F) → (⟨S262144x1, .f32⟩ : BufTy).Contents (Elt F) → (⟨S262144x65, .f32⟩ : BufTy).Contents (Elt F)),
    StableHlo.binary main_v0 main_arg5 main_v1 ((fun l r => Host.dotGeneral dot_S262144x65_S65x128_S262144x128_1_0_0_1_n_n none l r) : (⟨S262144x65, .f32⟩ : BufTy).Contents (Elt F) → (⟨S65x128, .f32⟩ : BufTy).Contents (Elt F) → (⟨S262144x128, .f32⟩ : BufTy).Contents (Elt F)),
    StableHlo.unary main_arg6 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S262144x128 ![0, 1] bcast_S1x128_S262144x128_0_1 : (⟨S1x128, .f32⟩ : BufTy).Contents (Elt F) → (⟨S262144x128, .f32⟩ : BufTy).Contents (Elt F)),
    StableHlo.binary main_v1 main_v3 main_v4 (addf : (⟨S262144x128, .f32⟩ : BufTy).Contents (Elt F) → (⟨S262144x128, .f32⟩ : BufTy).Contents (Elt F) → (⟨S262144x128, .f32⟩ : BufTy).Contents (Elt F)),
    StableHlo.nullary main_cst (constant S_ .f32 0x3C23D70A#32) ]

theorem opsA_sub : (opsA : List (HloOp τ sig (Elt F))).Forall fun op => op.bufs ⊆ tcRefs τ sig :=
  ⟨binary_bufs_sub .., binary_bufs_sub .., unary_bufs_sub .., unary_bufs_sub .., binary_bufs_sub .., nullary_bufs_sub ..⟩

/-- Every operation of window A determines its results. -/
theorem opsA_fresh : (opsA : List (HloOp τ sig (Elt F))).Forall fun op => op.fresh = ∅ :=
  ⟨rfl, rfl, rfl, rfl, rfl, rfl⟩

/-- The buffers window A writes, in order: one per operation. -/
abbrev wrA : List (Ref sig .tc) :=
  [main_v0, main_v1, main_v2, main_v3, main_v4, main_cst]

theorem opsA_writes : (opsA : List (HloOp τ sig (Elt F))).Forall fun op =>
    op.writes ⊆ (wrA.map (Proc.devRef (τ := τ) .tc)).toFinset :=
  ⟨writes_sub_of_mem (y := main_v0) (by decide), writes_sub_of_mem (y := main_v1) (by decide),
    writes_sub_of_mem (y := main_v2) (by decide), writes_sub_of_mem (y := main_v3) (by decide),
    writes_sub_of_mem (y := main_v4) (by decide), writes_sub_of_mem (y := main_cst) (by decide)⟩

/-- Window Ac (7 operations) — the call of @leaky_relu (through @_where) on main_v4 (ends at main_v5, x_raw_sub). Calls are inlined: a callee's operations stand at the
    call site over that call's buffer record. -/
abbrev opsAc : List (HloOp τ sig (Elt F)) :=
  [
    StableHlo.TRef.nullary main_call0.cst (constant S_ .f32 0x00000000#32),
    StableHlo.TRef.unary main_call0.cst main_call0.v0 (broadcastInDim S262144x128 ![] bcast_S_S262144x128),
    StableHlo.TRef.binary (.of main_v4 : StableHlo.TRef sig ⟨S262144x128, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S262144x128 ![] bcast_S_S262144x128),
    StableHlo.TRef.binary main_call0.v3 (.of main_v4 : StableHlo.TRef sig ⟨S262144x128, .f32⟩) main_call0.v4 mulf,
    StableHlo.TRef.ternary main_call0.v1 (.of main_v4 : StableHlo.TRef sig ⟨S262144x128, .f32⟩) main_call0.v4 main_call0.call0.v0 select ]

theorem opsAc_sub : (opsAc : List (HloOp τ sig (Elt F))).Forall fun op => op.bufs ⊆ tcRefs τ sig :=
  ⟨nullary_bufs_sub .., unary_bufs_sub .., binary_bufs_sub .., unary_bufs_sub .., unary_bufs_sub .., binary_bufs_sub ..,
    ternary_bufs_sub ..⟩

/-- Every operation of window Ac determines its results. -/
theorem opsAc_fresh : (opsAc : List (HloOp τ sig (Elt F))).Forall fun op => op.fresh = ∅ :=
  ⟨rfl, rfl, rfl, rfl, rfl, rfl, rfl⟩

/-- The buffers window Ac writes, in order: one per operation. -/
abbrev wrAc : List (Ref sig .tc) :=
  [main_call0_cst, main_call0_v0, main_call0_v1, main_call0_v2, main_call0_v3, main_call0_v4, main_v5]

theorem opsAc_writes : (opsAc : List (HloOp τ sig (Elt F))).Forall fun op =>
    op.writes ⊆ (wrAc.map (Proc.devRef (τ := τ) .tc)).toFinset :=
  ⟨writes_sub_of_mem (y := main_call0_cst) (by decide), writes_sub_of_mem (y := main_call0_v0) (by decide),
    writes_sub_of_mem (y := main_call0_v1) (by decide), writes_sub_of_mem (y := main_call0_v2) (by decide),
    writes_sub_of_mem (y := main_call0_v3) (by decide), writes_sub_of_mem (y := main_call0_v4) (by decide),
    writes_sub_of_mem (y := main_v5) (by decide)⟩

/-- Window I0 (1 operation) — first integer chain: the iota over the 8192 bags (main_v6), which the gather of @_take reads. Calls are inlined: a callee's operations stand at the
    call site over that call's buffer record. -/
abbrev opsI0 : List (HloOp τ sig (Elt F)) :=
  [
    StableHlo.nullary main_v6 (iotaInDim S8192 32 0) ]

theorem opsI0_sub : (opsI0 : List (HloOp τ sig (Elt F))).Forall fun op => op.bufs ⊆ tcRefs τ sig :=
  nullary_bufs_sub ..

/-- Every operation of window I0 determines its results. -/
theorem opsI0_fresh : (opsI0 : List (HloOp τ sig (Elt F))).Forall fun op => op.fresh = ∅ :=
  rfl

/-- The buffers window I0 writes, in order: one per operation. -/
abbrev wrI0 : List (Ref sig .tc) :=
  [main_v6]

theorem opsI0_writes : (opsI0 : List (HloOp τ sig (Elt F))).Forall fun op =>
    op.writes ⊆ (wrI0.map (Proc.devRef (τ := τ) .tc)).toFinset :=
  writes_sub_of_mem (y := main_v6) (by decide)

/-- Window I1 (3 operations) — first integer chain: the call of @_roll_static on lens — two slices and their concatenation (ends at main_v7). Calls are inlined: a callee's operations stand at the
    call site over that call's buffer record. -/
abbrev opsI1 : List (HloOp τ sig (Elt F)) :=
  [
    StableHlo.TRef.unary (.of main_arg4 : StableHlo.TRef sig ⟨S8192, .i32⟩) main_call1.v0 (extractStridedSlice S1 ![8191] · slices_S8192_S1_8191),
    StableHlo.TRef.unary (.of main_arg4 : StableHlo.TRef sig ⟨S8192, .i32⟩) main_call1.v1 (extractStridedSlice S8191 ![0] · slices_S8192_S8191_0),
    StableHlo.TRef.binary main_call1.v0 main_call1.v1 main_call1.v2 (fun a b => concatenate S8192 0 [⟨S1, a⟩, ⟨S8191, b⟩] concatenates_S1_S8191_S8192_d0) ]

theorem opsI1_sub : (opsI1 : List (HloOp τ sig (Elt F))).Forall fun op => op.bufs ⊆ tcRefs τ sig :=
  ⟨unary_bufs_sub .., unary_bufs_sub .., binary_bufs_sub ..⟩

/-- Every operation of window I1 determines its results. -/
theorem opsI1_fresh : (opsI1 : List (HloOp τ sig (Elt F))).Forall fun op => op.fresh = ∅ :=
  ⟨rfl, rfl, rfl⟩

/-- The buffers window I1 writes, in order: one per operation. -/
abbrev wrI1 : List (Ref sig .tc) :=
  [main_call1_v0, main_call1_v1, main_v7]

theorem opsI1_writes : (opsI1 : List (HloOp τ sig (Elt F))).Forall fun op =>
    op.writes ⊆ (wrI1.map (Proc.devRef (τ := τ) .tc)).toFinset :=
  ⟨writes_sub_of_mem (y := main_call1_v0) (by decide), writes_sub_of_mem (y := main_call1_v1) (by decide),
    writes_sub_of_mem (y := main_v7) (by decide)⟩

/-- Window I2 (4 operations) — first integer chain: the rolled lens with entry 0 set to 0 (ends at main_v9). Calls are inlined: a callee's operations stand at the
    call site over that call's buffer record. -/
abbrev opsI2 : List (HloOp τ sig (Elt F)) :=
  [
    StableHlo.nullary main_c (constantI S_ 32 0#32),
    StableHlo.unary main_c main_v8 (broadcastInDim S1 ![] bcast_S_S1 : (⟨S_, .i32⟩ : BufTy).Contents (Elt F) → (⟨S1, .i32⟩ : BufTy).Contents (Elt F)),
    StableHlo.nullary main_c_0 (constantI S_ 32 0#32),
    StableHlo.ternary main_v7 main_v8 main_c_0 main_v9 ((fun x i u => Host.scatter scatter_S8192_S1_S__n_0_0_0 (fun _ b => b) x i u) : (⟨S8192, .i32⟩ : BufTy).Contents (Elt F) → (⟨S1, .i32⟩ : BufTy).Contents (Elt F) → (⟨S_, .i32⟩ : BufTy).Contents (Elt F) → (⟨S8192, .i32⟩ : BufTy).Contents (Elt F)) ]

theorem opsI2_sub : (opsI2 : List (HloOp τ sig (Elt F))).Forall fun op => op.bufs ⊆ tcRefs τ sig :=
  ⟨nullary_bufs_sub .., unary_bufs_sub .., nullary_bufs_sub .., ternary_bufs_sub ..⟩

/-- Every operation of window I2 determines its results. -/
theorem opsI2_fresh : (opsI2 : List (HloOp τ sig (Elt F))).Forall fun op => op.fresh = ∅ :=
  ⟨rfl, rfl, rfl, rfl⟩

/-- The buffers window I2 writes, in order: one per operation. -/
abbrev wrI2 : List (Ref sig .tc) :=
  [main_c, main_v8, main_c_0, main_v9]

theorem opsI2_writes : (opsI2 : List (HloOp τ sig (Elt F))).Forall fun op =>
    op.writes ⊆ (wrI2.map (Proc.devRef (τ := τ) .tc)).toFinset :=
  ⟨writes_sub_of_mem (y := main_c) (by decide), writes_sub_of_mem (y := main_v8) (by decide),
    writes_sub_of_mem (y := main_c_0) (by decide), writes_sub_of_mem (y := main_v9) (by decide)⟩

/-- Window I3 (3 operations) — first integer chain: the call of @cumsum (through @cumsum_0: a reduce_window) (ends at main_v10). Calls are inlined: a callee's operations stand at the
    call site over that call's buffer record. -/
abbrev opsI3 : List (HloOp τ sig (Elt F)) :=
  [
    StableHlo.TRef.nullary main_call2.call0.c (constantI S_ 32 0#32),
    StableHlo.TRef.unary main_call2.call0.c main_call2.call0.v0 (broadcastInDim S_ ![] bcast_S_S_),
    StableHlo.TRef.binary (.of main_v9 : StableHlo.TRef sig ⟨S8192, .i32⟩) main_call2.call0.v0 main_call2.call0.v1 (fun x v => Host.reduceWindow IntOp.addi ![8192] ![1] ![8191] ![0] x v reduceWindows_S8192_S8192_w8192s1p8191_0 h_S_) ]

theorem opsI3_sub : (opsI3 : List (HloOp τ sig (Elt F))).Forall fun op => op.bufs ⊆ tcRefs τ sig :=
  ⟨nullary_bufs_sub .., unary_bufs_sub .., binary_bufs_sub ..⟩

/-- Every operation of window I3 determines its results. -/
theorem opsI3_fresh : (opsI3 : List (HloOp τ sig (Elt F))).Forall fun op => op.fresh = ∅ :=
  ⟨rfl, rfl, rfl⟩

/-- The buffers window I3 writes, in order: one per operation. -/
abbrev wrI3 : List (Ref sig .tc) :=
  [main_call2_call0_c, main_call2_call0_v0, main_v10]

theorem opsI3_writes : (opsI3 : List (HloOp τ sig (Elt F))).Forall fun op =>
    op.writes ⊆ (wrI3.map (Proc.devRef (τ := τ) .tc)).toFinset :=
  ⟨writes_sub_of_mem (y := main_call2_call0_c) (by decide), writes_sub_of_mem (y := main_call2_call0_v0) (by decide),
    writes_sub_of_mem (y := main_v10) (by decide)⟩

/-- Window I4 (13 operations) — first integer chain: wrap negative starts, then scatter-add 1 at each start into zeros over the items (ends at main_v19). Calls are inlined: a callee's operations stand at the
    call site over that call's buffer record. -/
abbrev opsI4 : List (HloOp τ sig (Elt F)) :=
  [
    StableHlo.nullary main_c_1 (constantI S_ 32 0#32),
    StableHlo.unary main_c_1 main_v11 (broadcastInDim S262144 ![] bcast_S_S262144 : (⟨S_, .i32⟩ : BufTy).Contents (Elt F) → (⟨S262144, .i32⟩ : BufTy).Contents (Elt F)),
    StableHlo.nullary main_c_2 (constantI S_ 32 0#32),
    StableHlo.unary main_c_2 main_v12 (broadcastInDim S8192 ![] bcast_S_S8192 : (⟨S_, .i32⟩ : BufTy).Contents (Elt F) → (⟨S8192, .i32⟩ : BufTy).Contents (Elt F)),
    StableHlo.binary main_v10 main_v12 main_v13 (cmpi .slt : (⟨S8192, .i32⟩ : BufTy).Contents (Elt F) → (⟨S8192, .i32⟩ : BufTy).Contents (Elt F) → (⟨S8192, .i1⟩ : BufTy).Contents (Elt F)),
    StableHlo.nullary main_c_3 (constantI S_ 32 262144#32),
    StableHlo.unary main_c_3 main_v14 (broadcastInDim S8192 ![] bcast_S_S8192 : (⟨S_, .i32⟩ : BufTy).Contents (Elt F) → (⟨S8192, .i32⟩ : BufTy).Contents (Elt F)),
    StableHlo.binary main_v10 main_v14 main_v15 (addi : (⟨S8192, .i32⟩ : BufTy).Contents (Elt F) → (⟨S8192, .i32⟩ : BufTy).Contents (Elt F) → (⟨S8192, .i32⟩ : BufTy).Contents (Elt F)),
    StableHlo.ternary main_v13 main_v15 main_v10 main_v16 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v16 main_v17 (broadcastInDim S8192x1 ![0] bcast_S8192_S8192x1_0 : (⟨S8192, .i32⟩ : BufTy).Contents (Elt F) → (⟨S8192x1, .i32⟩ : BufTy).Contents (Elt F)),
    StableHlo.nullary main_c_4 (constantI S_ 32 1#32),
    StableHlo.unary main_c_4 main_v18 (broadcastInDim S8192 ![] bcast_S_S8192 : (⟨S_, .i32⟩ : BufTy).Contents (Elt F) → (⟨S8192, .i32⟩ : BufTy).Contents (Elt F)),
    StableHlo.ternary main_v11 main_v17 main_v18 main_v19 ((fun x i u => Host.scatter scatter_S262144_S8192x1_S8192_n_0_0_1 IntOp.addi x i u) : (⟨S262144, .i32⟩ : BufTy).Contents (Elt F) → (⟨S8192x1, .i32⟩ : BufTy).Contents (Elt F) → (⟨S8192, .i32⟩ : BufTy).Contents (Elt F) → (⟨S262144, .i32⟩ : BufTy).Contents (Elt F)) ]

theorem opsI4_sub : (opsI4 : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub ..⟩

/-- Every operation of window I4 determines its results. -/
theorem opsI4_fresh : (opsI4 : List (HloOp τ sig (Elt F))).Forall fun op => op.fresh = ∅ :=
  ⟨rfl, rfl, rfl, rfl, rfl, rfl, rfl, rfl, rfl, rfl, rfl, rfl, rfl⟩

/-- The buffers window I4 writes, in order: one per operation. -/
abbrev wrI4 : List (Ref sig .tc) :=
  [main_c_1, main_v11, main_c_2, main_v12, main_v13, main_c_3, main_v14, main_v15,
    main_v16, main_v17, main_c_4, main_v18, main_v19]

theorem opsI4_writes : (opsI4 : List (HloOp τ sig (Elt F))).Forall fun op =>
    op.writes ⊆ (wrI4.map (Proc.devRef (τ := τ) .tc)).toFinset :=
  ⟨writes_sub_of_mem (y := main_c_1) (by decide), writes_sub_of_mem (y := main_v11) (by decide),
    writes_sub_of_mem (y := main_c_2) (by decide), writes_sub_of_mem (y := main_v12) (by decide),
    writes_sub_of_mem (y := main_v13) (by decide), writes_sub_of_mem (y := main_c_3) (by decide),
    writes_sub_of_mem (y := main_v14) (by decide), writes_sub_of_mem (y := main_v15) (by decide),
    writes_sub_of_mem (y := main_v16) (by decide), writes_sub_of_mem (y := main_v17) (by decide),
    writes_sub_of_mem (y := main_c_4) (by decide), writes_sub_of_mem (y := main_v18) (by decide),
    writes_sub_of_mem (y := main_v19) (by decide)⟩

/-- Window I5 (3 operations) — first integer chain: the call of @cumsum_1 (through @cumsum_2) (ends at main_v20). Calls are inlined: a callee's operations stand at the
    call site over that call's buffer record. -/
abbrev opsI5 : List (HloOp τ sig (Elt F)) :=
  [
    StableHlo.TRef.nullary main_call3.call0.c (constantI S_ 32 0#32),
    StableHlo.TRef.unary main_call3.call0.c main_call3.call0.v0 (broadcastInDim S_ ![] bcast_S_S_),
    StableHlo.TRef.binary (.of main_v19 : StableHlo.TRef sig ⟨S262144, .i32⟩) main_call3.call0.v0 main_call3.call0.v1 (fun x v => Host.reduceWindow IntOp.addi ![262144] ![1] ![262143] ![0] x v reduceWindows_S262144_S262144_w262144s1p262143_0 h_S_) ]

theorem opsI5_sub : (opsI5 : List (HloOp τ sig (Elt F))).Forall fun op => op.bufs ⊆ tcRefs τ sig :=
  ⟨nullary_bufs_sub .., unary_bufs_sub .., binary_bufs_sub ..⟩

/-- Every operation of window I5 determines its results. -/
theorem opsI5_fresh : (opsI5 : List (HloOp τ sig (Elt F))).Forall fun op => op.fresh = ∅ :=
  ⟨rfl, rfl, rfl⟩

/-- The buffers window I5 writes, in order: one per operation. -/
abbrev wrI5 : List (Ref sig .tc) :=
  [main_call3_call0_c, main_call3_call0_v0, main_v20]

theorem opsI5_writes : (opsI5 : List (HloOp τ sig (Elt F))).Forall fun op =>
    op.writes ⊆ (wrI5.map (Proc.devRef (τ := τ) .tc)).toFinset :=
  ⟨writes_sub_of_mem (y := main_call3_call0_c) (by decide), writes_sub_of_mem (y := main_call3_call0_v0) (by decide),
    writes_sub_of_mem (y := main_v20) (by decide)⟩

/-- Window I6 (3 operations) — first integer chain: subtract 1 (ends at main_v22). Calls are inlined: a callee's operations stand at the
    call site over that call's buffer record. -/
abbrev opsI6 : List (HloOp τ sig (Elt F)) :=
  [
    StableHlo.nullary main_c_5 (constantI S_ 32 1#32),
    StableHlo.unary main_c_5 main_v21 (broadcastInDim S262144 ![] bcast_S_S262144 : (⟨S_, .i32⟩ : BufTy).Contents (Elt F) → (⟨S262144, .i32⟩ : BufTy).Contents (Elt F)),
    StableHlo.binary main_v20 main_v21 main_v22 (subi : (⟨S262144, .i32⟩ : BufTy).Contents (Elt F) → (⟨S262144, .i32⟩ : BufTy).Contents (Elt F) → (⟨S262144, .i32⟩ : BufTy).Contents (Elt F)) ]

theorem opsI6_sub : (opsI6 : List (HloOp τ sig (Elt F))).Forall fun op => op.bufs ⊆ tcRefs τ sig :=
  ⟨nullary_bufs_sub .., unary_bufs_sub .., binary_bufs_sub ..⟩

/-- Every operation of window I6 determines its results. -/
theorem opsI6_fresh : (opsI6 : List (HloOp τ sig (Elt F))).Forall fun op => op.fresh = ∅ :=
  ⟨rfl, rfl, rfl⟩

/-- The buffers window I6 writes, in order: one per operation. -/
abbrev wrI6 : List (Ref sig .tc) :=
  [main_c_5, main_v21, main_v22]

theorem opsI6_writes : (opsI6 : List (HloOp τ sig (Elt F))).Forall fun op =>
    op.writes ⊆ (wrI6.map (Proc.devRef (τ := τ) .tc)).toFinset :=
  ⟨writes_sub_of_mem (y := main_c_5) (by decide), writes_sub_of_mem (y := main_v21) (by decide),
    writes_sub_of_mem (y := main_v22) (by decide)⟩

/-- Window I7 (22 operations) — first integer chain: the call of @_take (through @_where_3) — the clamped gather of the iota (ends at main_v23, the segment ids). Calls are inlined: a callee's operations stand at the
    call site over that call's buffer record. -/
abbrev opsI7 : List (HloOp τ sig (Elt F)) :=
  [
    StableHlo.TRef.nullary main_call4.c (constantI S_ 32 0#32),
    StableHlo.TRef.unary main_call4.c main_call4.v0 (broadcastInDim S262144 ![] bcast_S_S262144),
    StableHlo.TRef.binary (.of main_v22 : StableHlo.TRef sig ⟨S262144, .i32⟩) main_call4.v0 main_call4.v1 (cmpi .slt),
    StableHlo.TRef.nullary main_call4.c_0 (constantI S_ 32 8192#32),
    StableHlo.TRef.unary main_call4.c_0 main_call4.v2 (broadcastInDim S262144 ![] bcast_S_S262144),
    StableHlo.TRef.binary (.of main_v22 : StableHlo.TRef sig ⟨S262144, .i32⟩) main_call4.v2 main_call4.v3 addi,
    StableHlo.TRef.ternary main_call4.v1 main_call4.v3 (.of main_v22 : StableHlo.TRef sig ⟨S262144, .i32⟩) main_call4.call0.v0 select,
    StableHlo.TRef.unary main_call4.call0.v0 main_call4.v5 (broadcastInDim S262144x1 ![0] bcast_S262144_S262144x1_0),
    StableHlo.TRef.nullary main_call4.c_1 (constantI S1 32 8191#32),
    StableHlo.TRef.nullary main_call4.c_2 (constantI S_ 32 0#32),
    StableHlo.TRef.unary main_call4.c_2 main_call4.v6 (broadcastInDim S262144x1 ![] bcast_S_S262144x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S262144x1 ![0, 1] bcast_S1x1_S262144x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S262144x1_S262144_d1 h_S_),
    StableHlo.TRef.binary (.of main_v6 : StableHlo.TRef sig ⟨S8192, .i32⟩) main_call4.v5 main_call4.v13 (fun x i => Host.gather gather_S8192_S262144x1_S262144_n_0_n_n_0_1_1 x i),
    StableHlo.TRef.nullary main_call4.c_4 (constantI S_ 32 2147483648#32),
    StableHlo.TRef.unary main_call4.c_4 main_call4.v14 (broadcastInDim S262144 ![] bcast_S_S262144),
    StableHlo.TRef.ternary main_call4.v12 main_call4.v13 main_call4.v14 main_call4.v15 select ]

theorem opsI7_sub : (opsI7 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..⟩

/-- Every operation of window I7 determines its results. -/
theorem opsI7_fresh : (opsI7 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl⟩

/-- The buffers window I7 writes, in order: one per operation. -/
abbrev wrI7 : List (Ref sig .tc) :=
  [main_call4_c, main_call4_v0, main_call4_v1, main_call4_c_0, main_call4_v2, main_call4_v3, main_call4_v4, main_call4_v5,
    main_call4_c_1, main_call4_c_2, main_call4_v6, main_call4_v7, main_call4_v8, main_call4_v9, main_call4_v10, main_call4_v11,
    main_call4_c_3, main_call4_v12, main_call4_v13, main_call4_c_4, main_call4_v14, main_v23]

theorem opsI7_writes : (opsI7 : List (HloOp τ sig (Elt F))).Forall fun op =>
    op.writes ⊆ (wrI7.map (Proc.devRef (τ := τ) .tc)).toFinset :=
  ⟨writes_sub_of_mem (y := main_call4_c) (by decide), writes_sub_of_mem (y := main_call4_v0) (by decide),
    writes_sub_of_mem (y := main_call4_v1) (by decide), writes_sub_of_mem (y := main_call4_c_0) (by decide),
    writes_sub_of_mem (y := main_call4_v2) (by decide), writes_sub_of_mem (y := main_call4_v3) (by decide),
    writes_sub_of_mem (y := main_call4_v4) (by decide), writes_sub_of_mem (y := main_call4_v5) (by decide),
    writes_sub_of_mem (y := main_call4_c_1) (by decide), writes_sub_of_mem (y := main_call4_c_2) (by decide),
    writes_sub_of_mem (y := main_call4_v6) (by decide), writes_sub_of_mem (y := main_call4_v7) (by decide),
    writes_sub_of_mem (y := main_call4_v8) (by decide), writes_sub_of_mem (y := main_call4_v9) (by decide),
    writes_sub_of_mem (y := main_call4_v10) (by decide), writes_sub_of_mem (y := main_call4_v11) (by decide),
    writes_sub_of_mem (y := main_call4_c_3) (by decide), writes_sub_of_mem (y := main_call4_v12) (by decide),
    writes_sub_of_mem (y := main_call4_v13) (by decide), writes_sub_of_mem (y := main_call4_c_4) (by decide),
    writes_sub_of_mem (y := main_call4_v14) (by decide), writes_sub_of_mem (y := main_v23) (by decide)⟩

/-- Window C (11 operations) — segment mean: scatter-add of x_raw_sub by segment id, divided by max(lens, 1) (ends at main_v32). Calls are inlined: a callee's operations stand at the
    call site over that call's buffer record. -/
abbrev opsC : List (HloOp τ sig (Elt F)) :=
  [
    StableHlo.nullary main_cst_6 (constant S_ .f32 0x00000000#32),
    StableHlo.unary main_cst_6 main_v24 (broadcastInDim S8192x128 ![] bcast_S_S8192x128 : (⟨S_, .f32⟩ : BufTy).Contents (Elt F) → (⟨S8192x128, .f32⟩ : BufTy).Contents (Elt F)),
    StableHlo.unary main_v23 main_v25 (broadcastInDim S262144x1 ![0] bcast_S262144_S262144x1_0 : (⟨S262144, .i32⟩ : BufTy).Contents (Elt F) → (⟨S262144x1, .i32⟩ : BufTy).Contents (Elt F)),
    StableHlo.ternary main_v24 main_v25 main_v5 main_v26 ((fun x i u => Host.scatterAdd scatter_S8192x128_S262144x1_S262144x128_1_0_0_1 x i u) : (⟨S8192x128, .f32⟩ : BufTy).Contents (Elt F) → (⟨S262144x1, .i32⟩ : BufTy).Contents (Elt F) → (⟨S262144x128, .f32⟩ : BufTy).Contents (Elt F) → (⟨S8192x128, .f32⟩ : BufTy).Contents (Elt F)),
    StableHlo.nullary main_c_7 (constantI S_ 32 1#32),
    StableHlo.unary main_c_7 main_v27 (broadcastInDim S8192 ![] bcast_S_S8192 : (⟨S_, .i32⟩ : BufTy).Contents (Elt F) → (⟨S8192, .i32⟩ : BufTy).Contents (Elt F)),
    StableHlo.binary main_arg4 main_v27 main_v28 (maxsi : (⟨S8192, .i32⟩ : BufTy).Contents (Elt F) → (⟨S8192, .i32⟩ : BufTy).Contents (Elt F) → (⟨S8192, .i32⟩ : BufTy).Contents (Elt F)),
    StableHlo.unary main_v28 main_v29 (broadcastInDim S8192x1 ![0] bcast_S8192_S8192x1_0 : (⟨S8192, .i32⟩ : BufTy).Contents (Elt F) → (⟨S8192x1, .i32⟩ : BufTy).Contents (Elt F)),
    StableHlo.unary main_v29 main_v30 (sitofp .f32 : (⟨S8192x1, .i32⟩ : BufTy).Contents (Elt F) → (⟨S8192x1, .f32⟩ : BufTy).Contents (Elt F)),
    StableHlo.unary main_v30 main_v31 (broadcastInDim S8192x128 ![0, 1] bcast_S8192x1_S8192x128_0_1 : (⟨S8192x1, .f32⟩ : BufTy).Contents (Elt F) → (⟨S8192x128, .f32⟩ : BufTy).Contents (Elt F)),
    StableHlo.binary main_v26 main_v31 main_v32 (Host.divf : (⟨S8192x128, .f32⟩ : BufTy).Contents (Elt F) → (⟨S8192x128, .f32⟩ : BufTy).Contents (Elt F) → (⟨S8192x128, .f32⟩ : BufTy).Contents (Elt F)) ]

theorem opsC_sub : (opsC : List (HloOp τ sig (Elt F))).Forall fun op => op.bufs ⊆ tcRefs τ sig :=
  ⟨nullary_bufs_sub .., unary_bufs_sub .., unary_bufs_sub .., ternary_bufs_sub .., nullary_bufs_sub .., unary_bufs_sub ..,
    binary_bufs_sub .., unary_bufs_sub .., unary_bufs_sub .., unary_bufs_sub .., binary_bufs_sub ..⟩

/-- Every operation of window C determines its results. -/
theorem opsC_fresh : (opsC : List (HloOp τ sig (Elt F))).Forall fun op => op.fresh = ∅ :=
  ⟨rfl, rfl, rfl, rfl, rfl, rfl, rfl, rfl, rfl, rfl, rfl⟩

/-- The buffers window C writes, in order: one per operation. -/
abbrev wrC : List (Ref sig .tc) :=
  [main_cst_6, main_v24, main_v25, main_v26, main_c_7, main_v27, main_v28, main_v29,
    main_v30, main_v31, main_v32]

theorem opsC_writes : (opsC : List (HloOp τ sig (Elt F))).Forall fun op =>
    op.writes ⊆ (wrC.map (Proc.devRef (τ := τ) .tc)).toFinset :=
  ⟨writes_sub_of_mem (y := main_cst_6) (by decide), writes_sub_of_mem (y := main_v24) (by decide),
    writes_sub_of_mem (y := main_v25) (by decide), writes_sub_of_mem (y := main_v26) (by decide),
    writes_sub_of_mem (y := main_c_7) (by decide), writes_sub_of_mem (y := main_v27) (by decide),
    writes_sub_of_mem (y := main_v28) (by decide), writes_sub_of_mem (y := main_v29) (by decide),
    writes_sub_of_mem (y := main_v30) (by decide), writes_sub_of_mem (y := main_v31) (by decide),
    writes_sub_of_mem (y := main_v32) (by decide)⟩

/-- Window D1 (17 operations) — layer norm of the segment mean, first half: mean, centred value, variance (ends at main_v45; main_v43 is the variance). Calls are inlined: a callee's operations stand at the
    call site over that call's buffer record. -/
abbrev opsD1 : List (HloOp τ sig (Elt F)) :=
  [
    StableHlo.nullary main_cst_8 (constant S_ .f32 0x00000000#32),
    StableHlo.binary main_v32 main_cst_8 main_v33 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    StableHlo.unary main_v33 main_v34 (broadcastInDim S8192x1 ![0] bcast_S8192_S8192x1_0 : (⟨S8192, .f32⟩ : BufTy).Contents (Elt F) → (⟨S8192x1, .f32⟩ : BufTy).Contents (Elt F)),
    StableHlo.nullary main_cst_9 (constant S_ .f32 0x43000000#32),
    StableHlo.unary main_cst_9 main_v35 (broadcastInDim S8192x1 ![] bcast_S_S8192x1 : (⟨S_, .f32⟩ : BufTy).Contents (Elt F) → (⟨S8192x1, .f32⟩ : BufTy).Contents (Elt F)),
    StableHlo.binary main_v34 main_v35 main_v36 (Host.divf : (⟨S8192x1, .f32⟩ : BufTy).Contents (Elt F) → (⟨S8192x1, .f32⟩ : BufTy).Contents (Elt F) → (⟨S8192x1, .f32⟩ : BufTy).Contents (Elt F)),
    StableHlo.unary main_v36 main_v37 (broadcastInDim S8192x128 ![0, 1] bcast_S8192x1_S8192x128_0_1 : (⟨S8192x1, .f32⟩ : BufTy).Contents (Elt F) → (⟨S8192x128, .f32⟩ : BufTy).Contents (Elt F)),
    StableHlo.binary main_v32 main_v37 main_v38 (subf : (⟨S8192x128, .f32⟩ : BufTy).Contents (Elt F) → (⟨S8192x128, .f32⟩ : BufTy).Contents (Elt F) → (⟨S8192x128, .f32⟩ : BufTy).Contents (Elt F)),
    StableHlo.binary main_v38 main_v38 main_v39 (mulf : (⟨S8192x128, .f32⟩ : BufTy).Contents (Elt F) → (⟨S8192x128, .f32⟩ : BufTy).Contents (Elt F) → (⟨S8192x128, .f32⟩ : BufTy).Contents (Elt F)),
    StableHlo.nullary main_cst_10 (constant S_ .f32 0x00000000#32),
    StableHlo.binary main_v39 main_cst_10 main_v40 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    StableHlo.unary main_v40 main_v41 (broadcastInDim S8192x1 ![0] bcast_S8192_S8192x1_0 : (⟨S8192, .f32⟩ : BufTy).Contents (Elt F) → (⟨S8192x1, .f32⟩ : BufTy).Contents (Elt F)),
    StableHlo.nullary main_cst_11 (constant S_ .f32 0x43000000#32),
    StableHlo.unary main_cst_11 main_v42 (broadcastInDim S8192x1 ![] bcast_S_S8192x1 : (⟨S_, .f32⟩ : BufTy).Contents (Elt F) → (⟨S8192x1, .f32⟩ : BufTy).Contents (Elt F)),
    StableHlo.binary main_v41 main_v42 main_v43 (Host.divf : (⟨S8192x1, .f32⟩ : BufTy).Contents (Elt F) → (⟨S8192x1, .f32⟩ : BufTy).Contents (Elt F) → (⟨S8192x1, .f32⟩ : BufTy).Contents (Elt F)),
    StableHlo.unary main_v36 main_v44 (broadcastInDim S8192x128 ![0, 1] bcast_S8192x1_S8192x128_0_1 : (⟨S8192x1, .f32⟩ : BufTy).Contents (Elt F) → (⟨S8192x128, .f32⟩ : BufTy).Contents (Elt F)),
    StableHlo.binary main_v32 main_v44 main_v45 (subf : (⟨S8192x128, .f32⟩ : BufTy).Contents (Elt F) → (⟨S8192x128, .f32⟩ : BufTy).Contents (Elt F) → (⟨S8192x128, .f32⟩ : BufTy).Contents (Elt F)) ]

theorem opsD1_sub : (opsD1 : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub .., unary_bufs_sub ..,
    nullary_bufs_sub .., unary_bufs_sub .., binary_bufs_sub .., unary_bufs_sub .., binary_bufs_sub ..⟩

/-- Every operation of window D1 determines its results. -/
theorem opsD1_fresh : (opsD1 : List (HloOp τ sig (Elt F))).Forall fun op => op.fresh = ∅ :=
  ⟨rfl, rfl, rfl, rfl, rfl, rfl, rfl, rfl, rfl, rfl, rfl, rfl, rfl, rfl, rfl, rfl, rfl⟩

/-- The buffers window D1 writes, in order: one per operation. -/
abbrev wrD1 : List (Ref sig .tc) :=
  [main_cst_8, main_v33, main_v34, main_cst_9, main_v35, main_v36, main_v37, main_v38,
    main_v39, main_cst_10, main_v40, main_v41, main_cst_11, main_v42, main_v43, main_v44,
    main_v45]

theorem opsD1_writes : (opsD1 : List (HloOp τ sig (Elt F))).Forall fun op =>
    op.writes ⊆ (wrD1.map (Proc.devRef (τ := τ) .tc)).toFinset :=
  ⟨writes_sub_of_mem (y := main_cst_8) (by decide), writes_sub_of_mem (y := main_v33) (by decide),
    writes_sub_of_mem (y := main_v34) (by decide), writes_sub_of_mem (y := main_cst_9) (by decide),
    writes_sub_of_mem (y := main_v35) (by decide), writes_sub_of_mem (y := main_v36) (by decide),
    writes_sub_of_mem (y := main_v37) (by decide), writes_sub_of_mem (y := main_v38) (by decide),
    writes_sub_of_mem (y := main_v39) (by decide), writes_sub_of_mem (y := main_cst_10) (by decide),
    writes_sub_of_mem (y := main_v40) (by decide), writes_sub_of_mem (y := main_v41) (by decide),
    writes_sub_of_mem (y := main_cst_11) (by decide), writes_sub_of_mem (y := main_v42) (by decide),
    writes_sub_of_mem (y := main_v43) (by decide), writes_sub_of_mem (y := main_v44) (by decide),
    writes_sub_of_mem (y := main_v45) (by decide)⟩

end Cert.ReferenceIdeal.RefRun

end
-- ==== Proof.RefOps1.lean ====
/-
  The reference's run, by hand: the operations of @main's second printed part (main_part1),
  cut in windows D2, E1, E1c, E2, F1: at the boundaries of the computation's stages and at EVERY call boundary (one
  window per outlined call, one per straight-line run between calls). For each window: the list of its
  operations in program order (each `hlo` statement contributes its operation; each call contributes its
  callee's operations, over that call's buffers), that every operation touches TensorCore references only and
  determines its results, and the list of buffers the window writes.
-/
import proofs.«145994_j34600256537163_1_alg».proof.Proof.RefBase

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- Window D2 (12 operations) — layer norm of the segment mean, second half: rsqrt, scale and shift (ends at main_v56, sub_norm). Calls are inlined: a callee's operations stand at the
    call site over that call's buffer record. -/
abbrev opsD2 : List (HloOp τ sig (Elt F)) :=
  [
    StableHlo.nullary main_cst_12 (constant S_ .f32 0x3727C5AC#32),
    StableHlo.unary main_cst_12 main_v46 (broadcastInDim S8192x1 ![] bcast_S_S8192x1 : (⟨S_, .f32⟩ : BufTy).Contents (Elt F) → (⟨S8192x1, .f32⟩ : BufTy).Contents (Elt F)),
    StableHlo.binary main_v43 main_v46 main_v47 (addf : (⟨S8192x1, .f32⟩ : BufTy).Contents (Elt F) → (⟨S8192x1, .f32⟩ : BufTy).Contents (Elt F) → (⟨S8192x1, .f32⟩ : BufTy).Contents (Elt F)),
    StableHlo.unary main_v47 main_v48 (Host.rsqrt : (⟨S8192x1, .f32⟩ : BufTy).Contents (Elt F) → (⟨S8192x1, .f32⟩ : BufTy).Contents (Elt F)),
    StableHlo.unary main_v48 main_v49 (broadcastInDim S8192x128 ![0, 1] bcast_S8192x1_S8192x128_0_1 : (⟨S8192x1, .f32⟩ : BufTy).Contents (Elt F) → (⟨S8192x128, .f32⟩ : BufTy).Contents (Elt F)),
    StableHlo.binary main_v45 main_v49 main_v50 (mulf : (⟨S8192x128, .f32⟩ : BufTy).Contents (Elt F) → (⟨S8192x128, .f32⟩ : BufTy).Contents (Elt F) → (⟨S8192x128, .f32⟩ : BufTy).Contents (Elt F)),
    StableHlo.unary main_arg7 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S8192x128 ![0, 1] bcast_S1x128_S8192x128_0_1 : (⟨S1x128, .f32⟩ : BufTy).Contents (Elt F) → (⟨S8192x128, .f32⟩ : BufTy).Contents (Elt F)),
    StableHlo.binary main_v50 main_v52 main_v53 (mulf : (⟨S8192x128, .f32⟩ : BufTy).Contents (Elt F) → (⟨S8192x128, .f32⟩ : BufTy).Contents (Elt F) → (⟨S8192x128, .f32⟩ : BufTy).Contents (Elt F)),
    StableHlo.unary main_arg8 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S8192x128 ![0, 1] bcast_S1x128_S8192x128_0_1 : (⟨S1x128, .f32⟩ : BufTy).Contents (Elt F) → (⟨S8192x128, .f32⟩ : BufTy).Contents (Elt F)),
    StableHlo.binary main_v53 main_v55 main_v56 (addf : (⟨S8192x128, .f32⟩ : BufTy).Contents (Elt F) → (⟨S8192x128, .f32⟩ : BufTy).Contents (Elt F) → (⟨S8192x128, .f32⟩ : BufTy).Contents (Elt F)) ]

theorem opsD2_sub : (opsD2 : List (HloOp τ sig (Elt F))).Forall fun op => op.bufs ⊆ tcRefs τ sig :=
  ⟨nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..⟩

/-- Every operation of window D2 determines its results. -/
theorem opsD2_fresh : (opsD2 : List (HloOp τ sig (Elt F))).Forall fun op => op.fresh = ∅ :=
  ⟨rfl, rfl, rfl, rfl, rfl, rfl, rfl, rfl, rfl, rfl, rfl, rfl⟩

/-- The buffers window D2 writes, in order: one per operation. -/
abbrev wrD2 : List (Ref sig .tc) :=
  [main_cst_12, main_v46, main_v47, main_v48, main_v49, main_v50, main_v51, main_v52,
    main_v53, main_v54, main_v55, main_v56]

theorem opsD2_writes : (opsD2 : List (HloOp τ sig (Elt F))).Forall fun op =>
    op.writes ⊆ (wrD2.map (Proc.devRef (τ := τ) .tc)).toFinset :=
  ⟨writes_sub_of_mem (y := main_cst_12) (by decide), writes_sub_of_mem (y := main_v46) (by decide),
    writes_sub_of_mem (y := main_v47) (by decide), writes_sub_of_mem (y := main_v48) (by decide),
    writes_sub_of_mem (y := main_v49) (by decide), writes_sub_of_mem (y := main_v50) (by decide),
    writes_sub_of_mem (y := main_v51) (by decide), writes_sub_of_mem (y := main_v52) (by decide),
    writes_sub_of_mem (y := main_v53) (by decide), writes_sub_of_mem (y := main_v54) (by decide),
    writes_sub_of_mem (y := main_v55) (by decide), writes_sub_of_mem (y := main_v56) (by decide)⟩

/-- Window E1 (9 operations) — root input before its activation: scatter-set of sub_norm into root_feats, concatenate the mask, one dot_general, bias (main_v63), and the slope constant (main_cst_14). Calls are inlined: a callee's operations stand at the
    call site over that call's buffer record. -/
abbrev opsE1 : List (HloOp τ sig (Elt F)) :=
  [
    StableHlo.nullary main_c_13 (constantI S_ 32 64#32),
    StableHlo.unary main_c_13 main_v57 (broadcastInDim S1 ![] bcast_S_S1 : (⟨S_, .i32⟩ : BufTy).Contents (Elt F) → (⟨S1, .i32⟩ : BufTy).Contents (Elt F)),
    StableHlo.ternary main_arg0 main_v57 main_v56 main_v58 ((fun x i u => Host.scatter scatter_S8192x192_S1_S8192x128_01_n_1_0 (fun _ b => b) x i u) : (⟨S8192x192, .f32⟩ : BufTy).Contents (Elt F) → (⟨S1, .i32⟩ : BufTy).Contents (Elt F) → (⟨S8192x128, .f32⟩ : BufTy).Contents (Elt F) → (⟨S8192x192, .f32⟩ : BufTy).Contents (Elt F)),
    StableHlo.binary main_v58 main_arg1 main_v59 ((fun a b => concatenate S8192x194 1 [⟨S8192x192, a⟩, ⟨S8192x2, b⟩] concatenates_S8192x192_S8192x2_S8192x194_d1) : (⟨S8192x192, .f32⟩ : BufTy).Contents (Elt F) → (⟨S8192x2, .f32⟩ : BufTy).Contents (Elt F) → (⟨S8192x194, .f32⟩ : BufTy).Contents (Elt F)),
    StableHlo.binary main_v59 main_arg9 main_v60 ((fun l r => Host.dotGeneral dot_S8192x194_S194x128_S8192x128_1_0_0_1_n_n none l r) : (⟨S8192x194, .f32⟩ : BufTy).Contents (Elt F) → (⟨S194x128, .f32⟩ : BufTy).Contents (Elt F) → (⟨S8192x128, .f32⟩ : BufTy).Contents (Elt F)),
    StableHlo.unary main_arg10 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S8192x128 ![0, 1] bcast_S1x128_S8192x128_0_1 : (⟨S1x128, .f32⟩ : BufTy).Contents (Elt F) → (⟨S8192x128, .f32⟩ : BufTy).Contents (Elt F)),
    StableHlo.binary main_v60 main_v62 main_v63 (addf : (⟨S8192x128, .f32⟩ : BufTy).Contents (Elt F) → (⟨S8192x128, .f32⟩ : BufTy).Contents (Elt F) → (⟨S8192x128, .f32⟩ : BufTy).Contents (Elt F)),
    StableHlo.nullary main_cst_14 (constant S_ .f32 0x3C23D70A#32) ]

theorem opsE1_sub : (opsE1 : List (HloOp τ sig (Elt F))).Forall fun op => op.bufs ⊆ tcRefs τ sig :=
  ⟨nullary_bufs_sub .., unary_bufs_sub .., ternary_bufs_sub .., binary_bufs_sub .., binary_bufs_sub .., unary_bufs_sub ..,
    unary_bufs_sub .., binary_bufs_sub .., nullary_bufs_sub ..⟩

/-- Every operation of window E1 determines its results. -/
theorem opsE1_fresh : (opsE1 : List (HloOp τ sig (Elt F))).Forall fun op => op.fresh = ∅ :=
  ⟨rfl, rfl, rfl, rfl, rfl, rfl, rfl, rfl, rfl⟩

/-- The buffers window E1 writes, in order: one per operation. -/
abbrev wrE1 : List (Ref sig .tc) :=
  [main_c_13, main_v57, main_v58, main_v59, main_v60, main_v61, main_v62, main_v63,
    main_cst_14]

theorem opsE1_writes : (opsE1 : List (HloOp τ sig (Elt F))).Forall fun op =>
    op.writes ⊆ (wrE1.map (Proc.devRef (τ := τ) .tc)).toFinset :=
  ⟨writes_sub_of_mem (y := main_c_13) (by decide), writes_sub_of_mem (y := main_v57) (by decide),
    writes_sub_of_mem (y := main_v58) (by decide), writes_sub_of_mem (y := main_v59) (by decide),
    writes_sub_of_mem (y := main_v60) (by decide), writes_sub_of_mem (y := main_v61) (by decide),
    writes_sub_of_mem (y := main_v62) (by decide), writes_sub_of_mem (y := main_v63) (by decide),
    writes_sub_of_mem (y := main_cst_14) (by decide)⟩

/-- Window E1c (7 operations) — the call of @leaky_relu_4 (through @_where_5) on main_v63 (ends at main_v64). Calls are inlined: a callee's operations stand at the
    call site over that call's buffer record. -/
abbrev opsE1c : List (HloOp τ sig (Elt F)) :=
  [
    StableHlo.TRef.nullary main_call5.cst (constant S_ .f32 0x00000000#32),
    StableHlo.TRef.unary main_call5.cst main_call5.v0 (broadcastInDim S8192x128 ![] bcast_S_S8192x128),
    StableHlo.TRef.binary (.of main_v63 : StableHlo.TRef sig ⟨S8192x128, .f32⟩) main_call5.v0 main_call5.v1 (cmpf .oge),
    StableHlo.TRef.unary (.of main_cst_14 : StableHlo.TRef sig ⟨S_, .f32⟩) main_call5.v2 id,
    StableHlo.TRef.unary main_call5.v2 main_call5.v3 (broadcastInDim S8192x128 ![] bcast_S_S8192x128),
    StableHlo.TRef.binary main_call5.v3 (.of main_v63 : StableHlo.TRef sig ⟨S8192x128, .f32⟩) main_call5.v4 mulf,
    StableHlo.TRef.ternary main_call5.v1 (.of main_v63 : StableHlo.TRef sig ⟨S8192x128, .f32⟩) main_call5.v4 main_call5.call0.v0 select ]

theorem opsE1c_sub : (opsE1c : List (HloOp τ sig (Elt F))).Forall fun op => op.bufs ⊆ tcRefs τ sig :=
  ⟨nullary_bufs_sub .., unary_bufs_sub .., binary_bufs_sub .., unary_bufs_sub .., unary_bufs_sub .., binary_bufs_sub ..,
    ternary_bufs_sub ..⟩

/-- Every operation of window E1c determines its results. -/
theorem opsE1c_fresh : (opsE1c : List (HloOp τ sig (Elt F))).Forall fun op => op.fresh = ∅ :=
  ⟨rfl, rfl, rfl, rfl, rfl, rfl, rfl⟩

/-- The buffers window E1c writes, in order: one per operation. -/
abbrev wrE1c : List (Ref sig .tc) :=
  [main_call5_cst, main_call5_v0, main_call5_v1, main_call5_v2, main_call5_v3, main_call5_v4, main_v64]

theorem opsE1c_writes : (opsE1c : List (HloOp τ sig (Elt F))).Forall fun op =>
    op.writes ⊆ (wrE1c.map (Proc.devRef (τ := τ) .tc)).toFinset :=
  ⟨writes_sub_of_mem (y := main_call5_cst) (by decide), writes_sub_of_mem (y := main_call5_v0) (by decide),
    writes_sub_of_mem (y := main_call5_v1) (by decide), writes_sub_of_mem (y := main_call5_v2) (by decide),
    writes_sub_of_mem (y := main_call5_v3) (by decide), writes_sub_of_mem (y := main_call5_v4) (by decide),
    writes_sub_of_mem (y := main_v64) (by decide)⟩

/-- Window E2 (29 operations) — layer norm of the root input (ends at main_v88, x_root). Calls are inlined: a callee's operations stand at the
    call site over that call's buffer record. -/
abbrev opsE2 : List (HloOp τ sig (Elt F)) :=
  [
    StableHlo.nullary main_cst_15 (constant S_ .f32 0x00000000#32),
    StableHlo.binary main_v64 main_cst_15 main_v65 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    StableHlo.unary main_v65 main_v66 (broadcastInDim S8192x1 ![0] bcast_S8192_S8192x1_0 : (⟨S8192, .f32⟩ : BufTy).Contents (Elt F) → (⟨S8192x1, .f32⟩ : BufTy).Contents (Elt F)),
    StableHlo.nullary main_cst_16 (constant S_ .f32 0x43000000#32),
    StableHlo.unary main_cst_16 main_v67 (broadcastInDim S8192x1 ![] bcast_S_S8192x1 : (⟨S_, .f32⟩ : BufTy).Contents (Elt F) → (⟨S8192x1, .f32⟩ : BufTy).Contents (Elt F)),
    StableHlo.binary main_v66 main_v67 main_v68 (Host.divf : (⟨S8192x1, .f32⟩ : BufTy).Contents (Elt F) → (⟨S8192x1, .f32⟩ : BufTy).Contents (Elt F) → (⟨S8192x1, .f32⟩ : BufTy).Contents (Elt F)),
    StableHlo.unary main_v68 main_v69 (broadcastInDim S8192x128 ![0, 1] bcast_S8192x1_S8192x128_0_1 : (⟨S8192x1, .f32⟩ : BufTy).Contents (Elt F) → (⟨S8192x128, .f32⟩ : BufTy).Contents (Elt F)),
    StableHlo.binary main_v64 main_v69 main_v70 (subf : (⟨S8192x128, .f32⟩ : BufTy).Contents (Elt F) → (⟨S8192x128, .f32⟩ : BufTy).Contents (Elt F) → (⟨S8192x128, .f32⟩ : BufTy).Contents (Elt F)),
    StableHlo.binary main_v70 main_v70 main_v71 (mulf : (⟨S8192x128, .f32⟩ : BufTy).Contents (Elt F) → (⟨S8192x128, .f32⟩ : BufTy).Contents (Elt F) → (⟨S8192x128, .f32⟩ : BufTy).Contents (Elt F)),
    StableHlo.nullary main_cst_17 (constant S_ .f32 0x00000000#32),
    StableHlo.binary main_v71 main_cst_17 main_v72 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    StableHlo.unary main_v72 main_v73 (broadcastInDim S8192x1 ![0] bcast_S8192_S8192x1_0 : (⟨S8192, .f32⟩ : BufTy).Contents (Elt F) → (⟨S8192x1, .f32⟩ : BufTy).Contents (Elt F)),
    StableHlo.nullary main_cst_18 (constant S_ .f32 0x43000000#32),
    StableHlo.unary main_cst_18 main_v74 (broadcastInDim S8192x1 ![] bcast_S_S8192x1 : (⟨S_, .f32⟩ : BufTy).Contents (Elt F) → (⟨S8192x1, .f32⟩ : BufTy).Contents (Elt F)),
    StableHlo.binary main_v73 main_v74 main_v75 (Host.divf : (⟨S8192x1, .f32⟩ : BufTy).Contents (Elt F) → (⟨S8192x1, .f32⟩ : BufTy).Contents (Elt F) → (⟨S8192x1, .f32⟩ : BufTy).Contents (Elt F)),
    StableHlo.unary main_v68 main_v76 (broadcastInDim S8192x128 ![0, 1] bcast_S8192x1_S8192x128_0_1 : (⟨S8192x1, .f32⟩ : BufTy).Contents (Elt F) → (⟨S8192x128, .f32⟩ : BufTy).Contents (Elt F)),
    StableHlo.binary main_v64 main_v76 main_v77 (subf : (⟨S8192x128, .f32⟩ : BufTy).Contents (Elt F) → (⟨S8192x128, .f32⟩ : BufTy).Contents (Elt F) → (⟨S8192x128, .f32⟩ : BufTy).Contents (Elt F)),
    StableHlo.nullary main_cst_19 (constant S_ .f32 0x3727C5AC#32),
    StableHlo.unary main_cst_19 main_v78 (broadcastInDim S8192x1 ![] bcast_S_S8192x1 : (⟨S_, .f32⟩ : BufTy).Contents (Elt F) → (⟨S8192x1, .f32⟩ : BufTy).Contents (Elt F)),
    StableHlo.binary main_v75 main_v78 main_v79 (addf : (⟨S8192x1, .f32⟩ : BufTy).Contents (Elt F) → (⟨S8192x1, .f32⟩ : BufTy).Contents (Elt F) → (⟨S8192x1, .f32⟩ : BufTy).Contents (Elt F)),
    StableHlo.unary main_v79 main_v80 (Host.rsqrt : (⟨S8192x1, .f32⟩ : BufTy).Contents (Elt F) → (⟨S8192x1, .f32⟩ : BufTy).Contents (Elt F)),
    StableHlo.unary main_v80 main_v81 (broadcastInDim S8192x128 ![0, 1] bcast_S8192x1_S8192x128_0_1 : (⟨S8192x1, .f32⟩ : BufTy).Contents (Elt F) → (⟨S8192x128, .f32⟩ : BufTy).Contents (Elt F)),
    StableHlo.binary main_v77 main_v81 main_v82 (mulf : (⟨S8192x128, .f32⟩ : BufTy).Contents (Elt F) → (⟨S8192x128, .f32⟩ : BufTy).Contents (Elt F) → (⟨S8192x128, .f32⟩ : BufTy).Contents (Elt F)),
    StableHlo.unary main_arg11 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S8192x128 ![0, 1] bcast_S1x128_S8192x128_0_1 : (⟨S1x128, .f32⟩ : BufTy).Contents (Elt F) → (⟨S8192x128, .f32⟩ : BufTy).Contents (Elt F)),
    StableHlo.binary main_v82 main_v84 main_v85 (mulf : (⟨S8192x128, .f32⟩ : BufTy).Contents (Elt F) → (⟨S8192x128, .f32⟩ : BufTy).Contents (Elt F) → (⟨S8192x128, .f32⟩ : BufTy).Contents (Elt F)),
    StableHlo.unary main_arg12 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S8192x128 ![0, 1] bcast_S1x128_S8192x128_0_1 : (⟨S1x128, .f32⟩ : BufTy).Contents (Elt F) → (⟨S8192x128, .f32⟩ : BufTy).Contents (Elt F)),
    StableHlo.binary main_v85 main_v87 main_v88 (addf : (⟨S8192x128, .f32⟩ : BufTy).Contents (Elt F) → (⟨S8192x128, .f32⟩ : BufTy).Contents (Elt F) → (⟨S8192x128, .f32⟩ : BufTy).Contents (Elt F)) ]

theorem opsE2_sub : (opsE2 : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub .., unary_bufs_sub ..,
    nullary_bufs_sub .., unary_bufs_sub .., binary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub ..⟩

/-- Every operation of window E2 determines its results. -/
theorem opsE2_fresh : (opsE2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl⟩

/-- The buffers window E2 writes, in order: one per operation. -/
abbrev wrE2 : List (Ref sig .tc) :=
  [main_cst_15, main_v65, main_v66, main_cst_16, main_v67, main_v68, main_v69, main_v70,
    main_v71, main_cst_17, main_v72, main_v73, main_cst_18, main_v74, main_v75, main_v76,
    main_v77, main_cst_19, main_v78, main_v79, main_v80, main_v81, main_v82, main_v83,
    main_v84, main_v85, main_v86, main_v87, main_v88]

theorem opsE2_writes : (opsE2 : List (HloOp τ sig (Elt F))).Forall fun op =>
    op.writes ⊆ (wrE2.map (Proc.devRef (τ := τ) .tc)).toFinset :=
  ⟨writes_sub_of_mem (y := main_cst_15) (by decide), writes_sub_of_mem (y := main_v65) (by decide),
    writes_sub_of_mem (y := main_v66) (by decide), writes_sub_of_mem (y := main_cst_16) (by decide),
    writes_sub_of_mem (y := main_v67) (by decide), writes_sub_of_mem (y := main_v68) (by decide),
    writes_sub_of_mem (y := main_v69) (by decide), writes_sub_of_mem (y := main_v70) (by decide),
    writes_sub_of_mem (y := main_v71) (by decide), writes_sub_of_mem (y := main_cst_17) (by decide),
    writes_sub_of_mem (y := main_v72) (by decide), writes_sub_of_mem (y := main_v73) (by decide),
    writes_sub_of_mem (y := main_cst_18) (by decide), writes_sub_of_mem (y := main_v74) (by decide),
    writes_sub_of_mem (y := main_v75) (by decide), writes_sub_of_mem (y := main_v76) (by decide),
    writes_sub_of_mem (y := main_v77) (by decide), writes_sub_of_mem (y := main_cst_19) (by decide),
    writes_sub_of_mem (y := main_v78) (by decide), writes_sub_of_mem (y := main_v79) (by decide),
    writes_sub_of_mem (y := main_v80) (by decide), writes_sub_of_mem (y := main_v81) (by decide),
    writes_sub_of_mem (y := main_v82) (by decide), writes_sub_of_mem (y := main_v83) (by decide),
    writes_sub_of_mem (y := main_v84) (by decide), writes_sub_of_mem (y := main_v85) (by decide),
    writes_sub_of_mem (y := main_v86) (by decide), writes_sub_of_mem (y := main_v87) (by decide),
    writes_sub_of_mem (y := main_v88) (by decide)⟩

/-- Window F1 (9 operations) — the heads o_v (main_v92) and o_cls_p (main_v96), and the first dot_general of of_x (ends at main_v97). Calls are inlined: a callee's operations stand at the
    call site over that call's buffer record. -/
abbrev opsF1 : List (HloOp τ sig (Elt F)) :=
  [
    StableHlo.binary main_v88 main_arg13 main_v89 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    StableHlo.unary main_arg14 main_v90 (broadcastInDim S1x1 ![1] bcast_S1_S1x1_1 : (⟨S1, .f32⟩ : BufTy).Contents (Elt F) → (⟨S1x1, .f32⟩ : BufTy).Contents (Elt F)),
    StableHlo.unary main_v90 main_v91 (broadcastInDim S8192x1 ![0, 1] bcast_S1x1_S8192x1_0_1 : (⟨S1x1, .f32⟩ : BufTy).Contents (Elt F) → (⟨S8192x1, .f32⟩ : BufTy).Contents (Elt F)),
    StableHlo.binary main_v89 main_v91 main_v92 (addf : (⟨S8192x1, .f32⟩ : BufTy).Contents (Elt F) → (⟨S8192x1, .f32⟩ : BufTy).Contents (Elt F) → (⟨S8192x1, .f32⟩ : BufTy).Contents (Elt F)),
    StableHlo.binary main_v88 main_arg15 main_v93 ((fun l r => Host.dotGeneral dot_S8192x128_S128x10_S8192x10_1_0_0_1_n_n none l r) : (⟨S8192x128, .f32⟩ : BufTy).Contents (Elt F) → (⟨S128x10, .f32⟩ : BufTy).Contents (Elt F) → (⟨S8192x10, .f32⟩ : BufTy).Contents (Elt F)),
    StableHlo.unary main_arg16 main_v94 (broadcastInDim S1x10 ![1] bcast_S10_S1x10_1 : (⟨S10, .f32⟩ : BufTy).Contents (Elt F) → (⟨S1x10, .f32⟩ : BufTy).Contents (Elt F)),
    StableHlo.unary main_v94 main_v95 (broadcastInDim S8192x10 ![0, 1] bcast_S1x10_S8192x10_0_1 : (⟨S1x10, .f32⟩ : BufTy).Contents (Elt F) → (⟨S8192x10, .f32⟩ : BufTy).Contents (Elt F)),
    StableHlo.binary main_v93 main_v95 main_v96 (addf : (⟨S8192x10, .f32⟩ : BufTy).Contents (Elt F) → (⟨S8192x10, .f32⟩ : BufTy).Contents (Elt F) → (⟨S8192x10, .f32⟩ : BufTy).Contents (Elt F)),
    StableHlo.binary main_v88 main_arg17 main_v97 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)) ]

theorem opsF1_sub : (opsF1 : List (HloOp τ sig (Elt F))).Forall fun op => op.bufs ⊆ tcRefs τ sig :=
  ⟨binary_bufs_sub .., unary_bufs_sub .., unary_bufs_sub .., binary_bufs_sub .., binary_bufs_sub .., unary_bufs_sub ..,
    unary_bufs_sub .., binary_bufs_sub .., binary_bufs_sub ..⟩

/-- Every operation of window F1 determines its results. -/
theorem opsF1_fresh : (opsF1 : List (HloOp τ sig (Elt F))).Forall fun op => op.fresh = ∅ :=
  ⟨rfl, rfl, rfl, rfl, rfl, rfl, rfl, rfl, rfl⟩

/-- The buffers window F1 writes, in order: one per operation. -/
abbrev wrF1 : List (Ref sig .tc) :=
  [main_v89, main_v90, main_v91, main_v92, main_v93, main_v94, main_v95, main_v96,
    main_v97]

theorem opsF1_writes : (opsF1 : List (HloOp τ sig (Elt F))).Forall fun op =>
    op.writes ⊆ (wrF1.map (Proc.devRef (τ := τ) .tc)).toFinset :=
  ⟨writes_sub_of_mem (y := main_v89) (by decide), writes_sub_of_mem (y := main_v90) (by decide),
    writes_sub_of_mem (y := main_v91) (by decide), writes_sub_of_mem (y := main_v92) (by decide),
    writes_sub_of_mem (y := main_v93) (by decide), writes_sub_of_mem (y := main_v94) (by decide),
    writes_sub_of_mem (y := main_v95) (by decide), writes_sub_of_mem (y := main_v96) (by decide),
    writes_sub_of_mem (y := main_v97) (by decide)⟩

end Cert.ReferenceIdeal.RefRun

end
-- ==== Proof.RefOps2.lean ====
/-
  The reference's run, by hand: the operations of @main's third printed part (main_part2),
  cut in windows F2, F2c, J1, J2, J3, J4, J5, J6, J7, H, Hc, Hz: at the boundaries of the computation's stages and at EVERY call boundary (one
  window per outlined call, one per straight-line run between calls). For each window: the list of its
  operations in program order (each `hlo` statement contributes its operation; each call contributes its
  callee's operations, over that call's buffers), that every operation touches TensorCore references only and
  determines its results, and the list of buffers the window writes.
-/
import proofs.«145994_j34600256537163_1_alg».proof.Proof.RefBase

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- Window F2 (11 operations) — of_x's columns before the mask: x_root · W_cls_a + b (main_v100), x_root · W_out_root + b (main_v104), the test root_mask ≥ 1 (main_v106), and the constant -inf (main_cst_21). Calls are inlined: a callee's operations stand at the
    call site over that call's buffer record. -/
abbrev opsF2 : List (HloOp τ sig (Elt F)) :=
  [
    StableHlo.unary main_arg18 main_v98 (broadcastInDim S1x1 ![1] bcast_S1_S1x1_1 : (⟨S1, .f32⟩ : BufTy).Contents (Elt F) → (⟨S1x1, .f32⟩ : BufTy).Contents (Elt F)),
    StableHlo.unary main_v98 main_v99 (broadcastInDim S8192x1 ![0, 1] bcast_S1x1_S8192x1_0_1 : (⟨S1x1, .f32⟩ : BufTy).Contents (Elt F) → (⟨S8192x1, .f32⟩ : BufTy).Contents (Elt F)),
    StableHlo.binary main_v97 main_v99 main_v100 (addf : (⟨S8192x1, .f32⟩ : BufTy).Contents (Elt F) → (⟨S8192x1, .f32⟩ : BufTy).Contents (Elt F) → (⟨S8192x1, .f32⟩ : BufTy).Contents (Elt F)),
    StableHlo.binary main_v88 main_arg19 main_v101 ((fun l r => Host.dotGeneral dot_S8192x128_S128x2_S8192x2_1_0_0_1_n_n none l r) : (⟨S8192x128, .f32⟩ : BufTy).Contents (Elt F) → (⟨S128x2, .f32⟩ : BufTy).Contents (Elt F) → (⟨S8192x2, .f32⟩ : BufTy).Contents (Elt F)),
    StableHlo.unary main_arg20 main_v102 (broadcastInDim S1x2 ![1] bcast_S2_S1x2_1 : (⟨S2, .f32⟩ : BufTy).Contents (Elt F) → (⟨S1x2, .f32⟩ : BufTy).Contents (Elt F)),
    StableHlo.unary main_v102 main_v103 (broadcastInDim S8192x2 ![0, 1] bcast_S1x2_S8192x2_0_1 : (⟨S1x2, .f32⟩ : BufTy).Contents (Elt F) → (⟨S8192x2, .f32⟩ : BufTy).Contents (Elt F)),
    StableHlo.binary main_v101 main_v103 main_v104 (addf : (⟨S8192x2, .f32⟩ : BufTy).Contents (Elt F) → (⟨S8192x2, .f32⟩ : BufTy).Contents (Elt F) → (⟨S8192x2, .f32⟩ : BufTy).Contents (Elt F)),
    StableHlo.nullary main_cst_20 (constant S_ .f32 0x3F800000#32),
    StableHlo.unary main_cst_20 main_v105 (broadcastInDim S8192x2 ![] bcast_S_S8192x2 : (⟨S_, .f32⟩ : BufTy).Contents (Elt F) → (⟨S8192x2, .f32⟩ : BufTy).Contents (Elt F)),
    StableHlo.binary main_arg1 main_v105 main_v106 (cmpf .oge : (⟨S8192x2, .f32⟩ : BufTy).Contents (Elt F) → (⟨S8192x2, .f32⟩ : BufTy).Contents (Elt F) → (⟨S8192x2, .i1⟩ : BufTy).Contents (Elt F)),
    StableHlo.nullary main_cst_21 (constant S_ .f32 0xFF800000#32) ]

theorem opsF2_sub : (opsF2 : List (HloOp τ sig (Elt F))).Forall fun op => op.bufs ⊆ tcRefs τ sig :=
  ⟨unary_bufs_sub .., unary_bufs_sub .., binary_bufs_sub .., binary_bufs_sub .., unary_bufs_sub .., unary_bufs_sub ..,
    binary_bufs_sub .., nullary_bufs_sub .., unary_bufs_sub .., binary_bufs_sub .., nullary_bufs_sub ..⟩

/-- Every operation of window F2 determines its results. -/
theorem opsF2_fresh : (opsF2 : List (HloOp τ sig (Elt F))).Forall fun op => op.fresh = ∅ :=
  ⟨rfl, rfl, rfl, rfl, rfl, rfl, rfl, rfl, rfl, rfl, rfl⟩

/-- The buffers window F2 writes, in order: one per operation. -/
abbrev wrF2 : List (Ref sig .tc) :=
  [main_v98, main_v99, main_v100, main_v101, main_v102, main_v103, main_v104, main_cst_20,
    main_v105, main_v106, main_cst_21]

theorem opsF2_writes : (opsF2 : List (HloOp τ sig (Elt F))).Forall fun op =>
    op.writes ⊆ (wrF2.map (Proc.devRef (τ := τ) .tc)).toFinset :=
  ⟨writes_sub_of_mem (y := main_v98) (by decide), writes_sub_of_mem (y := main_v99) (by decide),
    writes_sub_of_mem (y := main_v100) (by decide), writes_sub_of_mem (y := main_v101) (by decide),
    writes_sub_of_mem (y := main_v102) (by decide), writes_sub_of_mem (y := main_v103) (by decide),
    writes_sub_of_mem (y := main_v104) (by decide), writes_sub_of_mem (y := main_cst_20) (by decide),
    writes_sub_of_mem (y := main_v105) (by decide), writes_sub_of_mem (y := main_v106) (by decide),
    writes_sub_of_mem (y := main_cst_21) (by decide)⟩

/-- Window F2c (3 operations) — the call of @_where_6: -inf where the mask is set (ends at main_v107). Calls are inlined: a callee's operations stand at the
    call site over that call's buffer record. -/
abbrev opsF2c : List (HloOp τ sig (Elt F)) :=
  [
    StableHlo.TRef.unary (.of main_cst_21 : StableHlo.TRef sig ⟨S_, .f32⟩) main_call6.v0 id,
    StableHlo.TRef.unary main_call6.v0 main_call6.v1 (broadcastInDim S8192x2 ![] bcast_S_S8192x2),
    StableHlo.TRef.ternary (.of main_v106 : StableHlo.TRef sig ⟨S8192x2, .i1⟩) main_call6.v1 (.of main_v104 : StableHlo.TRef sig ⟨S8192x2, .f32⟩) main_call6.v2 select ]

theorem opsF2c_sub : (opsF2c : List (HloOp τ sig (Elt F))).Forall fun op => op.bufs ⊆ tcRefs τ sig :=
  ⟨unary_bufs_sub .., unary_bufs_sub .., ternary_bufs_sub ..⟩

/-- Every operation of window F2c determines its results. -/
theorem opsF2c_fresh : (opsF2c : List (HloOp τ sig (Elt F))).Forall fun op => op.fresh = ∅ :=
  ⟨rfl, rfl, rfl⟩

/-- The buffers window F2c writes, in order: one per operation. -/
abbrev wrF2c : List (Ref sig .tc) :=
  [main_call6_v0, main_call6_v1, main_v107]

theorem opsF2c_writes : (opsF2c : List (HloOp τ sig (Elt F))).Forall fun op =>
    op.writes ⊆ (wrF2c.map (Proc.devRef (τ := τ) .tc)).toFinset :=
  ⟨writes_sub_of_mem (y := main_call6_v0) (by decide), writes_sub_of_mem (y := main_call6_v1) (by decide),
    writes_sub_of_mem (y := main_v107) (by decide)⟩

/-- Window J1 (3 operations) — second integer chain: the call of @_roll_static on lens (ends at main_v108). Calls are inlined: a callee's operations stand at the
    call site over that call's buffer record. -/
abbrev opsJ1 : List (HloOp τ sig (Elt F)) :=
  [
    StableHlo.TRef.unary (.of main_arg4 : StableHlo.TRef sig ⟨S8192, .i32⟩) main_call7.v0 (extractStridedSlice S1 ![8191] · slices_S8192_S1_8191),
    StableHlo.TRef.unary (.of main_arg4 : StableHlo.TRef sig ⟨S8192, .i32⟩) main_call7.v1 (extractStridedSlice S8191 ![0] · slices_S8192_S8191_0),
    StableHlo.TRef.binary main_call7.v0 main_call7.v1 main_call7.v2 (fun a b => concatenate S8192 0 [⟨S1, a⟩, ⟨S8191, b⟩] concatenates_S1_S8191_S8192_d0) ]

theorem opsJ1_sub : (opsJ1 : List (HloOp τ sig (Elt F))).Forall fun op => op.bufs ⊆ tcRefs τ sig :=
  ⟨unary_bufs_sub .., unary_bufs_sub .., binary_bufs_sub ..⟩

/-- Every operation of window J1 determines its results. -/
theorem opsJ1_fresh : (opsJ1 : List (HloOp τ sig (Elt F))).Forall fun op => op.fresh = ∅ :=
  ⟨rfl, rfl, rfl⟩

/-- The buffers window J1 writes, in order: one per operation. -/
abbrev wrJ1 : List (Ref sig .tc) :=
  [main_call7_v0, main_call7_v1, main_v108]

theorem opsJ1_writes : (opsJ1 : List (HloOp τ sig (Elt F))).Forall fun op =>
    op.writes ⊆ (wrJ1.map (Proc.devRef (τ := τ) .tc)).toFinset :=
  ⟨writes_sub_of_mem (y := main_call7_v0) (by decide), writes_sub_of_mem (y := main_call7_v1) (by decide),
    writes_sub_of_mem (y := main_v108) (by decide)⟩

/-- Window J2 (4 operations) — second integer chain: the rolled lens with entry 0 set to 0 (ends at main_v110). Calls are inlined: a callee's operations stand at the
    call site over that call's buffer record. -/
abbrev opsJ2 : List (HloOp τ sig (Elt F)) :=
  [
    StableHlo.nullary main_c_22 (constantI S_ 32 0#32),
    StableHlo.unary main_c_22 main_v109 (broadcastInDim S1 ![] bcast_S_S1 : (⟨S_, .i32⟩ : BufTy).Contents (Elt F) → (⟨S1, .i32⟩ : BufTy).Contents (Elt F)),
    StableHlo.nullary main_c_23 (constantI S_ 32 0#32),
    StableHlo.ternary main_v108 main_v109 main_c_23 main_v110 ((fun x i u => Host.scatter scatter_S8192_S1_S__n_0_0_0 (fun _ b => b) x i u) : (⟨S8192, .i32⟩ : BufTy).Contents (Elt F) → (⟨S1, .i32⟩ : BufTy).Contents (Elt F) → (⟨S_, .i32⟩ : BufTy).Contents (Elt F) → (⟨S8192, .i32⟩ : BufTy).Contents (Elt F)) ]

theorem opsJ2_sub : (opsJ2 : List (HloOp τ sig (Elt F))).Forall fun op => op.bufs ⊆ tcRefs τ sig :=
  ⟨nullary_bufs_sub .., unary_bufs_sub .., nullary_bufs_sub .., ternary_bufs_sub ..⟩

/-- Every operation of window J2 determines its results. -/
theorem opsJ2_fresh : (opsJ2 : List (HloOp τ sig (Elt F))).Forall fun op => op.fresh = ∅ :=
  ⟨rfl, rfl, rfl, rfl⟩

/-- The buffers window J2 writes, in order: one per operation. -/
abbrev wrJ2 : List (Ref sig .tc) :=
  [main_c_22, main_v109, main_c_23, main_v110]

theorem opsJ2_writes : (opsJ2 : List (HloOp τ sig (Elt F))).Forall fun op =>
    op.writes ⊆ (wrJ2.map (Proc.devRef (τ := τ) .tc)).toFinset :=
  ⟨writes_sub_of_mem (y := main_c_22) (by decide), writes_sub_of_mem (y := main_v109) (by decide),
    writes_sub_of_mem (y := main_c_23) (by decide), writes_sub_of_mem (y := main_v110) (by decide)⟩

/-- Window J3 (3 operations) — second integer chain: the call of @cumsum (ends at main_v111). Calls are inlined: a callee's operations stand at the
    call site over that call's buffer record. -/
abbrev opsJ3 : List (HloOp τ sig (Elt F)) :=
  [
    StableHlo.TRef.nullary main_call8.call0.c (constantI S_ 32 0#32),
    StableHlo.TRef.unary main_call8.call0.c main_call8.call0.v0 (broadcastInDim S_ ![] bcast_S_S_),
    StableHlo.TRef.binary (.of main_v110 : StableHlo.TRef sig ⟨S8192, .i32⟩) main_call8.call0.v0 main_call8.call0.v1 (fun x v => Host.reduceWindow IntOp.addi ![8192] ![1] ![8191] ![0] x v reduceWindows_S8192_S8192_w8192s1p8191_0 h_S_) ]

theorem opsJ3_sub : (opsJ3 : List (HloOp τ sig (Elt F))).Forall fun op => op.bufs ⊆ tcRefs τ sig :=
  ⟨nullary_bufs_sub .., unary_bufs_sub .., binary_bufs_sub ..⟩

/-- Every operation of window J3 determines its results. -/
theorem opsJ3_fresh : (opsJ3 : List (HloOp τ sig (Elt F))).Forall fun op => op.fresh = ∅ :=
  ⟨rfl, rfl, rfl⟩

/-- The buffers window J3 writes, in order: one per operation. -/
abbrev wrJ3 : List (Ref sig .tc) :=
  [main_call8_call0_c, main_call8_call0_v0, main_v111]

theorem opsJ3_writes : (opsJ3 : List (HloOp τ sig (Elt F))).Forall fun op =>
    op.writes ⊆ (wrJ3.map (Proc.devRef (τ := τ) .tc)).toFinset :=
  ⟨writes_sub_of_mem (y := main_call8_call0_c) (by decide), writes_sub_of_mem (y := main_call8_call0_v0) (by decide),
    writes_sub_of_mem (y := main_v111) (by decide)⟩

/-- Window J4 (13 operations) — second integer chain: wrap negative starts, then scatter-add 1 at each start (ends at main_v120). Calls are inlined: a callee's operations stand at the
    call site over that call's buffer record. -/
abbrev opsJ4 : List (HloOp τ sig (Elt F)) :=
  [
    StableHlo.nullary main_c_24 (constantI S_ 32 0#32),
    StableHlo.unary main_c_24 main_v112 (broadcastInDim S262144 ![] bcast_S_S262144 : (⟨S_, .i32⟩ : BufTy).Contents (Elt F) → (⟨S262144, .i32⟩ : BufTy).Contents (Elt F)),
    StableHlo.nullary main_c_25 (constantI S_ 32 0#32),
    StableHlo.unary main_c_25 main_v113 (broadcastInDim S8192 ![] bcast_S_S8192 : (⟨S_, .i32⟩ : BufTy).Contents (Elt F) → (⟨S8192, .i32⟩ : BufTy).Contents (Elt F)),
    StableHlo.binary main_v111 main_v113 main_v114 (cmpi .slt : (⟨S8192, .i32⟩ : BufTy).Contents (Elt F) → (⟨S8192, .i32⟩ : BufTy).Contents (Elt F) → (⟨S8192, .i1⟩ : BufTy).Contents (Elt F)),
    StableHlo.nullary main_c_26 (constantI S_ 32 262144#32),
    StableHlo.unary main_c_26 main_v115 (broadcastInDim S8192 ![] bcast_S_S8192 : (⟨S_, .i32⟩ : BufTy).Contents (Elt F) → (⟨S8192, .i32⟩ : BufTy).Contents (Elt F)),
    StableHlo.binary main_v111 main_v115 main_v116 (addi : (⟨S8192, .i32⟩ : BufTy).Contents (Elt F) → (⟨S8192, .i32⟩ : BufTy).Contents (Elt F) → (⟨S8192, .i32⟩ : BufTy).Contents (Elt F)),
    StableHlo.ternary main_v114 main_v116 main_v111 main_v117 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v117 main_v118 (broadcastInDim S8192x1 ![0] bcast_S8192_S8192x1_0 : (⟨S8192, .i32⟩ : BufTy).Contents (Elt F) → (⟨S8192x1, .i32⟩ : BufTy).Contents (Elt F)),
    StableHlo.nullary main_c_27 (constantI S_ 32 1#32),
    StableHlo.unary main_c_27 main_v119 (broadcastInDim S8192 ![] bcast_S_S8192 : (⟨S_, .i32⟩ : BufTy).Contents (Elt F) → (⟨S8192, .i32⟩ : BufTy).Contents (Elt F)),
    StableHlo.ternary main_v112 main_v118 main_v119 main_v120 ((fun x i u => Host.scatter scatter_S262144_S8192x1_S8192_n_0_0_1 IntOp.addi x i u) : (⟨S262144, .i32⟩ : BufTy).Contents (Elt F) → (⟨S8192x1, .i32⟩ : BufTy).Contents (Elt F) → (⟨S8192, .i32⟩ : BufTy).Contents (Elt F) → (⟨S262144, .i32⟩ : BufTy).Contents (Elt F)) ]

theorem opsJ4_sub : (opsJ4 : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub ..⟩

/-- Every operation of window J4 determines its results. -/
theorem opsJ4_fresh : (opsJ4 : List (HloOp τ sig (Elt F))).Forall fun op => op.fresh = ∅ :=
  ⟨rfl, rfl, rfl, rfl, rfl, rfl, rfl, rfl, rfl, rfl, rfl, rfl, rfl⟩

/-- The buffers window J4 writes, in order: one per operation. -/
abbrev wrJ4 : List (Ref sig .tc) :=
  [main_c_24, main_v112, main_c_25, main_v113, main_v114, main_c_26, main_v115, main_v116,
    main_v117, main_v118, main_c_27, main_v119, main_v120]

theorem opsJ4_writes : (opsJ4 : List (HloOp τ sig (Elt F))).Forall fun op =>
    op.writes ⊆ (wrJ4.map (Proc.devRef (τ := τ) .tc)).toFinset :=
  ⟨writes_sub_of_mem (y := main_c_24) (by decide), writes_sub_of_mem (y := main_v112) (by decide),
    writes_sub_of_mem (y := main_c_25) (by decide), writes_sub_of_mem (y := main_v113) (by decide),
    writes_sub_of_mem (y := main_v114) (by decide), writes_sub_of_mem (y := main_c_26) (by decide),
    writes_sub_of_mem (y := main_v115) (by decide), writes_sub_of_mem (y := main_v116) (by decide),
    writes_sub_of_mem (y := main_v117) (by decide), writes_sub_of_mem (y := main_v118) (by decide),
    writes_sub_of_mem (y := main_c_27) (by decide), writes_sub_of_mem (y := main_v119) (by decide),
    writes_sub_of_mem (y := main_v120) (by decide)⟩

/-- Window J5 (3 operations) — second integer chain: the call of @cumsum_1 (ends at main_v121). Calls are inlined: a callee's operations stand at the
    call site over that call's buffer record. -/
abbrev opsJ5 : List (HloOp τ sig (Elt F)) :=
  [
    StableHlo.TRef.nullary main_call9.call0.c (constantI S_ 32 0#32),
    StableHlo.TRef.unary main_call9.call0.c main_call9.call0.v0 (broadcastInDim S_ ![] bcast_S_S_),
    StableHlo.TRef.binary (.of main_v120 : StableHlo.TRef sig ⟨S262144, .i32⟩) main_call9.call0.v0 main_call9.call0.v1 (fun x v => Host.reduceWindow IntOp.addi ![262144] ![1] ![262143] ![0] x v reduceWindows_S262144_S262144_w262144s1p262143_0 h_S_) ]

theorem opsJ5_sub : (opsJ5 : List (HloOp τ sig (Elt F))).Forall fun op => op.bufs ⊆ tcRefs τ sig :=
  ⟨nullary_bufs_sub .., unary_bufs_sub .., binary_bufs_sub ..⟩

/-- Every operation of window J5 determines its results. -/
theorem opsJ5_fresh : (opsJ5 : List (HloOp τ sig (Elt F))).Forall fun op => op.fresh = ∅ :=
  ⟨rfl, rfl, rfl⟩

/-- The buffers window J5 writes, in order: one per operation. -/
abbrev wrJ5 : List (Ref sig .tc) :=
  [main_call9_call0_c, main_call9_call0_v0, main_v121]

theorem opsJ5_writes : (opsJ5 : List (HloOp τ sig (Elt F))).Forall fun op =>
    op.writes ⊆ (wrJ5.map (Proc.devRef (τ := τ) .tc)).toFinset :=
  ⟨writes_sub_of_mem (y := main_call9_call0_c) (by decide), writes_sub_of_mem (y := main_call9_call0_v0) (by decide),
    writes_sub_of_mem (y := main_v121) (by decide)⟩

/-- Window J6 (3 operations) — second integer chain: subtract 1 (ends at main_v123). Calls are inlined: a callee's operations stand at the
    call site over that call's buffer record. -/
abbrev opsJ6 : List (HloOp τ sig (Elt F)) :=
  [
    StableHlo.nullary main_c_28 (constantI S_ 32 1#32),
    StableHlo.unary main_c_28 main_v122 (broadcastInDim S262144 ![] bcast_S_S262144 : (⟨S_, .i32⟩ : BufTy).Contents (Elt F) → (⟨S262144, .i32⟩ : BufTy).Contents (Elt F)),
    StableHlo.binary main_v121 main_v122 main_v123 (subi : (⟨S262144, .i32⟩ : BufTy).Contents (Elt F) → (⟨S262144, .i32⟩ : BufTy).Contents (Elt F) → (⟨S262144, .i32⟩ : BufTy).Contents (Elt F)) ]

theorem opsJ6_sub : (opsJ6 : List (HloOp τ sig (Elt F))).Forall fun op => op.bufs ⊆ tcRefs τ sig :=
  ⟨nullary_bufs_sub .., unary_bufs_sub .., binary_bufs_sub ..⟩

/-- Every operation of window J6 determines its results. -/
theorem opsJ6_fresh : (opsJ6 : List (HloOp τ sig (Elt F))).Forall fun op => op.fresh = ∅ :=
  ⟨rfl, rfl, rfl⟩

/-- The buffers window J6 writes, in order: one per operation. -/
abbrev wrJ6 : List (Ref sig .tc) :=
  [main_c_28, main_v122, main_v123]

theorem opsJ6_writes : (opsJ6 : List (HloOp τ sig (Elt F))).Forall fun op =>
    op.writes ⊆ (wrJ6.map (Proc.devRef (τ := τ) .tc)).toFinset :=
  ⟨writes_sub_of_mem (y := main_c_28) (by decide), writes_sub_of_mem (y := main_v122) (by decide),
    writes_sub_of_mem (y := main_v123) (by decide)⟩

/-- Window J7 (23 operations) — second integer chain: the call of @_take_7 (through @_where_3) — the clamped gather of x_root's rows (ends at main_v124, x0e). Calls are inlined: a callee's operations stand at the
    call site over that call's buffer record. -/
abbrev opsJ7 : List (HloOp τ sig (Elt F)) :=
  [
    StableHlo.TRef.nullary main_call10.c (constantI S_ 32 0#32),
    StableHlo.TRef.unary main_call10.c main_call10.v0 (broadcastInDim S262144 ![] bcast_S_S262144),
    StableHlo.TRef.binary (.of main_v123 : StableHlo.TRef sig ⟨S262144, .i32⟩) main_call10.v0 main_call10.v1 (cmpi .slt),
    StableHlo.TRef.nullary main_call10.c_0 (constantI S_ 32 8192#32),
    StableHlo.TRef.unary main_call10.c_0 main_call10.v2 (broadcastInDim S262144 ![] bcast_S_S262144),
    StableHlo.TRef.binary (.of main_v123 : StableHlo.TRef sig ⟨S262144, .i32⟩) main_call10.v2 main_call10.v3 addi,
    StableHlo.TRef.ternary main_call10.v1 main_call10.v3 (.of main_v123 : StableHlo.TRef sig ⟨S262144, .i32⟩) main_call10.call0.v0 select,
    StableHlo.TRef.unary main_call10.call0.v0 main_call10.v5 (broadcastInDim S262144x1 ![0] bcast_S262144_S262144x1_0),
    StableHlo.TRef.nullary main_call10.c_1 (constantI S1 32 8191#32),
    StableHlo.TRef.nullary main_call10.c_2 (constantI S_ 32 0#32),
    StableHlo.TRef.unary main_call10.c_2 main_call10.v6 (broadcastInDim S262144x1 ![] bcast_S_S262144x1),
    StableHlo.TRef.binary main_call10.v5 main_call10.v6 main_call10.v7 (cmpi .sge),
    StableHlo.TRef.unary main_call10.c_1 main_call10.v8 (broadcastInDim S1x1 ![1] bcast_S1_S1x1_1),
    StableHlo.TRef.unary main_call10.v8 main_call10.v9 (broadcastInDim S262144x1 ![0, 1] bcast_S1x1_S262144x1_0_1),
    StableHlo.TRef.binary main_call10.v5 main_call10.v9 main_call10.v10 (cmpi .sle),
    StableHlo.TRef.binary main_call10.v7 main_call10.v10 main_call10.v11 andi,
    StableHlo.TRef.nullary main_call10.c_3 (constantI S_ 1 1#1),
    StableHlo.TRef.binary main_call10.v11 main_call10.c_3 main_call10.v12 (fun x v => Host.reduce IntOp.andi x v reducesTo_S262144x1_S262144_d1 h_S_),
    StableHlo.TRef.binary (.of main_v88 : StableHlo.TRef sig ⟨S8192x128, .f32⟩) main_call10.v5 main_call10.v13 (fun x i => Host.gather gather_S8192x128_S262144x1_S262144x128_1_0_n_n_0_1_1128 x i),
    StableHlo.TRef.unary main_call10.v12 main_call10.v14 (broadcastInDim S262144x128 ![0] bcast_S262144_S262144x128_0),
    StableHlo.TRef.nullary main_call10.cst (constant S_ .f32 0x7FC00000#32),
    StableHlo.TRef.unary main_call10.cst main_call10.v15 (broadcastInDim S262144x128 ![] bcast_S_S262144x128),
    StableHlo.TRef.ternary main_call10.v14 main_call10.v13 main_call10.v15 main_call10.v16 select ]

theorem opsJ7_sub : (opsJ7 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- Every operation of window J7 determines its results. -/
theorem opsJ7_fresh : (opsJ7 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl⟩

/-- The buffers window J7 writes, in order: one per operation. -/
abbrev wrJ7 : List (Ref sig .tc) :=
  [main_call10_c, main_call10_v0, main_call10_v1, main_call10_c_0, main_call10_v2, main_call10_v3, main_call10_v4, main_call10_v5,
    main_call10_c_1, main_call10_c_2, main_call10_v6, main_call10_v7, main_call10_v8, main_call10_v9, main_call10_v10, main_call10_v11,
    main_call10_c_3, main_call10_v12, main_call10_v13, main_call10_v14, main_call10_cst, main_call10_v15, main_v124]

theorem opsJ7_writes : (opsJ7 : List (HloOp τ sig (Elt F))).Forall fun op =>
    op.writes ⊆ (wrJ7.map (Proc.devRef (τ := τ) .tc)).toFinset :=
  ⟨writes_sub_of_mem (y := main_call10_c) (by decide), writes_sub_of_mem (y := main_call10_v0) (by decide),
    writes_sub_of_mem (y := main_call10_v1) (by decide), writes_sub_of_mem (y := main_call10_c_0) (by decide),
    writes_sub_of_mem (y := main_call10_v2) (by decide), writes_sub_of_mem (y := main_call10_v3) (by decide),
    writes_sub_of_mem (y := main_call10_v4) (by decide), writes_sub_of_mem (y := main_call10_v5) (by decide),
    writes_sub_of_mem (y := main_call10_c_1) (by decide), writes_sub_of_mem (y := main_call10_c_2) (by decide),
    writes_sub_of_mem (y := main_call10_v6) (by decide), writes_sub_of_mem (y := main_call10_v7) (by decide),
    writes_sub_of_mem (y := main_call10_v8) (by decide), writes_sub_of_mem (y := main_call10_v9) (by decide),
    writes_sub_of_mem (y := main_call10_v10) (by decide), writes_sub_of_mem (y := main_call10_v11) (by decide),
    writes_sub_of_mem (y := main_call10_c_3) (by decide), writes_sub_of_mem (y := main_call10_v12) (by decide),
    writes_sub_of_mem (y := main_call10_v13) (by decide), writes_sub_of_mem (y := main_call10_v14) (by decide),
    writes_sub_of_mem (y := main_call10_cst) (by decide), writes_sub_of_mem (y := main_call10_v15) (by decide),
    writes_sub_of_mem (y := main_v124) (by decide)⟩

/-- Window H (9 operations) — sub_out before the mask: concatenate(x0e, x_raw_sub) · W_out_sub + b (main_v129), the test sub_mask ≥ 1 (main_v131), and the constant -inf (main_cst_30). Calls are inlined: a callee's operations stand at the
    call site over that call's buffer record. -/
abbrev opsH : List (HloOp τ sig (Elt F)) :=
  [
    StableHlo.binary main_v124 main_v5 main_v125 ((fun a b => concatenate S262144x256 1 [⟨S262144x128, a⟩, ⟨S262144x128, b⟩] concatenates_S262144x128_S262144x128_S262144x256_d1) : (⟨S262144x128, .f32⟩ : BufTy).Contents (Elt F) → (⟨S262144x128, .f32⟩ : BufTy).Contents (Elt F) → (⟨S262144x256, .f32⟩ : BufTy).Contents (Elt F)),
    StableHlo.binary main_v125 main_arg21 main_v126 ((fun l r => Host.dotGeneral dot_S262144x256_S256x1_S262144x1_1_0_0_1_n_n none l r) : (⟨S262144x256, .f32⟩ : BufTy).Contents (Elt F) → (⟨S256x1, .f32⟩ : BufTy).Contents (Elt F) → (⟨S262144x1, .f32⟩ : BufTy).Contents (Elt F)),
    StableHlo.unary main_arg22 main_v127 (broadcastInDim S1x1 ![1] bcast_S1_S1x1_1 : (⟨S1, .f32⟩ : BufTy).Contents (Elt F) → (⟨S1x1, .f32⟩ : BufTy).Contents (Elt F)),
    StableHlo.unary main_v127 main_v128 (broadcastInDim S262144x1 ![0, 1] bcast_S1x1_S262144x1_0_1 : (⟨S1x1, .f32⟩ : BufTy).Contents (Elt F) → (⟨S262144x1, .f32⟩ : BufTy).Contents (Elt F)),
    StableHlo.binary main_v126 main_v128 main_v129 (addf : (⟨S262144x1, .f32⟩ : BufTy).Contents (Elt F) → (⟨S262144x1, .f32⟩ : BufTy).Contents (Elt F) → (⟨S262144x1, .f32⟩ : BufTy).Contents (Elt F)),
    StableHlo.nullary main_cst_29 (constant S_ .f32 0x3F800000#32),
    StableHlo.unary main_cst_29 main_v130 (broadcastInDim S262144x1 ![] bcast_S_S262144x1 : (⟨S_, .f32⟩ : BufTy).Contents (Elt F) → (⟨S262144x1, .f32⟩ : BufTy).Contents (Elt F)),
    StableHlo.binary main_arg3 main_v130 main_v131 (cmpf .oge : (⟨S262144x1, .f32⟩ : BufTy).Contents (Elt F) → (⟨S262144x1, .f32⟩ : BufTy).Contents (Elt F) → (⟨S262144x1, .i1⟩ : BufTy).Contents (Elt F)),
    StableHlo.nullary main_cst_30 (constant S_ .f32 0xFF800000#32) ]

theorem opsH_sub : (opsH : List (HloOp τ sig (Elt F))).Forall fun op => op.bufs ⊆ tcRefs τ sig :=
  ⟨binary_bufs_sub .., binary_bufs_sub .., unary_bufs_sub .., unary_bufs_sub .., binary_bufs_sub .., nullary_bufs_sub ..,
    unary_bufs_sub .., binary_bufs_sub .., nullary_bufs_sub ..⟩

/-- Every operation of window H determines its results. -/
theorem opsH_fresh : (opsH : List (HloOp τ sig (Elt F))).Forall fun op => op.fresh = ∅ :=
  ⟨rfl, rfl, rfl, rfl, rfl, rfl, rfl, rfl, rfl⟩

/-- The buffers window H writes, in order: one per operation. -/
abbrev wrH : List (Ref sig .tc) :=
  [main_v125, main_v126, main_v127, main_v128, main_v129, main_cst_29, main_v130, main_v131,
    main_cst_30]

theorem opsH_writes : (opsH : List (HloOp τ sig (Elt F))).Forall fun op =>
    op.writes ⊆ (wrH.map (Proc.devRef (τ := τ) .tc)).toFinset :=
  ⟨writes_sub_of_mem (y := main_v125) (by decide), writes_sub_of_mem (y := main_v126) (by decide),
    writes_sub_of_mem (y := main_v127) (by decide), writes_sub_of_mem (y := main_v128) (by decide),
    writes_sub_of_mem (y := main_v129) (by decide), writes_sub_of_mem (y := main_cst_29) (by decide),
    writes_sub_of_mem (y := main_v130) (by decide), writes_sub_of_mem (y := main_v131) (by decide),
    writes_sub_of_mem (y := main_cst_30) (by decide)⟩

/-- Window Hc (3 operations) — the call of @_where_8: -inf where the mask is set (ends at main_v132, sub_out). Calls are inlined: a callee's operations stand at the
    call site over that call's buffer record. -/
abbrev opsHc : List (HloOp τ sig (Elt F)) :=
  [
    StableHlo.TRef.unary (.of main_cst_30 : StableHlo.TRef sig ⟨S_, .f32⟩) main_call11.v0 id,
    StableHlo.TRef.unary main_call11.v0 main_call11.v1 (broadcastInDim S262144x1 ![] bcast_S_S262144x1),
    StableHlo.TRef.ternary (.of main_v131 : StableHlo.TRef sig ⟨S262144x1, .i1⟩) main_call11.v1 (.of main_v129 : StableHlo.TRef sig ⟨S262144x1, .f32⟩) main_call11.v2 select ]

theorem opsHc_sub : (opsHc : List (HloOp τ sig (Elt F))).Forall fun op => op.bufs ⊆ tcRefs τ sig :=
  ⟨unary_bufs_sub .., unary_bufs_sub .., ternary_bufs_sub ..⟩

/-- Every operation of window Hc determines its results. -/
theorem opsHc_fresh : (opsHc : List (HloOp τ sig (Elt F))).Forall fun op => op.fresh = ∅ :=
  ⟨rfl, rfl, rfl⟩

/-- The buffers window Hc writes, in order: one per operation. -/
abbrev wrHc : List (Ref sig .tc) :=
  [main_call11_v0, main_call11_v1, main_v132]

theorem opsHc_writes : (opsHc : List (HloOp τ sig (Elt F))).Forall fun op =>
    op.writes ⊆ (wrHc.map (Proc.devRef (τ := τ) .tc)).toFinset :=
  ⟨writes_sub_of_mem (y := main_call11_v0) (by decide), writes_sub_of_mem (y := main_call11_v1) (by decide),
    writes_sub_of_mem (y := main_v132) (by decide)⟩

/-- Window Hz (1 operation) — of_x (main_v133): the concatenation of main_v100 and main_v107. Calls are inlined: a callee's operations stand at the
    call site over that call's buffer record. -/
abbrev opsHz : List (HloOp τ sig (Elt F)) :=
  [
    StableHlo.binary main_v100 main_v107 main_v133 ((fun a b => concatenate S8192x3 1 [⟨S8192x1, a⟩, ⟨S8192x2, b⟩] concatenates_S8192x1_S8192x2_S8192x3_d1) : (⟨S8192x1, .f32⟩ : BufTy).Contents (Elt F) → (⟨S8192x2, .f32⟩ : BufTy).Contents (Elt F) → (⟨S8192x3, .f32⟩ : BufTy).Contents (Elt F)) ]

theorem opsHz_sub : (opsHz : List (HloOp τ sig (Elt F))).Forall fun op => op.bufs ⊆ tcRefs τ sig :=
  binary_bufs_sub ..

/-- Every operation of window Hz determines its results. -/
theorem opsHz_fresh : (opsHz : List (HloOp τ sig (Elt F))).Forall fun op => op.fresh = ∅ :=
  rfl

/-- The buffers window Hz writes, in order: one per operation. -/
abbrev wrHz : List (Ref sig .tc) :=
  [main_v133]

theorem opsHz_writes : (opsHz : List (HloOp τ sig (Elt F))).Forall fun op =>
    op.writes ⊆ (wrHz.map (Proc.devRef (τ := τ) .tc)).toFinset :=
  writes_sub_of_mem (y := main_v133) (by decide)

end Cert.ReferenceIdeal.RefRun

end
-- ==== Proof.RefOps.lean ====
/-
  The reference's run, by hand: @main's 238 operations as ONE list `ops`, the concatenation of the 29 windows
  of RefOps0/1/2 in program order, nested to the RIGHT (`opsA ++ (opsAc ++ (…))`: the head of the list is then
  one step away, where a left-nested chain of appends is re-evaluated at every level). `fromK` is the list from
  window K on. For reading, the buffer contents after each window are VALUATIONS: `atK V` is what the device
  holds once the windows up to and including K have run from contents `V`; the fold over all of @main is the
  last of them (`after_ops`), and the fold from any window on splits at the window's end (`after_fromK`).
-/
import proofs.«145994_j34600256537163_1_alg».proof.Proof.RefOps0
import proofs.«145994_j34600256537163_1_alg».proof.Proof.RefOps1
import proofs.«145994_j34600256537163_1_alg».proof.Proof.RefOps2

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- The operations from window Hz on. -/
abbrev fromHz : List (HloOp τ sig (Elt F)) :=
  opsHz

/-- The operations from window Hc on. -/
abbrev fromHc : List (HloOp τ sig (Elt F)) :=
  opsHc ++ fromHz

/-- The operations from window H on. -/
abbrev fromH : List (HloOp τ sig (Elt F)) :=
  opsH ++ fromHc

/-- The operations from window J7 on. -/
abbrev fromJ7 : List (HloOp τ sig (Elt F)) :=
  opsJ7 ++ fromH

/-- The operations from window J6 on. -/
abbrev fromJ6 : List (HloOp τ sig (Elt F)) :=
  opsJ6 ++ fromJ7

/-- The operations from window J5 on. -/
abbrev fromJ5 : List (HloOp τ sig (Elt F)) :=
  opsJ5 ++ fromJ6

/-- The operations from window J4 on. -/
abbrev fromJ4 : List (HloOp τ sig (Elt F)) :=
  opsJ4 ++ fromJ5

/-- The operations from window J3 on. -/
abbrev fromJ3 : List (HloOp τ sig (Elt F)) :=
  opsJ3 ++ fromJ4

/-- The operations from window J2 on. -/
abbrev fromJ2 : List (HloOp τ sig (Elt F)) :=
  opsJ2 ++ fromJ3

/-- The operations from window J1 on. -/
abbrev fromJ1 : List (HloOp τ sig (Elt F)) :=
  opsJ1 ++ fromJ2

/-- The operations from window F2c on. -/
abbrev fromF2c : List (HloOp τ sig (Elt F)) :=
  opsF2c ++ fromJ1

/-- The operations from window F2 on. -/
abbrev fromF2 : List (HloOp τ sig (Elt F)) :=
  opsF2 ++ fromF2c

/-- The operations from window F1 on. -/
abbrev fromF1 : List (HloOp τ sig (Elt F)) :=
  opsF1 ++ fromF2

/-- The operations from window E2 on. -/
abbrev fromE2 : List (HloOp τ sig (Elt F)) :=
  opsE2 ++ fromF1

/-- The operations from window E1c on. -/
abbrev fromE1c : List (HloOp τ sig (Elt F)) :=
  opsE1c ++ fromE2

/-- The operations from window E1 on. -/
abbrev fromE1 : List (HloOp τ sig (Elt F)) :=
  opsE1 ++ fromE1c

/-- The operations from window D2 on. -/
abbrev fromD2 : List (HloOp τ sig (Elt F)) :=
  opsD2 ++ fromE1

/-- The operations from window D1 on. -/
abbrev fromD1 : List (HloOp τ sig (Elt F)) :=
  opsD1 ++ fromD2

/-- The operations from window C on. -/
abbrev fromC : List (HloOp τ sig (Elt F)) :=
  opsC ++ fromD1

/-- The operations from window I7 on. -/
abbrev fromI7 : List (HloOp τ sig (Elt F)) :=
  opsI7 ++ fromC

/-- The operations from window I6 on. -/
abbrev fromI6 : List (HloOp τ sig (Elt F)) :=
  opsI6 ++ fromI7

/-- The operations from window I5 on. -/
abbrev fromI5 : List (HloOp τ sig (Elt F)) :=
  opsI5 ++ fromI6

/-- The operations from window I4 on. -/
abbrev fromI4 : List (HloOp τ sig (Elt F)) :=
  opsI4 ++ fromI5

/-- The operations from window I3 on. -/
abbrev fromI3 : List (HloOp τ sig (Elt F)) :=
  opsI3 ++ fromI4

/-- The operations from window I2 on. -/
abbrev fromI2 : List (HloOp τ sig (Elt F)) :=
  opsI2 ++ fromI3

/-- The operations from window I1 on. -/
abbrev fromI1 : List (HloOp τ sig (Elt F)) :=
  opsI1 ++ fromI2

/-- The operations from window I0 on. -/
abbrev fromI0 : List (HloOp τ sig (Elt F)) :=
  opsI0 ++ fromI1

/-- The operations from window Ac on. -/
abbrev fromAc : List (HloOp τ sig (Elt F)) :=
  opsAc ++ fromI0

/-- The operations from window A on. -/
abbrev fromA : List (HloOp τ sig (Elt F)) :=
  opsA ++ fromAc

/-- @main's 238 operations, in order: the windows one after the other (nested to the right). -/
abbrev ops : List (HloOp τ sig (Elt F)) := fromA

theorem ops_eq : (ops : List (HloOp τ sig (Elt F))) =
    opsA ++ (opsAc ++ (opsI0 ++ (opsI1 ++ (opsI2 ++ (opsI3 ++ (opsI4 ++ (opsI5 ++ (opsI6 ++ (opsI7 ++ (opsC ++ (opsD1 ++ (opsD2 ++ (opsE1 ++ (opsE1c ++ (opsE2 ++ (opsF1 ++ (opsF2 ++ (opsF2c ++ (opsJ1 ++ (opsJ2 ++ (opsJ3 ++ (opsJ4 ++ (opsJ5 ++ (opsJ6 ++ (opsJ7 ++ (opsH ++ (opsHc ++ (opsHz)))))))))))))))))))))))))))) := rfl

/-- The buffer contents once the windows up to and including A have run from `V`. -/
abbrev atA (V : Valuation τ sig (Elt F)) : Valuation τ sig (Elt F) :=
  after opsA V

/-- The buffer contents once the windows up to and including Ac have run from `V`. -/
abbrev atAc (V : Valuation τ sig (Elt F)) : Valuation τ sig (Elt F) :=
  after opsAc (atA V)

/-- The buffer contents once the windows up to and including I0 have run from `V`. -/
abbrev atI0 (V : Valuation τ sig (Elt F)) : Valuation τ sig (Elt F) :=
  after opsI0 (atAc V)

/-- The buffer contents once the windows up to and including I1 have run from `V`. -/
abbrev atI1 (V : Valuation τ sig (Elt F)) : Valuation τ sig (Elt F) :=
  after opsI1 (atI0 V)

/-- The buffer contents once the windows up to and including I2 have run from `V`. -/
abbrev atI2 (V : Valuation τ sig (Elt F)) : Valuation τ sig (Elt F) :=
  after opsI2 (atI1 V)

/-- The buffer contents once the windows up to and including I3 have run from `V`. -/
abbrev atI3 (V : Valuation τ sig (Elt F)) : Valuation τ sig (Elt F) :=
  after opsI3 (atI2 V)

/-- The buffer contents once the windows up to and including I4 have run from `V`. -/
abbrev atI4 (V : Valuation τ sig (Elt F)) : Valuation τ sig (Elt F) :=
  after opsI4 (atI3 V)

/-- The buffer contents once the windows up to and including I5 have run from `V`. -/
abbrev atI5 (V : Valuation τ sig (Elt F)) : Valuation τ sig (Elt F) :=
  after opsI5 (atI4 V)

/-- The buffer contents once the windows up to and including I6 have run from `V`. -/
abbrev atI6 (V : Valuation τ sig (Elt F)) : Valuation τ sig (Elt F) :=
  after opsI6 (atI5 V)

/-- The buffer contents once the windows up to and including I7 have run from `V`. -/
abbrev atI7 (V : Valuation τ sig (Elt F)) : Valuation τ sig (Elt F) :=
  after opsI7 (atI6 V)

/-- The buffer contents once the windows up to and including C have run from `V`. -/
abbrev atC (V : Valuation τ sig (Elt F)) : Valuation τ sig (Elt F) :=
  after opsC (atI7 V)

/-- The buffer contents once the windows up to and including D1 have run from `V`. -/
abbrev atD1 (V : Valuation τ sig (Elt F)) : Valuation τ sig (Elt F) :=
  after opsD1 (atC V)

/-- The buffer contents once the windows up to and including D2 have run from `V`. -/
abbrev atD2 (V : Valuation τ sig (Elt F)) : Valuation τ sig (Elt F) :=
  after opsD2 (atD1 V)

/-- The buffer contents once the windows up to and including E1 have run from `V`. -/
abbrev atE1 (V : Valuation τ sig (Elt F)) : Valuation τ sig (Elt F) :=
  after opsE1 (atD2 V)

/-- The buffer contents once the windows up to and including E1c have run from `V`. -/
abbrev atE1c (V : Valuation τ sig (Elt F)) : Valuation τ sig (Elt F) :=
  after opsE1c (atE1 V)

/-- The buffer contents once the windows up to and including E2 have run from `V`. -/
abbrev atE2 (V : Valuation τ sig (Elt F)) : Valuation τ sig (Elt F) :=
  after opsE2 (atE1c V)

/-- The buffer contents once the windows up to and including F1 have run from `V`. -/
abbrev atF1 (V : Valuation τ sig (Elt F)) : Valuation τ sig (Elt F) :=
  after opsF1 (atE2 V)

/-- The buffer contents once the windows up to and including F2 have run from `V`. -/
abbrev atF2 (V : Valuation τ sig (Elt F)) : Valuation τ sig (Elt F) :=
  after opsF2 (atF1 V)

/-- The buffer contents once the windows up to and including F2c have run from `V`. -/
abbrev atF2c (V : Valuation τ sig (Elt F)) : Valuation τ sig (Elt F) :=
  after opsF2c (atF2 V)

/-- The buffer contents once the windows up to and including J1 have run from `V`. -/
abbrev atJ1 (V : Valuation τ sig (Elt F)) : Valuation τ sig (Elt F) :=
  after opsJ1 (atF2c V)

/-- The buffer contents once the windows up to and including J2 have run from `V`. -/
abbrev atJ2 (V : Valuation τ sig (Elt F)) : Valuation τ sig (Elt F) :=
  after opsJ2 (atJ1 V)

/-- The buffer contents once the windows up to and including J3 have run from `V`. -/
abbrev atJ3 (V : Valuation τ sig (Elt F)) : Valuation τ sig (Elt F) :=
  after opsJ3 (atJ2 V)

/-- The buffer contents once the windows up to and including J4 have run from `V`. -/
abbrev atJ4 (V : Valuation τ sig (Elt F)) : Valuation τ sig (Elt F) :=
  after opsJ4 (atJ3 V)

/-- The buffer contents once the windows up to and including J5 have run from `V`. -/
abbrev atJ5 (V : Valuation τ sig (Elt F)) : Valuation τ sig (Elt F) :=
  after opsJ5 (atJ4 V)

/-- The buffer contents once the windows up to and including J6 have run from `V`. -/
abbrev atJ6 (V : Valuation τ sig (Elt F)) : Valuation τ sig (Elt F) :=
  after opsJ6 (atJ5 V)

/-- The buffer contents once the windows up to and including J7 have run from `V`. -/
abbrev atJ7 (V : Valuation τ sig (Elt F)) : Valuation τ sig (Elt F) :=
  after opsJ7 (atJ6 V)

/-- The buffer contents once the windows up to and including H have run from `V`. -/
abbrev atH (V : Valuation τ sig (Elt F)) : Valuation τ sig (Elt F) :=
  after opsH (atJ7 V)

/-- The buffer contents once the windows up to and including Hc have run from `V`. -/
abbrev atHc (V : Valuation τ sig (Elt F)) : Valuation τ sig (Elt F) :=
  after opsHc (atH V)

/-- The buffer contents once the windows up to and including Hz have run from `V`. -/
abbrev atHz (V : Valuation τ sig (Elt F)) : Valuation τ sig (Elt F) :=
  after opsHz (atHc V)

/-- The fold from window A on is the fold from the next window on, after window A. -/
theorem after_fromA (W : Valuation τ sig (Elt F)) : after fromA W = after fromAc (after opsA W) :=
  after_append opsA fromAc W

/-- The fold from window Ac on is the fold from the next window on, after window Ac. -/
theorem after_fromAc (W : Valuation τ sig (Elt F)) : after fromAc W = after fromI0 (after opsAc W) :=
  after_append opsAc fromI0 W

/-- The fold from window I0 on is the fold from the next window on, after window I0. -/
theorem after_fromI0 (W : Valuation τ sig (Elt F)) : after fromI0 W = after fromI1 (after opsI0 W) :=
  after_append opsI0 fromI1 W

/-- The fold from window I1 on is the fold from the next window on, after window I1. -/
theorem after_fromI1 (W : Valuation τ sig (Elt F)) : after fromI1 W = after fromI2 (after opsI1 W) :=
  after_append opsI1 fromI2 W

/-- The fold from window I2 on is the fold from the next window on, after window I2. -/
theorem after_fromI2 (W : Valuation τ sig (Elt F)) : after fromI2 W = after fromI3 (after opsI2 W) :=
  after_append opsI2 fromI3 W

/-- The fold from window I3 on is the fold from the next window on, after window I3. -/
theorem after_fromI3 (W : Valuation τ sig (Elt F)) : after fromI3 W = after fromI4 (after opsI3 W) :=
  after_append opsI3 fromI4 W

/-- The fold from window I4 on is the fold from the next window on, after window I4. -/
theorem after_fromI4 (W : Valuation τ sig (Elt F)) : after fromI4 W = after fromI5 (after opsI4 W) :=
  after_append opsI4 fromI5 W

/-- The fold from window I5 on is the fold from the next window on, after window I5. -/
theorem after_fromI5 (W : Valuation τ sig (Elt F)) : after fromI5 W = after fromI6 (after opsI5 W) :=
  after_append opsI5 fromI6 W

/-- The fold from window I6 on is the fold from the next window on, after window I6. -/
theorem after_fromI6 (W : Valuation τ sig (Elt F)) : after fromI6 W = after fromI7 (after opsI6 W) :=
  after_append opsI6 fromI7 W

/-- The fold from window I7 on is the fold from the next window on, after window I7. -/
theorem after_fromI7 (W : Valuation τ sig (Elt F)) : after fromI7 W = after fromC (after opsI7 W) :=
  after_append opsI7 fromC W

/-- The fold from window C on is the fold from the next window on, after window C. -/
theorem after_fromC (W : Valuation τ sig (Elt F)) : after fromC W = after fromD1 (after opsC W) :=
  after_append opsC fromD1 W

/-- The fold from window D1 on is the fold from the next window on, after window D1. -/
theorem after_fromD1 (W : Valuation τ sig (Elt F)) : after fromD1 W = after fromD2 (after opsD1 W) :=
  after_append opsD1 fromD2 W

/-- The fold from window D2 on is the fold from the next window on, after window D2. -/
theorem after_fromD2 (W : Valuation τ sig (Elt F)) : after fromD2 W = after fromE1 (after opsD2 W) :=
  after_append opsD2 fromE1 W

/-- The fold from window E1 on is the fold from the next window on, after window E1. -/
theorem after_fromE1 (W : Valuation τ sig (Elt F)) : after fromE1 W = after fromE1c (after opsE1 W) :=
  after_append opsE1 fromE1c W

/-- The fold from window E1c on is the fold from the next window on, after window E1c. -/
theorem after_fromE1c (W : Valuation τ sig (Elt F)) : after fromE1c W = after fromE2 (after opsE1c W) :=
  after_append opsE1c fromE2 W

/-- The fold from window E2 on is the fold from the next window on, after window E2. -/
theorem after_fromE2 (W : Valuation τ sig (Elt F)) : after fromE2 W = after fromF1 (after opsE2 W) :=
  after_append opsE2 fromF1 W

/-- The fold from window F1 on is the fold from the next window on, after window F1. -/
theorem after_fromF1 (W : Valuation τ sig (Elt F)) : after fromF1 W = after fromF2 (after opsF1 W) :=
  after_append opsF1 fromF2 W

/-- The fold from window F2 on is the fold from the next window on, after window F2. -/
theorem after_fromF2 (W : Valuation τ sig (Elt F)) : after fromF2 W = after fromF2c (after opsF2 W) :=
  after_append opsF2 fromF2c W

/-- The fold from window F2c on is the fold from the next window on, after window F2c. -/
theorem after_fromF2c (W : Valuation τ sig (Elt F)) : after fromF2c W = after fromJ1 (after opsF2c W) :=
  after_append opsF2c fromJ1 W

/-- The fold from window J1 on is the fold from the next window on, after window J1. -/
theorem after_fromJ1 (W : Valuation τ sig (Elt F)) : after fromJ1 W = after fromJ2 (after opsJ1 W) :=
  after_append opsJ1 fromJ2 W

/-- The fold from window J2 on is the fold from the next window on, after window J2. -/
theorem after_fromJ2 (W : Valuation τ sig (Elt F)) : after fromJ2 W = after fromJ3 (after opsJ2 W) :=
  after_append opsJ2 fromJ3 W

/-- The fold from window J3 on is the fold from the next window on, after window J3. -/
theorem after_fromJ3 (W : Valuation τ sig (Elt F)) : after fromJ3 W = after fromJ4 (after opsJ3 W) :=
  after_append opsJ3 fromJ4 W

/-- The fold from window J4 on is the fold from the next window on, after window J4. -/
theorem after_fromJ4 (W : Valuation τ sig (Elt F)) : after fromJ4 W = after fromJ5 (after opsJ4 W) :=
  after_append opsJ4 fromJ5 W

/-- The fold from window J5 on is the fold from the next window on, after window J5. -/
theorem after_fromJ5 (W : Valuation τ sig (Elt F)) : after fromJ5 W = after fromJ6 (after opsJ5 W) :=
  after_append opsJ5 fromJ6 W

/-- The fold from window J6 on is the fold from the next window on, after window J6. -/
theorem after_fromJ6 (W : Valuation τ sig (Elt F)) : after fromJ6 W = after fromJ7 (after opsJ6 W) :=
  after_append opsJ6 fromJ7 W

/-- The fold from window J7 on is the fold from the next window on, after window J7. -/
theorem after_fromJ7 (W : Valuation τ sig (Elt F)) : after fromJ7 W = after fromH (after opsJ7 W) :=
  after_append opsJ7 fromH W

/-- The fold from window H on is the fold from the next window on, after window H. -/
theorem after_fromH (W : Valuation τ sig (Elt F)) : after fromH W = after fromHc (after opsH W) :=
  after_append opsH fromHc W

/-- The fold from window Hc on is the fold from the next window on, after window Hc. -/
theorem after_fromHc (W : Valuation τ sig (Elt F)) : after fromHc W = after fromHz (after opsHc W) :=
  after_append opsHc fromHz W

/-- All of @main is windows up to A, then the rest. -/
theorem after_ops_atA (V : Valuation τ sig (Elt F)) : after ops V = after fromAc (atA V) := by
  exact after_fromA V

/-- All of @main is windows up to Ac, then the rest. -/
theorem after_ops_atAc (V : Valuation τ sig (Elt F)) : after ops V = after fromI0 (atAc V) := by
  rw [after_ops_atA V]; exact after_fromAc (atA V)

/-- All of @main is windows up to I0, then the rest. -/
theorem after_ops_atI0 (V : Valuation τ sig (Elt F)) : after ops V = after fromI1 (atI0 V) := by
  rw [after_ops_atAc V]; exact after_fromI0 (atAc V)

/-- All of @main is windows up to I1, then the rest. -/
theorem after_ops_atI1 (V : Valuation τ sig (Elt F)) : after ops V = after fromI2 (atI1 V) := by
  rw [after_ops_atI0 V]; exact after_fromI1 (atI0 V)

/-- All of @main is windows up to I2, then the rest. -/
theorem after_ops_atI2 (V : Valuation τ sig (Elt F)) : after ops V = after fromI3 (atI2 V) := by
  rw [after_ops_atI1 V]; exact after_fromI2 (atI1 V)

/-- All of @main is windows up to I3, then the rest. -/
theorem after_ops_atI3 (V : Valuation τ sig (Elt F)) : after ops V = after fromI4 (atI3 V) := by
  rw [after_ops_atI2 V]; exact after_fromI3 (atI2 V)

/-- All of @main is windows up to I4, then the rest. -/
theorem after_ops_atI4 (V : Valuation τ sig (Elt F)) : after ops V = after fromI5 (atI4 V) := by
  rw [after_ops_atI3 V]; exact after_fromI4 (atI3 V)

/-- All of @main is windows up to I5, then the rest. -/
theorem after_ops_atI5 (V : Valuation τ sig (Elt F)) : after ops V = after fromI6 (atI5 V) := by
  rw [after_ops_atI4 V]; exact after_fromI5 (atI4 V)

/-- All of @main is windows up to I6, then the rest. -/
theorem after_ops_atI6 (V : Valuation τ sig (Elt F)) : after ops V = after fromI7 (atI6 V) := by
  rw [after_ops_atI5 V]; exact after_fromI6 (atI5 V)

/-- All of @main is windows up to I7, then the rest. -/
theorem after_ops_atI7 (V : Valuation τ sig (Elt F)) : after ops V = after fromC (atI7 V) := by
  rw [after_ops_atI6 V]; exact after_fromI7 (atI6 V)

/-- All of @main is windows up to C, then the rest. -/
theorem after_ops_atC (V : Valuation τ sig (Elt F)) : after ops V = after fromD1 (atC V) := by
  rw [after_ops_atI7 V]; exact after_fromC (atI7 V)

/-- All of @main is windows up to D1, then the rest. -/
theorem after_ops_atD1 (V : Valuation τ sig (Elt F)) : after ops V = after fromD2 (atD1 V) := by
  rw [after_ops_atC V]; exact after_fromD1 (atC V)

/-- All of @main is windows up to D2, then the rest. -/
theorem after_ops_atD2 (V : Valuation τ sig (Elt F)) : after ops V = after fromE1 (atD2 V) := by
  rw [after_ops_atD1 V]; exact after_fromD2 (atD1 V)

/-- All of @main is windows up to E1, then the rest. -/
theorem after_ops_atE1 (V : Valuation τ sig (Elt F)) : after ops V = after fromE1c (atE1 V) := by
  rw [after_ops_atD2 V]; exact after_fromE1 (atD2 V)

/-- All of @main is windows up to E1c, then the rest. -/
theorem after_ops_atE1c (V : Valuation τ sig (Elt F)) : after ops V = after fromE2 (atE1c V) := by
  rw [after_ops_atE1 V]; exact after_fromE1c (atE1 V)

/-- All of @main is windows up to E2, then the rest. -/
theorem after_ops_atE2 (V : Valuation τ sig (Elt F)) : after ops V = after fromF1 (atE2 V) := by
  rw [after_ops_atE1c V]; exact after_fromE2 (atE1c V)

/-- All of @main is windows up to F1, then the rest. -/
theorem after_ops_atF1 (V : Valuation τ sig (Elt F)) : after ops V = after fromF2 (atF1 V) := by
  rw [after_ops_atE2 V]; exact after_fromF1 (atE2 V)

/-- All of @main is windows up to F2, then the rest. -/
theorem after_ops_atF2 (V : Valuation τ sig (Elt F)) : after ops V = after fromF2c (atF2 V) := by
  rw [after_ops_atF1 V]; exact after_fromF2 (atF1 V)

/-- All of @main is windows up to F2c, then the rest. -/
theorem after_ops_atF2c (V : Valuation τ sig (Elt F)) : after ops V = after fromJ1 (atF2c V) := by
  rw [after_ops_atF2 V]; exact after_fromF2c (atF2 V)

/-- All of @main is windows up to J1, then the rest. -/
theorem after_ops_atJ1 (V : Valuation τ sig (Elt F)) : after ops V = after fromJ2 (atJ1 V) := by
  rw [after_ops_atF2c V]; exact after_fromJ1 (atF2c V)

/-- All of @main is windows up to J2, then the rest. -/
theorem after_ops_atJ2 (V : Valuation τ sig (Elt F)) : after ops V = after fromJ3 (atJ2 V) := by
  rw [after_ops_atJ1 V]; exact after_fromJ2 (atJ1 V)

/-- All of @main is windows up to J3, then the rest. -/
theorem after_ops_atJ3 (V : Valuation τ sig (Elt F)) : after ops V = after fromJ4 (atJ3 V) := by
  rw [after_ops_atJ2 V]; exact after_fromJ3 (atJ2 V)

/-- All of @main is windows up to J4, then the rest. -/
theorem after_ops_atJ4 (V : Valuation τ sig (Elt F)) : after ops V = after fromJ5 (atJ4 V) := by
  rw [after_ops_atJ3 V]; exact after_fromJ4 (atJ3 V)

/-- All of @main is windows up to J5, then the rest. -/
theorem after_ops_atJ5 (V : Valuation τ sig (Elt F)) : after ops V = after fromJ6 (atJ5 V) := by
  rw [after_ops_atJ4 V]; exact after_fromJ5 (atJ4 V)

/-- All of @main is windows up to J6, then the rest. -/
theorem after_ops_atJ6 (V : Valuation τ sig (Elt F)) : after ops V = after fromJ7 (atJ6 V) := by
  rw [after_ops_atJ5 V]; exact after_fromJ6 (atJ5 V)

/-- All of @main is windows up to J7, then the rest. -/
theorem after_ops_atJ7 (V : Valuation τ sig (Elt F)) : after ops V = after fromH (atJ7 V) := by
  rw [after_ops_atJ6 V]; exact after_fromJ7 (atJ6 V)

/-- All of @main is windows up to H, then the rest. -/
theorem after_ops_atH (V : Valuation τ sig (Elt F)) : after ops V = after fromHc (atH V) := by
  rw [after_ops_atJ7 V]; exact after_fromH (atJ7 V)

/-- All of @main is windows up to Hc, then the rest. -/
theorem after_ops_atHc (V : Valuation τ sig (Elt F)) : after ops V = after fromHz (atHc V) := by
  rw [after_ops_atH V]; exact after_fromHc (atH V)

/-- The fold over all of @main is the windows' folds one after the other: `atHz V` unfolds to
    `after opsHz (after opsHc (… (after opsAc (after opsA V))))`. -/
theorem after_ops (V : Valuation τ sig (Elt F)) : after ops V = atHz V := by
  rw [after_ops_atHc V]

end Cert.ReferenceIdeal.RefRun

end
-- ==== Proof.RefMainEq.lean ====
/-
  The reference's run, by hand: @main is the straight line of its operations. Each printed part of @main
  (main_part0, main_part1, main_part2) is `seq` of its windows: unfolding the part and the bodies of the
  functions it calls puts every callee's statements at the call site (a call means its callee's body on the
  operands), and reassociating the sequencing (`bind_assoc`, `pure_bind`) leaves one chain of `hlo` steps,
  the same chain `seq` unfolds to. @main runs the three parts in order, and `seq` of a concatenation is the
  two lines in order (`seq_append`), so @main is `seq ops`.
-/
import proofs.«145994_j34600256537163_1_alg».proof.Proof.RefOps

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- @main's first part is the line of windows A, Ac, I0, I1, I2, I3, I4, I5, I6, I7, C, D1. -/
theorem main_part0_eq (c : Dev nD) : main_part0 (F := F) c =
    seq (opsA ++ (opsAc ++ (opsI0 ++ (opsI1 ++ (opsI2 ++ (opsI3 ++ (opsI4 ++ (opsI5 ++ (opsI6 ++ (opsI7 ++ (opsC ++ (opsD1)))))))))))) := by
  simp only [seq_append, main_part0, fn_leaky_relu.body, fn_where.body, fn_roll_static.body, fn_cumsum.body, fn_cumsum_0.body, fn_cumsum_1.body, fn_cumsum_2.body, fn_take.body, fn_where_3.body,
    seq, bind_assoc, pure_bind]
  first | done | rfl

/-- @main's second part is the line of windows D2, E1, E1c, E2, F1. -/
theorem main_part1_eq (c : Dev nD) : main_part1 (F := F) c =
    seq (opsD2 ++ (opsE1 ++ (opsE1c ++ (opsE2 ++ (opsF1))))) := by
  simp only [seq_append, main_part1, fn_leaky_relu_4.body, fn_where_5.body,
    seq, bind_assoc, pure_bind]
  first | done | rfl

/-- @main's third part is the line of windows F2, F2c, J1, J2, J3, J4, J5, J6, J7, H, Hc, Hz. -/
theorem main_part2_eq (c : Dev nD) : main_part2 (F := F) c =
    seq (opsF2 ++ (opsF2c ++ (opsJ1 ++ (opsJ2 ++ (opsJ3 ++ (opsJ4 ++ (opsJ5 ++ (opsJ6 ++ (opsJ7 ++ (opsH ++ (opsHc ++ (opsHz)))))))))))) := by
  simp only [seq_append, main_part2, fn_where_6.body, fn_roll_static.body, fn_cumsum.body, fn_cumsum_0.body, fn_cumsum_1.body, fn_cumsum_2.body, fn_take_7.body, fn_where_3.body, fn_where_8.body,
    seq, bind_assoc, pure_bind]
  first | done | rfl

/-- @main is the straight line of its 238 operations. -/
theorem main_eq (c : Dev nD) : main (F := F) c = seq ops := by
  have h : main (F := F) c = (main_part0 c >>= fun _ => main_part1 c >>= fun _ => main_part2 c) := rfl
  rw [h, main_part0_eq, main_part1_eq, main_part2_eq, ops_eq]
  simp only [seq_append, bind_assoc]

end Cert.ReferenceIdeal.RefRun

end
-- ==== Proof.RefRun.lean ====
/-
  The reference's run, by hand: every weakly fair execution of @main terminates, and each TensorCore buffer
  ends at the fold of the operations' results over its launch contents (the library's `run_seq`). What the
  library asks: that @main is `seq ops` (RefMainEq), that the signature scopes no TensorCore buffer and no
  semaphore, that every operation touches TensorCore references only and determines its results — the last two
  window by window (RefOps0/1/2), carried back along the suffixes `fromHz … fromA` of the list, one window at a
  time.
-/
import proofs.«145994_j34600256537163_1_alg».proof.Proof.RefMainEq

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide
theorem fromHz_sub : (fromHz : List (HloOp τ sig (Elt F))).Forall fun op => op.bufs ⊆ tcRefs τ sig :=
  opsHz_sub
theorem fromHc_sub : (fromHc : List (HloOp τ sig (Elt F))).Forall fun op => op.bufs ⊆ tcRefs τ sig :=
  forall_append_of opsHc_sub fromHz_sub
theorem fromH_sub : (fromH : List (HloOp τ sig (Elt F))).Forall fun op => op.bufs ⊆ tcRefs τ sig :=
  forall_append_of opsH_sub fromHc_sub
theorem fromJ7_sub : (fromJ7 : List (HloOp τ sig (Elt F))).Forall fun op => op.bufs ⊆ tcRefs τ sig :=
  forall_append_of opsJ7_sub fromH_sub
theorem fromJ6_sub : (fromJ6 : List (HloOp τ sig (Elt F))).Forall fun op => op.bufs ⊆ tcRefs τ sig :=
  forall_append_of opsJ6_sub fromJ7_sub
theorem fromJ5_sub : (fromJ5 : List (HloOp τ sig (Elt F))).Forall fun op => op.bufs ⊆ tcRefs τ sig :=
  forall_append_of opsJ5_sub fromJ6_sub
theorem fromJ4_sub : (fromJ4 : List (HloOp τ sig (Elt F))).Forall fun op => op.bufs ⊆ tcRefs τ sig :=
  forall_append_of opsJ4_sub fromJ5_sub
theorem fromJ3_sub : (fromJ3 : List (HloOp τ sig (Elt F))).Forall fun op => op.bufs ⊆ tcRefs τ sig :=
  forall_append_of opsJ3_sub fromJ4_sub
theorem fromJ2_sub : (fromJ2 : List (HloOp τ sig (Elt F))).Forall fun op => op.bufs ⊆ tcRefs τ sig :=
  forall_append_of opsJ2_sub fromJ3_sub
theorem fromJ1_sub : (fromJ1 : List (HloOp τ sig (Elt F))).Forall fun op => op.bufs ⊆ tcRefs τ sig :=
  forall_append_of opsJ1_sub fromJ2_sub
theorem fromF2c_sub : (fromF2c : List (HloOp τ sig (Elt F))).Forall fun op => op.bufs ⊆ tcRefs τ sig :=
  forall_append_of opsF2c_sub fromJ1_sub
theorem fromF2_sub : (fromF2 : List (HloOp τ sig (Elt F))).Forall fun op => op.bufs ⊆ tcRefs τ sig :=
  forall_append_of opsF2_sub fromF2c_sub
theorem fromF1_sub : (fromF1 : List (HloOp τ sig (Elt F))).Forall fun op => op.bufs ⊆ tcRefs τ sig :=
  forall_append_of opsF1_sub fromF2_sub
theorem fromE2_sub : (fromE2 : List (HloOp τ sig (Elt F))).Forall fun op => op.bufs ⊆ tcRefs τ sig :=
  forall_append_of opsE2_sub fromF1_sub
theorem fromE1c_sub : (fromE1c : List (HloOp τ sig (Elt F))).Forall fun op => op.bufs ⊆ tcRefs τ sig :=
  forall_append_of opsE1c_sub fromE2_sub
theorem fromE1_sub : (fromE1 : List (HloOp τ sig (Elt F))).Forall fun op => op.bufs ⊆ tcRefs τ sig :=
  forall_append_of opsE1_sub fromE1c_sub
theorem fromD2_sub : (fromD2 : List (HloOp τ sig (Elt F))).Forall fun op => op.bufs ⊆ tcRefs τ sig :=
  forall_append_of opsD2_sub fromE1_sub
theorem fromD1_sub : (fromD1 : List (HloOp τ sig (Elt F))).Forall fun op => op.bufs ⊆ tcRefs τ sig :=
  forall_append_of opsD1_sub fromD2_sub
theorem fromC_sub : (fromC : List (HloOp τ sig (Elt F))).Forall fun op => op.bufs ⊆ tcRefs τ sig :=
  forall_append_of opsC_sub fromD1_sub
theorem fromI7_sub : (fromI7 : List (HloOp τ sig (Elt F))).Forall fun op => op.bufs ⊆ tcRefs τ sig :=
  forall_append_of opsI7_sub fromC_sub
theorem fromI6_sub : (fromI6 : List (HloOp τ sig (Elt F))).Forall fun op => op.bufs ⊆ tcRefs τ sig :=
  forall_append_of opsI6_sub fromI7_sub
theorem fromI5_sub : (fromI5 : List (HloOp τ sig (Elt F))).Forall fun op => op.bufs ⊆ tcRefs τ sig :=
  forall_append_of opsI5_sub fromI6_sub
theorem fromI4_sub : (fromI4 : List (HloOp τ sig (Elt F))).Forall fun op => op.bufs ⊆ tcRefs τ sig :=
  forall_append_of opsI4_sub fromI5_sub
theorem fromI3_sub : (fromI3 : List (HloOp τ sig (Elt F))).Forall fun op => op.bufs ⊆ tcRefs τ sig :=
  forall_append_of opsI3_sub fromI4_sub
theorem fromI2_sub : (fromI2 : List (HloOp τ sig (Elt F))).Forall fun op => op.bufs ⊆ tcRefs τ sig :=
  forall_append_of opsI2_sub fromI3_sub
theorem fromI1_sub : (fromI1 : List (HloOp τ sig (Elt F))).Forall fun op => op.bufs ⊆ tcRefs τ sig :=
  forall_append_of opsI1_sub fromI2_sub
theorem fromI0_sub : (fromI0 : List (HloOp τ sig (Elt F))).Forall fun op => op.bufs ⊆ tcRefs τ sig :=
  forall_append_of opsI0_sub fromI1_sub
theorem fromAc_sub : (fromAc : List (HloOp τ sig (Elt F))).Forall fun op => op.bufs ⊆ tcRefs τ sig :=
  forall_append_of opsAc_sub fromI0_sub
theorem fromA_sub : (fromA : List (HloOp τ sig (Elt F))).Forall fun op => op.bufs ⊆ tcRefs τ sig :=
  forall_append_of opsA_sub fromAc_sub

theorem fromHz_fresh : (fromHz : List (HloOp τ sig (Elt F))).Forall fun op => op.fresh = ∅ :=
  opsHz_fresh
theorem fromHc_fresh : (fromHc : List (HloOp τ sig (Elt F))).Forall fun op => op.fresh = ∅ :=
  forall_append_of opsHc_fresh fromHz_fresh
theorem fromH_fresh : (fromH : List (HloOp τ sig (Elt F))).Forall fun op => op.fresh = ∅ :=
  forall_append_of opsH_fresh fromHc_fresh
theorem fromJ7_fresh : (fromJ7 : List (HloOp τ sig (Elt F))).Forall fun op => op.fresh = ∅ :=
  forall_append_of opsJ7_fresh fromH_fresh
theorem fromJ6_fresh : (fromJ6 : List (HloOp τ sig (Elt F))).Forall fun op => op.fresh = ∅ :=
  forall_append_of opsJ6_fresh fromJ7_fresh
theorem fromJ5_fresh : (fromJ5 : List (HloOp τ sig (Elt F))).Forall fun op => op.fresh = ∅ :=
  forall_append_of opsJ5_fresh fromJ6_fresh
theorem fromJ4_fresh : (fromJ4 : List (HloOp τ sig (Elt F))).Forall fun op => op.fresh = ∅ :=
  forall_append_of opsJ4_fresh fromJ5_fresh
theorem fromJ3_fresh : (fromJ3 : List (HloOp τ sig (Elt F))).Forall fun op => op.fresh = ∅ :=
  forall_append_of opsJ3_fresh fromJ4_fresh
theorem fromJ2_fresh : (fromJ2 : List (HloOp τ sig (Elt F))).Forall fun op => op.fresh = ∅ :=
  forall_append_of opsJ2_fresh fromJ3_fresh
theorem fromJ1_fresh : (fromJ1 : List (HloOp τ sig (Elt F))).Forall fun op => op.fresh = ∅ :=
  forall_append_of opsJ1_fresh fromJ2_fresh
theorem fromF2c_fresh : (fromF2c : List (HloOp τ sig (Elt F))).Forall fun op => op.fresh = ∅ :=
  forall_append_of opsF2c_fresh fromJ1_fresh
theorem fromF2_fresh : (fromF2 : List (HloOp τ sig (Elt F))).Forall fun op => op.fresh = ∅ :=
  forall_append_of opsF2_fresh fromF2c_fresh
theorem fromF1_fresh : (fromF1 : List (HloOp τ sig (Elt F))).Forall fun op => op.fresh = ∅ :=
  forall_append_of opsF1_fresh fromF2_fresh
theorem fromE2_fresh : (fromE2 : List (HloOp τ sig (Elt F))).Forall fun op => op.fresh = ∅ :=
  forall_append_of opsE2_fresh fromF1_fresh
theorem fromE1c_fresh : (fromE1c : List (HloOp τ sig (Elt F))).Forall fun op => op.fresh = ∅ :=
  forall_append_of opsE1c_fresh fromE2_fresh
theorem fromE1_fresh : (fromE1 : List (HloOp τ sig (Elt F))).Forall fun op => op.fresh = ∅ :=
  forall_append_of opsE1_fresh fromE1c_fresh
theorem fromD2_fresh : (fromD2 : List (HloOp τ sig (Elt F))).Forall fun op => op.fresh = ∅ :=
  forall_append_of opsD2_fresh fromE1_fresh
theorem fromD1_fresh : (fromD1 : List (HloOp τ sig (Elt F))).Forall fun op => op.fresh = ∅ :=
  forall_append_of opsD1_fresh fromD2_fresh
theorem fromC_fresh : (fromC : List (HloOp τ sig (Elt F))).Forall fun op => op.fresh = ∅ :=
  forall_append_of opsC_fresh fromD1_fresh
theorem fromI7_fresh : (fromI7 : List (HloOp τ sig (Elt F))).Forall fun op => op.fresh = ∅ :=
  forall_append_of opsI7_fresh fromC_fresh
theorem fromI6_fresh : (fromI6 : List (HloOp τ sig (Elt F))).Forall fun op => op.fresh = ∅ :=
  forall_append_of opsI6_fresh fromI7_fresh
theorem fromI5_fresh : (fromI5 : List (HloOp τ sig (Elt F))).Forall fun op => op.fresh = ∅ :=
  forall_append_of opsI5_fresh fromI6_fresh
theorem fromI4_fresh : (fromI4 : List (HloOp τ sig (Elt F))).Forall fun op => op.fresh = ∅ :=
  forall_append_of opsI4_fresh fromI5_fresh
theorem fromI3_fresh : (fromI3 : List (HloOp τ sig (Elt F))).Forall fun op => op.fresh = ∅ :=
  forall_append_of opsI3_fresh fromI4_fresh
theorem fromI2_fresh : (fromI2 : List (HloOp τ sig (Elt F))).Forall fun op => op.fresh = ∅ :=
  forall_append_of opsI2_fresh fromI3_fresh
theorem fromI1_fresh : (fromI1 : List (HloOp τ sig (Elt F))).Forall fun op => op.fresh = ∅ :=
  forall_append_of opsI1_fresh fromI2_fresh
theorem fromI0_fresh : (fromI0 : List (HloOp τ sig (Elt F))).Forall fun op => op.fresh = ∅ :=
  forall_append_of opsI0_fresh fromI1_fresh
theorem fromAc_fresh : (fromAc : List (HloOp τ sig (Elt F))).Forall fun op => op.fresh = ∅ :=
  forall_append_of opsAc_fresh fromI0_fresh
theorem fromA_fresh : (fromA : List (HloOp τ sig (Elt F))).Forall fun op => op.fresh = ∅ :=
  forall_append_of opsA_fresh fromAc_fresh

theorem ops_sub : (ops : List (HloOp τ sig (Elt F))).Forall fun op => op.bufs ⊆ tcRefs τ sig := fromA_sub

/-- Every operation of @main determines its results (no buffer is allocated with contents not chosen). -/
theorem ops_fresh : (ops : List (HloOp τ sig (Elt F))).Forall fun op => op.fresh = ∅ := fromA_fresh

theorem ops_fresh_mem : ∀ op ∈ (ops : List (HloOp τ sig (Elt F))), op.fresh = ∅ :=
  List.forall_iff_forall_mem.mp ops_fresh

/-- On every device, for any float values, from any memory with zero counters: every weakly fair execution of
    @main terminates, and every final state has each TensorCore buffer at the operations' fold over the launch
    contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh_mem)

end Cert.ReferenceIdeal.RefRun

end
-- ==== Proof.RefFrame.lean ====
/-
  The reference's run, by hand: reading a buffer through the fold window by window. A window leaves alone every
  buffer outside the list of buffers it writes (`after_of_writes_sub`). Per window K:
    `fromK_skip`      the windows from K on leave alone a buffer none of them writes;
    `ops_eq_atK`      so a buffer no window AFTER K writes holds after all of @main what it holds after window K
                      (`atK V`);
    `atK_unwritten`   and a buffer no window up to K writes still holds its launch contents there.
  Each is stated under a hypothesis `r ∉ …` over a LITERAL list of references (`wfromK`: the buffers written from
  window K on; `wuptoK`: up to and including K), decided in one pass at each use. With them a buffer written in
  window K is read by opening window K alone.
-/
import proofs.«145994_j34600256537163_1_alg».proof.Proof.RefOps

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- The buffers written from window Hz on. -/
abbrev wfromHz : List (Ref sig .tc) := wrHz

/-- The buffers written from window Hc on. -/
abbrev wfromHc : List (Ref sig .tc) := wrHc ++ wfromHz

/-- The buffers written from window H on. -/
abbrev wfromH : List (Ref sig .tc) := wrH ++ wfromHc

/-- The buffers written from window J7 on. -/
abbrev wfromJ7 : List (Ref sig .tc) := wrJ7 ++ wfromH

/-- The buffers written from window J6 on. -/
abbrev wfromJ6 : List (Ref sig .tc) := wrJ6 ++ wfromJ7

/-- The buffers written from window J5 on. -/
abbrev wfromJ5 : List (Ref sig .tc) := wrJ5 ++ wfromJ6

/-- The buffers written from window J4 on. -/
abbrev wfromJ4 : List (Ref sig .tc) := wrJ4 ++ wfromJ5

/-- The buffers written from window J3 on. -/
abbrev wfromJ3 : List (Ref sig .tc) := wrJ3 ++ wfromJ4

/-- The buffers written from window J2 on. -/
abbrev wfromJ2 : List (Ref sig .tc) := wrJ2 ++ wfromJ3

/-- The buffers written from window J1 on. -/
abbrev wfromJ1 : List (Ref sig .tc) := wrJ1 ++ wfromJ2

/-- The buffers written from window F2c on. -/
abbrev wfromF2c : List (Ref sig .tc) := wrF2c ++ wfromJ1

/-- The buffers written from window F2 on. -/
abbrev wfromF2 : List (Ref sig .tc) := wrF2 ++ wfromF2c

/-- The buffers written from window F1 on. -/
abbrev wfromF1 : List (Ref sig .tc) := wrF1 ++ wfromF2

/-- The buffers written from window E2 on. -/
abbrev wfromE2 : List (Ref sig .tc) := wrE2 ++ wfromF1

/-- The buffers written from window E1c on. -/
abbrev wfromE1c : List (Ref sig .tc) := wrE1c ++ wfromE2

/-- The buffers written from window E1 on. -/
abbrev wfromE1 : List (Ref sig .tc) := wrE1 ++ wfromE1c

/-- The buffers written from window D2 on. -/
abbrev wfromD2 : List (Ref sig .tc) := wrD2 ++ wfromE1

/-- The buffers written from window D1 on. -/
abbrev wfromD1 : List (Ref sig .tc) := wrD1 ++ wfromD2

/-- The buffers written from window C on. -/
abbrev wfromC : List (Ref sig .tc) := wrC ++ wfromD1

/-- The buffers written from window I7 on. -/
abbrev wfromI7 : List (Ref sig .tc) := wrI7 ++ wfromC

/-- The buffers written from window I6 on. -/
abbrev wfromI6 : List (Ref sig .tc) := wrI6 ++ wfromI7

/-- The buffers written from window I5 on. -/
abbrev wfromI5 : List (Ref sig .tc) := wrI5 ++ wfromI6

/-- The buffers written from window I4 on. -/
abbrev wfromI4 : List (Ref sig .tc) := wrI4 ++ wfromI5

/-- The buffers written from window I3 on. -/
abbrev wfromI3 : List (Ref sig .tc) := wrI3 ++ wfromI4

/-- The buffers written from window I2 on. -/
abbrev wfromI2 : List (Ref sig .tc) := wrI2 ++ wfromI3

/-- The buffers written from window I1 on. -/
abbrev wfromI1 : List (Ref sig .tc) := wrI1 ++ wfromI2

/-- The buffers written from window I0 on. -/
abbrev wfromI0 : List (Ref sig .tc) := wrI0 ++ wfromI1

/-- The buffers written from window Ac on. -/
abbrev wfromAc : List (Ref sig .tc) := wrAc ++ wfromI0

/-- The buffers written from window A on. -/
abbrev wfromA : List (Ref sig .tc) := wrA ++ wfromAc

/-- The buffers written up to and including window A. -/
abbrev wuptoA : List (Ref sig .tc) := wrA

/-- The buffers written up to and including window Ac. -/
abbrev wuptoAc : List (Ref sig .tc) := wrAc ++ wuptoA

/-- The buffers written up to and including window I0. -/
abbrev wuptoI0 : List (Ref sig .tc) := wrI0 ++ wuptoAc

/-- The buffers written up to and including window I1. -/
abbrev wuptoI1 : List (Ref sig .tc) := wrI1 ++ wuptoI0

/-- The buffers written up to and including window I2. -/
abbrev wuptoI2 : List (Ref sig .tc) := wrI2 ++ wuptoI1

/-- The buffers written up to and including window I3. -/
abbrev wuptoI3 : List (Ref sig .tc) := wrI3 ++ wuptoI2

/-- The buffers written up to and including window I4. -/
abbrev wuptoI4 : List (Ref sig .tc) := wrI4 ++ wuptoI3

/-- The buffers written up to and including window I5. -/
abbrev wuptoI5 : List (Ref sig .tc) := wrI5 ++ wuptoI4

/-- The buffers written up to and including window I6. -/
abbrev wuptoI6 : List (Ref sig .tc) := wrI6 ++ wuptoI5

/-- The buffers written up to and including window I7. -/
abbrev wuptoI7 : List (Ref sig .tc) := wrI7 ++ wuptoI6

/-- The buffers written up to and including window C. -/
abbrev wuptoC : List (Ref sig .tc) := wrC ++ wuptoI7

/-- The buffers written up to and including window D1. -/
abbrev wuptoD1 : List (Ref sig .tc) := wrD1 ++ wuptoC

/-- The buffers written up to and including window D2. -/
abbrev wuptoD2 : List (Ref sig .tc) := wrD2 ++ wuptoD1

/-- The buffers written up to and including window E1. -/
abbrev wuptoE1 : List (Ref sig .tc) := wrE1 ++ wuptoD2

/-- The buffers written up to and including window E1c. -/
abbrev wuptoE1c : List (Ref sig .tc) := wrE1c ++ wuptoE1

/-- The buffers written up to and including window E2. -/
abbrev wuptoE2 : List (Ref sig .tc) := wrE2 ++ wuptoE1c

/-- The buffers written up to and including window F1. -/
abbrev wuptoF1 : List (Ref sig .tc) := wrF1 ++ wuptoE2

/-- The buffers written up to and including window F2. -/
abbrev wuptoF2 : List (Ref sig .tc) := wrF2 ++ wuptoF1

/-- The buffers written up to and including window F2c. -/
abbrev wuptoF2c : List (Ref sig .tc) := wrF2c ++ wuptoF2

/-- The buffers written up to and including window J1. -/
abbrev wuptoJ1 : List (Ref sig .tc) := wrJ1 ++ wuptoF2c

/-- The buffers written up to and including window J2. -/
abbrev wuptoJ2 : List (Ref sig .tc) := wrJ2 ++ wuptoJ1

/-- The buffers written up to and including window J3. -/
abbrev wuptoJ3 : List (Ref sig .tc) := wrJ3 ++ wuptoJ2

/-- The buffers written up to and including window J4. -/
abbrev wuptoJ4 : List (Ref sig .tc) := wrJ4 ++ wuptoJ3

/-- The buffers written up to and including window J5. -/
abbrev wuptoJ5 : List (Ref sig .tc) := wrJ5 ++ wuptoJ4

/-- The buffers written up to and including window J6. -/
abbrev wuptoJ6 : List (Ref sig .tc) := wrJ6 ++ wuptoJ5

/-- The buffers written up to and including window J7. -/
abbrev wuptoJ7 : List (Ref sig .tc) := wrJ7 ++ wuptoJ6

/-- The buffers written up to and including window H. -/
abbrev wuptoH : List (Ref sig .tc) := wrH ++ wuptoJ7

/-- The buffers written up to and including window Hc. -/
abbrev wuptoHc : List (Ref sig .tc) := wrHc ++ wuptoH

/-- The buffers written up to and including window Hz. -/
abbrev wuptoHz : List (Ref sig .tc) := wrHz ++ wuptoHc

/-- The last window leaves alone a buffer it does not write. -/
theorem fromHz_skip {r : Ref sig .tc} (h : r ∉ wfromHz) (W : Valuation τ sig (Elt F)) :
    after fromHz W (Proc.devRef .tc r) = W (Proc.devRef .tc r) :=
  after_of_writes_sub opsHz W opsHz_writes h

/-- The windows from Hc on leave alone a buffer none of them writes. -/
theorem fromHc_skip {r : Ref sig .tc} (h : r ∉ wfromHc) (W : Valuation τ sig (Elt F)) :
    after fromHc W (Proc.devRef .tc r) = W (Proc.devRef .tc r) := by
  rw [after_fromHc W, fromHz_skip (fun hm => h (List.mem_append_right _ hm))]
  exact after_of_writes_sub opsHc W opsHc_writes (fun hm => h (List.mem_append_left _ hm))

/-- The windows from H on leave alone a buffer none of them writes. -/
theorem fromH_skip {r : Ref sig .tc} (h : r ∉ wfromH) (W : Valuation τ sig (Elt F)) :
    after fromH W (Proc.devRef .tc r) = W (Proc.devRef .tc r) := by
  rw [after_fromH W, fromHc_skip (fun hm => h (List.mem_append_right _ hm))]
  exact after_of_writes_sub opsH W opsH_writes (fun hm => h (List.mem_append_left _ hm))

/-- The windows from J7 on leave alone a buffer none of them writes. -/
theorem fromJ7_skip {r : Ref sig .tc} (h : r ∉ wfromJ7) (W : Valuation τ sig (Elt F)) :
    after fromJ7 W (Proc.devRef .tc r) = W (Proc.devRef .tc r) := by
  rw [after_fromJ7 W, fromH_skip (fun hm => h (List.mem_append_right _ hm))]
  exact after_of_writes_sub opsJ7 W opsJ7_writes (fun hm => h (List.mem_append_left _ hm))

/-- The windows from J6 on leave alone a buffer none of them writes. -/
theorem fromJ6_skip {r : Ref sig .tc} (h : r ∉ wfromJ6) (W : Valuation τ sig (Elt F)) :
    after fromJ6 W (Proc.devRef .tc r) = W (Proc.devRef .tc r) := by
  rw [after_fromJ6 W, fromJ7_skip (fun hm => h (List.mem_append_right _ hm))]
  exact after_of_writes_sub opsJ6 W opsJ6_writes (fun hm => h (List.mem_append_left _ hm))

/-- The windows from J5 on leave alone a buffer none of them writes. -/
theorem fromJ5_skip {r : Ref sig .tc} (h : r ∉ wfromJ5) (W : Valuation τ sig (Elt F)) :
    after fromJ5 W (Proc.devRef .tc r) = W (Proc.devRef .tc r) := by
  rw [after_fromJ5 W, fromJ6_skip (fun hm => h (List.mem_append_right _ hm))]
  exact after_of_writes_sub opsJ5 W opsJ5_writes (fun hm => h (List.mem_append_left _ hm))

/-- The windows from J4 on leave alone a buffer none of them writes. -/
theorem fromJ4_skip {r : Ref sig .tc} (h : r ∉ wfromJ4) (W : Valuation τ sig (Elt F)) :
    after fromJ4 W (Proc.devRef .tc r) = W (Proc.devRef .tc r) := by
  rw [after_fromJ4 W, fromJ5_skip (fun hm => h (List.mem_append_right _ hm))]
  exact after_of_writes_sub opsJ4 W opsJ4_writes (fun hm => h (List.mem_append_left _ hm))

/-- The windows from J3 on leave alone a buffer none of them writes. -/
theorem fromJ3_skip {r : Ref sig .tc} (h : r ∉ wfromJ3) (W : Valuation τ sig (Elt F)) :
    after fromJ3 W (Proc.devRef .tc r) = W (Proc.devRef .tc r) := by
  rw [after_fromJ3 W, fromJ4_skip (fun hm => h (List.mem_append_right _ hm))]
  exact after_of_writes_sub opsJ3 W opsJ3_writes (fun hm => h (List.mem_append_left _ hm))

/-- The windows from J2 on leave alone a buffer none of them writes. -/
theorem fromJ2_skip {r : Ref sig .tc} (h : r ∉ wfromJ2) (W : Valuation τ sig (Elt F)) :
    after fromJ2 W (Proc.devRef .tc r) = W (Proc.devRef .tc r) := by
  rw [after_fromJ2 W, fromJ3_skip (fun hm => h (List.mem_append_right _ hm))]
  exact after_of_writes_sub opsJ2 W opsJ2_writes (fun hm => h (List.mem_append_left _ hm))

/-- The windows from J1 on leave alone a buffer none of them writes. -/
theorem fromJ1_skip {r : Ref sig .tc} (h : r ∉ wfromJ1) (W : Valuation τ sig (Elt F)) :
    after fromJ1 W (Proc.devRef .tc r) = W (Proc.devRef .tc r) := by
  rw [after_fromJ1 W, fromJ2_skip (fun hm => h (List.mem_append_right _ hm))]
  exact after_of_writes_sub opsJ1 W opsJ1_writes (fun hm => h (List.mem_append_left _ hm))

/-- The windows from F2c on leave alone a buffer none of them writes. -/
theorem fromF2c_skip {r : Ref sig .tc} (h : r ∉ wfromF2c) (W : Valuation τ sig (Elt F)) :
    after fromF2c W (Proc.devRef .tc r) = W (Proc.devRef .tc r) := by
  rw [after_fromF2c W, fromJ1_skip (fun hm => h (List.mem_append_right _ hm))]
  exact after_of_writes_sub opsF2c W opsF2c_writes (fun hm => h (List.mem_append_left _ hm))

/-- The windows from F2 on leave alone a buffer none of them writes. -/
theorem fromF2_skip {r : Ref sig .tc} (h : r ∉ wfromF2) (W : Valuation τ sig (Elt F)) :
    after fromF2 W (Proc.devRef .tc r) = W (Proc.devRef .tc r) := by
  rw [after_fromF2 W, fromF2c_skip (fun hm => h (List.mem_append_right _ hm))]
  exact after_of_writes_sub opsF2 W opsF2_writes (fun hm => h (List.mem_append_left _ hm))

/-- The windows from F1 on leave alone a buffer none of them writes. -/
theorem fromF1_skip {r : Ref sig .tc} (h : r ∉ wfromF1) (W : Valuation τ sig (Elt F)) :
    after fromF1 W (Proc.devRef .tc r) = W (Proc.devRef .tc r) := by
  rw [after_fromF1 W, fromF2_skip (fun hm => h (List.mem_append_right _ hm))]
  exact after_of_writes_sub opsF1 W opsF1_writes (fun hm => h (List.mem_append_left _ hm))

/-- The windows from E2 on leave alone a buffer none of them writes. -/
theorem fromE2_skip {r : Ref sig .tc} (h : r ∉ wfromE2) (W : Valuation τ sig (Elt F)) :
    after fromE2 W (Proc.devRef .tc r) = W (Proc.devRef .tc r) := by
  rw [after_fromE2 W, fromF1_skip (fun hm => h (List.mem_append_right _ hm))]
  exact after_of_writes_sub opsE2 W opsE2_writes (fun hm => h (List.mem_append_left _ hm))

/-- The windows from E1c on leave alone a buffer none of them writes. -/
theorem fromE1c_skip {r : Ref sig .tc} (h : r ∉ wfromE1c) (W : Valuation τ sig (Elt F)) :
    after fromE1c W (Proc.devRef .tc r) = W (Proc.devRef .tc r) := by
  rw [after_fromE1c W, fromE2_skip (fun hm => h (List.mem_append_right _ hm))]
  exact after_of_writes_sub opsE1c W opsE1c_writes (fun hm => h (List.mem_append_left _ hm))

/-- The windows from E1 on leave alone a buffer none of them writes. -/
theorem fromE1_skip {r : Ref sig .tc} (h : r ∉ wfromE1) (W : Valuation τ sig (Elt F)) :
    after fromE1 W (Proc.devRef .tc r) = W (Proc.devRef .tc r) := by
  rw [after_fromE1 W, fromE1c_skip (fun hm => h (List.mem_append_right _ hm))]
  exact after_of_writes_sub opsE1 W opsE1_writes (fun hm => h (List.mem_append_left _ hm))

/-- The windows from D2 on leave alone a buffer none of them writes. -/
theorem fromD2_skip {r : Ref sig .tc} (h : r ∉ wfromD2) (W : Valuation τ sig (Elt F)) :
    after fromD2 W (Proc.devRef .tc r) = W (Proc.devRef .tc r) := by
  rw [after_fromD2 W, fromE1_skip (fun hm => h (List.mem_append_right _ hm))]
  exact after_of_writes_sub opsD2 W opsD2_writes (fun hm => h (List.mem_append_left _ hm))

/-- The windows from D1 on leave alone a buffer none of them writes. -/
theorem fromD1_skip {r : Ref sig .tc} (h : r ∉ wfromD1) (W : Valuation τ sig (Elt F)) :
    after fromD1 W (Proc.devRef .tc r) = W (Proc.devRef .tc r) := by
  rw [after_fromD1 W, fromD2_skip (fun hm => h (List.mem_append_right _ hm))]
  exact after_of_writes_sub opsD1 W opsD1_writes (fun hm => h (List.mem_append_left _ hm))

/-- The windows from C on leave alone a buffer none of them writes. -/
theorem fromC_skip {r : Ref sig .tc} (h : r ∉ wfromC) (W : Valuation τ sig (Elt F)) :
    after fromC W (Proc.devRef .tc r) = W (Proc.devRef .tc r) := by
  rw [after_fromC W, fromD1_skip (fun hm => h (List.mem_append_right _ hm))]
  exact after_of_writes_sub opsC W opsC_writes (fun hm => h (List.mem_append_left _ hm))

/-- The windows from I7 on leave alone a buffer none of them writes. -/
theorem fromI7_skip {r : Ref sig .tc} (h : r ∉ wfromI7) (W : Valuation τ sig (Elt F)) :
    after fromI7 W (Proc.devRef .tc r) = W (Proc.devRef .tc r) := by
  rw [after_fromI7 W, fromC_skip (fun hm => h (List.mem_append_right _ hm))]
  exact after_of_writes_sub opsI7 W opsI7_writes (fun hm => h (List.mem_append_left _ hm))

/-- The windows from I6 on leave alone a buffer none of them writes. -/
theorem fromI6_skip {r : Ref sig .tc} (h : r ∉ wfromI6) (W : Valuation τ sig (Elt F)) :
    after fromI6 W (Proc.devRef .tc r) = W (Proc.devRef .tc r) := by
  rw [after_fromI6 W, fromI7_skip (fun hm => h (List.mem_append_right _ hm))]
  exact after_of_writes_sub opsI6 W opsI6_writes (fun hm => h (List.mem_append_left _ hm))

/-- The windows from I5 on leave alone a buffer none of them writes. -/
theorem fromI5_skip {r : Ref sig .tc} (h : r ∉ wfromI5) (W : Valuation τ sig (Elt F)) :
    after fromI5 W (Proc.devRef .tc r) = W (Proc.devRef .tc r) := by
  rw [after_fromI5 W, fromI6_skip (fun hm => h (List.mem_append_right _ hm))]
  exact after_of_writes_sub opsI5 W opsI5_writes (fun hm => h (List.mem_append_left _ hm))

/-- The windows from I4 on leave alone a buffer none of them writes. -/
theorem fromI4_skip {r : Ref sig .tc} (h : r ∉ wfromI4) (W : Valuation τ sig (Elt F)) :
    after fromI4 W (Proc.devRef .tc r) = W (Proc.devRef .tc r) := by
  rw [after_fromI4 W, fromI5_skip (fun hm => h (List.mem_append_right _ hm))]
  exact after_of_writes_sub opsI4 W opsI4_writes (fun hm => h (List.mem_append_left _ hm))

/-- The windows from I3 on leave alone a buffer none of them writes. -/
theorem fromI3_skip {r : Ref sig .tc} (h : r ∉ wfromI3) (W : Valuation τ sig (Elt F)) :
    after fromI3 W (Proc.devRef .tc r) = W (Proc.devRef .tc r) := by
  rw [after_fromI3 W, fromI4_skip (fun hm => h (List.mem_append_right _ hm))]
  exact after_of_writes_sub opsI3 W opsI3_writes (fun hm => h (List.mem_append_left _ hm))

/-- The windows from I2 on leave alone a buffer none of them writes. -/
theorem fromI2_skip {r : Ref sig .tc} (h : r ∉ wfromI2) (W : Valuation τ sig (Elt F)) :
    after fromI2 W (Proc.devRef .tc r) = W (Proc.devRef .tc r) := by
  rw [after_fromI2 W, fromI3_skip (fun hm => h (List.mem_append_right _ hm))]
  exact after_of_writes_sub opsI2 W opsI2_writes (fun hm => h (List.mem_append_left _ hm))

/-- The windows from I1 on leave alone a buffer none of them writes. -/
theorem fromI1_skip {r : Ref sig .tc} (h : r ∉ wfromI1) (W : Valuation τ sig (Elt F)) :
    after fromI1 W (Proc.devRef .tc r) = W (Proc.devRef .tc r) := by
  rw [after_fromI1 W, fromI2_skip (fun hm => h (List.mem_append_right _ hm))]
  exact after_of_writes_sub opsI1 W opsI1_writes (fun hm => h (List.mem_append_left _ hm))

/-- The windows from I0 on leave alone a buffer none of them writes. -/
theorem fromI0_skip {r : Ref sig .tc} (h : r ∉ wfromI0) (W : Valuation τ sig (Elt F)) :
    after fromI0 W (Proc.devRef .tc r) = W (Proc.devRef .tc r) := by
  rw [after_fromI0 W, fromI1_skip (fun hm => h (List.mem_append_right _ hm))]
  exact after_of_writes_sub opsI0 W opsI0_writes (fun hm => h (List.mem_append_left _ hm))

/-- The windows from Ac on leave alone a buffer none of them writes. -/
theorem fromAc_skip {r : Ref sig .tc} (h : r ∉ wfromAc) (W : Valuation τ sig (Elt F)) :
    after fromAc W (Proc.devRef .tc r) = W (Proc.devRef .tc r) := by
  rw [after_fromAc W, fromI0_skip (fun hm => h (List.mem_append_right _ hm))]
  exact after_of_writes_sub opsAc W opsAc_writes (fun hm => h (List.mem_append_left _ hm))

/-- The windows from A on leave alone a buffer none of them writes. -/
theorem fromA_skip {r : Ref sig .tc} (h : r ∉ wfromA) (W : Valuation τ sig (Elt F)) :
    after fromA W (Proc.devRef .tc r) = W (Proc.devRef .tc r) := by
  rw [after_fromA W, fromAc_skip (fun hm => h (List.mem_append_right _ hm))]
  exact after_of_writes_sub opsA W opsA_writes (fun hm => h (List.mem_append_left _ hm))

/-- A buffer no window after A writes holds after @main what it holds after window A. -/
theorem ops_eq_atA {r : Ref sig .tc} (h : r ∉ wfromAc) (V : Valuation τ sig (Elt F)) :
    after ops V (Proc.devRef .tc r) = atA V (Proc.devRef .tc r) := by
  rw [after_ops_atA V]; exact fromAc_skip h _

/-- A buffer no window after Ac writes holds after @main what it holds after window Ac. -/
theorem ops_eq_atAc {r : Ref sig .tc} (h : r ∉ wfromI0) (V : Valuation τ sig (Elt F)) :
    after ops V (Proc.devRef .tc r) = atAc V (Proc.devRef .tc r) := by
  rw [after_ops_atAc V]; exact fromI0_skip h _

/-- A buffer no window after I0 writes holds after @main what it holds after window I0. -/
theorem ops_eq_atI0 {r : Ref sig .tc} (h : r ∉ wfromI1) (V : Valuation τ sig (Elt F)) :
    after ops V (Proc.devRef .tc r) = atI0 V (Proc.devRef .tc r) := by
  rw [after_ops_atI0 V]; exact fromI1_skip h _

/-- A buffer no window after I1 writes holds after @main what it holds after window I1. -/
theorem ops_eq_atI1 {r : Ref sig .tc} (h : r ∉ wfromI2) (V : Valuation τ sig (Elt F)) :
    after ops V (Proc.devRef .tc r) = atI1 V (Proc.devRef .tc r) := by
  rw [after_ops_atI1 V]; exact fromI2_skip h _

/-- A buffer no window after I2 writes holds after @main what it holds after window I2. -/
theorem ops_eq_atI2 {r : Ref sig .tc} (h : r ∉ wfromI3) (V : Valuation τ sig (Elt F)) :
    after ops V (Proc.devRef .tc r) = atI2 V (Proc.devRef .tc r) := by
  rw [after_ops_atI2 V]; exact fromI3_skip h _

/-- A buffer no window after I3 writes holds after @main what it holds after window I3. -/
theorem ops_eq_atI3 {r : Ref sig .tc} (h : r ∉ wfromI4) (V : Valuation τ sig (Elt F)) :
    after ops V (Proc.devRef .tc r) = atI3 V (Proc.devRef .tc r) := by
  rw [after_ops_atI3 V]; exact fromI4_skip h _

/-- A buffer no window after I4 writes holds after @main what it holds after window I4. -/
theorem ops_eq_atI4 {r : Ref sig .tc} (h : r ∉ wfromI5) (V : Valuation τ sig (Elt F)) :
    after ops V (Proc.devRef .tc r) = atI4 V (Proc.devRef .tc r) := by
  rw [after_ops_atI4 V]; exact fromI5_skip h _

/-- A buffer no window after I5 writes holds after @main what it holds after window I5. -/
theorem ops_eq_atI5 {r : Ref sig .tc} (h : r ∉ wfromI6) (V : Valuation τ sig (Elt F)) :
    after ops V (Proc.devRef .tc r) = atI5 V (Proc.devRef .tc r) := by
  rw [after_ops_atI5 V]; exact fromI6_skip h _

/-- A buffer no window after I6 writes holds after @main what it holds after window I6. -/
theorem ops_eq_atI6 {r : Ref sig .tc} (h : r ∉ wfromI7) (V : Valuation τ sig (Elt F)) :
    after ops V (Proc.devRef .tc r) = atI6 V (Proc.devRef .tc r) := by
  rw [after_ops_atI6 V]; exact fromI7_skip h _

/-- A buffer no window after I7 writes holds after @main what it holds after window I7. -/
theorem ops_eq_atI7 {r : Ref sig .tc} (h : r ∉ wfromC) (V : Valuation τ sig (Elt F)) :
    after ops V (Proc.devRef .tc r) = atI7 V (Proc.devRef .tc r) := by
  rw [after_ops_atI7 V]; exact fromC_skip h _

/-- A buffer no window after C writes holds after @main what it holds after window C. -/
theorem ops_eq_atC {r : Ref sig .tc} (h : r ∉ wfromD1) (V : Valuation τ sig (Elt F)) :
    after ops V (Proc.devRef .tc r) = atC V (Proc.devRef .tc r) := by
  rw [after_ops_atC V]; exact fromD1_skip h _

/-- A buffer no window after D1 writes holds after @main what it holds after window D1. -/
theorem ops_eq_atD1 {r : Ref sig .tc} (h : r ∉ wfromD2) (V : Valuation τ sig (Elt F)) :
    after ops V (Proc.devRef .tc r) = atD1 V (Proc.devRef .tc r) := by
  rw [after_ops_atD1 V]; exact fromD2_skip h _

/-- A buffer no window after D2 writes holds after @main what it holds after window D2. -/
theorem ops_eq_atD2 {r : Ref sig .tc} (h : r ∉ wfromE1) (V : Valuation τ sig (Elt F)) :
    after ops V (Proc.devRef .tc r) = atD2 V (Proc.devRef .tc r) := by
  rw [after_ops_atD2 V]; exact fromE1_skip h _

/-- A buffer no window after E1 writes holds after @main what it holds after window E1. -/
theorem ops_eq_atE1 {r : Ref sig .tc} (h : r ∉ wfromE1c) (V : Valuation τ sig (Elt F)) :
    after ops V (Proc.devRef .tc r) = atE1 V (Proc.devRef .tc r) := by
  rw [after_ops_atE1 V]; exact fromE1c_skip h _

/-- A buffer no window after E1c writes holds after @main what it holds after window E1c. -/
theorem ops_eq_atE1c {r : Ref sig .tc} (h : r ∉ wfromE2) (V : Valuation τ sig (Elt F)) :
    after ops V (Proc.devRef .tc r) = atE1c V (Proc.devRef .tc r) := by
  rw [after_ops_atE1c V]; exact fromE2_skip h _

/-- A buffer no window after E2 writes holds after @main what it holds after window E2. -/
theorem ops_eq_atE2 {r : Ref sig .tc} (h : r ∉ wfromF1) (V : Valuation τ sig (Elt F)) :
    after ops V (Proc.devRef .tc r) = atE2 V (Proc.devRef .tc r) := by
  rw [after_ops_atE2 V]; exact fromF1_skip h _

/-- A buffer no window after F1 writes holds after @main what it holds after window F1. -/
theorem ops_eq_atF1 {r : Ref sig .tc} (h : r ∉ wfromF2) (V : Valuation τ sig (Elt F)) :
    after ops V (Proc.devRef .tc r) = atF1 V (Proc.devRef .tc r) := by
  rw [after_ops_atF1 V]; exact fromF2_skip h _

/-- A buffer no window after F2 writes holds after @main what it holds after window F2. -/
theorem ops_eq_atF2 {r : Ref sig .tc} (h : r ∉ wfromF2c) (V : Valuation τ sig (Elt F)) :
    after ops V (Proc.devRef .tc r) = atF2 V (Proc.devRef .tc r) := by
  rw [after_ops_atF2 V]; exact fromF2c_skip h _

/-- A buffer no window after F2c writes holds after @main what it holds after window F2c. -/
theorem ops_eq_atF2c {r : Ref sig .tc} (h : r ∉ wfromJ1) (V : Valuation τ sig (Elt F)) :
    after ops V (Proc.devRef .tc r) = atF2c V (Proc.devRef .tc r) := by
  rw [after_ops_atF2c V]; exact fromJ1_skip h _

/-- A buffer no window after J1 writes holds after @main what it holds after window J1. -/
theorem ops_eq_atJ1 {r : Ref sig .tc} (h : r ∉ wfromJ2) (V : Valuation τ sig (Elt F)) :
    after ops V (Proc.devRef .tc r) = atJ1 V (Proc.devRef .tc r) := by
  rw [after_ops_atJ1 V]; exact fromJ2_skip h _

/-- A buffer no window after J2 writes holds after @main what it holds after window J2. -/
theorem ops_eq_atJ2 {r : Ref sig .tc} (h : r ∉ wfromJ3) (V : Valuation τ sig (Elt F)) :
    after ops V (Proc.devRef .tc r) = atJ2 V (Proc.devRef .tc r) := by
  rw [after_ops_atJ2 V]; exact fromJ3_skip h _

/-- A buffer no window after J3 writes holds after @main what it holds after window J3. -/
theorem ops_eq_atJ3 {r : Ref sig .tc} (h : r ∉ wfromJ4) (V : Valuation τ sig (Elt F)) :
    after ops V (Proc.devRef .tc r) = atJ3 V (Proc.devRef .tc r) := by
  rw [after_ops_atJ3 V]; exact fromJ4_skip h _

/-- A buffer no window after J4 writes holds after @main what it holds after window J4. -/
theorem ops_eq_atJ4 {r : Ref sig .tc} (h : r ∉ wfromJ5) (V : Valuation τ sig (Elt F)) :
    after ops V (Proc.devRef .tc r) = atJ4 V (Proc.devRef .tc r) := by
  rw [after_ops_atJ4 V]; exact fromJ5_skip h _

/-- A buffer no window after J5 writes holds after @main what it holds after window J5. -/
theorem ops_eq_atJ5 {r : Ref sig .tc} (h : r ∉ wfromJ6) (V : Valuation τ sig (Elt F)) :
    after ops V (Proc.devRef .tc r) = atJ5 V (Proc.devRef .tc r) := by
  rw [after_ops_atJ5 V]; exact fromJ6_skip h _

/-- A buffer no window after J6 writes holds after @main what it holds after window J6. -/
theorem ops_eq_atJ6 {r : Ref sig .tc} (h : r ∉ wfromJ7) (V : Valuation τ sig (Elt F)) :
    after ops V (Proc.devRef .tc r) = atJ6 V (Proc.devRef .tc r) := by
  rw [after_ops_atJ6 V]; exact fromJ7_skip h _

/-- A buffer no window after J7 writes holds after @main what it holds after window J7. -/
theorem ops_eq_atJ7 {r : Ref sig .tc} (h : r ∉ wfromH) (V : Valuation τ sig (Elt F)) :
    after ops V (Proc.devRef .tc r) = atJ7 V (Proc.devRef .tc r) := by
  rw [after_ops_atJ7 V]; exact fromH_skip h _

/-- A buffer no window after H writes holds after @main what it holds after window H. -/
theorem ops_eq_atH {r : Ref sig .tc} (h : r ∉ wfromHc) (V : Valuation τ sig (Elt F)) :
    after ops V (Proc.devRef .tc r) = atH V (Proc.devRef .tc r) := by
  rw [after_ops_atH V]; exact fromHc_skip h _

/-- A buffer no window after Hc writes holds after @main what it holds after window Hc. -/
theorem ops_eq_atHc {r : Ref sig .tc} (h : r ∉ wfromHz) (V : Valuation τ sig (Elt F)) :
    after ops V (Proc.devRef .tc r) = atHc V (Proc.devRef .tc r) := by
  rw [after_ops_atHc V]; exact fromHz_skip h _

/-- After @main a buffer holds what it holds after the last window. -/
theorem ops_eq_atHz (r : Ref sig .tc) (V : Valuation τ sig (Elt F)) :
    after ops V (Proc.devRef .tc r) = atHz V (Proc.devRef .tc r) := by
  rw [after_ops V]

/-- A buffer window A does not write still holds its launch contents after window A. -/
theorem atA_unwritten {r : Ref sig .tc} (h : r ∉ wuptoA) (V : Valuation τ sig (Elt F)) :
    atA V (Proc.devRef .tc r) = V (Proc.devRef .tc r) :=
  after_of_writes_sub opsA V opsA_writes h

/-- A buffer no window up to Ac writes still holds its launch contents after window Ac. -/
theorem atAc_unwritten {r : Ref sig .tc} (h : r ∉ wuptoAc) (V : Valuation τ sig (Elt F)) :
    atAc V (Proc.devRef .tc r) = V (Proc.devRef .tc r) := by
  show after opsAc (atA V) _ = _
  rw [after_of_writes_sub opsAc _ opsAc_writes (fun hm => h (List.mem_append_left _ hm))]
  exact atA_unwritten (fun hm => h (List.mem_append_right _ hm)) V

/-- A buffer no window up to I0 writes still holds its launch contents after window I0. -/
theorem atI0_unwritten {r : Ref sig .tc} (h : r ∉ wuptoI0) (V : Valuation τ sig (Elt F)) :
    atI0 V (Proc.devRef .tc r) = V (Proc.devRef .tc r) := by
  show after opsI0 (atAc V) _ = _
  rw [after_of_writes_sub opsI0 _ opsI0_writes (fun hm => h (List.mem_append_left _ hm))]
  exact atAc_unwritten (fun hm => h (List.mem_append_right _ hm)) V

/-- A buffer no window up to I1 writes still holds its launch contents after window I1. -/
theorem atI1_unwritten {r : Ref sig .tc} (h : r ∉ wuptoI1) (V : Valuation τ sig (Elt F)) :
    atI1 V (Proc.devRef .tc r) = V (Proc.devRef .tc r) := by
  show after opsI1 (atI0 V) _ = _
  rw [after_of_writes_sub opsI1 _ opsI1_writes (fun hm => h (List.mem_append_left _ hm))]
  exact atI0_unwritten (fun hm => h (List.mem_append_right _ hm)) V

/-- A buffer no window up to I2 writes still holds its launch contents after window I2. -/
theorem atI2_unwritten {r : Ref sig .tc} (h : r ∉ wuptoI2) (V : Valuation τ sig (Elt F)) :
    atI2 V (Proc.devRef .tc r) = V (Proc.devRef .tc r) := by
  show after opsI2 (atI1 V) _ = _
  rw [after_of_writes_sub opsI2 _ opsI2_writes (fun hm => h (List.mem_append_left _ hm))]
  exact atI1_unwritten (fun hm => h (List.mem_append_right _ hm)) V

/-- A buffer no window up to I3 writes still holds its launch contents after window I3. -/
theorem atI3_unwritten {r : Ref sig .tc} (h : r ∉ wuptoI3) (V : Valuation τ sig (Elt F)) :
    atI3 V (Proc.devRef .tc r) = V (Proc.devRef .tc r) := by
  show after opsI3 (atI2 V) _ = _
  rw [after_of_writes_sub opsI3 _ opsI3_writes (fun hm => h (List.mem_append_left _ hm))]
  exact atI2_unwritten (fun hm => h (List.mem_append_right _ hm)) V

/-- A buffer no window up to I4 writes still holds its launch contents after window I4. -/
theorem atI4_unwritten {r : Ref sig .tc} (h : r ∉ wuptoI4) (V : Valuation τ sig (Elt F)) :
    atI4 V (Proc.devRef .tc r) = V (Proc.devRef .tc r) := by
  show after opsI4 (atI3 V) _ = _
  rw [after_of_writes_sub opsI4 _ opsI4_writes (fun hm => h (List.mem_append_left _ hm))]
  exact atI3_unwritten (fun hm => h (List.mem_append_right _ hm)) V

/-- A buffer no window up to I5 writes still holds its launch contents after window I5. -/
theorem atI5_unwritten {r : Ref sig .tc} (h : r ∉ wuptoI5) (V : Valuation τ sig (Elt F)) :
    atI5 V (Proc.devRef .tc r) = V (Proc.devRef .tc r) := by
  show after opsI5 (atI4 V) _ = _
  rw [after_of_writes_sub opsI5 _ opsI5_writes (fun hm => h (List.mem_append_left _ hm))]
  exact atI4_unwritten (fun hm => h (List.mem_append_right _ hm)) V

/-- A buffer no window up to I6 writes still holds its launch contents after window I6. -/
theorem atI6_unwritten {r : Ref sig .tc} (h : r ∉ wuptoI6) (V : Valuation τ sig (Elt F)) :
    atI6 V (Proc.devRef .tc r) = V (Proc.devRef .tc r) := by
  show after opsI6 (atI5 V) _ = _
  rw [after_of_writes_sub opsI6 _ opsI6_writes (fun hm => h (List.mem_append_left _ hm))]
  exact atI5_unwritten (fun hm => h (List.mem_append_right _ hm)) V

/-- A buffer no window up to I7 writes still holds its launch contents after window I7. -/
theorem atI7_unwritten {r : Ref sig .tc} (h : r ∉ wuptoI7) (V : Valuation τ sig (Elt F)) :
    atI7 V (Proc.devRef .tc r) = V (Proc.devRef .tc r) := by
  show after opsI7 (atI6 V) _ = _
  rw [after_of_writes_sub opsI7 _ opsI7_writes (fun hm => h (List.mem_append_left _ hm))]
  exact atI6_unwritten (fun hm => h (List.mem_append_right _ hm)) V

/-- A buffer no window up to C writes still holds its launch contents after window C. -/
theorem atC_unwritten {r : Ref sig .tc} (h : r ∉ wuptoC) (V : Valuation τ sig (Elt F)) :
    atC V (Proc.devRef .tc r) = V (Proc.devRef .tc r) := by
  show after opsC (atI7 V) _ = _
  rw [after_of_writes_sub opsC _ opsC_writes (fun hm => h (List.mem_append_left _ hm))]
  exact atI7_unwritten (fun hm => h (List.mem_append_right _ hm)) V

/-- A buffer no window up to D1 writes still holds its launch contents after window D1. -/
theorem atD1_unwritten {r : Ref sig .tc} (h : r ∉ wuptoD1) (V : Valuation τ sig (Elt F)) :
    atD1 V (Proc.devRef .tc r) = V (Proc.devRef .tc r) := by
  show after opsD1 (atC V) _ = _
  rw [after_of_writes_sub opsD1 _ opsD1_writes (fun hm => h (List.mem_append_left _ hm))]
  exact atC_unwritten (fun hm => h (List.mem_append_right _ hm)) V

/-- A buffer no window up to D2 writes still holds its launch contents after window D2. -/
theorem atD2_unwritten {r : Ref sig .tc} (h : r ∉ wuptoD2) (V : Valuation τ sig (Elt F)) :
    atD2 V (Proc.devRef .tc r) = V (Proc.devRef .tc r) := by
  show after opsD2 (atD1 V) _ = _
  rw [after_of_writes_sub opsD2 _ opsD2_writes (fun hm => h (List.mem_append_left _ hm))]
  exact atD1_unwritten (fun hm => h (List.mem_append_right _ hm)) V

/-- A buffer no window up to E1 writes still holds its launch contents after window E1. -/
theorem atE1_unwritten {r : Ref sig .tc} (h : r ∉ wuptoE1) (V : Valuation τ sig (Elt F)) :
    atE1 V (Proc.devRef .tc r) = V (Proc.devRef .tc r) := by
  show after opsE1 (atD2 V) _ = _
  rw [after_of_writes_sub opsE1 _ opsE1_writes (fun hm => h (List.mem_append_left _ hm))]
  exact atD2_unwritten (fun hm => h (List.mem_append_right _ hm)) V

/-- A buffer no window up to E1c writes still holds its launch contents after window E1c. -/
theorem atE1c_unwritten {r : Ref sig .tc} (h : r ∉ wuptoE1c) (V : Valuation τ sig (Elt F)) :
    atE1c V (Proc.devRef .tc r) = V (Proc.devRef .tc r) := by
  show after opsE1c (atE1 V) _ = _
  rw [after_of_writes_sub opsE1c _ opsE1c_writes (fun hm => h (List.mem_append_left _ hm))]
  exact atE1_unwritten (fun hm => h (List.mem_append_right _ hm)) V

/-- A buffer no window up to E2 writes still holds its launch contents after window E2. -/
theorem atE2_unwritten {r : Ref sig .tc} (h : r ∉ wuptoE2) (V : Valuation τ sig (Elt F)) :
    atE2 V (Proc.devRef .tc r) = V (Proc.devRef .tc r) := by
  show after opsE2 (atE1c V) _ = _
  rw [after_of_writes_sub opsE2 _ opsE2_writes (fun hm => h (List.mem_append_left _ hm))]
  exact atE1c_unwritten (fun hm => h (List.mem_append_right _ hm)) V

/-- A buffer no window up to F1 writes still holds its launch contents after window F1. -/
theorem atF1_unwritten {r : Ref sig .tc} (h : r ∉ wuptoF1) (V : Valuation τ sig (Elt F)) :
    atF1 V (Proc.devRef .tc r) = V (Proc.devRef .tc r) := by
  show after opsF1 (atE2 V) _ = _
  rw [after_of_writes_sub opsF1 _ opsF1_writes (fun hm => h (List.mem_append_left _ hm))]
  exact atE2_unwritten (fun hm => h (List.mem_append_right _ hm)) V

/-- A buffer no window up to F2 writes still holds its launch contents after window F2. -/
theorem atF2_unwritten {r : Ref sig .tc} (h : r ∉ wuptoF2) (V : Valuation τ sig (Elt F)) :
    atF2 V (Proc.devRef .tc r) = V (Proc.devRef .tc r) := by
  show after opsF2 (atF1 V) _ = _
  rw [after_of_writes_sub opsF2 _ opsF2_writes (fun hm => h (List.mem_append_left _ hm))]
  exact atF1_unwritten (fun hm => h (List.mem_append_right _ hm)) V

/-- A buffer no window up to F2c writes still holds its launch contents after window F2c. -/
theorem atF2c_unwritten {r : Ref sig .tc} (h : r ∉ wuptoF2c) (V : Valuation τ sig (Elt F)) :
    atF2c V (Proc.devRef .tc r) = V (Proc.devRef .tc r) := by
  show after opsF2c (atF2 V) _ = _
  rw [after_of_writes_sub opsF2c _ opsF2c_writes (fun hm => h (List.mem_append_left _ hm))]
  exact atF2_unwritten (fun hm => h (List.mem_append_right _ hm)) V

/-- A buffer no window up to J1 writes still holds its launch contents after window J1. -/
theorem atJ1_unwritten {r : Ref sig .tc} (h : r ∉ wuptoJ1) (V : Valuation τ sig (Elt F)) :
    atJ1 V (Proc.devRef .tc r) = V (Proc.devRef .tc r) := by
  show after opsJ1 (atF2c V) _ = _
  rw [after_of_writes_sub opsJ1 _ opsJ1_writes (fun hm => h (List.mem_append_left _ hm))]
  exact atF2c_unwritten (fun hm => h (List.mem_append_right _ hm)) V

/-- A buffer no window up to J2 writes still holds its launch contents after window J2. -/
theorem atJ2_unwritten {r : Ref sig .tc} (h : r ∉ wuptoJ2) (V : Valuation τ sig (Elt F)) :
    atJ2 V (Proc.devRef .tc r) = V (Proc.devRef .tc r) := by
  show after opsJ2 (atJ1 V) _ = _
  rw [after_of_writes_sub opsJ2 _ opsJ2_writes (fun hm => h (List.mem_append_left _ hm))]
  exact atJ1_unwritten (fun hm => h (List.mem_append_right _ hm)) V

/-- A buffer no window up to J3 writes still holds its launch contents after window J3. -/
theorem atJ3_unwritten {r : Ref sig .tc} (h : r ∉ wuptoJ3) (V : Valuation τ sig (Elt F)) :
    atJ3 V (Proc.devRef .tc r) = V (Proc.devRef .tc r) := by
  show after opsJ3 (atJ2 V) _ = _
  rw [after_of_writes_sub opsJ3 _ opsJ3_writes (fun hm => h (List.mem_append_left _ hm))]
  exact atJ2_unwritten (fun hm => h (List.mem_append_right _ hm)) V

/-- A buffer no window up to J4 writes still holds its launch contents after window J4. -/
theorem atJ4_unwritten {r : Ref sig .tc} (h : r ∉ wuptoJ4) (V : Valuation τ sig (Elt F)) :
    atJ4 V (Proc.devRef .tc r) = V (Proc.devRef .tc r) := by
  show after opsJ4 (atJ3 V) _ = _
  rw [after_of_writes_sub opsJ4 _ opsJ4_writes (fun hm => h (List.mem_append_left _ hm))]
  exact atJ3_unwritten (fun hm => h (List.mem_append_right _ hm)) V

/-- A buffer no window up to J5 writes still holds its launch contents after window J5. -/
theorem atJ5_unwritten {r : Ref sig .tc} (h : r ∉ wuptoJ5) (V : Valuation τ sig (Elt F)) :
    atJ5 V (Proc.devRef .tc r) = V (Proc.devRef .tc r) := by
  show after opsJ5 (atJ4 V) _ = _
  rw [after_of_writes_sub opsJ5 _ opsJ5_writes (fun hm => h (List.mem_append_left _ hm))]
  exact atJ4_unwritten (fun hm => h (List.mem_append_right _ hm)) V

/-- A buffer no window up to J6 writes still holds its launch contents after window J6. -/
theorem atJ6_unwritten {r : Ref sig .tc} (h : r ∉ wuptoJ6) (V : Valuation τ sig (Elt F)) :
    atJ6 V (Proc.devRef .tc r) = V (Proc.devRef .tc r) := by
  show after opsJ6 (atJ5 V) _ = _
  rw [after_of_writes_sub opsJ6 _ opsJ6_writes (fun hm => h (List.mem_append_left _ hm))]
  exact atJ5_unwritten (fun hm => h (List.mem_append_right _ hm)) V

/-- A buffer no window up to J7 writes still holds its launch contents after window J7. -/
theorem atJ7_unwritten {r : Ref sig .tc} (h : r ∉ wuptoJ7) (V : Valuation τ sig (Elt F)) :
    atJ7 V (Proc.devRef .tc r) = V (Proc.devRef .tc r) := by
  show after opsJ7 (atJ6 V) _ = _
  rw [after_of_writes_sub opsJ7 _ opsJ7_writes (fun hm => h (List.mem_append_left _ hm))]
  exact atJ6_unwritten (fun hm => h (List.mem_append_right _ hm)) V

/-- A buffer no window up to H writes still holds its launch contents after window H. -/
theorem atH_unwritten {r : Ref sig .tc} (h : r ∉ wuptoH) (V : Valuation τ sig (Elt F)) :
    atH V (Proc.devRef .tc r) = V (Proc.devRef .tc r) := by
  show after opsH (atJ7 V) _ = _
  rw [after_of_writes_sub opsH _ opsH_writes (fun hm => h (List.mem_append_left _ hm))]
  exact atJ7_unwritten (fun hm => h (List.mem_append_right _ hm)) V

/-- A buffer no window up to Hc writes still holds its launch contents after window Hc. -/
theorem atHc_unwritten {r : Ref sig .tc} (h : r ∉ wuptoHc) (V : Valuation τ sig (Elt F)) :
    atHc V (Proc.devRef .tc r) = V (Proc.devRef .tc r) := by
  show after opsHc (atH V) _ = _
  rw [after_of_writes_sub opsHc _ opsHc_writes (fun hm => h (List.mem_append_left _ hm))]
  exact atH_unwritten (fun hm => h (List.mem_append_right _ hm)) V

/-- A buffer no window up to Hz writes still holds its launch contents after window Hz. -/
theorem atHz_unwritten {r : Ref sig .tc} (h : r ∉ wuptoHz) (V : Valuation τ sig (Elt F)) :
    atHz V (Proc.devRef .tc r) = V (Proc.devRef .tc r) := by
  show after opsHz (atHc V) _ = _
  rw [after_of_writes_sub opsHz _ opsHz_writes (fun hm => h (List.mem_append_left _ hm))]
  exact atHc_unwritten (fun hm => h (List.mem_append_right _ hm)) V

/-- A buffer no operation of @main writes (an argument) ends at its launch contents. -/
theorem ops_unwritten {r : Ref sig .tc} (h : r ∉ wuptoHz) (V : Valuation τ sig (Elt F)) :
    after ops V (Proc.devRef .tc r) = V (Proc.devRef .tc r) := by
  rw [after_ops V]; exact atHz_unwritten h V

end Cert.ReferenceIdeal.RefRun

end
-- ==== Proof.RefWin0.lean ====
/-
  The reference's run, by hand: what each of the windows A, Ac, C, D1 leaves in the buffers later windows (or @main's
  results) read, from ANY buffer contents `W` — the window's composed term: each operation's function applied to
  its operands' terms in printed order, a buffer the window does not write standing for its contents in `W`. The
  fold over the window unrolls (`after_cons`), each operation's result at its own buffer is its function's value
  and at any other buffer what was there (one simp pass); what is left, in a window that is an outlined call, is
  the typed references' casts, the identity at these literal references, by computation.
-/
import proofs.«145994_j34600256537163_1_alg».proof.Proof.RefOps0

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- Window A leaves at main_v4 its composed term of main_arg2, main_arg3, main_arg5, main_arg6. -/
theorem winA_main_v4 (W : Valuation τ sig (Elt F)) :
    after opsA W (Proc.devRef .tc main_v4) =
      (addf (Host.dotGeneral dot_S262144x65_S65x128_S262144x128_1_0_0_1_n_n none (concatenate S262144x65 1 [⟨S262144x64, (W (Proc.devRef .tc main_arg2))⟩, ⟨S262144x1, (W (Proc.devRef .tc main_arg3))⟩] concatenates_S262144x64_S262144x1_S262144x65_d1) (W (Proc.devRef .tc main_arg5))) (broadcastInDim S262144x128 ![0, 1] bcast_S1x128_S262144x128_0_1 (broadcastInDim S1x128 ![1] bcast_S128_S1x128_1 (W (Proc.devRef .tc main_arg6))))) := by
  after_results_simp <;> rfl

/-- Window A leaves at main_cst its composed term of main_arg2, main_arg3, main_arg5, main_arg6. -/
theorem winA_main_cst (W : Valuation τ sig (Elt F)) :
    after opsA W (Proc.devRef .tc main_cst) =
      (constant S_ .f32 0x3C23D70A#32) := by
  after_results_simp <;> rfl

/-- Window Ac leaves at main_v5 its composed term of main_v4, main_cst. -/
theorem winAc_main_v5 (W : Valuation τ sig (Elt F)) :
    after opsAc W (Proc.devRef .tc main_v5) =
      (select (cmpf .oge (W (Proc.devRef .tc main_v4)) (broadcastInDim S262144x128 ![] bcast_S_S262144x128 (constant S_ .f32 0x00000000#32))) (W (Proc.devRef .tc main_v4)) (mulf (broadcastInDim S262144x128 ![] bcast_S_S262144x128 (id (W (Proc.devRef .tc main_cst)))) (W (Proc.devRef .tc main_v4)))) := by
  after_results_simp <;> rfl

/-- Window C leaves at main_v32 its composed term of main_v23, main_v5, main_arg4. -/
theorem winC_main_v32 (W : Valuation τ sig (Elt F)) :
    after opsC W (Proc.devRef .tc main_v32) =
      (Host.divf (Host.scatterAdd scatter_S8192x128_S262144x1_S262144x128_1_0_0_1 (broadcastInDim S8192x128 ![] bcast_S_S8192x128 (constant S_ .f32 0x00000000#32)) (broadcastInDim S262144x1 ![0] bcast_S262144_S262144x1_0 (W (Proc.devRef .tc main_v23))) (W (Proc.devRef .tc main_v5))) (broadcastInDim S8192x128 ![0, 1] bcast_S8192x1_S8192x128_0_1 (sitofp .f32 (broadcastInDim S8192x1 ![0] bcast_S8192_S8192x1_0 (maxsi (W (Proc.devRef .tc main_arg4)) (broadcastInDim S8192 ![] bcast_S_S8192 (constantI S_ 32 1#32))))))) := by
  after_results_simp <;> rfl

/-- Window D1 leaves at main_v43 its composed term of main_v32. -/
theorem winD1_main_v43 (W : Valuation τ sig (Elt F)) :
    after opsD1 W (Proc.devRef .tc main_v43) =
      (Host.divf (broadcastInDim S8192x1 ![0] bcast_S8192_S8192x1_0 (Host.reduceAdd (mulf (subf (W (Proc.devRef .tc main_v32)) (broadcastInDim S8192x128 ![0, 1] bcast_S8192x1_S8192x128_0_1 (Host.divf (broadcastInDim S8192x1 ![0] bcast_S8192_S8192x1_0 (Host.reduceAdd (W (Proc.devRef .tc main_v32)) (constant S_ .f32 0x00000000#32) reducesTo_S8192x128_S8192_d1 h_S_)) (broadcastInDim S8192x1 ![] bcast_S_S8192x1 (constant S_ .f32 0x43000000#32))))) (subf (W (Proc.devRef .tc main_v32)) (broadcastInDim S8192x128 ![0, 1] bcast_S8192x1_S8192x128_0_1 (Host.divf (broadcastInDim S8192x1 ![0] bcast_S8192_S8192x1_0 (Host.reduceAdd (W (Proc.devRef .tc main_v32)) (constant S_ .f32 0x00000000#32) reducesTo_S8192x128_S8192_d1 h_S_)) (broadcastInDim S8192x1 ![] bcast_S_S8192x1 (constant S_ .f32 0x43000000#32)))))) (constant S_ .f32 0x00000000#32) reducesTo_S8192x128_S8192_d1 h_S_)) (broadcastInDim S8192x1 ![] bcast_S_S8192x1 (constant S_ .f32 0x43000000#32))) := by
  after_results_simp <;> rfl

/-- Window D1 leaves at main_v45 its composed term of main_v32. -/
theorem winD1_main_v45 (W : Valuation τ sig (Elt F)) :
    after opsD1 W (Proc.devRef .tc main_v45) =
      (subf (W (Proc.devRef .tc main_v32)) (broadcastInDim S8192x128 ![0, 1] bcast_S8192x1_S8192x128_0_1 (Host.divf (broadcastInDim S8192x1 ![0] bcast_S8192_S8192x1_0 (Host.reduceAdd (W (Proc.devRef .tc main_v32)) (constant S_ .f32 0x00000000#32) reducesTo_S8192x128_S8192_d1 h_S_)) (broadcastInDim S8192x1 ![] bcast_S_S8192x1 (constant S_ .f32 0x43000000#32))))) := by
  after_results_simp <;> rfl

end Cert.ReferenceIdeal.RefRun

end
-- ==== Proof.RefWin1.lean ====
/-
  The reference's run, by hand: what each of the windows D2, E1, E1c, E2, F1 leaves in the buffers later windows (or @main's
  results) read, from ANY buffer contents `W` — the window's composed term: each operation's function applied to
  its operands' terms in printed order, a buffer the window does not write standing for its contents in `W`. The
  fold over the window unrolls (`after_cons`), each operation's result at its own buffer is its function's value
  and at any other buffer what was there (one simp pass; in a window where a concatenation's operand is itself
  written by the window, the rewriting loop instead: an operand of a concatenation sits inside a dependent pair,
  which the simp pass does not enter); what is left, in a window that is an outlined call, is
  the typed references' casts, the identity at these literal references, by computation.
-/
import proofs.«145994_j34600256537163_1_alg».proof.Proof.RefOps1

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- Window D2 leaves at main_v56 its composed term of main_v43, main_v45, main_arg7, main_arg8. -/
theorem winD2_main_v56 (W : Valuation τ sig (Elt F)) :
    after opsD2 W (Proc.devRef .tc main_v56) =
      (addf (mulf (mulf (W (Proc.devRef .tc main_v45)) (broadcastInDim S8192x128 ![0, 1] bcast_S8192x1_S8192x128_0_1 (Host.rsqrt (addf (W (Proc.devRef .tc main_v43)) (broadcastInDim S8192x1 ![] bcast_S_S8192x1 (constant S_ .f32 0x3727C5AC#32)))))) (broadcastInDim S8192x128 ![0, 1] bcast_S1x128_S8192x128_0_1 (broadcastInDim S1x128 ![1] bcast_S128_S1x128_1 (W (Proc.devRef .tc main_arg7))))) (broadcastInDim S8192x128 ![0, 1] bcast_S1x128_S8192x128_0_1 (broadcastInDim S1x128 ![1] bcast_S128_S1x128_1 (W (Proc.devRef .tc main_arg8))))) := by
  after_results_simp <;> rfl

/-- Window E1 leaves at main_v63 its composed term of main_arg0, main_v56, main_arg1, main_arg9, main_arg10. -/
theorem winE1_main_v63 (W : Valuation τ sig (Elt F)) :
    after opsE1 W (Proc.devRef .tc main_v63) =
      (addf (Host.dotGeneral dot_S8192x194_S194x128_S8192x128_1_0_0_1_n_n none (concatenate S8192x194 1 [⟨S8192x192, (Host.scatter scatter_S8192x192_S1_S8192x128_01_n_1_0 (fun _ b => b) (W (Proc.devRef .tc main_arg0)) (broadcastInDim S1 ![] bcast_S_S1 (constantI S_ 32 64#32)) (W (Proc.devRef .tc main_v56)))⟩, ⟨S8192x2, (W (Proc.devRef .tc main_arg1))⟩] concatenates_S8192x192_S8192x2_S8192x194_d1) (W (Proc.devRef .tc main_arg9))) (broadcastInDim S8192x128 ![0, 1] bcast_S1x128_S8192x128_0_1 (broadcastInDim S1x128 ![1] bcast_S128_S1x128_1 (W (Proc.devRef .tc main_arg10))))) := by
  after_results <;> rfl

/-- Window E1 leaves at main_cst_14 its composed term of main_arg0, main_v56, main_arg1, main_arg9, main_arg10. -/
theorem winE1_main_cst_14 (W : Valuation τ sig (Elt F)) :
    after opsE1 W (Proc.devRef .tc main_cst_14) =
      (constant S_ .f32 0x3C23D70A#32) := by
  after_results <;> rfl

/-- Window E1c leaves at main_v64 its composed term of main_v63, main_cst_14. -/
theorem winE1c_main_v64 (W : Valuation τ sig (Elt F)) :
    after opsE1c W (Proc.devRef .tc main_v64) =
      (select (cmpf .oge (W (Proc.devRef .tc main_v63)) (broadcastInDim S8192x128 ![] bcast_S_S8192x128 (constant S_ .f32 0x00000000#32))) (W (Proc.devRef .tc main_v63)) (mulf (broadcastInDim S8192x128 ![] bcast_S_S8192x128 (id (W (Proc.devRef .tc main_cst_14)))) (W (Proc.devRef .tc main_v63)))) := by
  after_results_simp <;> rfl

/-- Window E2 leaves at main_v88 its composed term of main_v64, main_arg11, main_arg12. -/
theorem winE2_main_v88 (W : Valuation τ sig (Elt F)) :
    after opsE2 W (Proc.devRef .tc main_v88) =
      (addf (mulf (mulf (subf (W (Proc.devRef .tc main_v64)) (broadcastInDim S8192x128 ![0, 1] bcast_S8192x1_S8192x128_0_1 (Host.divf (broadcastInDim S8192x1 ![0] bcast_S8192_S8192x1_0 (Host.reduceAdd (W (Proc.devRef .tc main_v64)) (constant S_ .f32 0x00000000#32) reducesTo_S8192x128_S8192_d1 h_S_)) (broadcastInDim S8192x1 ![] bcast_S_S8192x1 (constant S_ .f32 0x43000000#32))))) (broadcastInDim S8192x128 ![0, 1] bcast_S8192x1_S8192x128_0_1 (Host.rsqrt (addf (Host.divf (broadcastInDim S8192x1 ![0] bcast_S8192_S8192x1_0 (Host.reduceAdd (mulf (subf (W (Proc.devRef .tc main_v64)) (broadcastInDim S8192x128 ![0, 1] bcast_S8192x1_S8192x128_0_1 (Host.divf (broadcastInDim S8192x1 ![0] bcast_S8192_S8192x1_0 (Host.reduceAdd (W (Proc.devRef .tc main_v64)) (constant S_ .f32 0x00000000#32) reducesTo_S8192x128_S8192_d1 h_S_)) (broadcastInDim S8192x1 ![] bcast_S_S8192x1 (constant S_ .f32 0x43000000#32))))) (subf (W (Proc.devRef .tc main_v64)) (broadcastInDim S8192x128 ![0, 1] bcast_S8192x1_S8192x128_0_1 (Host.divf (broadcastInDim S8192x1 ![0] bcast_S8192_S8192x1_0 (Host.reduceAdd (W (Proc.devRef .tc main_v64)) (constant S_ .f32 0x00000000#32) reducesTo_S8192x128_S8192_d1 h_S_)) (broadcastInDim S8192x1 ![] bcast_S_S8192x1 (constant S_ .f32 0x43000000#32)))))) (constant S_ .f32 0x00000000#32) reducesTo_S8192x128_S8192_d1 h_S_)) (broadcastInDim S8192x1 ![] bcast_S_S8192x1 (constant S_ .f32 0x43000000#32))) (broadcastInDim S8192x1 ![] bcast_S_S8192x1 (constant S_ .f32 0x3727C5AC#32)))))) (broadcastInDim S8192x128 ![0, 1] bcast_S1x128_S8192x128_0_1 (broadcastInDim S1x128 ![1] bcast_S128_S1x128_1 (W (Proc.devRef .tc main_arg11))))) (broadcastInDim S8192x128 ![0, 1] bcast_S1x128_S8192x128_0_1 (broadcastInDim S1x128 ![1] bcast_S128_S1x128_1 (W (Proc.devRef .tc main_arg12))))) := by
  after_results_simp <;> rfl

/-- Window F1 leaves at main_v92 its composed term of main_v88, main_arg13, main_arg14, main_arg15, main_arg16, main_arg17. -/
theorem winF1_main_v92 (W : Valuation τ sig (Elt F)) :
    after opsF1 W (Proc.devRef .tc main_v92) =
      (addf (Host.dotGeneral dot_S8192x128_S128x1_S8192x1_1_0_0_1_n_n none (W (Proc.devRef .tc main_v88)) (W (Proc.devRef .tc main_arg13))) (broadcastInDim S8192x1 ![0, 1] bcast_S1x1_S8192x1_0_1 (broadcastInDim S1x1 ![1] bcast_S1_S1x1_1 (W (Proc.devRef .tc main_arg14))))) := by
  after_results_simp <;> rfl

/-- Window F1 leaves at main_v96 its composed term of main_v88, main_arg13, main_arg14, main_arg15, main_arg16, main_arg17. -/
theorem winF1_main_v96 (W : Valuation τ sig (Elt F)) :
    after opsF1 W (Proc.devRef .tc main_v96) =
      (addf (Host.dotGeneral dot_S8192x128_S128x10_S8192x10_1_0_0_1_n_n none (W (Proc.devRef .tc main_v88)) (W (Proc.devRef .tc main_arg15))) (broadcastInDim S8192x10 ![0, 1] bcast_S1x10_S8192x10_0_1 (broadcastInDim S1x10 ![1] bcast_S10_S1x10_1 (W (Proc.devRef .tc main_arg16))))) := by
  after_results_simp <;> rfl

/-- Window F1 leaves at main_v97 its composed term of main_v88, main_arg13, main_arg14, main_arg15, main_arg16, main_arg17. -/
theorem winF1_main_v97 (W : Valuation τ sig (Elt F)) :
    after opsF1 W (Proc.devRef .tc main_v97) =
      (Host.dotGeneral dot_S8192x128_S128x1_S8192x1_1_0_0_1_n_n none (W (Proc.devRef .tc main_v88)) (W (Proc.devRef .tc main_arg17))) := by
  after_results_simp <;> rfl

end Cert.ReferenceIdeal.RefRun

end
-- ==== Proof.RefWin2.lean ====
/-
  The reference's run, by hand: what each of the windows F2, F2c, H, Hc, Hz leaves in the buffers later windows (or @main's
  results) read, from ANY buffer contents `W` — the window's composed term: each operation's function applied to
  its operands' terms in printed order, a buffer the window does not write standing for its contents in `W`. The
  fold over the window unrolls (`after_cons`), each operation's result at its own buffer is its function's value
  and at any other buffer what was there (one simp pass); what is left, in a window that is an outlined call, is
  the typed references' casts, the identity at these literal references, by computation.
-/
import proofs.«145994_j34600256537163_1_alg».proof.Proof.RefOps2

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- Window F2 leaves at main_v100 its composed term of main_arg18, main_v97, main_v88, main_arg19, main_arg20, main_arg1. -/
theorem winF2_main_v100 (W : Valuation τ sig (Elt F)) :
    after opsF2 W (Proc.devRef .tc main_v100) =
      (addf (W (Proc.devRef .tc main_v97)) (broadcastInDim S8192x1 ![0, 1] bcast_S1x1_S8192x1_0_1 (broadcastInDim S1x1 ![1] bcast_S1_S1x1_1 (W (Proc.devRef .tc main_arg18))))) := by
  after_results_simp <;> rfl

/-- Window F2 leaves at main_v104 its composed term of main_arg18, main_v97, main_v88, main_arg19, main_arg20, main_arg1. -/
theorem winF2_main_v104 (W : Valuation τ sig (Elt F)) :
    after opsF2 W (Proc.devRef .tc main_v104) =
      (addf (Host.dotGeneral dot_S8192x128_S128x2_S8192x2_1_0_0_1_n_n none (W (Proc.devRef .tc main_v88)) (W (Proc.devRef .tc main_arg19))) (broadcastInDim S8192x2 ![0, 1] bcast_S1x2_S8192x2_0_1 (broadcastInDim S1x2 ![1] bcast_S2_S1x2_1 (W (Proc.devRef .tc main_arg20))))) := by
  after_results_simp <;> rfl

/-- Window F2 leaves at main_v106 its composed term of main_arg18, main_v97, main_v88, main_arg19, main_arg20, main_arg1. -/
theorem winF2_main_v106 (W : Valuation τ sig (Elt F)) :
    after opsF2 W (Proc.devRef .tc main_v106) =
      (cmpf .oge (W (Proc.devRef .tc main_arg1)) (broadcastInDim S8192x2 ![] bcast_S_S8192x2 (constant S_ .f32 0x3F800000#32))) := by
  after_results_simp <;> rfl

/-- Window F2 leaves at main_cst_21 its composed term of main_arg18, main_v97, main_v88, main_arg19, main_arg20, main_arg1. -/
theorem winF2_main_cst_21 (W : Valuation τ sig (Elt F)) :
    after opsF2 W (Proc.devRef .tc main_cst_21) =
      (constant S_ .f32 0xFF800000#32) := by
  after_results_simp <;> rfl

/-- Window F2c leaves at main_v107 its composed term of main_cst_21, main_v106, main_v104. -/
theorem winF2c_main_v107 (W : Valuation τ sig (Elt F)) :
    after opsF2c W (Proc.devRef .tc main_v107) =
      (select (W (Proc.devRef .tc main_v106)) (broadcastInDim S8192x2 ![] bcast_S_S8192x2 (id (W (Proc.devRef .tc main_cst_21)))) (W (Proc.devRef .tc main_v104))) := by
  after_results_simp <;> rfl

/-- Window H leaves at main_v129 its composed term of main_v124, main_v5, main_arg21, main_arg22, main_arg3. -/
theorem winH_main_v129 (W : Valuation τ sig (Elt F)) :
    after opsH W (Proc.devRef .tc main_v129) =
      (addf (Host.dotGeneral dot_S262144x256_S256x1_S262144x1_1_0_0_1_n_n none (concatenate S262144x256 1 [⟨S262144x128, (W (Proc.devRef .tc main_v124))⟩, ⟨S262144x128, (W (Proc.devRef .tc main_v5))⟩] concatenates_S262144x128_S262144x128_S262144x256_d1) (W (Proc.devRef .tc main_arg21))) (broadcastInDim S262144x1 ![0, 1] bcast_S1x1_S262144x1_0_1 (broadcastInDim S1x1 ![1] bcast_S1_S1x1_1 (W (Proc.devRef .tc main_arg22))))) := by
  after_results_simp <;> rfl

/-- Window H leaves at main_v131 its composed term of main_v124, main_v5, main_arg21, main_arg22, main_arg3. -/
theorem winH_main_v131 (W : Valuation τ sig (Elt F)) :
    after opsH W (Proc.devRef .tc main_v131) =
      (cmpf .oge (W (Proc.devRef .tc main_arg3)) (broadcastInDim S262144x1 ![] bcast_S_S262144x1 (constant S_ .f32 0x3F800000#32))) := by
  after_results_simp <;> rfl

/-- Window H leaves at main_cst_30 its composed term of main_v124, main_v5, main_arg21, main_arg22, main_arg3. -/
theorem winH_main_cst_30 (W : Valuation τ sig (Elt F)) :
    after opsH W (Proc.devRef .tc main_cst_30) =
      (constant S_ .f32 0xFF800000#32) := by
  after_results_simp <;> rfl

/-- Window Hc leaves at main_v132 its composed term of main_cst_30, main_v131, main_v129. -/
theorem winHc_main_v132 (W : Valuation τ sig (Elt F)) :
    after opsHc W (Proc.devRef .tc main_v132) =
      (select (W (Proc.devRef .tc main_v131)) (broadcastInDim S262144x1 ![] bcast_S_S262144x1 (id (W (Proc.devRef .tc main_cst_30)))) (W (Proc.devRef .tc main_v129))) := by
  after_results_simp <;> rfl

/-- Window Hz leaves at main_v133 its composed term of main_v100, main_v107. -/
theorem winHz_main_v133 (W : Valuation τ sig (Elt F)) :
    after opsHz W (Proc.devRef .tc main_v133) =
      (concatenate S8192x3 1 [⟨S8192x1, (W (Proc.devRef .tc main_v100))⟩, ⟨S8192x2, (W (Proc.devRef .tc main_v107))⟩] concatenates_S8192x1_S8192x2_S8192x3_d1) := by
  after_results_simp <;> rfl

end Cert.ReferenceIdeal.RefRun

end
-- ==== Proof.RefRead.lean ====
/-
  The reference's run, by hand: the buffers of the FLOAT stages a later stage (or a result of @main) reads, each as ONE equation whose right side is the composed term of the
  window that writes the buffer, over what @main leaves in EARLIER such buffers (`after ops V` at them) and over
  the launch contents of the arguments (`V` at them). A buffer is written by exactly one operation, so what a
  later window finds in it is what @main ends with in it. Each equation opens one window only: the later windows
  are skipped (they do not write the buffer: `ops_eq_atK`), the window's own lemma gives the term over the
  contents at its start, and those contents are, buffer by buffer, @main's final ones (for a buffer written
  earlier) or the launch ones (for an argument: `atK_unwritten`). The `_of_` equations compose several of them
  through the seams inside one stage.
  Every argument ends unchanged.
-/
import proofs.«145994_j34600256537163_1_alg».proof.Proof.RefFrame
import proofs.«145994_j34600256537163_1_alg».proof.Proof.RefWin0
import proofs.«145994_j34600256537163_1_alg».proof.Proof.RefWin1
import proofs.«145994_j34600256537163_1_alg».proof.Proof.RefWin2

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- @main ends with main_v4 at window A's composed term of main_arg2, main_arg3, main_arg5, main_arg6. -/
theorem read_main_v4 (V : Valuation τ sig (Elt F)) :
    after ops V (Proc.devRef .tc main_v4) =
      (addf (Host.dotGeneral dot_S262144x65_S65x128_S262144x128_1_0_0_1_n_n none (concatenate S262144x65 1 [⟨S262144x64, (V (Proc.devRef .tc main_arg2))⟩, ⟨S262144x1, (V (Proc.devRef .tc main_arg3))⟩] concatenates_S262144x64_S262144x1_S262144x65_d1) (V (Proc.devRef .tc main_arg5))) (broadcastInDim S262144x128 ![0, 1] bcast_S1x128_S262144x128_0_1 (broadcastInDim S1x128 ![1] bcast_S128_S1x128_1 (V (Proc.devRef .tc main_arg6))))) := by
  rw [ops_eq_atA (r := main_v4) (by decide) V]
  exact winA_main_v4 V

/-- @main ends with main_cst at window A's composed term of no buffer. -/
theorem read_main_cst (V : Valuation τ sig (Elt F)) :
    after ops V (Proc.devRef .tc main_cst) =
      (constant S_ .f32 0x3C23D70A#32) := by
  rw [ops_eq_atA (r := main_cst) (by decide) V]
  exact winA_main_cst V

/-- @main ends with main_v5 at window Ac's composed term of main_v4, main_cst. -/
theorem read_main_v5 (V : Valuation τ sig (Elt F)) :
    after ops V (Proc.devRef .tc main_v5) =
      (select (cmpf .oge (after ops V (Proc.devRef .tc main_v4)) (broadcastInDim S262144x128 ![] bcast_S_S262144x128 (constant S_ .f32 0x00000000#32))) (after ops V (Proc.devRef .tc main_v4)) (mulf (broadcastInDim S262144x128 ![] bcast_S_S262144x128 (id (after ops V (Proc.devRef .tc main_cst)))) (after ops V (Proc.devRef .tc main_v4)))) := by
  rw [ops_eq_atAc (r := main_v5) (by decide) V]
  show after opsAc (atA V) _ = _
  rw [winAc_main_v5,
    ops_eq_atA (r := main_v4) (by decide) V,
    ops_eq_atA (r := main_cst) (by decide) V]

/-- @main ends with main_v32 at window C's composed term of main_v23, main_v5, main_arg4. -/
theorem read_main_v32 (V : Valuation τ sig (Elt F)) :
    after ops V (Proc.devRef .tc main_v32) =
      (Host.divf (Host.scatterAdd scatter_S8192x128_S262144x1_S262144x128_1_0_0_1 (broadcastInDim S8192x128 ![] bcast_S_S8192x128 (constant S_ .f32 0x00000000#32)) (broadcastInDim S262144x1 ![0] bcast_S262144_S262144x1_0 (after ops V (Proc.devRef .tc main_v23))) (after ops V (Proc.devRef .tc main_v5))) (broadcastInDim S8192x128 ![0, 1] bcast_S8192x1_S8192x128_0_1 (sitofp .f32 (broadcastInDim S8192x1 ![0] bcast_S8192_S8192x1_0 (maxsi (V (Proc.devRef .tc main_arg4)) (broadcastInDim S8192 ![] bcast_S_S8192 (constantI S_ 32 1#32))))))) := by
  rw [ops_eq_atC (r := main_v32) (by decide) V]
  show after opsC (atI7 V) _ = _
  rw [winC_main_v32,
    ops_eq_atI7 (r := main_v23) (by decide) V,
    ops_eq_atI7 (r := main_v5) (by decide) V,
    atI7_unwritten (r := main_arg4) (by decide) V]

/-- @main ends with main_v43 at window D1's composed term of main_v32. -/
theorem read_main_v43 (V : Valuation τ sig (Elt F)) :
    after ops V (Proc.devRef .tc main_v43) =
      (Host.divf (broadcastInDim S8192x1 ![0] bcast_S8192_S8192x1_0 (Host.reduceAdd (mulf (subf (after ops V (Proc.devRef .tc main_v32)) (broadcastInDim S8192x128 ![0, 1] bcast_S8192x1_S8192x128_0_1 (Host.divf (broadcastInDim S8192x1 ![0] bcast_S8192_S8192x1_0 (Host.reduceAdd (after ops V (Proc.devRef .tc main_v32)) (constant S_ .f32 0x00000000#32) reducesTo_S8192x128_S8192_d1 h_S_)) (broadcastInDim S8192x1 ![] bcast_S_S8192x1 (constant S_ .f32 0x43000000#32))))) (subf (after ops V (Proc.devRef .tc main_v32)) (broadcastInDim S8192x128 ![0, 1] bcast_S8192x1_S8192x128_0_1 (Host.divf (broadcastInDim S8192x1 ![0] bcast_S8192_S8192x1_0 (Host.reduceAdd (after ops V (Proc.devRef .tc main_v32)) (constant S_ .f32 0x00000000#32) reducesTo_S8192x128_S8192_d1 h_S_)) (broadcastInDim S8192x1 ![] bcast_S_S8192x1 (constant S_ .f32 0x43000000#32)))))) (constant S_ .f32 0x00000000#32) reducesTo_S8192x128_S8192_d1 h_S_)) (broadcastInDim S8192x1 ![] bcast_S_S8192x1 (constant S_ .f32 0x43000000#32))) := by
  rw [ops_eq_atD1 (r := main_v43) (by decide) V]
  show after opsD1 (atC V) _ = _
  rw [winD1_main_v43,
    ops_eq_atC (r := main_v32) (by decide) V]

/-- @main ends with main_v45 at window D1's composed term of main_v32. -/
theorem read_main_v45 (V : Valuation τ sig (Elt F)) :
    after ops V (Proc.devRef .tc main_v45) =
      (subf (after ops V (Proc.devRef .tc main_v32)) (broadcastInDim S8192x128 ![0, 1] bcast_S8192x1_S8192x128_0_1 (Host.divf (broadcastInDim S8192x1 ![0] bcast_S8192_S8192x1_0 (Host.reduceAdd (after ops V (Proc.devRef .tc main_v32)) (constant S_ .f32 0x00000000#32) reducesTo_S8192x128_S8192_d1 h_S_)) (broadcastInDim S8192x1 ![] bcast_S_S8192x1 (constant S_ .f32 0x43000000#32))))) := by
  rw [ops_eq_atD1 (r := main_v45) (by decide) V]
  show after opsD1 (atC V) _ = _
  rw [winD1_main_v45,
    ops_eq_atC (r := main_v32) (by decide) V]

/-- @main ends with main_v56 at window D2's composed term of main_v43, main_v45, main_arg7, main_arg8. -/
theorem read_main_v56 (V : Valuation τ sig (Elt F)) :
    after ops V (Proc.devRef .tc main_v56) =
      (addf (mulf (mulf (after ops V (Proc.devRef .tc main_v45)) (broadcastInDim S8192x128 ![0, 1] bcast_S8192x1_S8192x128_0_1 (Host.rsqrt (addf (after ops V (Proc.devRef .tc main_v43)) (broadcastInDim S8192x1 ![] bcast_S_S8192x1 (constant S_ .f32 0x3727C5AC#32)))))) (broadcastInDim S8192x128 ![0, 1] bcast_S1x128_S8192x128_0_1 (broadcastInDim S1x128 ![1] bcast_S128_S1x128_1 (V (Proc.devRef .tc main_arg7))))) (broadcastInDim S8192x128 ![0, 1] bcast_S1x128_S8192x128_0_1 (broadcastInDim S1x128 ![1] bcast_S128_S1x128_1 (V (Proc.devRef .tc main_arg8))))) := by
  rw [ops_eq_atD2 (r := main_v56) (by decide) V]
  show after opsD2 (atD1 V) _ = _
  rw [winD2_main_v56,
    ops_eq_atD1 (r := main_v43) (by decide) V,
    ops_eq_atD1 (r := main_v45) (by decide) V,
    atD1_unwritten (r := main_arg7) (by decide) V,
    atD1_unwritten (r := main_arg8) (by decide) V]

/-- @main ends with main_v63 at window E1's composed term of main_arg0, main_v56, main_arg1, main_arg9, main_arg10. -/
theorem read_main_v63 (V : Valuation τ sig (Elt F)) :
    after ops V (Proc.devRef .tc main_v63) =
      (addf (Host.dotGeneral dot_S8192x194_S194x128_S8192x128_1_0_0_1_n_n none (concatenate S8192x194 1 [⟨S8192x192, (Host.scatter scatter_S8192x192_S1_S8192x128_01_n_1_0 (fun _ b => b) (V (Proc.devRef .tc main_arg0)) (broadcastInDim S1 ![] bcast_S_S1 (constantI S_ 32 64#32)) (after ops V (Proc.devRef .tc main_v56)))⟩, ⟨S8192x2, (V (Proc.devRef .tc main_arg1))⟩] concatenates_S8192x192_S8192x2_S8192x194_d1) (V (Proc.devRef .tc main_arg9))) (broadcastInDim S8192x128 ![0, 1] bcast_S1x128_S8192x128_0_1 (broadcastInDim S1x128 ![1] bcast_S128_S1x128_1 (V (Proc.devRef .tc main_arg10))))) := by
  rw [ops_eq_atE1 (r := main_v63) (by decide) V]
  show after opsE1 (atD2 V) _ = _
  rw [winE1_main_v63,
    ops_eq_atD2 (r := main_v56) (by decide) V,
    atD2_unwritten (r := main_arg0) (by decide) V,
    atD2_unwritten (r := main_arg1) (by decide) V,
    atD2_unwritten (r := main_arg9) (by decide) V,
    atD2_unwritten (r := main_arg10) (by decide) V]

/-- @main ends with main_cst_14 at window E1's composed term of no buffer. -/
theorem read_main_cst_14 (V : Valuation τ sig (Elt F)) :
    after ops V (Proc.devRef .tc main_cst_14) =
      (constant S_ .f32 0x3C23D70A#32) := by
  rw [ops_eq_atE1 (r := main_cst_14) (by decide) V]
  show after opsE1 (atD2 V) _ = _
  rw [winE1_main_cst_14]

/-- @main ends with main_v64 at window E1c's composed term of main_v63, main_cst_14. -/
theorem read_main_v64 (V : Valuation τ sig (Elt F)) :
    after ops V (Proc.devRef .tc main_v64) =
      (select (cmpf .oge (after ops V (Proc.devRef .tc main_v63)) (broadcastInDim S8192x128 ![] bcast_S_S8192x128 (constant S_ .f32 0x00000000#32))) (after ops V (Proc.devRef .tc main_v63)) (mulf (broadcastInDim S8192x128 ![] bcast_S_S8192x128 (id (after ops V (Proc.devRef .tc main_cst_14)))) (after ops V (Proc.devRef .tc main_v63)))) := by
  rw [ops_eq_atE1c (r := main_v64) (by decide) V]
  show after opsE1c (atE1 V) _ = _
  rw [winE1c_main_v64,
    ops_eq_atE1 (r := main_v63) (by decide) V,
    ops_eq_atE1 (r := main_cst_14) (by decide) V]

/-- @main ends with main_v88 at window E2's composed term of main_v64, main_arg11, main_arg12. -/
theorem read_main_v88 (V : Valuation τ sig (Elt F)) :
    after ops V (Proc.devRef .tc main_v88) =
      (addf (mulf (mulf (subf (after ops V (Proc.devRef .tc main_v64)) (broadcastInDim S8192x128 ![0, 1] bcast_S8192x1_S8192x128_0_1 (Host.divf (broadcastInDim S8192x1 ![0] bcast_S8192_S8192x1_0 (Host.reduceAdd (after ops V (Proc.devRef .tc main_v64)) (constant S_ .f32 0x00000000#32) reducesTo_S8192x128_S8192_d1 h_S_)) (broadcastInDim S8192x1 ![] bcast_S_S8192x1 (constant S_ .f32 0x43000000#32))))) (broadcastInDim S8192x128 ![0, 1] bcast_S8192x1_S8192x128_0_1 (Host.rsqrt (addf (Host.divf (broadcastInDim S8192x1 ![0] bcast_S8192_S8192x1_0 (Host.reduceAdd (mulf (subf (after ops V (Proc.devRef .tc main_v64)) (broadcastInDim S8192x128 ![0, 1] bcast_S8192x1_S8192x128_0_1 (Host.divf (broadcastInDim S8192x1 ![0] bcast_S8192_S8192x1_0 (Host.reduceAdd (after ops V (Proc.devRef .tc main_v64)) (constant S_ .f32 0x00000000#32) reducesTo_S8192x128_S8192_d1 h_S_)) (broadcastInDim S8192x1 ![] bcast_S_S8192x1 (constant S_ .f32 0x43000000#32))))) (subf (after ops V (Proc.devRef .tc main_v64)) (broadcastInDim S8192x128 ![0, 1] bcast_S8192x1_S8192x128_0_1 (Host.divf (broadcastInDim S8192x1 ![0] bcast_S8192_S8192x1_0 (Host.reduceAdd (after ops V (Proc.devRef .tc main_v64)) (constant S_ .f32 0x00000000#32) reducesTo_S8192x128_S8192_d1 h_S_)) (broadcastInDim S8192x1 ![] bcast_S_S8192x1 (constant S_ .f32 0x43000000#32)))))) (constant S_ .f32 0x00000000#32) reducesTo_S8192x128_S8192_d1 h_S_)) (broadcastInDim S8192x1 ![] bcast_S_S8192x1 (constant S_ .f32 0x43000000#32))) (broadcastInDim S8192x1 ![] bcast_S_S8192x1 (constant S_ .f32 0x3727C5AC#32)))))) (broadcastInDim S8192x128 ![0, 1] bcast_S1x128_S8192x128_0_1 (broadcastInDim S1x128 ![1] bcast_S128_S1x128_1 (V (Proc.devRef .tc main_arg11))))) (broadcastInDim S8192x128 ![0, 1] bcast_S1x128_S8192x128_0_1 (broadcastInDim S1x128 ![1] bcast_S128_S1x128_1 (V (Proc.devRef .tc main_arg12))))) := by
  rw [ops_eq_atE2 (r := main_v88) (by decide) V]
  show after opsE2 (atE1c V) _ = _
  rw [winE2_main_v88,
    ops_eq_atE1c (r := main_v64) (by decide) V,
    atE1c_unwritten (r := main_arg11) (by decide) V,
    atE1c_unwritten (r := main_arg12) (by decide) V]

/-- @main ends with main_v92 at window F1's composed term of main_v88, main_arg13, main_arg14. -/
theorem read_main_v92 (V : Valuation τ sig (Elt F)) :
    after ops V (Proc.devRef .tc main_v92) =
      (addf (Host.dotGeneral dot_S8192x128_S128x1_S8192x1_1_0_0_1_n_n none (after ops V (Proc.devRef .tc main_v88)) (V (Proc.devRef .tc main_arg13))) (broadcastInDim S8192x1 ![0, 1] bcast_S1x1_S8192x1_0_1 (broadcastInDim S1x1 ![1] bcast_S1_S1x1_1 (V (Proc.devRef .tc main_arg14))))) := by
  rw [ops_eq_atF1 (r := main_v92) (by decide) V]
  show after opsF1 (atE2 V) _ = _
  rw [winF1_main_v92,
    ops_eq_atE2 (r := main_v88) (by decide) V,
    atE2_unwritten (r := main_arg13) (by decide) V,
    atE2_unwritten (r := main_arg14) (by decide) V]

/-- @main ends with main_v96 at window F1's composed term of main_v88, main_arg15, main_arg16. -/
theorem read_main_v96 (V : Valuation τ sig (Elt F)) :
    after ops V (Proc.devRef .tc main_v96) =
      (addf (Host.dotGeneral dot_S8192x128_S128x10_S8192x10_1_0_0_1_n_n none (after ops V (Proc.devRef .tc main_v88)) (V (Proc.devRef .tc main_arg15))) (broadcastInDim S8192x10 ![0, 1] bcast_S1x10_S8192x10_0_1 (broadcastInDim S1x10 ![1] bcast_S10_S1x10_1 (V (Proc.devRef .tc main_arg16))))) := by
  rw [ops_eq_atF1 (r := main_v96) (by decide) V]
  show after opsF1 (atE2 V) _ = _
  rw [winF1_main_v96,
    ops_eq_atE2 (r := main_v88) (by decide) V,
    atE2_unwritten (r := main_arg15) (by decide) V,
    atE2_unwritten (r := main_arg16) (by decide) V]

/-- @main ends with main_v97 at window F1's composed term of main_v88, main_arg17. -/
theorem read_main_v97 (V : Valuation τ sig (Elt F)) :
    after ops V (Proc.devRef .tc main_v97) =
      (Host.dotGeneral dot_S8192x128_S128x1_S8192x1_1_0_0_1_n_n none (after ops V (Proc.devRef .tc main_v88)) (V (Proc.devRef .tc main_arg17))) := by
  rw [ops_eq_atF1 (r := main_v97) (by decide) V]
  show after opsF1 (atE2 V) _ = _
  rw [winF1_main_v97,
    ops_eq_atE2 (r := main_v88) (by decide) V,
    atE2_unwritten (r := main_arg17) (by decide) V]

/-- @main ends with main_v100 at window F2's composed term of main_arg18, main_v97. -/
theorem read_main_v100 (V : Valuation τ sig (Elt F)) :
    after ops V (Proc.devRef .tc main_v100) =
      (addf (after ops V (Proc.devRef .tc main_v97)) (broadcastInDim S8192x1 ![0, 1] bcast_S1x1_S8192x1_0_1 (broadcastInDim S1x1 ![1] bcast_S1_S1x1_1 (V (Proc.devRef .tc main_arg18))))) := by
  rw [ops_eq_atF2 (r := main_v100) (by decide) V]
  show after opsF2 (atF1 V) _ = _
  rw [winF2_main_v100,
    ops_eq_atF1 (r := main_v97) (by decide) V,
    atF1_unwritten (r := main_arg18) (by decide) V]

/-- @main ends with main_v104 at window F2's composed term of main_v88, main_arg19, main_arg20. -/
theorem read_main_v104 (V : Valuation τ sig (Elt F)) :
    after ops V (Proc.devRef .tc main_v104) =
      (addf (Host.dotGeneral dot_S8192x128_S128x2_S8192x2_1_0_0_1_n_n none (after ops V (Proc.devRef .tc main_v88)) (V (Proc.devRef .tc main_arg19))) (broadcastInDim S8192x2 ![0, 1] bcast_S1x2_S8192x2_0_1 (broadcastInDim S1x2 ![1] bcast_S2_S1x2_1 (V (Proc.devRef .tc main_arg20))))) := by
  rw [ops_eq_atF2 (r := main_v104) (by decide) V]
  show after opsF2 (atF1 V) _ = _
  rw [winF2_main_v104,
    ops_eq_atF1 (r := main_v88) (by decide) V,
    atF1_unwritten (r := main_arg19) (by decide) V,
    atF1_unwritten (r := main_arg20) (by decide) V]

/-- @main ends with main_v106 at window F2's composed term of main_arg1. -/
theorem read_main_v106 (V : Valuation τ sig (Elt F)) :
    after ops V (Proc.devRef .tc main_v106) =
      (cmpf .oge (V (Proc.devRef .tc main_arg1)) (broadcastInDim S8192x2 ![] bcast_S_S8192x2 (constant S_ .f32 0x3F800000#32))) := by
  rw [ops_eq_atF2 (r := main_v106) (by decide) V]
  show after opsF2 (atF1 V) _ = _
  rw [winF2_main_v106,
    atF1_unwritten (r := main_arg1) (by decide) V]

/-- @main ends with main_cst_21 at window F2's composed term of no buffer. -/
theorem read_main_cst_21 (V : Valuation τ sig (Elt F)) :
    after ops V (Proc.devRef .tc main_cst_21) =
      (constant S_ .f32 0xFF800000#32) := by
  rw [ops_eq_atF2 (r := main_cst_21) (by decide) V]
  show after opsF2 (atF1 V) _ = _
  rw [winF2_main_cst_21]

/-- @main ends with main_v107 at window F2c's composed term of main_cst_21, main_v106, main_v104. -/
theorem read_main_v107 (V : Valuation τ sig (Elt F)) :
    after ops V (Proc.devRef .tc main_v107) =
      (select (after ops V (Proc.devRef .tc main_v106)) (broadcastInDim S8192x2 ![] bcast_S_S8192x2 (id (after ops V (Proc.devRef .tc main_cst_21)))) (after ops V (Proc.devRef .tc main_v104))) := by
  rw [ops_eq_atF2c (r := main_v107) (by decide) V]
  show after opsF2c (atF2 V) _ = _
  rw [winF2c_main_v107,
    ops_eq_atF2 (r := main_cst_21) (by decide) V,
    ops_eq_atF2 (r := main_v106) (by decide) V,
    ops_eq_atF2 (r := main_v104) (by decide) V]

/-- @main ends with main_v129 at window H's composed term of main_v124, main_v5, main_arg21, main_arg22. -/
theorem read_main_v129 (V : Valuation τ sig (Elt F)) :
    after ops V (Proc.devRef .tc main_v129) =
      (addf (Host.dotGeneral dot_S262144x256_S256x1_S262144x1_1_0_0_1_n_n none (concatenate S262144x256 1 [⟨S262144x128, (after ops V (Proc.devRef .tc main_v124))⟩, ⟨S262144x128, (after ops V (Proc.devRef .tc main_v5))⟩] concatenates_S262144x128_S262144x128_S262144x256_d1) (V (Proc.devRef .tc main_arg21))) (broadcastInDim S262144x1 ![0, 1] bcast_S1x1_S262144x1_0_1 (broadcastInDim S1x1 ![1] bcast_S1_S1x1_1 (V (Proc.devRef .tc main_arg22))))) := by
  rw [ops_eq_atH (r := main_v129) (by decide) V]
  show after opsH (atJ7 V) _ = _
  rw [winH_main_v129,
    ops_eq_atJ7 (r := main_v124) (by decide) V,
    ops_eq_atJ7 (r := main_v5) (by decide) V,
    atJ7_unwritten (r := main_arg21) (by decide) V,
    atJ7_unwritten (r := main_arg22) (by decide) V]

/-- @main ends with main_v131 at window H's composed term of main_arg3. -/
theorem read_main_v131 (V : Valuation τ sig (Elt F)) :
    after ops V (Proc.devRef .tc main_v131) =
      (cmpf .oge (V (Proc.devRef .tc main_arg3)) (broadcastInDim S262144x1 ![] bcast_S_S262144x1 (constant S_ .f32 0x3F800000#32))) := by
  rw [ops_eq_atH (r := main_v131) (by decide) V]
  show after opsH (atJ7 V) _ = _
  rw [winH_main_v131,
    atJ7_unwritten (r := main_arg3) (by decide) V]

/-- @main ends with main_cst_30 at window H's composed term of no buffer. -/
theorem read_main_cst_30 (V : Valuation τ sig (Elt F)) :
    after ops V (Proc.devRef .tc main_cst_30) =
      (constant S_ .f32 0xFF800000#32) := by
  rw [ops_eq_atH (r := main_cst_30) (by decide) V]
  show after opsH (atJ7 V) _ = _
  rw [winH_main_cst_30]

/-- @main ends with main_v132 at window Hc's composed term of main_cst_30, main_v131, main_v129. -/
theorem read_main_v132 (V : Valuation τ sig (Elt F)) :
    after ops V (Proc.devRef .tc main_v132) =
      (select (after ops V (Proc.devRef .tc main_v131)) (broadcastInDim S262144x1 ![] bcast_S_S262144x1 (id (after ops V (Proc.devRef .tc main_cst_30)))) (after ops V (Proc.devRef .tc main_v129))) := by
  rw [ops_eq_atHc (r := main_v132) (by decide) V]
  show after opsHc (atH V) _ = _
  rw [winHc_main_v132,
    ops_eq_atH (r := main_cst_30) (by decide) V,
    ops_eq_atH (r := main_v131) (by decide) V,
    ops_eq_atH (r := main_v129) (by decide) V]

/-- @main ends with main_v133 at window Hz's composed term of main_v100, main_v107. -/
theorem read_main_v133 (V : Valuation τ sig (Elt F)) :
    after ops V (Proc.devRef .tc main_v133) =
      (concatenate S8192x3 1 [⟨S8192x1, (after ops V (Proc.devRef .tc main_v100))⟩, ⟨S8192x2, (after ops V (Proc.devRef .tc main_v107))⟩] concatenates_S8192x1_S8192x2_S8192x3_d1) := by
  rw [ops_eq_atHz main_v133 V]
  show after opsHz (atHc V) _ = _
  rw [winHz_main_v133,
    ops_eq_atHc (r := main_v100) (by decide) V,
    ops_eq_atHc (r := main_v107) (by decide) V]

/-- x_raw_sub of sub_feats, sub_mask, W_sub_in, b_sub_in: through the pre-activation main_v4 and the slope main_cst. -/
theorem read_main_v5_of_args (V : Valuation τ sig (Elt F)) :
    after ops V (Proc.devRef .tc main_v5) =
      (select (cmpf .oge (addf (Host.dotGeneral dot_S262144x65_S65x128_S262144x128_1_0_0_1_n_n none (concatenate S262144x65 1 [⟨S262144x64, (V (Proc.devRef .tc main_arg2))⟩, ⟨S262144x1, (V (Proc.devRef .tc main_arg3))⟩] concatenates_S262144x64_S262144x1_S262144x65_d1) (V (Proc.devRef .tc main_arg5))) (broadcastInDim S262144x128 ![0, 1] bcast_S1x128_S262144x128_0_1 (broadcastInDim S1x128 ![1] bcast_S128_S1x128_1 (V (Proc.devRef .tc main_arg6))))) (broadcastInDim S262144x128 ![] bcast_S_S262144x128 (constant S_ .f32 0x00000000#32))) (addf (Host.dotGeneral dot_S262144x65_S65x128_S262144x128_1_0_0_1_n_n none (concatenate S262144x65 1 [⟨S262144x64, (V (Proc.devRef .tc main_arg2))⟩, ⟨S262144x1, (V (Proc.devRef .tc main_arg3))⟩] concatenates_S262144x64_S262144x1_S262144x65_d1) (V (Proc.devRef .tc main_arg5))) (broadcastInDim S262144x128 ![0, 1] bcast_S1x128_S262144x128_0_1 (broadcastInDim S1x128 ![1] bcast_S128_S1x128_1 (V (Proc.devRef .tc main_arg6))))) (mulf (broadcastInDim S262144x128 ![] bcast_S_S262144x128 (id (constant S_ .f32 0x3C23D70A#32))) (addf (Host.dotGeneral dot_S262144x65_S65x128_S262144x128_1_0_0_1_n_n none (concatenate S262144x65 1 [⟨S262144x64, (V (Proc.devRef .tc main_arg2))⟩, ⟨S262144x1, (V (Proc.devRef .tc main_arg3))⟩] concatenates_S262144x64_S262144x1_S262144x65_d1) (V (Proc.devRef .tc main_arg5))) (broadcastInDim S262144x128 ![0, 1] bcast_S1x128_S262144x128_0_1 (broadcastInDim S1x128 ![1] bcast_S128_S1x128_1 (V (Proc.devRef .tc main_arg6))))))) := by
  rw [read_main_v5 V, read_main_v4 V, read_main_cst V]

/-- sub_norm as the layer norm of the segment mean: through the variance main_v43 and the centred value main_v45. -/
theorem read_main_v56_of_main_v32 (V : Valuation τ sig (Elt F)) :
    after ops V (Proc.devRef .tc main_v56) =
      (addf (mulf (mulf (subf (after ops V (Proc.devRef .tc main_v32)) (broadcastInDim S8192x128 ![0, 1] bcast_S8192x1_S8192x128_0_1 (Host.divf (broadcastInDim S8192x1 ![0] bcast_S8192_S8192x1_0 (Host.reduceAdd (after ops V (Proc.devRef .tc main_v32)) (constant S_ .f32 0x00000000#32) reducesTo_S8192x128_S8192_d1 h_S_)) (broadcastInDim S8192x1 ![] bcast_S_S8192x1 (constant S_ .f32 0x43000000#32))))) (broadcastInDim S8192x128 ![0, 1] bcast_S8192x1_S8192x128_0_1 (Host.rsqrt (addf (Host.divf (broadcastInDim S8192x1 ![0] bcast_S8192_S8192x1_0 (Host.reduceAdd (mulf (subf (after ops V (Proc.devRef .tc main_v32)) (broadcastInDim S8192x128 ![0, 1] bcast_S8192x1_S8192x128_0_1 (Host.divf (broadcastInDim S8192x1 ![0] bcast_S8192_S8192x1_0 (Host.reduceAdd (after ops V (Proc.devRef .tc main_v32)) (constant S_ .f32 0x00000000#32) reducesTo_S8192x128_S8192_d1 h_S_)) (broadcastInDim S8192x1 ![] bcast_S_S8192x1 (constant S_ .f32 0x43000000#32))))) (subf (after ops V (Proc.devRef .tc main_v32)) (broadcastInDim S8192x128 ![0, 1] bcast_S8192x1_S8192x128_0_1 (Host.divf (broadcastInDim S8192x1 ![0] bcast_S8192_S8192x1_0 (Host.reduceAdd (after ops V (Proc.devRef .tc main_v32)) (constant S_ .f32 0x00000000#32) reducesTo_S8192x128_S8192_d1 h_S_)) (broadcastInDim S8192x1 ![] bcast_S_S8192x1 (constant S_ .f32 0x43000000#32)))))) (constant S_ .f32 0x00000000#32) reducesTo_S8192x128_S8192_d1 h_S_)) (broadcastInDim S8192x1 ![] bcast_S_S8192x1 (constant S_ .f32 0x43000000#32))) (broadcastInDim S8192x1 ![] bcast_S_S8192x1 (constant S_ .f32 0x3727C5AC#32)))))) (broadcastInDim S8192x128 ![0, 1] bcast_S1x128_S8192x128_0_1 (broadcastInDim S1x128 ![1] bcast_S128_S1x128_1 (V (Proc.devRef .tc main_arg7))))) (broadcastInDim S8192x128 ![0, 1] bcast_S1x128_S8192x128_0_1 (broadcastInDim S1x128 ![1] bcast_S128_S1x128_1 (V (Proc.devRef .tc main_arg8))))) := by
  rw [read_main_v56 V, read_main_v43 V, read_main_v45 V]

/-- the activated root input of sub_norm and the root inputs: through the pre-activation main_v63 and the slope main_cst_14. -/
theorem read_main_v64_of_main_v56 (V : Valuation τ sig (Elt F)) :
    after ops V (Proc.devRef .tc main_v64) =
      (select (cmpf .oge (addf (Host.dotGeneral dot_S8192x194_S194x128_S8192x128_1_0_0_1_n_n none (concatenate S8192x194 1 [⟨S8192x192, (Host.scatter scatter_S8192x192_S1_S8192x128_01_n_1_0 (fun _ b => b) (V (Proc.devRef .tc main_arg0)) (broadcastInDim S1 ![] bcast_S_S1 (constantI S_ 32 64#32)) (after ops V (Proc.devRef .tc main_v56)))⟩, ⟨S8192x2, (V (Proc.devRef .tc main_arg1))⟩] concatenates_S8192x192_S8192x2_S8192x194_d1) (V (Proc.devRef .tc main_arg9))) (broadcastInDim S8192x128 ![0, 1] bcast_S1x128_S8192x128_0_1 (broadcastInDim S1x128 ![1] bcast_S128_S1x128_1 (V (Proc.devRef .tc main_arg10))))) (broadcastInDim S8192x128 ![] bcast_S_S8192x128 (constant S_ .f32 0x00000000#32))) (addf (Host.dotGeneral dot_S8192x194_S194x128_S8192x128_1_0_0_1_n_n none (concatenate S8192x194 1 [⟨S8192x192, (Host.scatter scatter_S8192x192_S1_S8192x128_01_n_1_0 (fun _ b => b) (V (Proc.devRef .tc main_arg0)) (broadcastInDim S1 ![] bcast_S_S1 (constantI S_ 32 64#32)) (after ops V (Proc.devRef .tc main_v56)))⟩, ⟨S8192x2, (V (Proc.devRef .tc main_arg1))⟩] concatenates_S8192x192_S8192x2_S8192x194_d1) (V (Proc.devRef .tc main_arg9))) (broadcastInDim S8192x128 ![0, 1] bcast_S1x128_S8192x128_0_1 (broadcastInDim S1x128 ![1] bcast_S128_S1x128_1 (V (Proc.devRef .tc main_arg10))))) (mulf (broadcastInDim S8192x128 ![] bcast_S_S8192x128 (id (constant S_ .f32 0x3C23D70A#32))) (addf (Host.dotGeneral dot_S8192x194_S194x128_S8192x128_1_0_0_1_n_n none (concatenate S8192x194 1 [⟨S8192x192, (Host.scatter scatter_S8192x192_S1_S8192x128_01_n_1_0 (fun _ b => b) (V (Proc.devRef .tc main_arg0)) (broadcastInDim S1 ![] bcast_S_S1 (constantI S_ 32 64#32)) (after ops V (Proc.devRef .tc main_v56)))⟩, ⟨S8192x2, (V (Proc.devRef .tc main_arg1))⟩] concatenates_S8192x192_S8192x2_S8192x194_d1) (V (Proc.devRef .tc main_arg9))) (broadcastInDim S8192x128 ![0, 1] bcast_S1x128_S8192x128_0_1 (broadcastInDim S1x128 ![1] bcast_S128_S1x128_1 (V (Proc.devRef .tc main_arg10))))))) := by
  rw [read_main_v64 V, read_main_v63 V, read_main_cst_14 V]

/-- x_root of sub_norm and the root inputs: through main_v64, main_v63, main_cst_14. -/
theorem read_main_v88_of_main_v56 (V : Valuation τ sig (Elt F)) :
    after ops V (Proc.devRef .tc main_v88) =
      (addf (mulf (mulf (subf (select (cmpf .oge (addf (Host.dotGeneral dot_S8192x194_S194x128_S8192x128_1_0_0_1_n_n none (concatenate S8192x194 1 [⟨S8192x192, (Host.scatter scatter_S8192x192_S1_S8192x128_01_n_1_0 (fun _ b => b) (V (Proc.devRef .tc main_arg0)) (broadcastInDim S1 ![] bcast_S_S1 (constantI S_ 32 64#32)) (after ops V (Proc.devRef .tc main_v56)))⟩, ⟨S8192x2, (V (Proc.devRef .tc main_arg1))⟩] concatenates_S8192x192_S8192x2_S8192x194_d1) (V (Proc.devRef .tc main_arg9))) (broadcastInDim S8192x128 ![0, 1] bcast_S1x128_S8192x128_0_1 (broadcastInDim S1x128 ![1] bcast_S128_S1x128_1 (V (Proc.devRef .tc main_arg10))))) (broadcastInDim S8192x128 ![] bcast_S_S8192x128 (constant S_ .f32 0x00000000#32))) (addf (Host.dotGeneral dot_S8192x194_S194x128_S8192x128_1_0_0_1_n_n none (concatenate S8192x194 1 [⟨S8192x192, (Host.scatter scatter_S8192x192_S1_S8192x128_01_n_1_0 (fun _ b => b) (V (Proc.devRef .tc main_arg0)) (broadcastInDim S1 ![] bcast_S_S1 (constantI S_ 32 64#32)) (after ops V (Proc.devRef .tc main_v56)))⟩, ⟨S8192x2, (V (Proc.devRef .tc main_arg1))⟩] concatenates_S8192x192_S8192x2_S8192x194_d1) (V (Proc.devRef .tc main_arg9))) (broadcastInDim S8192x128 ![0, 1] bcast_S1x128_S8192x128_0_1 (broadcastInDim S1x128 ![1] bcast_S128_S1x128_1 (V (Proc.devRef .tc main_arg10))))) (mulf (broadcastInDim S8192x128 ![] bcast_S_S8192x128 (id (constant S_ .f32 0x3C23D70A#32))) (addf (Host.dotGeneral dot_S8192x194_S194x128_S8192x128_1_0_0_1_n_n none (concatenate S8192x194 1 [⟨S8192x192, (Host.scatter scatter_S8192x192_S1_S8192x128_01_n_1_0 (fun _ b => b) (V (Proc.devRef .tc main_arg0)) (broadcastInDim S1 ![] bcast_S_S1 (constantI S_ 32 64#32)) (after ops V (Proc.devRef .tc main_v56)))⟩, ⟨S8192x2, (V (Proc.devRef .tc main_arg1))⟩] concatenates_S8192x192_S8192x2_S8192x194_d1) (V (Proc.devRef .tc main_arg9))) (broadcastInDim S8192x128 ![0, 1] bcast_S1x128_S8192x128_0_1 (broadcastInDim S1x128 ![1] bcast_S128_S1x128_1 (V (Proc.devRef .tc main_arg10))))))) (broadcastInDim S8192x128 ![0, 1] bcast_S8192x1_S8192x128_0_1 (Host.divf (broadcastInDim S8192x1 ![0] bcast_S8192_S8192x1_0 (Host.reduceAdd (select (cmpf .oge (addf (Host.dotGeneral dot_S8192x194_S194x128_S8192x128_1_0_0_1_n_n none (concatenate S8192x194 1 [⟨S8192x192, (Host.scatter scatter_S8192x192_S1_S8192x128_01_n_1_0 (fun _ b => b) (V (Proc.devRef .tc main_arg0)) (broadcastInDim S1 ![] bcast_S_S1 (constantI S_ 32 64#32)) (after ops V (Proc.devRef .tc main_v56)))⟩, ⟨S8192x2, (V (Proc.devRef .tc main_arg1))⟩] concatenates_S8192x192_S8192x2_S8192x194_d1) (V (Proc.devRef .tc main_arg9))) (broadcastInDim S8192x128 ![0, 1] bcast_S1x128_S8192x128_0_1 (broadcastInDim S1x128 ![1] bcast_S128_S1x128_1 (V (Proc.devRef .tc main_arg10))))) (broadcastInDim S8192x128 ![] bcast_S_S8192x128 (constant S_ .f32 0x00000000#32))) (addf (Host.dotGeneral dot_S8192x194_S194x128_S8192x128_1_0_0_1_n_n none (concatenate S8192x194 1 [⟨S8192x192, (Host.scatter scatter_S8192x192_S1_S8192x128_01_n_1_0 (fun _ b => b) (V (Proc.devRef .tc main_arg0)) (broadcastInDim S1 ![] bcast_S_S1 (constantI S_ 32 64#32)) (after ops V (Proc.devRef .tc main_v56)))⟩, ⟨S8192x2, (V (Proc.devRef .tc main_arg1))⟩] concatenates_S8192x192_S8192x2_S8192x194_d1) (V (Proc.devRef .tc main_arg9))) (broadcastInDim S8192x128 ![0, 1] bcast_S1x128_S8192x128_0_1 (broadcastInDim S1x128 ![1] bcast_S128_S1x128_1 (V (Proc.devRef .tc main_arg10))))) (mulf (broadcastInDim S8192x128 ![] bcast_S_S8192x128 (id (constant S_ .f32 0x3C23D70A#32))) (addf (Host.dotGeneral dot_S8192x194_S194x128_S8192x128_1_0_0_1_n_n none (concatenate S8192x194 1 [⟨S8192x192, (Host.scatter scatter_S8192x192_S1_S8192x128_01_n_1_0 (fun _ b => b) (V (Proc.devRef .tc main_arg0)) (broadcastInDim S1 ![] bcast_S_S1 (constantI S_ 32 64#32)) (after ops V (Proc.devRef .tc main_v56)))⟩, ⟨S8192x2, (V (Proc.devRef .tc main_arg1))⟩] concatenates_S8192x192_S8192x2_S8192x194_d1) (V (Proc.devRef .tc main_arg9))) (broadcastInDim S8192x128 ![0, 1] bcast_S1x128_S8192x128_0_1 (broadcastInDim S1x128 ![1] bcast_S128_S1x128_1 (V (Proc.devRef .tc main_arg10))))))) (constant S_ .f32 0x00000000#32) reducesTo_S8192x128_S8192_d1 h_S_)) (broadcastInDim S8192x1 ![] bcast_S_S8192x1 (constant S_ .f32 0x43000000#32))))) (broadcastInDim S8192x128 ![0, 1] bcast_S8192x1_S8192x128_0_1 (Host.rsqrt (addf (Host.divf (broadcastInDim S8192x1 ![0] bcast_S8192_S8192x1_0 (Host.reduceAdd (mulf (subf (select (cmpf .oge (addf (Host.dotGeneral dot_S8192x194_S194x128_S8192x128_1_0_0_1_n_n none (concatenate S8192x194 1 [⟨S8192x192, (Host.scatter scatter_S8192x192_S1_S8192x128_01_n_1_0 (fun _ b => b) (V (Proc.devRef .tc main_arg0)) (broadcastInDim S1 ![] bcast_S_S1 (constantI S_ 32 64#32)) (after ops V (Proc.devRef .tc main_v56)))⟩, ⟨S8192x2, (V (Proc.devRef .tc main_arg1))⟩] concatenates_S8192x192_S8192x2_S8192x194_d1) (V (Proc.devRef .tc main_arg9))) (broadcastInDim S8192x128 ![0, 1] bcast_S1x128_S8192x128_0_1 (broadcastInDim S1x128 ![1] bcast_S128_S1x128_1 (V (Proc.devRef .tc main_arg10))))) (broadcastInDim S8192x128 ![] bcast_S_S8192x128 (constant S_ .f32 0x00000000#32))) (addf (Host.dotGeneral dot_S8192x194_S194x128_S8192x128_1_0_0_1_n_n none (concatenate S8192x194 1 [⟨S8192x192, (Host.scatter scatter_S8192x192_S1_S8192x128_01_n_1_0 (fun _ b => b) (V (Proc.devRef .tc main_arg0)) (broadcastInDim S1 ![] bcast_S_S1 (constantI S_ 32 64#32)) (after ops V (Proc.devRef .tc main_v56)))⟩, ⟨S8192x2, (V (Proc.devRef .tc main_arg1))⟩] concatenates_S8192x192_S8192x2_S8192x194_d1) (V (Proc.devRef .tc main_arg9))) (broadcastInDim S8192x128 ![0, 1] bcast_S1x128_S8192x128_0_1 (broadcastInDim S1x128 ![1] bcast_S128_S1x128_1 (V (Proc.devRef .tc main_arg10))))) (mulf (broadcastInDim S8192x128 ![] bcast_S_S8192x128 (id (constant S_ .f32 0x3C23D70A#32))) (addf (Host.dotGeneral dot_S8192x194_S194x128_S8192x128_1_0_0_1_n_n none (concatenate S8192x194 1 [⟨S8192x192, (Host.scatter scatter_S8192x192_S1_S8192x128_01_n_1_0 (fun _ b => b) (V (Proc.devRef .tc main_arg0)) (broadcastInDim S1 ![] bcast_S_S1 (constantI S_ 32 64#32)) (after ops V (Proc.devRef .tc main_v56)))⟩, ⟨S8192x2, (V (Proc.devRef .tc main_arg1))⟩] concatenates_S8192x192_S8192x2_S8192x194_d1) (V (Proc.devRef .tc main_arg9))) (broadcastInDim S8192x128 ![0, 1] bcast_S1x128_S8192x128_0_1 (broadcastInDim S1x128 ![1] bcast_S128_S1x128_1 (V (Proc.devRef .tc main_arg10))))))) (broadcastInDim S8192x128 ![0, 1] bcast_S8192x1_S8192x128_0_1 (Host.divf (broadcastInDim S8192x1 ![0] bcast_S8192_S8192x1_0 (Host.reduceAdd (select (cmpf .oge (addf (Host.dotGeneral dot_S8192x194_S194x128_S8192x128_1_0_0_1_n_n none (concatenate S8192x194 1 [⟨S8192x192, (Host.scatter scatter_S8192x192_S1_S8192x128_01_n_1_0 (fun _ b => b) (V (Proc.devRef .tc main_arg0)) (broadcastInDim S1 ![] bcast_S_S1 (constantI S_ 32 64#32)) (after ops V (Proc.devRef .tc main_v56)))⟩, ⟨S8192x2, (V (Proc.devRef .tc main_arg1))⟩] concatenates_S8192x192_S8192x2_S8192x194_d1) (V (Proc.devRef .tc main_arg9))) (broadcastInDim S8192x128 ![0, 1] bcast_S1x128_S8192x128_0_1 (broadcastInDim S1x128 ![1] bcast_S128_S1x128_1 (V (Proc.devRef .tc main_arg10))))) (broadcastInDim S8192x128 ![] bcast_S_S8192x128 (constant S_ .f32 0x00000000#32))) (addf (Host.dotGeneral dot_S8192x194_S194x128_S8192x128_1_0_0_1_n_n none (concatenate S8192x194 1 [⟨S8192x192, (Host.scatter scatter_S8192x192_S1_S8192x128_01_n_1_0 (fun _ b => b) (V (Proc.devRef .tc main_arg0)) (broadcastInDim S1 ![] bcast_S_S1 (constantI S_ 32 64#32)) (after ops V (Proc.devRef .tc main_v56)))⟩, ⟨S8192x2, (V (Proc.devRef .tc main_arg1))⟩] concatenates_S8192x192_S8192x2_S8192x194_d1) (V (Proc.devRef .tc main_arg9))) (broadcastInDim S8192x128 ![0, 1] bcast_S1x128_S8192x128_0_1 (broadcastInDim S1x128 ![1] bcast_S128_S1x128_1 (V (Proc.devRef .tc main_arg10))))) (mulf (broadcastInDim S8192x128 ![] bcast_S_S8192x128 (id (constant S_ .f32 0x3C23D70A#32))) (addf (Host.dotGeneral dot_S8192x194_S194x128_S8192x128_1_0_0_1_n_n none (concatenate S8192x194 1 [⟨S8192x192, (Host.scatter scatter_S8192x192_S1_S8192x128_01_n_1_0 (fun _ b => b) (V (Proc.devRef .tc main_arg0)) (broadcastInDim S1 ![] bcast_S_S1 (constantI S_ 32 64#32)) (after ops V (Proc.devRef .tc main_v56)))⟩, ⟨S8192x2, (V (Proc.devRef .tc main_arg1))⟩] concatenates_S8192x192_S8192x2_S8192x194_d1) (V (Proc.devRef .tc main_arg9))) (broadcastInDim S8192x128 ![0, 1] bcast_S1x128_S8192x128_0_1 (broadcastInDim S1x128 ![1] bcast_S128_S1x128_1 (V (Proc.devRef .tc main_arg10))))))) (constant S_ .f32 0x00000000#32) reducesTo_S8192x128_S8192_d1 h_S_)) (broadcastInDim S8192x1 ![] bcast_S_S8192x1 (constant S_ .f32 0x43000000#32))))) (subf (select (cmpf .oge (addf (Host.dotGeneral dot_S8192x194_S194x128_S8192x128_1_0_0_1_n_n none (concatenate S8192x194 1 [⟨S8192x192, (Host.scatter scatter_S8192x192_S1_S8192x128_01_n_1_0 (fun _ b => b) (V (Proc.devRef .tc main_arg0)) (broadcastInDim S1 ![] bcast_S_S1 (constantI S_ 32 64#32)) (after ops V (Proc.devRef .tc main_v56)))⟩, ⟨S8192x2, (V (Proc.devRef .tc main_arg1))⟩] concatenates_S8192x192_S8192x2_S8192x194_d1) (V (Proc.devRef .tc main_arg9))) (broadcastInDim S8192x128 ![0, 1] bcast_S1x128_S8192x128_0_1 (broadcastInDim S1x128 ![1] bcast_S128_S1x128_1 (V (Proc.devRef .tc main_arg10))))) (broadcastInDim S8192x128 ![] bcast_S_S8192x128 (constant S_ .f32 0x00000000#32))) (addf (Host.dotGeneral dot_S8192x194_S194x128_S8192x128_1_0_0_1_n_n none (concatenate S8192x194 1 [⟨S8192x192, (Host.scatter scatter_S8192x192_S1_S8192x128_01_n_1_0 (fun _ b => b) (V (Proc.devRef .tc main_arg0)) (broadcastInDim S1 ![] bcast_S_S1 (constantI S_ 32 64#32)) (after ops V (Proc.devRef .tc main_v56)))⟩, ⟨S8192x2, (V (Proc.devRef .tc main_arg1))⟩] concatenates_S8192x192_S8192x2_S8192x194_d1) (V (Proc.devRef .tc main_arg9))) (broadcastInDim S8192x128 ![0, 1] bcast_S1x128_S8192x128_0_1 (broadcastInDim S1x128 ![1] bcast_S128_S1x128_1 (V (Proc.devRef .tc main_arg10))))) (mulf (broadcastInDim S8192x128 ![] bcast_S_S8192x128 (id (constant S_ .f32 0x3C23D70A#32))) (addf (Host.dotGeneral dot_S8192x194_S194x128_S8192x128_1_0_0_1_n_n none (concatenate S8192x194 1 [⟨S8192x192, (Host.scatter scatter_S8192x192_S1_S8192x128_01_n_1_0 (fun _ b => b) (V (Proc.devRef .tc main_arg0)) (broadcastInDim S1 ![] bcast_S_S1 (constantI S_ 32 64#32)) (after ops V (Proc.devRef .tc main_v56)))⟩, ⟨S8192x2, (V (Proc.devRef .tc main_arg1))⟩] concatenates_S8192x192_S8192x2_S8192x194_d1) (V (Proc.devRef .tc main_arg9))) (broadcastInDim S8192x128 ![0, 1] bcast_S1x128_S8192x128_0_1 (broadcastInDim S1x128 ![1] bcast_S128_S1x128_1 (V (Proc.devRef .tc main_arg10))))))) (broadcastInDim S8192x128 ![0, 1] bcast_S8192x1_S8192x128_0_1 (Host.divf (broadcastInDim S8192x1 ![0] bcast_S8192_S8192x1_0 (Host.reduceAdd (select (cmpf .oge (addf (Host.dotGeneral dot_S8192x194_S194x128_S8192x128_1_0_0_1_n_n none (concatenate S8192x194 1 [⟨S8192x192, (Host.scatter scatter_S8192x192_S1_S8192x128_01_n_1_0 (fun _ b => b) (V (Proc.devRef .tc main_arg0)) (broadcastInDim S1 ![] bcast_S_S1 (constantI S_ 32 64#32)) (after ops V (Proc.devRef .tc main_v56)))⟩, ⟨S8192x2, (V (Proc.devRef .tc main_arg1))⟩] concatenates_S8192x192_S8192x2_S8192x194_d1) (V (Proc.devRef .tc main_arg9))) (broadcastInDim S8192x128 ![0, 1] bcast_S1x128_S8192x128_0_1 (broadcastInDim S1x128 ![1] bcast_S128_S1x128_1 (V (Proc.devRef .tc main_arg10))))) (broadcastInDim S8192x128 ![] bcast_S_S8192x128 (constant S_ .f32 0x00000000#32))) (addf (Host.dotGeneral dot_S8192x194_S194x128_S8192x128_1_0_0_1_n_n none (concatenate S8192x194 1 [⟨S8192x192, (Host.scatter scatter_S8192x192_S1_S8192x128_01_n_1_0 (fun _ b => b) (V (Proc.devRef .tc main_arg0)) (broadcastInDim S1 ![] bcast_S_S1 (constantI S_ 32 64#32)) (after ops V (Proc.devRef .tc main_v56)))⟩, ⟨S8192x2, (V (Proc.devRef .tc main_arg1))⟩] concatenates_S8192x192_S8192x2_S8192x194_d1) (V (Proc.devRef .tc main_arg9))) (broadcastInDim S8192x128 ![0, 1] bcast_S1x128_S8192x128_0_1 (broadcastInDim S1x128 ![1] bcast_S128_S1x128_1 (V (Proc.devRef .tc main_arg10))))) (mulf (broadcastInDim S8192x128 ![] bcast_S_S8192x128 (id (constant S_ .f32 0x3C23D70A#32))) (addf (Host.dotGeneral dot_S8192x194_S194x128_S8192x128_1_0_0_1_n_n none (concatenate S8192x194 1 [⟨S8192x192, (Host.scatter scatter_S8192x192_S1_S8192x128_01_n_1_0 (fun _ b => b) (V (Proc.devRef .tc main_arg0)) (broadcastInDim S1 ![] bcast_S_S1 (constantI S_ 32 64#32)) (after ops V (Proc.devRef .tc main_v56)))⟩, ⟨S8192x2, (V (Proc.devRef .tc main_arg1))⟩] concatenates_S8192x192_S8192x2_S8192x194_d1) (V (Proc.devRef .tc main_arg9))) (broadcastInDim S8192x128 ![0, 1] bcast_S1x128_S8192x128_0_1 (broadcastInDim S1x128 ![1] bcast_S128_S1x128_1 (V (Proc.devRef .tc main_arg10))))))) (constant S_ .f32 0x00000000#32) reducesTo_S8192x128_S8192_d1 h_S_)) (broadcastInDim S8192x1 ![] bcast_S_S8192x1 (constant S_ .f32 0x43000000#32)))))) (constant S_ .f32 0x00000000#32) reducesTo_S8192x128_S8192_d1 h_S_)) (broadcastInDim S8192x1 ![] bcast_S_S8192x1 (constant S_ .f32 0x43000000#32))) (broadcastInDim S8192x1 ![] bcast_S_S8192x1 (constant S_ .f32 0x3727C5AC#32)))))) (broadcastInDim S8192x128 ![0, 1] bcast_S1x128_S8192x128_0_1 (broadcastInDim S1x128 ![1] bcast_S128_S1x128_1 (V (Proc.devRef .tc main_arg11))))) (broadcastInDim S8192x128 ![0, 1] bcast_S1x128_S8192x128_0_1 (broadcastInDim S1x128 ![1] bcast_S128_S1x128_1 (V (Proc.devRef .tc main_arg12))))) := by
  rw [read_main_v88 V, read_main_v64 V, read_main_v63 V, read_main_cst_14 V]

/-- the masked root logits of x_root: through main_v104, the mask test main_v106 and the constant main_cst_21. -/
theorem read_main_v107_of_main_v88 (V : Valuation τ sig (Elt F)) :
    after ops V (Proc.devRef .tc main_v107) =
      (select (cmpf .oge (V (Proc.devRef .tc main_arg1)) (broadcastInDim S8192x2 ![] bcast_S_S8192x2 (constant S_ .f32 0x3F800000#32))) (broadcastInDim S8192x2 ![] bcast_S_S8192x2 (id (constant S_ .f32 0xFF800000#32))) (addf (Host.dotGeneral dot_S8192x128_S128x2_S8192x2_1_0_0_1_n_n none (after ops V (Proc.devRef .tc main_v88)) (V (Proc.devRef .tc main_arg19))) (broadcastInDim S8192x2 ![0, 1] bcast_S1x2_S8192x2_0_1 (broadcastInDim S1x2 ![1] bcast_S2_S1x2_1 (V (Proc.devRef .tc main_arg20)))))) := by
  rw [read_main_v107 V, read_main_cst_21 V, read_main_v106 V, read_main_v104 V]

/-- of_x of x_root: through main_v97, main_v100 and the masked main_v107. -/
theorem read_main_v133_of_main_v88 (V : Valuation τ sig (Elt F)) :
    after ops V (Proc.devRef .tc main_v133) =
      (concatenate S8192x3 1 [⟨S8192x1, (addf (Host.dotGeneral dot_S8192x128_S128x1_S8192x1_1_0_0_1_n_n none (after ops V (Proc.devRef .tc main_v88)) (V (Proc.devRef .tc main_arg17))) (broadcastInDim S8192x1 ![0, 1] bcast_S1x1_S8192x1_0_1 (broadcastInDim S1x1 ![1] bcast_S1_S1x1_1 (V (Proc.devRef .tc main_arg18)))))⟩, ⟨S8192x2, (select (cmpf .oge (V (Proc.devRef .tc main_arg1)) (broadcastInDim S8192x2 ![] bcast_S_S8192x2 (constant S_ .f32 0x3F800000#32))) (broadcastInDim S8192x2 ![] bcast_S_S8192x2 (id (constant S_ .f32 0xFF800000#32))) (addf (Host.dotGeneral dot_S8192x128_S128x2_S8192x2_1_0_0_1_n_n none (after ops V (Proc.devRef .tc main_v88)) (V (Proc.devRef .tc main_arg19))) (broadcastInDim S8192x2 ![0, 1] bcast_S1x2_S8192x2_0_1 (broadcastInDim S1x2 ![1] bcast_S2_S1x2_1 (V (Proc.devRef .tc main_arg20))))))⟩] concatenates_S8192x1_S8192x2_S8192x3_d1) := by
  rw [read_main_v133 V, read_main_v100 V, read_main_v107 V, read_main_v97 V, read_main_cst_21 V, read_main_v106 V, read_main_v104 V]

/-- sub_out of x0e and x_raw_sub: through main_v129, the mask test main_v131 and the constant main_cst_30. -/
theorem read_main_v132_of_main_v124 (V : Valuation τ sig (Elt F)) :
    after ops V (Proc.devRef .tc main_v132) =
      (select (cmpf .oge (V (Proc.devRef .tc main_arg3)) (broadcastInDim S262144x1 ![] bcast_S_S262144x1 (constant S_ .f32 0x3F800000#32))) (broadcastInDim S262144x1 ![] bcast_S_S262144x1 (id (constant S_ .f32 0xFF800000#32))) (addf (Host.dotGeneral dot_S262144x256_S256x1_S262144x1_1_0_0_1_n_n none (concatenate S262144x256 1 [⟨S262144x128, (after ops V (Proc.devRef .tc main_v124))⟩, ⟨S262144x128, (after ops V (Proc.devRef .tc main_v5))⟩] concatenates_S262144x128_S262144x128_S262144x256_d1) (V (Proc.devRef .tc main_arg21))) (broadcastInDim S262144x1 ![0, 1] bcast_S1x1_S262144x1_0_1 (broadcastInDim S1x1 ![1] bcast_S1_S1x1_1 (V (Proc.devRef .tc main_arg22)))))) := by
  rw [read_main_v132 V, read_main_cst_30 V, read_main_v131 V, read_main_v129 V]

/-! ## The arguments end unchanged -/

theorem read_main_arg0 (V : Valuation τ sig (Elt F)) : after ops V (Proc.devRef .tc main_arg0) = V (Proc.devRef .tc main_arg0) :=
  ops_unwritten (by decide) V

theorem read_main_arg1 (V : Valuation τ sig (Elt F)) : after ops V (Proc.devRef .tc main_arg1) = V (Proc.devRef .tc main_arg1) :=
  ops_unwritten (by decide) V

theorem read_main_arg2 (V : Valuation τ sig (Elt F)) : after ops V (Proc.devRef .tc main_arg2) = V (Proc.devRef .tc main_arg2) :=
  ops_unwritten (by decide) V

theorem read_main_arg3 (V : Valuation τ sig (Elt F)) : after ops V (Proc.devRef .tc main_arg3) = V (Proc.devRef .tc main_arg3) :=
  ops_unwritten (by decide) V

theorem read_main_arg4 (V : Valuation τ sig (Elt F)) : after ops V (Proc.devRef .tc main_arg4) = V (Proc.devRef .tc main_arg4) :=
  ops_unwritten (by decide) V

theorem read_main_arg5 (V : Valuation τ sig (Elt F)) : after ops V (Proc.devRef .tc main_arg5) = V (Proc.devRef .tc main_arg5) :=
  ops_unwritten (by decide) V

theorem read_main_arg6 (V : Valuation τ sig (Elt F)) : after ops V (Proc.devRef .tc main_arg6) = V (Proc.devRef .tc main_arg6) :=
  ops_unwritten (by decide) V

theorem read_main_arg7 (V : Valuation τ sig (Elt F)) : after ops V (Proc.devRef .tc main_arg7) = V (Proc.devRef .tc main_arg7) :=
  ops_unwritten (by decide) V

theorem read_main_arg8 (V : Valuation τ sig (Elt F)) : after ops V (Proc.devRef .tc main_arg8) = V (Proc.devRef .tc main_arg8) :=
  ops_unwritten (by decide) V

theorem read_main_arg9 (V : Valuation τ sig (Elt F)) : after ops V (Proc.devRef .tc main_arg9) = V (Proc.devRef .tc main_arg9) :=
  ops_unwritten (by decide) V

theorem read_main_arg10 (V : Valuation τ sig (Elt F)) : after ops V (Proc.devRef .tc main_arg10) = V (Proc.devRef .tc main_arg10) :=
  ops_unwritten (by decide) V

theorem read_main_arg11 (V : Valuation τ sig (Elt F)) : after ops V (Proc.devRef .tc main_arg11) = V (Proc.devRef .tc main_arg11) :=
  ops_unwritten (by decide) V

theorem read_main_arg12 (V : Valuation τ sig (Elt F)) : after ops V (Proc.devRef .tc main_arg12) = V (Proc.devRef .tc main_arg12) :=
  ops_unwritten (by decide) V

theorem read_main_arg13 (V : Valuation τ sig (Elt F)) : after ops V (Proc.devRef .tc main_arg13) = V (Proc.devRef .tc main_arg13) :=
  ops_unwritten (by decide) V

theorem read_main_arg14 (V : Valuation τ sig (Elt F)) : after ops V (Proc.devRef .tc main_arg14) = V (Proc.devRef .tc main_arg14) :=
  ops_unwritten (by decide) V

theorem read_main_arg15 (V : Valuation τ sig (Elt F)) : after ops V (Proc.devRef .tc main_arg15) = V (Proc.devRef .tc main_arg15) :=
  ops_unwritten (by decide) V

theorem read_main_arg16 (V : Valuation τ sig (Elt F)) : after ops V (Proc.devRef .tc main_arg16) = V (Proc.devRef .tc main_arg16) :=
  ops_unwritten (by decide) V

theorem read_main_arg17 (V : Valuation τ sig (Elt F)) : after ops V (Proc.devRef .tc main_arg17) = V (Proc.devRef .tc main_arg17) :=
  ops_unwritten (by decide) V

theorem read_main_arg18 (V : Valuation τ sig (Elt F)) : after ops V (Proc.devRef .tc main_arg18) = V (Proc.devRef .tc main_arg18) :=
  ops_unwritten (by decide) V

theorem read_main_arg19 (V : Valuation τ sig (Elt F)) : after ops V (Proc.devRef .tc main_arg19) = V (Proc.devRef .tc main_arg19) :=
  ops_unwritten (by decide) V

theorem read_main_arg20 (V : Valuation τ sig (Elt F)) : after ops V (Proc.devRef .tc main_arg20) = V (Proc.devRef .tc main_arg20) :=
  ops_unwritten (by decide) V

theorem read_main_arg21 (V : Valuation τ sig (Elt F)) : after ops V (Proc.devRef .tc main_arg21) = V (Proc.devRef .tc main_arg21) :=
  ops_unwritten (by decide) V

theorem read_main_arg22 (V : Valuation τ sig (Elt F)) : after ops V (Proc.devRef .tc main_arg22) = V (Proc.devRef .tc main_arg22) :=
  ops_unwritten (by decide) V

end Cert.ReferenceIdeal.RefRun

end
-- ==== Proof.RChainBase.lean ====
/-
  Two ways of reading one buffer after a literal window of the reference's operations: by rewriting each
  operation's result in turn, or, for a window whose values have several readers, by one simplifier pass.
-/
import proofs.«145994_j34600256537163_1_alg».proof.Proof.RefOps
import proofs.«145994_j34600256537163_1_alg».proof.Proof.Chains

noncomputable section

namespace Cert.ReferenceIdeal.RChain

open Cert.ReferenceIdeal Cert.ReferenceIdeal.Facts₀ Cert.ReferenceIdeal.Facts Cert.ReferenceIdeal.RefRun Cert.Chains
open Idealize.ShloMosaic Idealize.ShloMosaic.TcCoe Idealize.SL.Sem Idealize.ShloMosaic.StableHlo

variable {F : FTy → Type} [FloatOps F]

/-- Reads one buffer after a short literal window: the fold unrolled, each operation's result at its own buffer, the
    typed references' casts removed; what is left is the named stage by definition. -/
macro "ref_stage_read" : tactic =>
  `(tactic| (simp only [after_cons, after_nil]
             repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))
             try simp only [TRef.toBuf, TRef.ofBuf, cast_eq]
             try rfl))

/-- The same for a longer window whose intermediate values have several readers: the results by one simplifier pass. -/
macro "ref_stage_read_shared" : tactic =>
  `(tactic| (after_results_simp
             try simp only [TRef.toBuf, TRef.ofBuf, cast_eq]
             try rfl))

end Cert.ReferenceIdeal.RChain

end
-- ==== Proof.RChainI.lean ====
/-
  The reference's first integer chain and its segment mean, read window by window against the named chain.

  The reference prints the chain from the 8192 lengths to every row's segment id operation for operation
  as the kernel program does: the lengths rolled by one place, a zero written first, their running sum,
  one added at every start among the 262144 rows, the running sum again, one subtracted, and the numbers
  0 … 8191 read at the resulting positions.  Each window of operations is one named stage applied to the
  buffers it reads; the stages' names are those of `Cert.Chains`, whose terms are the same operations over
  records equal to the reference's by unfolding.  The segment mean divides the segment sums by the lengths,
  at least one, converted to floats; the reference lays the lengths out as a column BEFORE converting them,
  the kernel program after, and the two divisors are the same array.
-/
import proofs.«145994_j34600256537163_1_alg».proof.Proof.RChainBase

noncomputable section

namespace Cert.ReferenceIdeal.RChain

open Cert.ReferenceIdeal Cert.ReferenceIdeal.Facts₀ Cert.ReferenceIdeal.Facts Cert.ReferenceIdeal.RefRun Cert.Chains
open Idealize.ShloMosaic Idealize.ShloMosaic.TcCoe Idealize.SL.Sem Idealize.ShloMosaic.StableHlo

variable {F : FTy → Type} [FloatOps F]

/-! ## One stage per window, at any contents -/

theorem st_iota (V : Valuation τ sig (Elt F)) :
    after opsI0 V (Proc.devRef .tc main_v6) = (iotaInDim S8192 32 0 : (⟨S8192, .i32⟩ : BufTy).Contents (Elt F)) := by
  ref_stage_read

theorem st_rolled (V : Valuation τ sig (Elt F)) :
    after opsI1 V (Proc.devRef .tc main_v7) = rolled (V (Proc.devRef .tc main_arg4)) := by
  ref_stage_read

theorem st_zeroFirst (V : Valuation τ sig (Elt F)) :
    after opsI2 V (Proc.devRef .tc main_v9) = zeroFirst (V (Proc.devRef .tc main_v7)) := by
  ref_stage_read

theorem st_starts (V : Valuation τ sig (Elt F)) :
    after opsI3 V (Proc.devRef .tc main_v10) = starts (V (Proc.devRef .tc main_v9)) := by
  ref_stage_read

theorem st_marks (V : Valuation τ sig (Elt F)) :
    after opsI4 V (Proc.devRef .tc main_v19) = marks (V (Proc.devRef .tc main_v10)) := by
  ref_stage_read

theorem st_runningSum (V : Valuation τ sig (Elt F)) :
    after opsI5 V (Proc.devRef .tc main_v20) = runningSum (V (Proc.devRef .tc main_v19)) := by
  ref_stage_read

theorem st_lessOne (V : Valuation τ sig (Elt F)) :
    after opsI6 V (Proc.devRef .tc main_v22) = lessOne (V (Proc.devRef .tc main_v20)) := by
  ref_stage_read

theorem st_takeIds (V : Valuation τ sig (Elt F)) :
    after opsI7 V (Proc.devRef .tc main_v23) = takeIds (V (Proc.devRef .tc main_v6)) (V (Proc.devRef .tc main_v22)) := by
  ref_stage_read_shared

/-! ## The segment mean's divisor -/

/-- The divisor of the segment mean as the reference prepares it: the lengths, at least one, laid out as a column,
    converted to floats, then laid along the rows. -/
def divisorR (lens : (⟨S8192, .i32⟩ : BufTy).Contents (Elt F)) : (⟨S8192x128, .f32⟩ : BufTy).Contents (Elt F) :=
  broadcastInDim S8192x128 ![0, 1] bcast_S8192x1_S8192x128_0_1
    (sitofp .f32 (broadcastInDim S8192x1 ![0] bcast_S8192_S8192x1_0 (atLeastOne lens)))

/-- Converting entry by entry commutes with laying a vector out as a column: the two programs' divisors are equal. -/
theorem divisorR_eq (lens : (⟨S8192, .i32⟩ : BufTy).Contents (Elt F)) : divisorR lens = divisorK lens := rfl

theorem st_segMean (V : Valuation τ sig (Elt F)) :
    after opsC V (Proc.devRef .tc main_v32)
      = Host.divf (segSum (V (Proc.devRef .tc main_v5)) (V (Proc.devRef .tc main_v23))) (divisorR (V (Proc.devRef .tc main_arg4))) := by
  ref_stage_read

end Cert.ReferenceIdeal.RChain

end
-- ==== Proof.RChainJ.lean ====
/-
  The reference's second integer chain, read window by window against the named chain.

  Before its last stage the reference computes every row's bag a second time, by the same operations over
  fresh buffers, and reads a table of 8192 rows of 128 entries at the resulting positions: the same named
  stages, ending in `takeRows` where the first chain ends in `takeIds`.
-/
import proofs.«145994_j34600256537163_1_alg».proof.Proof.RChainBase

noncomputable section

namespace Cert.ReferenceIdeal.RChain

open Cert.ReferenceIdeal Cert.ReferenceIdeal.Facts₀ Cert.ReferenceIdeal.Facts Cert.ReferenceIdeal.RefRun Cert.Chains
open Idealize.ShloMosaic Idealize.ShloMosaic.TcCoe Idealize.SL.Sem Idealize.ShloMosaic.StableHlo

variable {F : FTy → Type} [FloatOps F]

/-! ## One stage per window, at any contents -/

theorem st2_rolled (V : Valuation τ sig (Elt F)) :
    after opsJ1 V (Proc.devRef .tc main_v108) = rolled (V (Proc.devRef .tc main_arg4)) := by
  ref_stage_read

theorem st2_zeroFirst (V : Valuation τ sig (Elt F)) :
    after opsJ2 V (Proc.devRef .tc main_v110) = zeroFirst (V (Proc.devRef .tc main_v108)) := by
  ref_stage_read

theorem st2_starts (V : Valuation τ sig (Elt F)) :
    after opsJ3 V (Proc.devRef .tc main_v111) = starts (V (Proc.devRef .tc main_v110)) := by
  ref_stage_read

theorem st2_marks (V : Valuation τ sig (Elt F)) :
    after opsJ4 V (Proc.devRef .tc main_v120) = marks (V (Proc.devRef .tc main_v111)) := by
  ref_stage_read

theorem st2_runningSum (V : Valuation τ sig (Elt F)) :
    after opsJ5 V (Proc.devRef .tc main_v121) = runningSum (V (Proc.devRef .tc main_v120)) := by
  ref_stage_read

theorem st2_lessOne (V : Valuation τ sig (Elt F)) :
    after opsJ6 V (Proc.devRef .tc main_v123) = lessOne (V (Proc.devRef .tc main_v121)) := by
  ref_stage_read

theorem st2_takeRows (V : Valuation τ sig (Elt F)) :
    after opsJ7 V (Proc.devRef .tc main_v124) = takeRows (V (Proc.devRef .tc main_v88)) (V (Proc.devRef .tc main_v123)) := by
  ref_stage_read_shared

end Cert.ReferenceIdeal.RChain

end
-- ==== Proof.RChain.lean ====
/-
  The reference's chains composed along its run.

  The run's buffer contents after each window of operations are the window's fold over the contents after
  the window before it.  A buffer that a window does not write keeps its contents across it: the lengths are
  an argument and no window writes them; the first stage's rows are written once and kept through the first
  chain; the table of rows is written once and kept through the second chain.  Composing the windows'
  stages gives every row's segment id, the segment means, and the rows of the table read at every row's
  bag, each as the named chain applied to the lengths.
-/
import proofs.«145994_j34600256537163_1_alg».proof.Proof.RChainI
import proofs.«145994_j34600256537163_1_alg».proof.Proof.RChainJ

noncomputable section

namespace Cert.ReferenceIdeal.RChain

open Cert.ReferenceIdeal Cert.ReferenceIdeal.Facts₀ Cert.ReferenceIdeal.Facts Cert.ReferenceIdeal.RefRun Cert.Chains
open Idealize.ShloMosaic Idealize.ShloMosaic.TcCoe Idealize.SL.Sem Idealize.ShloMosaic.StableHlo

variable {F : FTy → Type} [FloatOps F]

/-! ## The contents after a window are the window's fold over the contents before it -/

theorem after_atA (V : Valuation τ sig (Elt F)) : atA V = after opsA V := rfl
theorem after_atAc (V : Valuation τ sig (Elt F)) : atAc V = after opsAc (atA V) := rfl
theorem after_atI0 (V : Valuation τ sig (Elt F)) : atI0 V = after opsI0 (atAc V) := rfl
theorem after_atI1 (V : Valuation τ sig (Elt F)) : atI1 V = after opsI1 (atI0 V) := rfl
theorem after_atI2 (V : Valuation τ sig (Elt F)) : atI2 V = after opsI2 (atI1 V) := rfl
theorem after_atI3 (V : Valuation τ sig (Elt F)) : atI3 V = after opsI3 (atI2 V) := rfl
theorem after_atI4 (V : Valuation τ sig (Elt F)) : atI4 V = after opsI4 (atI3 V) := rfl
theorem after_atI5 (V : Valuation τ sig (Elt F)) : atI5 V = after opsI5 (atI4 V) := rfl
theorem after_atI6 (V : Valuation τ sig (Elt F)) : atI6 V = after opsI6 (atI5 V) := rfl
theorem after_atI7 (V : Valuation τ sig (Elt F)) : atI7 V = after opsI7 (atI6 V) := rfl
theorem after_atC (V : Valuation τ sig (Elt F)) : atC V = after opsC (atI7 V) := rfl
theorem after_atD1 (V : Valuation τ sig (Elt F)) : atD1 V = after opsD1 (atC V) := rfl
theorem after_atD2 (V : Valuation τ sig (Elt F)) : atD2 V = after opsD2 (atD1 V) := rfl
theorem after_atE1 (V : Valuation τ sig (Elt F)) : atE1 V = after opsE1 (atD2 V) := rfl
theorem after_atE1c (V : Valuation τ sig (Elt F)) : atE1c V = after opsE1c (atE1 V) := rfl
theorem after_atE2 (V : Valuation τ sig (Elt F)) : atE2 V = after opsE2 (atE1c V) := rfl
theorem after_atF1 (V : Valuation τ sig (Elt F)) : atF1 V = after opsF1 (atE2 V) := rfl
theorem after_atF2 (V : Valuation τ sig (Elt F)) : atF2 V = after opsF2 (atF1 V) := rfl
theorem after_atF2c (V : Valuation τ sig (Elt F)) : atF2c V = after opsF2c (atF2 V) := rfl
theorem after_atJ1 (V : Valuation τ sig (Elt F)) : atJ1 V = after opsJ1 (atF2c V) := rfl
theorem after_atJ2 (V : Valuation τ sig (Elt F)) : atJ2 V = after opsJ2 (atJ1 V) := rfl
theorem after_atJ3 (V : Valuation τ sig (Elt F)) : atJ3 V = after opsJ3 (atJ2 V) := rfl
theorem after_atJ4 (V : Valuation τ sig (Elt F)) : atJ4 V = after opsJ4 (atJ3 V) := rfl
theorem after_atJ5 (V : Valuation τ sig (Elt F)) : atJ5 V = after opsJ5 (atJ4 V) := rfl
theorem after_atJ6 (V : Valuation τ sig (Elt F)) : atJ6 V = after opsJ6 (atJ5 V) := rfl
theorem after_atJ7 (V : Valuation τ sig (Elt F)) : atJ7 V = after opsJ7 (atJ6 V) := rfl

/-! ## Buffers kept across the windows that do not write them -/

/-- No window writes the lengths: after every window they are as at the start. -/
theorem atA_lens (V : Valuation τ sig (Elt F)) : atA V (Proc.devRef .tc main_arg4) = V (Proc.devRef .tc main_arg4) :=
  after_of_writes_sub (r := main_arg4) opsA V opsA_writes (by decide)
theorem atAc_lens (V : Valuation τ sig (Elt F)) : atAc V (Proc.devRef .tc main_arg4) = V (Proc.devRef .tc main_arg4) :=
  (after_of_writes_sub (r := main_arg4) opsAc (atA V) opsAc_writes (by decide)).trans (atA_lens V)
theorem atI0_lens (V : Valuation τ sig (Elt F)) : atI0 V (Proc.devRef .tc main_arg4) = V (Proc.devRef .tc main_arg4) :=
  (after_of_writes_sub (r := main_arg4) opsI0 (atAc V) opsI0_writes (by decide)).trans (atAc_lens V)
theorem atI1_lens (V : Valuation τ sig (Elt F)) : atI1 V (Proc.devRef .tc main_arg4) = V (Proc.devRef .tc main_arg4) :=
  (after_of_writes_sub (r := main_arg4) opsI1 (atI0 V) opsI1_writes (by decide)).trans (atI0_lens V)
theorem atI2_lens (V : Valuation τ sig (Elt F)) : atI2 V (Proc.devRef .tc main_arg4) = V (Proc.devRef .tc main_arg4) :=
  (after_of_writes_sub (r := main_arg4) opsI2 (atI1 V) opsI2_writes (by decide)).trans (atI1_lens V)
theorem atI3_lens (V : Valuation τ sig (Elt F)) : atI3 V (Proc.devRef .tc main_arg4) = V (Proc.devRef .tc main_arg4) :=
  (after_of_writes_sub (r := main_arg4) opsI3 (atI2 V) opsI3_writes (by decide)).trans (atI2_lens V)
theorem atI4_lens (V : Valuation τ sig (Elt F)) : atI4 V (Proc.devRef .tc main_arg4) = V (Proc.devRef .tc main_arg4) :=
  (after_of_writes_sub (r := main_arg4) opsI4 (atI3 V) opsI4_writes (by decide)).trans (atI3_lens V)
theorem atI5_lens (V : Valuation τ sig (Elt F)) : atI5 V (Proc.devRef .tc main_arg4) = V (Proc.devRef .tc main_arg4) :=
  (after_of_writes_sub (r := main_arg4) opsI5 (atI4 V) opsI5_writes (by decide)).trans (atI4_lens V)
theorem atI6_lens (V : Valuation τ sig (Elt F)) : atI6 V (Proc.devRef .tc main_arg4) = V (Proc.devRef .tc main_arg4) :=
  (after_of_writes_sub (r := main_arg4) opsI6 (atI5 V) opsI6_writes (by decide)).trans (atI5_lens V)
theorem atI7_lens (V : Valuation τ sig (Elt F)) : atI7 V (Proc.devRef .tc main_arg4) = V (Proc.devRef .tc main_arg4) :=
  (after_of_writes_sub (r := main_arg4) opsI7 (atI6 V) opsI7_writes (by decide)).trans (atI6_lens V)
theorem atC_lens (V : Valuation τ sig (Elt F)) : atC V (Proc.devRef .tc main_arg4) = V (Proc.devRef .tc main_arg4) :=
  (after_of_writes_sub (r := main_arg4) opsC (atI7 V) opsC_writes (by decide)).trans (atI7_lens V)
theorem atD1_lens (V : Valuation τ sig (Elt F)) : atD1 V (Proc.devRef .tc main_arg4) = V (Proc.devRef .tc main_arg4) :=
  (after_of_writes_sub (r := main_arg4) opsD1 (atC V) opsD1_writes (by decide)).trans (atC_lens V)
theorem atD2_lens (V : Valuation τ sig (Elt F)) : atD2 V (Proc.devRef .tc main_arg4) = V (Proc.devRef .tc main_arg4) :=
  (after_of_writes_sub (r := main_arg4) opsD2 (atD1 V) opsD2_writes (by decide)).trans (atD1_lens V)
theorem atE1_lens (V : Valuation τ sig (Elt F)) : atE1 V (Proc.devRef .tc main_arg4) = V (Proc.devRef .tc main_arg4) :=
  (after_of_writes_sub (r := main_arg4) opsE1 (atD2 V) opsE1_writes (by decide)).trans (atD2_lens V)
theorem atE1c_lens (V : Valuation τ sig (Elt F)) : atE1c V (Proc.devRef .tc main_arg4) = V (Proc.devRef .tc main_arg4) :=
  (after_of_writes_sub (r := main_arg4) opsE1c (atE1 V) opsE1c_writes (by decide)).trans (atE1_lens V)
theorem atE2_lens (V : Valuation τ sig (Elt F)) : atE2 V (Proc.devRef .tc main_arg4) = V (Proc.devRef .tc main_arg4) :=
  (after_of_writes_sub (r := main_arg4) opsE2 (atE1c V) opsE2_writes (by decide)).trans (atE1c_lens V)
theorem atF1_lens (V : Valuation τ sig (Elt F)) : atF1 V (Proc.devRef .tc main_arg4) = V (Proc.devRef .tc main_arg4) :=
  (after_of_writes_sub (r := main_arg4) opsF1 (atE2 V) opsF1_writes (by decide)).trans (atE2_lens V)
theorem atF2_lens (V : Valuation τ sig (Elt F)) : atF2 V (Proc.devRef .tc main_arg4) = V (Proc.devRef .tc main_arg4) :=
  (after_of_writes_sub (r := main_arg4) opsF2 (atF1 V) opsF2_writes (by decide)).trans (atF1_lens V)
theorem atF2c_lens (V : Valuation τ sig (Elt F)) : atF2c V (Proc.devRef .tc main_arg4) = V (Proc.devRef .tc main_arg4) :=
  (after_of_writes_sub (r := main_arg4) opsF2c (atF2 V) opsF2c_writes (by decide)).trans (atF2_lens V)
theorem atJ1_lens (V : Valuation τ sig (Elt F)) : atJ1 V (Proc.devRef .tc main_arg4) = V (Proc.devRef .tc main_arg4) :=
  (after_of_writes_sub (r := main_arg4) opsJ1 (atF2c V) opsJ1_writes (by decide)).trans (atF2c_lens V)
theorem atJ2_lens (V : Valuation τ sig (Elt F)) : atJ2 V (Proc.devRef .tc main_arg4) = V (Proc.devRef .tc main_arg4) :=
  (after_of_writes_sub (r := main_arg4) opsJ2 (atJ1 V) opsJ2_writes (by decide)).trans (atJ1_lens V)
theorem atJ3_lens (V : Valuation τ sig (Elt F)) : atJ3 V (Proc.devRef .tc main_arg4) = V (Proc.devRef .tc main_arg4) :=
  (after_of_writes_sub (r := main_arg4) opsJ3 (atJ2 V) opsJ3_writes (by decide)).trans (atJ2_lens V)
theorem atJ4_lens (V : Valuation τ sig (Elt F)) : atJ4 V (Proc.devRef .tc main_arg4) = V (Proc.devRef .tc main_arg4) :=
  (after_of_writes_sub (r := main_arg4) opsJ4 (atJ3 V) opsJ4_writes (by decide)).trans (atJ3_lens V)
theorem atJ5_lens (V : Valuation τ sig (Elt F)) : atJ5 V (Proc.devRef .tc main_arg4) = V (Proc.devRef .tc main_arg4) :=
  (after_of_writes_sub (r := main_arg4) opsJ5 (atJ4 V) opsJ5_writes (by decide)).trans (atJ4_lens V)
theorem atJ6_lens (V : Valuation τ sig (Elt F)) : atJ6 V (Proc.devRef .tc main_arg4) = V (Proc.devRef .tc main_arg4) :=
  (after_of_writes_sub (r := main_arg4) opsJ6 (atJ5 V) opsJ6_writes (by decide)).trans (atJ5_lens V)
theorem atJ7_lens (V : Valuation τ sig (Elt F)) : atJ7 V (Proc.devRef .tc main_arg4) = V (Proc.devRef .tc main_arg4) :=
  (after_of_writes_sub (r := main_arg4) opsJ7 (atJ6 V) opsJ7_writes (by decide)).trans (atJ6_lens V)

/-- The first stage's rows, written by the window before the first chain, are kept through it. -/
theorem atI0_rows (V : Valuation τ sig (Elt F)) : atI0 V (Proc.devRef .tc main_v5) = atAc V (Proc.devRef .tc main_v5) :=
  after_of_writes_sub (r := main_v5) opsI0 (atAc V) opsI0_writes (by decide)
theorem atI1_rows (V : Valuation τ sig (Elt F)) : atI1 V (Proc.devRef .tc main_v5) = atAc V (Proc.devRef .tc main_v5) :=
  (after_of_writes_sub (r := main_v5) opsI1 (atI0 V) opsI1_writes (by decide)).trans (atI0_rows V)
theorem atI2_rows (V : Valuation τ sig (Elt F)) : atI2 V (Proc.devRef .tc main_v5) = atAc V (Proc.devRef .tc main_v5) :=
  (after_of_writes_sub (r := main_v5) opsI2 (atI1 V) opsI2_writes (by decide)).trans (atI1_rows V)
theorem atI3_rows (V : Valuation τ sig (Elt F)) : atI3 V (Proc.devRef .tc main_v5) = atAc V (Proc.devRef .tc main_v5) :=
  (after_of_writes_sub (r := main_v5) opsI3 (atI2 V) opsI3_writes (by decide)).trans (atI2_rows V)
theorem atI4_rows (V : Valuation τ sig (Elt F)) : atI4 V (Proc.devRef .tc main_v5) = atAc V (Proc.devRef .tc main_v5) :=
  (after_of_writes_sub (r := main_v5) opsI4 (atI3 V) opsI4_writes (by decide)).trans (atI3_rows V)
theorem atI5_rows (V : Valuation τ sig (Elt F)) : atI5 V (Proc.devRef .tc main_v5) = atAc V (Proc.devRef .tc main_v5) :=
  (after_of_writes_sub (r := main_v5) opsI5 (atI4 V) opsI5_writes (by decide)).trans (atI4_rows V)
theorem atI6_rows (V : Valuation τ sig (Elt F)) : atI6 V (Proc.devRef .tc main_v5) = atAc V (Proc.devRef .tc main_v5) :=
  (after_of_writes_sub (r := main_v5) opsI6 (atI5 V) opsI6_writes (by decide)).trans (atI5_rows V)
theorem atI7_rows (V : Valuation τ sig (Elt F)) : atI7 V (Proc.devRef .tc main_v5) = atAc V (Proc.devRef .tc main_v5) :=
  (after_of_writes_sub (r := main_v5) opsI7 (atI6 V) opsI7_writes (by decide)).trans (atI6_rows V)

/-- The numbers 0 … 8191 are kept from the window that writes them to the window that reads them. -/
theorem atI1_iota (V : Valuation τ sig (Elt F)) : atI1 V (Proc.devRef .tc main_v6) = atI0 V (Proc.devRef .tc main_v6) :=
  after_of_writes_sub (r := main_v6) opsI1 (atI0 V) opsI1_writes (by decide)
theorem atI2_iota (V : Valuation τ sig (Elt F)) : atI2 V (Proc.devRef .tc main_v6) = atI0 V (Proc.devRef .tc main_v6) :=
  (after_of_writes_sub (r := main_v6) opsI2 (atI1 V) opsI2_writes (by decide)).trans (atI1_iota V)
theorem atI3_iota (V : Valuation τ sig (Elt F)) : atI3 V (Proc.devRef .tc main_v6) = atI0 V (Proc.devRef .tc main_v6) :=
  (after_of_writes_sub (r := main_v6) opsI3 (atI2 V) opsI3_writes (by decide)).trans (atI2_iota V)
theorem atI4_iota (V : Valuation τ sig (Elt F)) : atI4 V (Proc.devRef .tc main_v6) = atI0 V (Proc.devRef .tc main_v6) :=
  (after_of_writes_sub (r := main_v6) opsI4 (atI3 V) opsI4_writes (by decide)).trans (atI3_iota V)
theorem atI5_iota (V : Valuation τ sig (Elt F)) : atI5 V (Proc.devRef .tc main_v6) = atI0 V (Proc.devRef .tc main_v6) :=
  (after_of_writes_sub (r := main_v6) opsI5 (atI4 V) opsI5_writes (by decide)).trans (atI4_iota V)
theorem atI6_iota (V : Valuation τ sig (Elt F)) : atI6 V (Proc.devRef .tc main_v6) = atI0 V (Proc.devRef .tc main_v6) :=
  (after_of_writes_sub (r := main_v6) opsI6 (atI5 V) opsI6_writes (by decide)).trans (atI5_iota V)

/-- The table of rows is kept up to and through the second chain. -/
theorem atF1_table (V : Valuation τ sig (Elt F)) : atF1 V (Proc.devRef .tc main_v88) = atE2 V (Proc.devRef .tc main_v88) :=
  after_of_writes_sub (r := main_v88) opsF1 (atE2 V) opsF1_writes (by decide)
theorem atF2_table (V : Valuation τ sig (Elt F)) : atF2 V (Proc.devRef .tc main_v88) = atE2 V (Proc.devRef .tc main_v88) :=
  (after_of_writes_sub (r := main_v88) opsF2 (atF1 V) opsF2_writes (by decide)).trans (atF1_table V)
theorem atF2c_table (V : Valuation τ sig (Elt F)) : atF2c V (Proc.devRef .tc main_v88) = atE2 V (Proc.devRef .tc main_v88) :=
  (after_of_writes_sub (r := main_v88) opsF2c (atF2 V) opsF2c_writes (by decide)).trans (atF2_table V)
theorem atJ1_table (V : Valuation τ sig (Elt F)) : atJ1 V (Proc.devRef .tc main_v88) = atE2 V (Proc.devRef .tc main_v88) :=
  (after_of_writes_sub (r := main_v88) opsJ1 (atF2c V) opsJ1_writes (by decide)).trans (atF2c_table V)
theorem atJ2_table (V : Valuation τ sig (Elt F)) : atJ2 V (Proc.devRef .tc main_v88) = atE2 V (Proc.devRef .tc main_v88) :=
  (after_of_writes_sub (r := main_v88) opsJ2 (atJ1 V) opsJ2_writes (by decide)).trans (atJ1_table V)
theorem atJ3_table (V : Valuation τ sig (Elt F)) : atJ3 V (Proc.devRef .tc main_v88) = atE2 V (Proc.devRef .tc main_v88) :=
  (after_of_writes_sub (r := main_v88) opsJ3 (atJ2 V) opsJ3_writes (by decide)).trans (atJ2_table V)
theorem atJ4_table (V : Valuation τ sig (Elt F)) : atJ4 V (Proc.devRef .tc main_v88) = atE2 V (Proc.devRef .tc main_v88) :=
  (after_of_writes_sub (r := main_v88) opsJ4 (atJ3 V) opsJ4_writes (by decide)).trans (atJ3_table V)
theorem atJ5_table (V : Valuation τ sig (Elt F)) : atJ5 V (Proc.devRef .tc main_v88) = atE2 V (Proc.devRef .tc main_v88) :=
  (after_of_writes_sub (r := main_v88) opsJ5 (atJ4 V) opsJ5_writes (by decide)).trans (atJ4_table V)
theorem atJ6_table (V : Valuation τ sig (Elt F)) : atJ6 V (Proc.devRef .tc main_v88) = atE2 V (Proc.devRef .tc main_v88) :=
  (after_of_writes_sub (r := main_v88) opsJ6 (atJ5 V) opsJ6_writes (by decide)).trans (atJ5_table V)

/-! ## The first chain, the segment ids and the segment means -/

/-- Every row's bag, as the first chain leaves it. -/
theorem atI6_bagOf (V : Valuation τ sig (Elt F)) :
    atI6 V (Proc.devRef .tc main_v22) = bagOf (V (Proc.devRef .tc main_arg4)) := by
  rw [after_atI6, st_lessOne, after_atI5, st_runningSum, after_atI4, st_marks, after_atI3, st_starts,
    after_atI2, st_zeroFirst, after_atI1, st_rolled, atI0_lens]
  rfl

/-- The numbers 0 … 8191, still in place when the ids are taken. -/
theorem atI6_iotaIs (V : Valuation τ sig (Elt F)) :
    atI6 V (Proc.devRef .tc main_v6) = (iotaInDim S8192 32 0 : (⟨S8192, .i32⟩ : BufTy).Contents (Elt F)) := by
  rw [atI6_iota, after_atI0, st_iota]

/-- EVERY ROW'S SEGMENT ID after the first chain: the named chain applied to the lengths. -/
theorem atI7_segIds (V : Valuation τ sig (Elt F)) :
    atI7 V (Proc.devRef .tc main_v23) = segIds (V (Proc.devRef .tc main_arg4)) := by
  rw [after_atI7, st_takeIds, atI6_iotaIs, atI6_bagOf]
  rfl

/-- THE SEGMENT MEANS: the mean, bag by bag, of the first stage's rows. -/
theorem atC_segMean (V : Valuation τ sig (Elt F)) :
    atC V (Proc.devRef .tc main_v32)
      = segMeanK (atAc V (Proc.devRef .tc main_v5)) (V (Proc.devRef .tc main_arg4)) := by
  rw [after_atC, st_segMean, atI7_segIds, atI7_rows, atI7_lens, divisorR_eq]
  rfl

/-! ## The second chain and the rows read at every row's bag -/

/-- Every row's bag, as the second chain leaves it. -/
theorem atJ6_bagOf (V : Valuation τ sig (Elt F)) :
    atJ6 V (Proc.devRef .tc main_v123) = bagOf (V (Proc.devRef .tc main_arg4)) := by
  rw [after_atJ6, st2_lessOne, after_atJ5, st2_runningSum, after_atJ4, st2_marks, after_atJ3, st2_starts,
    after_atJ2, st2_zeroFirst, after_atJ1, st2_rolled, atF2c_lens]
  rfl

/-- THE EXPANDED ROWS: the table as it stands after the window that writes it, read at every row's bag. -/
theorem atJ7_takeRows (V : Valuation τ sig (Elt F)) :
    atJ7 V (Proc.devRef .tc main_v124)
      = takeRows (atE2 V (Proc.devRef .tc main_v88)) (bagOf (V (Proc.devRef .tc main_arg4))) := by
  rw [after_atJ7, st2_takeRows, atJ6_bagOf, atJ6_table]

end Cert.ReferenceIdeal.RChain

end
-- ==== Proof.SubOutRef.lean ====
/-
  The reference's last stage, read off its run.

  The last two windows of the reference's operations compute the result column: the first forms the
  affine form of the 256 concatenated columns (the contraction with the weights plus the broadcast bias),
  the test of the mask column against 1.0 and the constant -inf; the second, an outlined call, selects -inf
  where the test holds and the affine form elsewhere.  The operands they read were written earlier and are
  not written again: the rows read at every row's bag by the second integer chain, the first stage's rows,
  and three arguments.  So the contents of the result buffer after the second window, and at the end of the
  run, are `refOut` of those five arrays.
-/
import proofs.«145994_j34600256537163_1_alg».proof.Proof.SubOutSpec
import proofs.«145994_j34600256537163_1_alg».proof.Proof.RefWin2
import proofs.«145994_j34600256537163_1_alg».proof.Proof.RefFrame

noncomputable section

namespace Cert.SubOut

open Cert.ReferenceIdeal Cert.ReferenceIdeal.Facts₀ Cert.ReferenceIdeal.Facts Cert.ReferenceIdeal.RefRun
open Idealize.ShloMosaic Idealize.ShloMosaic.TcCoe Idealize.SL.Sem Idealize.ShloMosaic.StableHlo

/-- The contents after the last-but-two window are that window's fold over the contents after the second chain. -/
theorem atH_eq (V : Valuation τ sig (Elt Ideal)) : atH V = after opsH (atJ7 V) := rfl
/-- The contents after the outlined select are its fold over the contents before it. -/
theorem atHc_eq (V : Valuation τ sig (Elt Ideal)) : atHc V = after opsHc (atH V) := rfl

/-- The first stage's rows are not written after the window that writes them: they are the same after the
    second chain as after that window. -/
theorem rows_kept (V : Valuation τ sig (Elt Ideal)) :
    atJ7 V (Proc.devRef .tc main_v5) = atAc V (Proc.devRef .tc main_v5) :=
  (ops_eq_atJ7 (r := main_v5) (by decide) V).symm.trans (ops_eq_atAc (r := main_v5) (by decide) V)

/-- THE REFERENCE'S RESULT COLUMN after the window that writes it: `refOut` of the rows read at every row's
    bag, the first stage's rows, the mask column, the weights and the bias. -/
theorem ref_out_read (V : Valuation τ sig (Elt Ideal)) :
    atHc V (Proc.devRef .tc main_v132)
      = refOut (atJ7 V (Proc.devRef .tc main_v124)) (atAc V (Proc.devRef .tc main_v5)) (V (Proc.devRef .tc main_arg3))
          (V (Proc.devRef .tc main_arg21)) (V (Proc.devRef .tc main_arg22)) := by
  rw [atHc_eq, winHc_main_v132, atH_eq, winH_main_v131, winH_main_cst_30, winH_main_v129,
    atJ7_unwritten (r := main_arg3) (by decide), atJ7_unwritten (r := main_arg21) (by decide),
    atJ7_unwritten (r := main_arg22) (by decide), rows_kept]
  rfl

/-- The same at the end of the run: the one window after it writes another buffer only. -/
theorem ref_out_run (V : Valuation τ sig (Elt Ideal)) :
    after ops V (Proc.devRef .tc main_v132)
      = refOut (atJ7 V (Proc.devRef .tc main_v124)) (atAc V (Proc.devRef .tc main_v5)) (V (Proc.devRef .tc main_arg3))
          (V (Proc.devRef .tc main_arg21)) (V (Proc.devRef .tc main_arg22)) :=
  (ops_eq_atHc (r := main_v132) (by decide) V).trans (ref_out_read V)

end Cert.SubOut

end
-- ==== Proof.RValues.lean ====
import proofs.«145994_j34600256537163_1_alg».proof.Proof.RefRead
import proofs.«145994_j34600256537163_1_alg».proof.Proof.RChain
import proofs.«145994_j34600256537163_1_alg».proof.Proof.SubOutRef
import proofs.«145994_j34600256537163_1_alg».proof.Proof.SubRawSpec
import proofs.«145994_j34600256537163_1_alg».proof.Proof.RootXSpec
import proofs.«145994_j34600256537163_1_alg».proof.Proof.RootHeadsSpec

/-!
# The host program's four results as functions of its arguments

Following the host program from its arguments: the first stage of the item features (`refXS` of the item
features, the mask column, the first weight matrix and bias); the segment means of it over the bags the lengths
describe; the normalized root rows (`refXRoot` of the means, the root features, the root mask and the root
layer's parameters); then the three heads read off the root rows, and the last stage of the item features, read
off the root rows expanded to the items, the first stage again and the mask column. Each result is stated over the
launch contents of the arguments only. Each proof strings together the readings of the stages: a buffer is written
by one operation, so what the run ends with in it is the writing window's term over what the run ends with in the
buffers that window read; that term is the named stage by unfolding the stage's definition.
-/

noncomputable section

namespace Cert.ReferenceIdeal.RValues

open Cert.ReferenceIdeal Cert.ReferenceIdeal.RefRun Cert.Chains
open Idealize.ShloMosaic Idealize.ShloMosaic.TcCoe Idealize.SL.Sem Idealize.ShloMosaic.StableHlo

variable (V : Valuation τ sig (Elt Ideal))

/-! ## The stages the results share -/

/-- The first stage of the item features at the end of the run. -/
theorem xs_run : after ops V (Proc.devRef .tc main_v5) = (Cert.SubRaw.refXS (V (Proc.devRef .tc main_arg2)) (V (Proc.devRef .tc main_arg3)) (V (Proc.devRef .tc main_arg5)) (V (Proc.devRef .tc main_arg6))) :=
  (read_main_v5_of_args V).trans rfl

/-- The first stage of the item features where its window leaves it. -/
theorem xs_atAc : atAc V (Proc.devRef .tc main_v5) = (Cert.SubRaw.refXS (V (Proc.devRef .tc main_arg2)) (V (Proc.devRef .tc main_arg3)) (V (Proc.devRef .tc main_arg5)) (V (Proc.devRef .tc main_arg6))) :=
  (ops_eq_atAc (r := main_v5) (by decide) V).symm.trans (xs_run V)

/-- The segment means of the first stage at the end of the run. -/
theorem mean_run : after ops V (Proc.devRef .tc main_v32) = (segMeanK (Cert.SubRaw.refXS (V (Proc.devRef .tc main_arg2)) (V (Proc.devRef .tc main_arg3)) (V (Proc.devRef .tc main_arg5)) (V (Proc.devRef .tc main_arg6))) (V (Proc.devRef .tc main_arg4))) :=
  ((ops_eq_atC (r := main_v32) (by decide) V).trans (RChain.atC_segMean V)).trans (by rw [xs_atAc])

/-- The normalized root rows at the end of the run, from the segment means there. -/
theorem xroot_of_mean : after ops V (Proc.devRef .tc main_v88)
    = Cert.RootX.refXRoot (after ops V (Proc.devRef .tc main_v32)) (V (Proc.devRef .tc main_arg0)) (V (Proc.devRef .tc main_arg1)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [read_main_v88_of_main_v56 V, read_main_v56_of_main_v32 V]
  generalize after ops V (Proc.devRef .tc main_v32) = x
  rfl

/-- The normalized root rows at the end of the run. -/
theorem xroot_run : after ops V (Proc.devRef .tc main_v88) = (Cert.RootX.refXRoot (segMeanK (Cert.SubRaw.refXS (V (Proc.devRef .tc main_arg2)) (V (Proc.devRef .tc main_arg3)) (V (Proc.devRef .tc main_arg5)) (V (Proc.devRef .tc main_arg6))) (V (Proc.devRef .tc main_arg4))) (V (Proc.devRef .tc main_arg0)) (V (Proc.devRef .tc main_arg1)) (V (Proc.devRef .tc main_arg7)) (V (Proc.devRef .tc main_arg8)) (V (Proc.devRef .tc main_arg9)) (V (Proc.devRef .tc main_arg10)) (V (Proc.devRef .tc main_arg11)) (V (Proc.devRef .tc main_arg12))) :=
  (xroot_of_mean V).trans (by rw [mean_run])

/-- The normalized root rows where their window leaves them. -/
theorem xroot_atE2 : atE2 V (Proc.devRef .tc main_v88) = (Cert.RootX.refXRoot (segMeanK (Cert.SubRaw.refXS (V (Proc.devRef .tc main_arg2)) (V (Proc.devRef .tc main_arg3)) (V (Proc.devRef .tc main_arg5)) (V (Proc.devRef .tc main_arg6))) (V (Proc.devRef .tc main_arg4))) (V (Proc.devRef .tc main_arg0)) (V (Proc.devRef .tc main_arg1)) (V (Proc.devRef .tc main_arg7)) (V (Proc.devRef .tc main_arg8)) (V (Proc.devRef .tc main_arg9)) (V (Proc.devRef .tc main_arg10)) (V (Proc.devRef .tc main_arg11)) (V (Proc.devRef .tc main_arg12))) :=
  (ops_eq_atE2 (r := main_v88) (by decide) V).symm.trans (xroot_run V)

/-! ## The four results -/

/-- The value head. -/
theorem ov_read : after ops V (Proc.devRef .tc main_v92)
    = Cert.RootHeads.refOV (Cert.RootX.refXRoot (segMeanK (Cert.SubRaw.refXS (V (Proc.devRef .tc main_arg2)) (V (Proc.devRef .tc main_arg3)) (V (Proc.devRef .tc main_arg5)) (V (Proc.devRef .tc main_arg6))) (V (Proc.devRef .tc main_arg4))) (V (Proc.devRef .tc main_arg0)) (V (Proc.devRef .tc main_arg1)) (V (Proc.devRef .tc main_arg7)) (V (Proc.devRef .tc main_arg8)) (V (Proc.devRef .tc main_arg9)) (V (Proc.devRef .tc main_arg10)) (V (Proc.devRef .tc main_arg11)) (V (Proc.devRef .tc main_arg12))) (V (Proc.devRef .tc main_arg13)) (V (Proc.devRef .tc main_arg14)) := by
  rw [read_main_v92 V, xroot_run]
  rfl

/-- The class head. -/
theorem oclsp_read : after ops V (Proc.devRef .tc main_v96)
    = Cert.RootHeads.refOClsP (Cert.RootX.refXRoot (segMeanK (Cert.SubRaw.refXS (V (Proc.devRef .tc main_arg2)) (V (Proc.devRef .tc main_arg3)) (V (Proc.devRef .tc main_arg5)) (V (Proc.devRef .tc main_arg6))) (V (Proc.devRef .tc main_arg4))) (V (Proc.devRef .tc main_arg0)) (V (Proc.devRef .tc main_arg1)) (V (Proc.devRef .tc main_arg7)) (V (Proc.devRef .tc main_arg8)) (V (Proc.devRef .tc main_arg9)) (V (Proc.devRef .tc main_arg10)) (V (Proc.devRef .tc main_arg11)) (V (Proc.devRef .tc main_arg12))) (V (Proc.devRef .tc main_arg15)) (V (Proc.devRef .tc main_arg16)) := by
  rw [read_main_v96 V, xroot_run]
  rfl

/-- The three-column head: one column beside the two masked columns. -/
theorem ofx_read : after ops V (Proc.devRef .tc main_v133)
    = Cert.RootHeads.refOfx (Cert.RootX.refXRoot (segMeanK (Cert.SubRaw.refXS (V (Proc.devRef .tc main_arg2)) (V (Proc.devRef .tc main_arg3)) (V (Proc.devRef .tc main_arg5)) (V (Proc.devRef .tc main_arg6))) (V (Proc.devRef .tc main_arg4))) (V (Proc.devRef .tc main_arg0)) (V (Proc.devRef .tc main_arg1)) (V (Proc.devRef .tc main_arg7)) (V (Proc.devRef .tc main_arg8)) (V (Proc.devRef .tc main_arg9)) (V (Proc.devRef .tc main_arg10)) (V (Proc.devRef .tc main_arg11)) (V (Proc.devRef .tc main_arg12))) (V (Proc.devRef .tc main_arg1)) (V (Proc.devRef .tc main_arg17)) (V (Proc.devRef .tc main_arg18)) (V (Proc.devRef .tc main_arg19)) (V (Proc.devRef .tc main_arg20)) := by
  rw [read_main_v133_of_main_v88 V, xroot_run]
  rfl

/-- The last stage of the item features. -/
theorem subout_read : after ops V (Proc.devRef .tc main_v132)
    = Cert.SubOut.refOut (takeRows (Cert.RootX.refXRoot (segMeanK (Cert.SubRaw.refXS (V (Proc.devRef .tc main_arg2)) (V (Proc.devRef .tc main_arg3)) (V (Proc.devRef .tc main_arg5)) (V (Proc.devRef .tc main_arg6))) (V (Proc.devRef .tc main_arg4))) (V (Proc.devRef .tc main_arg0)) (V (Proc.devRef .tc main_arg1)) (V (Proc.devRef .tc main_arg7)) (V (Proc.devRef .tc main_arg8)) (V (Proc.devRef .tc main_arg9)) (V (Proc.devRef .tc main_arg10)) (V (Proc.devRef .tc main_arg11)) (V (Proc.devRef .tc main_arg12))) (bagOf (V (Proc.devRef .tc main_arg4)))) (Cert.SubRaw.refXS (V (Proc.devRef .tc main_arg2)) (V (Proc.devRef .tc main_arg3)) (V (Proc.devRef .tc main_arg5)) (V (Proc.devRef .tc main_arg6))) (V (Proc.devRef .tc main_arg3)) (V (Proc.devRef .tc main_arg21)) (V (Proc.devRef .tc main_arg22)) :=
  (Cert.SubOut.ref_out_run V).trans (by rw [RChain.atJ7_takeRows, xroot_atE2, xs_atAc])

end Cert.ReferenceIdeal.RValues

end
-- ==== Proof.lean ====
/-
  The certificate: the kernel program, its idealization and the reference's idealization.

  The three programs run to the end and leave their arguments as launched.  At the ideal instance — floats
  as extended reals, every operation exact, a change of float format the identity — the kernel program and
  the reference end with the same four results.  Both compute, of the item features, the first stage
  `xs` (a 65-column linear layer and a leaky rectifier; the kernel cuts the 65 columns as 64 + 1); both sum
  `xs` over the bags by the same integer chain from the bag lengths and divide by the lengths; both
  normalize, apply the 194-column root layer (the kernel cuts it as 64 + 128 + 2), the rectifier and the
  second normalization, then the four heads; both expand the root rows to the items by the same chain and
  apply the last 256-column layer (the kernel cuts it as 128 + 128).  The only law used is that a finite sum
  over the extended reals may be cut at a column; no finiteness of the inputs is needed.
-/
import proofs.«145994_j34600256537163_1_alg».proof.Defs
import proofs.«145994_j34600256537163_1_alg».proof.Proof.Gen.Kernel.Frame
import proofs.«145994_j34600256537163_1_alg».proof.Proof.Gen.KernelIdeal.Frame
import proofs.«145994_j34600256537163_1_alg».proof.Proof.Gen.ReferenceIdeal
import proofs.«145994_j34600256537163_1_alg».proof.Proof.Gen.Pre_finite_inputs
import proofs.«145994_j34600256537163_1_alg».proof.Proof.KRun
import proofs.«145994_j34600256537163_1_alg».proof.Proof.KValues
import proofs.«145994_j34600256537163_1_alg».proof.Proof.RefRun
import proofs.«145994_j34600256537163_1_alg».proof.Proof.RefFrame
import proofs.«145994_j34600256537163_1_alg».proof.Proof.RValues

noncomputable section

namespace Cert.Proof

open Idealize.ShloMosaic Idealize.ShloMosaic.TcCoe Idealize.SL.Sem

/-- The kernel program runs and leaves its arguments as launched. -/
theorem frame_kernel : Cert.frame_Kernel := fun m ρ _ => Cert.Kernel.Gen.frame m ρ

/-- Its idealization runs and leaves its arguments as launched. -/
theorem frame_kernelIdeal : Cert.frame_KernelIdeal := fun m ρ _ => Cert.KernelIdeal.Gen.frame m ρ

section Reference
open Cert.ReferenceIdeal

/-- The reference runs — it is a straight line of host operations — and no operation writes an argument. -/
theorem frame_referenceIdeal : Cert.frame_ReferenceIdeal := fun m ρ _ =>
  (θ_run Cert.ReferenceIdeal.defs _ _).mono (fun _ h c =>
    ⟨(h c main_arg0).trans (Cert.ReferenceIdeal.RefRun.ops_unwritten (r := main_arg0) (by decide) _),
     (h c main_arg1).trans (Cert.ReferenceIdeal.RefRun.ops_unwritten (r := main_arg1) (by decide) _),
     (h c main_arg2).trans (Cert.ReferenceIdeal.RefRun.ops_unwritten (r := main_arg2) (by decide) _),
     (h c main_arg3).trans (Cert.ReferenceIdeal.RefRun.ops_unwritten (r := main_arg3) (by decide) _),
     (h c main_arg4).trans (Cert.ReferenceIdeal.RefRun.ops_unwritten (r := main_arg4) (by decide) _),
     (h c main_arg5).trans (Cert.ReferenceIdeal.RefRun.ops_unwritten (r := main_arg5) (by decide) _),
     (h c main_arg6).trans (Cert.ReferenceIdeal.RefRun.ops_unwritten (r := main_arg6) (by decide) _),
     (h c main_arg7).trans (Cert.ReferenceIdeal.RefRun.ops_unwritten (r := main_arg7) (by decide) _),
     (h c main_arg8).trans (Cert.ReferenceIdeal.RefRun.ops_unwritten (r := main_arg8) (by decide) _),
     (h c main_arg9).trans (Cert.ReferenceIdeal.RefRun.ops_unwritten (r := main_arg9) (by decide) _),
     (h c main_arg10).trans (Cert.ReferenceIdeal.RefRun.ops_unwritten (r := main_arg10) (by decide) _),
     (h c main_arg11).trans (Cert.ReferenceIdeal.RefRun.ops_unwritten (r := main_arg11) (by decide) _),
     (h c main_arg12).trans (Cert.ReferenceIdeal.RefRun.ops_unwritten (r := main_arg12) (by decide) _),
     (h c main_arg13).trans (Cert.ReferenceIdeal.RefRun.ops_unwritten (r := main_arg13) (by decide) _),
     (h c main_arg14).trans (Cert.ReferenceIdeal.RefRun.ops_unwritten (r := main_arg14) (by decide) _),
     (h c main_arg15).trans (Cert.ReferenceIdeal.RefRun.ops_unwritten (r := main_arg15) (by decide) _),
     (h c main_arg16).trans (Cert.ReferenceIdeal.RefRun.ops_unwritten (r := main_arg16) (by decide) _),
     (h c main_arg17).trans (Cert.ReferenceIdeal.RefRun.ops_unwritten (r := main_arg17) (by decide) _),
     (h c main_arg18).trans (Cert.ReferenceIdeal.RefRun.ops_unwritten (r := main_arg18) (by decide) _),
     (h c main_arg19).trans (Cert.ReferenceIdeal.RefRun.ops_unwritten (r := main_arg19) (by decide) _),
     (h c main_arg20).trans (Cert.ReferenceIdeal.RefRun.ops_unwritten (r := main_arg20) (by decide) _),
     (h c main_arg21).trans (Cert.ReferenceIdeal.RefRun.ops_unwritten (r := main_arg21) (by decide) _),
     (h c main_arg22).trans (Cert.ReferenceIdeal.RefRun.ops_unwritten (r := main_arg22) (by decide) _)⟩)
    (Cert.ReferenceIdeal.RefRun.run (F := Ideal) m ρ)

end Reference

/-- The idealization rewrote no operation of the kernel program. -/
theorem preserves : Cert.preserves_Kernel_KernelIdeal := trivial

section Algebraic
open Cert.KernelIdeal Cert.KernelIdeal.Gen

/-- From memories agreeing on the arguments both idealized programs end with the same four results: each side's
    results are the same named stages of the arguments. -/
theorem algebraic : Cert.algebraic_KernelIdeal_ReferenceIdeal := by
  intro m ρ m' ρ' _ hagree
  refine ⟨fun c => W20 m ρ c (Proc.devRef .tc main_v47_0), fun c => W20 m ρ c (Proc.devRef .tc main_v47_1),
    fun c => W20 m ρ c (Proc.devRef .tc main_v47_2), fun c => W20 m ρ c (Proc.devRef .tc main_v65), ?_, ?_⟩
  · refine (θ_run Cert.KernelIdeal.defs _ _).mono (fun r h c => ?_) (Cert.KernelIdeal.KRun.run_all (F := Ideal) m ρ)
    exact ⟨h c main_v47_0 (by decide), h c main_v47_1 (by decide), h c main_v47_2 (by decide), h c main_v65 (by decide),
        (h c main_arg0 (by decide)).trans (W20_main_arg0 m ρ c),
        (h c main_arg1 (by decide)).trans (W20_main_arg1 m ρ c),
        (h c main_arg2 (by decide)).trans (W20_main_arg2 m ρ c),
        (h c main_arg3 (by decide)).trans (W20_main_arg3 m ρ c),
        (h c main_arg4 (by decide)).trans (W20_main_arg4 m ρ c),
        (h c main_arg5 (by decide)).trans (W20_main_arg5 m ρ c),
        (h c main_arg6 (by decide)).trans (W20_main_arg6 m ρ c),
        (h c main_arg7 (by decide)).trans (W20_main_arg7 m ρ c),
        (h c main_arg8 (by decide)).trans (W20_main_arg8 m ρ c),
        (h c main_arg9 (by decide)).trans (W20_main_arg9 m ρ c),
        (h c main_arg10 (by decide)).trans (W20_main_arg10 m ρ c),
        (h c main_arg11 (by decide)).trans (W20_main_arg11 m ρ c),
        (h c main_arg12 (by decide)).trans (W20_main_arg12 m ρ c),
        (h c main_arg13 (by decide)).trans (W20_main_arg13 m ρ c),
        (h c main_arg14 (by decide)).trans (W20_main_arg14 m ρ c),
        (h c main_arg15 (by decide)).trans (W20_main_arg15 m ρ c),
        (h c main_arg16 (by decide)).trans (W20_main_arg16 m ρ c),
        (h c main_arg17 (by decide)).trans (W20_main_arg17 m ρ c),
        (h c main_arg18 (by decide)).trans (W20_main_arg18 m ρ c),
        (h c main_arg19 (by decide)).trans (W20_main_arg19 m ρ c),
        (h c main_arg20 (by decide)).trans (W20_main_arg20 m ρ c),
        (h c main_arg21 (by decide)).trans (W20_main_arg21 m ρ c),
        (h c main_arg22 (by decide)).trans (W20_main_arg22 m ρ c)⟩
  · refine (θ_run Cert.ReferenceIdeal.defs _ _).mono (fun r h c => ?_) (Cert.ReferenceIdeal.RefRun.run (F := Ideal) m' ρ')
    obtain ⟨a0, a1, a2, a3, a4, a5, a6, a7, a8, a9, a10, a11, a12, a13, a14, a15, a16, a17, a18, a19, a20, a21, a22⟩ := hagree c
    have e0 : StableHlo.launchContents m' c (Proc.devRef .tc Cert.ReferenceIdeal.main_arg0) = m ((c.tc : Thread Cert.KernelIdeal.nD Cert.KernelIdeal.τ).loc Cert.KernelIdeal.main_arg0) := a0
    have e1 : StableHlo.launchContents m' c (Proc.devRef .tc Cert.ReferenceIdeal.main_arg1) = m ((c.tc : Thread Cert.KernelIdeal.nD Cert.KernelIdeal.τ).loc Cert.KernelIdeal.main_arg1) := a1
    have e2 : StableHlo.launchContents m' c (Proc.devRef .tc Cert.ReferenceIdeal.main_arg2) = m ((c.tc : Thread Cert.KernelIdeal.nD Cert.KernelIdeal.τ).loc Cert.KernelIdeal.main_arg2) := a2
    have e3 : StableHlo.launchContents m' c (Proc.devRef .tc Cert.ReferenceIdeal.main_arg3) = m ((c.tc : Thread Cert.KernelIdeal.nD Cert.KernelIdeal.τ).loc Cert.KernelIdeal.main_arg3) := a3
    have e4 : StableHlo.launchContents m' c (Proc.devRef .tc Cert.ReferenceIdeal.main_arg4) = m ((c.tc : Thread Cert.KernelIdeal.nD Cert.KernelIdeal.τ).loc Cert.KernelIdeal.main_arg4) := a4
    have e5 : StableHlo.launchContents m' c (Proc.devRef .tc Cert.ReferenceIdeal.main_arg5) = m ((c.tc : Thread Cert.KernelIdeal.nD Cert.KernelIdeal.τ).loc Cert.KernelIdeal.main_arg5) := a5
    have e6 : StableHlo.launchContents m' c (Proc.devRef .tc Cert.ReferenceIdeal.main_arg6) = m ((c.tc : Thread Cert.KernelIdeal.nD Cert.KernelIdeal.τ).loc Cert.KernelIdeal.main_arg6) := a6
    have e7 : StableHlo.launchContents m' c (Proc.devRef .tc Cert.ReferenceIdeal.main_arg7) = m ((c.tc : Thread Cert.KernelIdeal.nD Cert.KernelIdeal.τ).loc Cert.KernelIdeal.main_arg7) := a7
    have e8 : StableHlo.launchContents m' c (Proc.devRef .tc Cert.ReferenceIdeal.main_arg8) = m ((c.tc : Thread Cert.KernelIdeal.nD Cert.KernelIdeal.τ).loc Cert.KernelIdeal.main_arg8) := a8
    have e9 : StableHlo.launchContents m' c (Proc.devRef .tc Cert.ReferenceIdeal.main_arg9) = m ((c.tc : Thread Cert.KernelIdeal.nD Cert.KernelIdeal.τ).loc Cert.KernelIdeal.main_arg9) := a9
    have e10 : StableHlo.launchContents m' c (Proc.devRef .tc Cert.ReferenceIdeal.main_arg10) = m ((c.tc : Thread Cert.KernelIdeal.nD Cert.KernelIdeal.τ).loc Cert.KernelIdeal.main_arg10) := a10
    have e11 : StableHlo.launchContents m' c (Proc.devRef .tc Cert.ReferenceIdeal.main_arg11) = m ((c.tc : Thread Cert.KernelIdeal.nD Cert.KernelIdeal.τ).loc Cert.KernelIdeal.main_arg11) := a11
    have e12 : StableHlo.launchContents m' c (Proc.devRef .tc Cert.ReferenceIdeal.main_arg12) = m ((c.tc : Thread Cert.KernelIdeal.nD Cert.KernelIdeal.τ).loc Cert.KernelIdeal.main_arg12) := a12
    have e13 : StableHlo.launchContents m' c (Proc.devRef .tc Cert.ReferenceIdeal.main_arg13) = m ((c.tc : Thread Cert.KernelIdeal.nD Cert.KernelIdeal.τ).loc Cert.KernelIdeal.main_arg13) := a13
    have e14 : StableHlo.launchContents m' c (Proc.devRef .tc Cert.ReferenceIdeal.main_arg14) = m ((c.tc : Thread Cert.KernelIdeal.nD Cert.KernelIdeal.τ).loc Cert.KernelIdeal.main_arg14) := a14
    have e15 : StableHlo.launchContents m' c (Proc.devRef .tc Cert.ReferenceIdeal.main_arg15) = m ((c.tc : Thread Cert.KernelIdeal.nD Cert.KernelIdeal.τ).loc Cert.KernelIdeal.main_arg15) := a15
    have e16 : StableHlo.launchContents m' c (Proc.devRef .tc Cert.ReferenceIdeal.main_arg16) = m ((c.tc : Thread Cert.KernelIdeal.nD Cert.KernelIdeal.τ).loc Cert.KernelIdeal.main_arg16) := a16
    have e17 : StableHlo.launchContents m' c (Proc.devRef .tc Cert.ReferenceIdeal.main_arg17) = m ((c.tc : Thread Cert.KernelIdeal.nD Cert.KernelIdeal.τ).loc Cert.KernelIdeal.main_arg17) := a17
    have e18 : StableHlo.launchContents m' c (Proc.devRef .tc Cert.ReferenceIdeal.main_arg18) = m ((c.tc : Thread Cert.KernelIdeal.nD Cert.KernelIdeal.τ).loc Cert.KernelIdeal.main_arg18) := a18
    have e19 : StableHlo.launchContents m' c (Proc.devRef .tc Cert.ReferenceIdeal.main_arg19) = m ((c.tc : Thread Cert.KernelIdeal.nD Cert.KernelIdeal.τ).loc Cert.KernelIdeal.main_arg19) := a19
    have e20 : StableHlo.launchContents m' c (Proc.devRef .tc Cert.ReferenceIdeal.main_arg20) = m ((c.tc : Thread Cert.KernelIdeal.nD Cert.KernelIdeal.τ).loc Cert.KernelIdeal.main_arg20) := a20
    have e21 : StableHlo.launchContents m' c (Proc.devRef .tc Cert.ReferenceIdeal.main_arg21) = m ((c.tc : Thread Cert.KernelIdeal.nD Cert.KernelIdeal.τ).loc Cert.KernelIdeal.main_arg21) := a21
    have e22 : StableHlo.launchContents m' c (Proc.devRef .tc Cert.ReferenceIdeal.main_arg22) = m ((c.tc : Thread Cert.KernelIdeal.nD Cert.KernelIdeal.τ).loc Cert.KernelIdeal.main_arg22) := a22
    refine ⟨(h c Cert.ReferenceIdeal.main_v92).trans ?_, (h c Cert.ReferenceIdeal.main_v96).trans ?_,
      (h c Cert.ReferenceIdeal.main_v133).trans ?_, (h c Cert.ReferenceIdeal.main_v132).trans ?_,
      (h c Cert.ReferenceIdeal.main_arg0).trans (Cert.ReferenceIdeal.RefRun.ops_unwritten (r := Cert.ReferenceIdeal.main_arg0) (by decide) _),
      (h c Cert.ReferenceIdeal.main_arg1).trans (Cert.ReferenceIdeal.RefRun.ops_unwritten (r := Cert.ReferenceIdeal.main_arg1) (by decide) _),
      (h c Cert.ReferenceIdeal.main_arg2).trans (Cert.ReferenceIdeal.RefRun.ops_unwritten (r := Cert.ReferenceIdeal.main_arg2) (by decide) _),
      (h c Cert.ReferenceIdeal.main_arg3).trans (Cert.ReferenceIdeal.RefRun.ops_unwritten (r := Cert.ReferenceIdeal.main_arg3) (by decide) _),
      (h c Cert.ReferenceIdeal.main_arg4).trans (Cert.ReferenceIdeal.RefRun.ops_unwritten (r := Cert.ReferenceIdeal.main_arg4) (by decide) _),
      (h c Cert.ReferenceIdeal.main_arg5).trans (Cert.ReferenceIdeal.RefRun.ops_unwritten (r := Cert.ReferenceIdeal.main_arg5) (by decide) _),
      (h c Cert.ReferenceIdeal.main_arg6).trans (Cert.ReferenceIdeal.RefRun.ops_unwritten (r := Cert.ReferenceIdeal.main_arg6) (by decide) _),
      (h c Cert.ReferenceIdeal.main_arg7).trans (Cert.ReferenceIdeal.RefRun.ops_unwritten (r := Cert.ReferenceIdeal.main_arg7) (by decide) _),
      (h c Cert.ReferenceIdeal.main_arg8).trans (Cert.ReferenceIdeal.RefRun.ops_unwritten (r := Cert.ReferenceIdeal.main_arg8) (by decide) _),
      (h c Cert.ReferenceIdeal.main_arg9).trans (Cert.ReferenceIdeal.RefRun.ops_unwritten (r := Cert.ReferenceIdeal.main_arg9) (by decide) _),
      (h c Cert.ReferenceIdeal.main_arg10).trans (Cert.ReferenceIdeal.RefRun.ops_unwritten (r := Cert.ReferenceIdeal.main_arg10) (by decide) _),
      (h c Cert.ReferenceIdeal.main_arg11).trans (Cert.ReferenceIdeal.RefRun.ops_unwritten (r := Cert.ReferenceIdeal.main_arg11) (by decide) _),
      (h c Cert.ReferenceIdeal.main_arg12).trans (Cert.ReferenceIdeal.RefRun.ops_unwritten (r := Cert.ReferenceIdeal.main_arg12) (by decide) _),
      (h c Cert.ReferenceIdeal.main_arg13).trans (Cert.ReferenceIdeal.RefRun.ops_unwritten (r := Cert.ReferenceIdeal.main_arg13) (by decide) _),
      (h c Cert.ReferenceIdeal.main_arg14).trans (Cert.ReferenceIdeal.RefRun.ops_unwritten (r := Cert.ReferenceIdeal.main_arg14) (by decide) _),
      (h c Cert.ReferenceIdeal.main_arg15).trans (Cert.ReferenceIdeal.RefRun.ops_unwritten (r := Cert.ReferenceIdeal.main_arg15) (by decide) _),
      (h c Cert.ReferenceIdeal.main_arg16).trans (Cert.ReferenceIdeal.RefRun.ops_unwritten (r := Cert.ReferenceIdeal.main_arg16) (by decide) _),
      (h c Cert.ReferenceIdeal.main_arg17).trans (Cert.ReferenceIdeal.RefRun.ops_unwritten (r := Cert.ReferenceIdeal.main_arg17) (by decide) _),
      (h c Cert.ReferenceIdeal.main_arg18).trans (Cert.ReferenceIdeal.RefRun.ops_unwritten (r := Cert.ReferenceIdeal.main_arg18) (by decide) _),
      (h c Cert.ReferenceIdeal.main_arg19).trans (Cert.ReferenceIdeal.RefRun.ops_unwritten (r := Cert.ReferenceIdeal.main_arg19) (by decide) _),
      (h c Cert.ReferenceIdeal.main_arg20).trans (Cert.ReferenceIdeal.RefRun.ops_unwritten (r := Cert.ReferenceIdeal.main_arg20) (by decide) _),
      (h c Cert.ReferenceIdeal.main_arg21).trans (Cert.ReferenceIdeal.RefRun.ops_unwritten (r := Cert.ReferenceIdeal.main_arg21) (by decide) _),
      (h c Cert.ReferenceIdeal.main_arg22).trans (Cert.ReferenceIdeal.RefRun.ops_unwritten (r := Cert.ReferenceIdeal.main_arg22) (by decide) _)⟩
    · rw [Cert.ReferenceIdeal.RValues.ov_read, e0, e1, e2, e3, e4, e5, e6, e7, e8, e9, e10, e11, e12, e13, e14]
      exact (Cert.KernelIdeal.KValues.ov_result m ρ c).symm
    · rw [Cert.ReferenceIdeal.RValues.oclsp_read, e0, e1, e2, e3, e4, e5, e6, e7, e8, e9, e10, e11, e12, e15, e16]
      exact (Cert.KernelIdeal.KValues.oclsp_result m ρ c).symm
    · rw [Cert.ReferenceIdeal.RValues.ofx_read, e0, e1, e2, e3, e4, e5, e6, e7, e8, e9, e10, e11, e12, e17, e18, e19, e20]
      exact (Cert.KernelIdeal.KValues.ofx_result m ρ c).symm
    · rw [Cert.ReferenceIdeal.RValues.subout_read, e0, e1, e2, e3, e4, e5, e6, e7, e8, e9, e10, e11, e12, e21, e22]
      exact (Cert.KernelIdeal.KValues.subout_result m ρ c).symm

end Algebraic

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
